-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1200000 : Shape := ⟨2, ![2, 1200000]⟩
abbrev S60000x64 : Shape := ⟨2, ![60000, 64]⟩
abbrev S3x64x64 : Shape := ⟨3, ![3, 64, 64]⟩
abbrev S3x64 : Shape := ⟨2, ![3, 64]⟩
abbrev S_ : Shape := ⟨0, ![]⟩

class Facts : Prop where
  bcast_S_S60000x64 : S_.BroadcastsInDim S60000x64 (![] : Fin 0 → Fin S60000x64.rank)
  reducesTo_S60000x64_S_d0_1 : S60000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : IVec S2x1200000 32) (main_arg1 : FVec F S60000x64 .f32) (main_arg2 : FVec F S3x64x64 .f32) (main_arg3 : FVec F S3x64 .f32) (main_arg4 : FVec F S3x64x64 .f32) (main_arg5 : FVec F S3x64 .f32) : IVec S_ 1 :=
  let main_v0 : FVec F S60000x64 .f32 := Host.absf main_arg1
  let main_cst : FVec F S_ .f32 := constant S_ .f32 0x7F800000#32
  let main_v1 : FVec F S60000x64 .f32 := broadcastInDim S60000x64 ![] bcast_S_S60000x64 main_cst
  let main_v2 : IVec S60000x64 1 := cmpf .olt main_v0 main_v1
  let main_c : IVec S_ 1 := constantI S_ 1 1#1
  let main_v3 : IVec S_ 1 := (fun x v => Host.reduce IntOp.andi x v reducesTo_S60000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_v13 main_v16
-- ==== Kernel.lean ====
abbrev S2x1200000 : Shape := ⟨2, ![2, 1200000]⟩
abbrev S60000x64 : Shape := ⟨2, ![60000, 64]⟩
abbrev S3x64x64 : Shape := ⟨3, ![3, 64, 64]⟩
abbrev S3x64 : Shape := ⟨2, ![3, 64]⟩
abbrev S1x1200000 : Shape := ⟨2, ![1, 1200000]⟩
abbrev S1200000 : Shape := ⟨1, ![1200000]⟩
abbrev S_ : Shape := ⟨0, ![]⟩
abbrev S60000 : Shape := ⟨1, ![60000]⟩
abbrev S1200000x1 : Shape := ⟨2, ![1200000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S6000x64 : Shape := ⟨2, ![6000, 64]⟩
abbrev S1200000x64 : Shape := ⟨2, ![1200000, 64]⟩
abbrev S12000x64 : Shape := ⟨2, ![12000, 64]⟩
abbrev S12000x1 : Shape := ⟨2, ![12000, 1]⟩
abbrev S60000x256 : Shape := ⟨2, ![60000, 256]⟩

abbrev nBuf : Space → Nat
  | .hbm => 183
  | .vmem => 54
  | .smem => 0
  | _ => 0

abbrev hbmTy0_0 (i : Nat) : BufTy := match i % 128 with
  | 0 => ⟨S2x1200000, .i32⟩
  | 1 => ⟨S60000x64, .f32⟩
  | 2 => ⟨S3x64x64, .f32⟩
  | 3 => ⟨S3x64, .f32⟩
  | 4 => ⟨S3x64x64, .f32⟩
  | 5 => ⟨S3x64, .f32⟩
  | 6 => ⟨S1x1200000, .i32⟩
  | 7 => ⟨S1200000, .i32⟩
  | 8 => ⟨S1x1200000, .i32⟩
  | 9 => ⟨S1200000, .i32⟩
  | 10 => ⟨S_, .f32⟩
  | 11 => ⟨S1200000, .f32⟩
  | 12 => ⟨S_, .f32⟩
  | 13 => ⟨S60000, .f32⟩
  | 14 => ⟨S1200000x1, .i32⟩
  | 15 => ⟨S60000, .f32⟩
  | 16 => ⟨S_, .f32⟩
  | 17 => ⟨S60000, .f32⟩
  | 18 => ⟨S60000, .i1⟩
  | 19 => ⟨S_, .f32⟩
  | 20 => ⟨S60000, .f32⟩
  | 21 => ⟨S60000, .f32⟩
  | 22 => ⟨S60000, .f32⟩
  | 23 => ⟨S_, .f32⟩
  | 24 => ⟨S_, .f32⟩
  | 25 => ⟨S60000, .f32⟩
  | 26 => ⟨S60000, .f32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000, .f32⟩
  | 36 => ⟨S_, .i32⟩
  | 37 => ⟨S1200000, .i32⟩
  | 38 => ⟨S1200000, .i1⟩
  | 39 => ⟨S_, .i32⟩
  | 40 => ⟨S1200000, .i32⟩
  | 41 => ⟨S1200000, .i32⟩
  | 42 => ⟨S1200000, .i32⟩
  | 43 => ⟨S1200000x1, .i32⟩
  | 44 => ⟨S1200000, .f32⟩
  | 45 => ⟨S1200000, .f32⟩
  | 46 => ⟨S1200000x1, .f32⟩
  | 47 => ⟨S1x64x64, .f32⟩
  | 48 => ⟨S64x64, .f32⟩
  | 49 => ⟨S64x64, .f32⟩
  | 50 => ⟨S1x64, .f32⟩
  | 51 => ⟨S64, .f32⟩
  | 52 => ⟨S1x64, .f32⟩
  | 53 => ⟨S1x64x64, .f32⟩
  | 54 => ⟨S64x64, .f32⟩
  | 55 => ⟨S64x64, .f32⟩
  | 56 => ⟨S1x64, .f32⟩
  | 57 => ⟨S64, .f32⟩
  | 58 => ⟨S1x64, .f32⟩
  | 59 => ⟨S60000x64, .f32⟩
  | 60 => ⟨S_, .i32⟩
  | 61 => ⟨S1200000, .i32⟩
  | 62 => ⟨S1200000, .i1⟩
  | 63 => ⟨S_, .i32⟩
  | 64 => ⟨S1200000, .i32⟩
  | 65 => ⟨S1200000, .i32⟩
  | 66 => ⟨S1200000, .i32⟩
  | 67 => ⟨S1200000x1, .i32⟩
  | 68 => ⟨S1200000x64, .f32⟩
  | 69 => ⟨S_, .i32⟩
  | 70 => ⟨S1200000, .i32⟩
  | 71 => ⟨S1200000, .i1⟩
  | 72 => ⟨S_, .i32⟩
  | 73 => ⟨S1200000, .i32⟩
  | 74 => ⟨S1200000, .i32⟩
  | 75 => ⟨S1200000, .i32⟩
  | 76 => ⟨S1200000x1, .i32⟩
  | 77 => ⟨S1200000x64, .f32⟩
  | 78 => ⟨S1200000x64, .f32⟩
  | 79 => ⟨S_, .f32⟩
  | 80 => ⟨S60000x64, .f32⟩
  | 81 => ⟨S1200000x1, .i32⟩
  | 82 => ⟨S60000x64, .f32⟩
  | 83 => ⟨S60000x64, .f32⟩
  | 84 => ⟨S_, .f32⟩
  | 85 => ⟨S_, .f32⟩
  | 86 => ⟨S60000x64, .f32⟩
  | 87 => ⟨S60000x64, .i1⟩
  | 88 => ⟨S_, .f32⟩
  | 89 => ⟨S60000x64, .f32⟩
  | 90 => ⟨S60000x64, .f32⟩
  | 91 => ⟨S60000x64, .f32⟩
  | 92 => ⟨S1x64x64, .f32⟩
  | 93 => ⟨S64x64, .f32⟩
  | 94 => ⟨S64x64, .f32⟩
  | 95 => ⟨S1x64, .f32⟩
  | 96 => ⟨S64, .f32⟩
  | 97 => ⟨S1x64, .f32⟩
  | 98 => ⟨S1x64x64, .f32⟩
  | 99 => ⟨S64x64, .f32⟩
  | 100 => ⟨S64x64, .f32⟩
  | 101 => ⟨S1x64, .f32⟩
  | 102 => ⟨S64, .f32⟩
  | 103 => ⟨S1x64, .f32⟩
  | 104 => ⟨S60000x64, .f32⟩
  | 105 => ⟨S_, .i32⟩
  | 106 => ⟨S1200000, .i32⟩
  | 107 => ⟨S1200000, .i1⟩
  | 108 => ⟨S_, .i32⟩
  | 109 => ⟨S1200000, .i32⟩
  | 110 => ⟨S1200000, .i32⟩
  | 111 => ⟨S1200000, .i32⟩
  | 112 => ⟨S1200000x1, .i32⟩
  | 113 => ⟨S1200000x64, .f32⟩
  | 114 => ⟨S_, .i32⟩
  | 115 => ⟨S1200000, .i32⟩
  | 116 => ⟨S1200000, .i1⟩
  | 117 => ⟨S_, .i32⟩
  | 118 => ⟨S1200000, .i32⟩
  | 119 => ⟨S1200000, .i32⟩
  | 120 => ⟨S1200000, .i32⟩
  | 121 => ⟨S1200000x1, .i32⟩
  | 122 => ⟨S1200000x64, .f32⟩
  | 123 => ⟨S1200000x64, .f32⟩
  | 124 => ⟨S_, .f32⟩
  | 125 => ⟨S60000x64, .f32⟩
  | 126 => ⟨S1200000x1, .i32⟩
  | 127 => ⟨S60000x64, .f32⟩
  | _ => ⟨S2x1200000, .i32⟩

abbrev hbmTy0_1 (i : Nat) : BufTy := match i % 128 with
  | 0 => ⟨S60000x64, .f32⟩
  | 1 => ⟨S_, .f32⟩
  | 2 => ⟨S_, .f32⟩
  | 3 => ⟨S60000x64, .f32⟩
  | 4 => ⟨S60000x64, .i1⟩
  | 5 => ⟨S_, .f32⟩
  | 6 => ⟨S60000x64, .f32⟩
  | 7 => ⟨S60000x64, .f32⟩
  | 8 => ⟨S60000x64, .f32⟩
  | 9 => ⟨S1x64x64, .f32⟩
  | 10 => ⟨S64x64, .f32⟩
  | 11 => ⟨S64x64, .f32⟩
  | 12 => ⟨S1x64, .f32⟩
  | 13 => ⟨S64, .f32⟩
  | 14 => ⟨S1x64, .f32⟩
  | 15 => ⟨S1x64x64, .f32⟩
  | 16 => ⟨S64x64, .f32⟩
  | 17 => ⟨S64x64, .f32⟩
  | 18 => ⟨S1x64, .f32⟩
  | 19 => ⟨S64, .f32⟩
  | 20 => ⟨S1x64, .f32⟩
  | 21 => ⟨S60000x64, .f32⟩
  | 22 => ⟨S_, .i32⟩
  | 23 => ⟨S1200000, .i32⟩
  | 24 => ⟨S1200000, .i1⟩
  | 25 => ⟨S_, .i32⟩
  | 26 => ⟨S1200000, .i32⟩
  | 27 => ⟨S1200000, .i32⟩
  | 28 => ⟨S1200000, .i32⟩
  | 29 => ⟨S1200000x1, .i32⟩
  | 30 => ⟨S1200000x64, .f32⟩
  | 31 => ⟨S_, .i32⟩
  | 32 => ⟨S1200000, .i32⟩
  | 33 => ⟨S1200000, .i1⟩
  | 34 => ⟨S_, .i32⟩
  | 35 => ⟨S1200000, .i32⟩
  | 36 => ⟨S1200000, .i32⟩
  | 37 => ⟨S1200000, .i32⟩
  | 38 => ⟨S1200000x1, .i32⟩
  | 39 => ⟨S1200000x64, .f32⟩
  | 40 => ⟨S1200000x64, .f32⟩
  | 41 => ⟨S_, .f32⟩
  | 42 => ⟨S60000x64, .f32⟩
  | 43 => ⟨S1200000x1, .i32⟩
  | 44 => ⟨S60000x64, .f32⟩
  | 45 => ⟨S60000x64, .f32⟩
  | 46 => ⟨S_, .f32⟩
  | 47 => ⟨S_, .f32⟩
  | 48 => ⟨S60000x64, .f32⟩
  | 49 => ⟨S60000x64, .i1⟩
  | 50 => ⟨S_, .f32⟩
  | 51 => ⟨S60000x64, .f32⟩
  | 52 => ⟨S60000x64, .f32⟩
  | 53 => ⟨S60000x64, .f32⟩
  | 54 => ⟨S60000x256, .f32⟩
  | _ => ⟨S2x1200000, .i32⟩

abbrev hbmTy (i : Nat) : BufTy := match i / 128 with
  | 0 => hbmTy0_0 i
  | 1 => hbmTy0_1 i
  | _ => ⟨S2x1200000, .i32⟩

abbrev bufTy : (tb : Table) → Fin (tcTables nBuf tb) → BufTy
  | .hbm, ⟨i, _⟩ => hbmTy i
  | .local _ .vmem, ⟨0, _⟩ => ⟨S6000x64, .f32⟩
  | .local _ .vmem, ⟨1, _⟩ => ⟨S6000x64, .f32⟩
  | .local _ .vmem, ⟨2, _⟩ => ⟨S64x64, .f32⟩
  | .local _ .vmem, ⟨3, _⟩ => ⟨S1x64, .f32⟩
  | .local _ .vmem, ⟨4, _⟩ => ⟨S6000x64, .f32⟩
  | .local _ .vmem, ⟨5, _⟩ => ⟨S6000x64, .f32⟩
  | .local _ .vmem, ⟨6, _⟩ => ⟨S12000x64, .f32⟩
  | .local _ .vmem, ⟨7, _⟩ => ⟨S12000x64, .f32⟩
  | .local _ .vmem, ⟨8, _⟩ => ⟨S12000x64, .f32⟩
  | .local _ .vmem, ⟨9, _⟩ => ⟨S12000x64, .f32⟩
  | .local _ .vmem, ⟨10, _⟩ => ⟨S12000x1, .f32⟩
  | .local _ .vmem, ⟨11, _⟩ => ⟨S12000x1, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S12000x64, .f32⟩
  | .local _ .vmem, ⟨17, _⟩ => ⟨S12000x64, .f32⟩
  | .local _ .vmem, ⟨18, _⟩ => ⟨S6000x64, .f32⟩
  | .local _ .vmem, ⟨19, _⟩ => ⟨S6000x64, .f32⟩
  | .local _ .vmem, ⟨20, _⟩ => ⟨S64x64, .f32⟩
  | .local _ .vmem, ⟨21, _⟩ => ⟨S1x64, .f32⟩
  | .local _ .vmem, ⟨22, _⟩ => ⟨S6000x64, .f32⟩
  | .local _ .vmem, ⟨23, _⟩ => ⟨S6000x64, .f32⟩
  | .local _ .vmem, ⟨24, _⟩ => ⟨S12000x64, .f32⟩
  | .local _ .vmem, ⟨25, _⟩ => ⟨S12000x64, .f32⟩
  | .local _ .vmem, ⟨26, _⟩ => ⟨S12000x64, .f32⟩
  | .local _ .vmem, ⟨27, _⟩ => ⟨S12000x64, .f32⟩
  | .local _ .vmem, ⟨28, _⟩ => ⟨S12000x1, .f32⟩
  | .local _ .vmem, ⟨29, _⟩ => ⟨S12000x1, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S12000x64, .f32⟩
  | .local _ .vmem, ⟨35, _⟩ => ⟨S12000x64, .f32⟩
  | .local _ .vmem, ⟨36, _⟩ => ⟨S6000x64, .f32⟩
  | .local _ .vmem, ⟨37, _⟩ => ⟨S6000x64, .f32⟩
  | .local _ .vmem, ⟨38, _⟩ => ⟨S64x64, .f32⟩
  | .local _ .vmem, ⟨39, _⟩ => ⟨S1x64, .f32⟩
  | .local _ .vmem, ⟨40, _⟩ => ⟨S6000x64, .f32⟩
  | .local _ .vmem, ⟨41, _⟩ => ⟨S6000x64, .f32⟩
  | .local _ .vmem, ⟨42, _⟩ => ⟨S12000x64, .f32⟩
  | .local _ .vmem, ⟨43, _⟩ => ⟨S12000x64, .f32⟩
  | .local _ .vmem, ⟨44, _⟩ => ⟨S12000x64, .f32⟩
  | .local _ .vmem, ⟨45, _⟩ => ⟨S12000x64, .f32⟩
  | .local _ .vmem, ⟨46, _⟩ => ⟨S12000x1, .f32⟩
  | .local _ .vmem, ⟨47, _⟩ => ⟨S12000x1, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S12000x64, .f32⟩
  | .local _ .vmem, ⟨53, _⟩ => ⟨S12000x64, .f32⟩
  | _, _ => ⟨S2x1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_13 : Ref sig .tc := ⟨.hbm, 105, rfl⟩
abbrev main_v76 : Ref sig .tc := ⟨.hbm, 106, rfl⟩
abbrev main_v77 : Ref sig .tc := ⟨.hbm, 107, rfl⟩
abbrev main_c_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_15 : Ref sig .tc := ⟨.hbm, 114, rfl⟩
abbrev main_v83 : Ref sig .tc := ⟨.hbm, 115, rfl⟩
abbrev main_v84 : Ref sig .tc := ⟨.hbm, 116, rfl⟩
abbrev main_c_16 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_17 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_call2_cst : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_19 : Ref sig .tc := ⟨.hbm, 150, rfl⟩
abbrev main_v109 : Ref sig .tc := ⟨.hbm, 151, rfl⟩
abbrev main_v110 : Ref sig .tc := ⟨.hbm, 152, rfl⟩
abbrev main_c_20 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_c_21 : Ref sig .tc := ⟨.hbm, 159, rfl⟩
abbrev main_v116 : Ref sig .tc := ⟨.hbm, 160, rfl⟩
abbrev main_v117 : Ref sig .tc := ⟨.hbm, 161, rfl⟩
abbrev main_c_22 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_23 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_24 : Ref sig .tc := ⟨.hbm, 174, rfl⟩
abbrev main_call3_cst : Ref sig .tc := ⟨.hbm, 175, rfl⟩
abbrev main_call3_v0 : Ref sig .tc := ⟨.hbm, 176, rfl⟩
abbrev main_call3_v1 : Ref sig .tc := ⟨.hbm, 177, rfl⟩
abbrev main_call3_v2 : Ref sig .tc := ⟨.hbm, 178, rfl⟩
abbrev main_call3_v3 : Ref sig .tc := ⟨.hbm, 179, rfl⟩
abbrev main_call3_v4 : Ref sig .tc := ⟨.hbm, 180, rfl⟩
abbrev main_v128 : Ref sig .tc := ⟨.hbm, 181, rfl⟩
abbrev main_v129 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S12000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S12000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S12000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S12000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S6000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S12000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S12000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S12000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S60000 : S_.BroadcastsInDim S60000 (![] : Fin 0 → Fin S60000.rank)
  bcast_S1200000_S1200000x1_0 : S1200000.BroadcastsInDim S1200000x1 (![0] : Fin 1 → Fin S1200000x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  shapeCasts_S64_S1x64 : S64.ShapeCasts S1x64
  inb_S6000x64_S6000x64_0_0 : ∀ a, (![0, 0] : Fin 2 → Nat) a + S6000x64.size a ≤ S6000x64.size a
  h_S6000x64 : 0 < S6000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6000x64 : S1x64.Broadcasts S6000x64
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  broadcasts_S1x64_S12000x64 : S1x64.Broadcasts S12000x64
  inb_S12000x1_S12000x1_0_0 : ∀ a, (![0, 0] : Fin 2 → Nat) a + S12000x1.size a ≤ S12000x1.size a
  h_S12000x1 : 0 < S12000x1.numel
  shapeCasts_S12000x1_S12000x1 : S12000x1.ShapeCasts S12000x1
  broadcasts_S12000x1_S12000x64 : S12000x1.Broadcasts S12000x64
  bcast_S_S60000x64 : S_.BroadcastsInDim S60000x64 (![] : Fin 0 → Fin S60000x64.rank)
  slices_S3x64x64_S1x64x64_1_0_0 : S3x64x64.Slices ![1, 0, 0] S1x64x64
  slices_S3x64_S1x64_1_0 : S3x64.Slices ![1, 0] S1x64
  shapeCasts_S6000x64_S6000x64 : S6000x64.ShapeCasts S6000x64
  slices_S3x64x64_S1x64x64_2_0_0 : S3x64x64.Slices ![2, 0, 0] S1x64x64
  slices_S3x64_S1x64_2_0 : S3x64.Slices ![2, 0] S1x64
  concatenates_S60000x64_S60000x64_S60000x64_S60000x64_S60000x256_d1 : Shape.Concatenates [S60000x64, S60000x64, S60000x64, S60000x64] S60000x256 1
  scatter_S60000_S1200000x1_S1200000_n_0_0_1_wf : ScatterDims.WF S60000 S1200000x1 S1200000 [] [0] [0] 1
  gather_S60000_S1200000x1_S1200000_n_0_n_n_0_1_1_wf : GatherDims.WF S60000 S1200000x1 S1200000 [] [0] [] [0] [] 1 ![1]
  dot_S6000x64_S64x64_S6000x64_1_0_0_1_n_n_wf : DotDims.WF S6000x64 S64x64 S6000x64 [1] [0] [0] [1] [] []
  gather_S60000x64_S1200000x1_S1200000x64_1_0_n_n_0_1_164_wf : GatherDims.WF S60000x64 S1200000x1 S1200000x64 [1] [0] [] [0] [] 1 ![1, 64]
  dot_S12000x64_S64x64_S12000x64_1_0_0_1_n_n_wf : DotDims.WF S12000x64 S64x64 S12000x64 [1] [0] [0] [1] [] []
  scatter_S60000x64_S1200000x1_S1200000x64_1_0_0_1_wf : ScatterDims.WF S60000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S60000x64.size a
  hwx0_0 : ∀ i : grid0.Coords, EltTy.bits .f32 = 32 ∨ (Rect.block (s := S60000x64) S6000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x64.size a ≤ S60000x64.size a
  hwx0_3 : ∀ i : grid0.Coords, EltTy.bits .f32 = 32 ∨ (Rect.block (s := S60000x64) S6000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x64.size a ≤ S1200000x64.size a
  hwx1_0 : ∀ i : grid1.Coords, EltTy.bits .f32 = 32 ∨ (Rect.block (s := S1200000x64) S12000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x64.size a ≤ S1200000x64.size a
  hwx1_1 : ∀ i : grid1.Coords, EltTy.bits .f32 = 32 ∨ (Rect.block (s := S1200000x64) S12000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12000x1.size a ≤ S1200000x1.size a
  hwx1_2 : ∀ i : grid1.Coords, EltTy.bits .f32 = 32 ∨ (Rect.block (s := S1200000x1) S12000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S12000x64.size a ≤ S1200000x64.size a
  hwx1_7 : ∀ i : grid1.Coords, EltTy.bits .f32 = 32 ∨ (Rect.block (s := S1200000x64) S12000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S60000x64.size a
  hwx2_0 : ∀ i : grid2.Coords, EltTy.bits .f32 = 32 ∨ (Rect.block (s := S60000x64) S6000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6000x64.size a ≤ S60000x64.size a
  hwx2_3 : ∀ i : grid2.Coords, EltTy.bits .f32 = 32 ∨ (Rect.block (s := S60000x64) S6000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12000x64.size a ≤ S1200000x64.size a
  hwx3_0 : ∀ i : grid3.Coords, EltTy.bits .f32 = 32 ∨ (Rect.block (s := S1200000x64) S12000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S12000x64.size a ≤ S1200000x64.size a
  hwx3_1 : ∀ i : grid3.Coords, EltTy.bits .f32 = 32 ∨ (Rect.block (s := S1200000x64) S12000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S12000x1.size a ≤ S1200000x1.size a
  hwx3_2 : ∀ i : grid3.Coords, EltTy.bits .f32 = 32 ∨ (Rect.block (s := S1200000x1) S12000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S12000x64.size a ≤ S1200000x64.size a
  hwx3_7 : ∀ i : grid3.Coords, EltTy.bits .f32 = 32 ∨ (Rect.block (s := S1200000x64) S12000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x64.size a ≤ S60000x64.size a
  hwx4_0 : ∀ i : grid4.Coords, EltTy.bits .f32 = 32 ∨ (Rect.block (s := S60000x64) S6000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6000x64.size a ≤ S60000x64.size a
  hwx4_3 : ∀ i : grid4.Coords, EltTy.bits .f32 = 32 ∨ (Rect.block (s := S60000x64) S6000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S12000x64.size a ≤ S1200000x64.size a
  hwx5_0 : ∀ i : grid5.Coords, EltTy.bits .f32 = 32 ∨ (Rect.block (s := S1200000x64) S12000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S12000x64.size a ≤ S1200000x64.size a
  hwx5_1 : ∀ i : grid5.Coords, EltTy.bits .f32 = 32 ∨ (Rect.block (s := S1200000x64) S12000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S12000x1.size a ≤ S1200000x1.size a
  hwx5_2 : ∀ i : grid5.Coords, EltTy.bits .f32 = 32 ∨ (Rect.block (s := S1200000x1) S12000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S12000x64.size a ≤ S1200000x64.size a
  hwx5_7 : ∀ i : grid5.Coords, EltTy.bits .f32 = 32 ∨ (Rect.block (s := S1200000x64) S12000x64.size (cc5_transform_7 i) (hinb5_7 i)).WholeWords (EltTy.packing .f32)

variable [Facts₀]

def scatter_S60000_S1200000x1_S1200000_n_0_0_1 : ScatterDims S60000 S1200000x1 S1200000 where
  updateWindowDims := []
  insertedWindowDims := [0]
  scatterDimsToOperandDims := [0]
  indexVectorDim := 1
  wf := scatter_S60000_S1200000x1_S1200000_n_0_0_1_wf
def gather_S60000_S1200000x1_S1200000_n_0_n_n_0_1_1 : GatherDims S60000 S1200000x1 S1200000 where
  offsetDims := []
  collapsedSliceDims := [0]
  operandBatchingDims := []
  startIndicesBatchingDims := []
  startIndexMap := [0]
  indexVectorDim := 1
  sliceSizes := ![1]
  wf := gather_S60000_S1200000x1_S1200000_n_0_n_n_0_1_1_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def gather_S60000x64_S1200000x1_S1200000x64_1_0_n_n_0_1_164 : GatherDims S60000x64 S1200000x1 S1200000x64 where
  offsetDims := [1]
  collapsedSliceDims := [0]
  operandBatchingDims := []
  startIndicesBatchingDims := []
  startIndexMap := [0]
  indexVectorDim := 1
  sliceSizes := ![1, 64]
  wf := gather_S60000x64_S1200000x1_S1200000x64_1_0_n_n_0_1_164_wf
def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf
def scatter_S60000x64_S1200000x1_S1200000x64_1_0_0_1 : ScatterDims S60000x64 S1200000x1 S1200000x64 where
  updateWindowDims := [1]
  insertedWindowDims := [0]
  scatterDimsToOperandDims := [0]
  indexVectorDim := 1
  wf := scatter_S60000x64_S1200000x1_S1200000x64_1_0_0_1_wf

abbrev win0_0 : Pipeline.Window sig grid0 :=
  Pipeline.Window.ofSpec (Memref.whole main_arg1) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S6000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S12000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S12000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S12000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v57) S12000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v62) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S6000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v82) S12000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S12000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S12000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v74) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v90) S12000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v95) S6000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108) S6000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v115) S12000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v122) S12000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v29) S12000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v98) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v107) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v123) S12000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S2x1200000 : Shape := ⟨2, ![2, 1200000]⟩
abbrev S60000x64 : Shape := ⟨2, ![60000, 64]⟩
abbrev S3x64x64 : Shape := ⟨3, ![3, 64, 64]⟩
abbrev S3x64 : Shape := ⟨2, ![3, 64]⟩
abbrev S1x1200000 : Shape := ⟨2, ![1, 1200000]⟩
abbrev S1200000 : Shape := ⟨1, ![1200000]⟩
abbrev S_ : Shape := ⟨0, ![]⟩
abbrev S60000 : Shape := ⟨1, ![60000]⟩
abbrev S1200000x1 : Shape := ⟨2, ![1200000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1200000x64 : Shape := ⟨2, ![1200000, 64]⟩
abbrev S60000x256 : Shape := ⟨2, ![60000, 256]⟩

abbrev nBuf : Space → Nat
  | .hbm => 230
  | .vmem => 0
  | .smem => 0
  | _ => 0

abbrev hbmTy0_0 (i : Nat) : BufTy := match i % 128 with
  | 0 => ⟨S2x1200000, .i32⟩
  | 1 => ⟨S60000x64, .f32⟩
  | 2 => ⟨S3x64x64, .f32⟩
  | 3 => ⟨S3x64, .f32⟩
  | 4 => ⟨S3x64x64, .f32⟩
  | 5 => ⟨S3x64, .f32⟩
  | 6 => ⟨S1x1200000, .i32⟩
  | 7 => ⟨S1200000, .i32⟩
  | 8 => ⟨S1x1200000, .i32⟩
  | 9 => ⟨S1200000, .i32⟩
  | 10 => ⟨S_, .f32⟩
  | 11 => ⟨S1200000, .f32⟩
  | 12 => ⟨S_, .f32⟩
  | 13 => ⟨S60000, .f32⟩
  | 14 => ⟨S1200000x1, .i32⟩
  | 15 => ⟨S60000, .f32⟩
  | 16 => ⟨S_, .f32⟩
  | 17 => ⟨S60000, .f32⟩
  | 18 => ⟨S60000, .i1⟩
  | 19 => ⟨S_, .f32⟩
  | 20 => ⟨S60000, .f32⟩
  | 21 => ⟨S60000, .f32⟩
  | 22 => ⟨S_, .f32⟩
  | 23 => ⟨S_, .f32⟩
  | 24 => ⟨S60000, .f32⟩
  | 25 => ⟨S60000, .f32⟩
  | 26 => ⟨S_, .i32⟩
  | 27 => ⟨S1200000, .i32⟩
  | 28 => ⟨S1200000, .i1⟩
  | 29 => ⟨S_, .i32⟩
  | 30 => ⟨S1200000, .i32⟩
  | 31 => ⟨S1200000, .i32⟩
  | 32 => ⟨S1200000, .i32⟩
  | 33 => ⟨S1200000x1, .i32⟩
  | 34 => ⟨S1200000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S1200000, .f32⟩
  | 45 => ⟨S1200000x1, .f32⟩
  | 46 => ⟨S1x64x64, .f32⟩
  | 47 => ⟨S64x64, .f32⟩
  | 48 => ⟨S64x64, .f32⟩
  | 49 => ⟨S60000x64, .f32⟩
  | 50 => ⟨S1x64, .f32⟩
  | 51 => ⟨S64, .f32⟩
  | 52 => ⟨S1x64, .f32⟩
  | 53 => ⟨S60000x64, .f32⟩
  | 54 => ⟨S60000x64, .f32⟩
  | 55 => ⟨S_, .i32⟩
  | 56 => ⟨S1200000, .i32⟩
  | 57 => ⟨S1200000, .i1⟩
  | 58 => ⟨S_, .i32⟩
  | 59 => ⟨S1200000, .i32⟩
  | 60 => ⟨S1200000, .i32⟩
  | 61 => ⟨S1200000, .i32⟩
  | 62 => ⟨S1200000x1, .i32⟩
  | 63 => ⟨S1200000x64, .f32⟩
  | 64 => ⟨S_, .i32⟩
  | 65 => ⟨S1200000, .i32⟩
  | 66 => ⟨S1200000, .i1⟩
  | 67 => ⟨S_, .i32⟩
  | 68 => ⟨S1200000, .i32⟩
  | 69 => ⟨S1200000, .i32⟩
  | 70 => ⟨S1200000, .i32⟩
  | 71 => ⟨S1200000x1, .i32⟩
  | 72 => ⟨S1200000x64, .f32⟩
  | 73 => ⟨S_, .i32⟩
  | 74 => ⟨S1200000, .i32⟩
  | 75 => ⟨S1200000, .i1⟩
  | 76 => ⟨S_, .i32⟩
  | 77 => ⟨S1200000, .i32⟩
  | 78 => ⟨S1200000, .i32⟩
  | 79 => ⟨S1200000, .i32⟩
  | 80 => ⟨S1200000x1, .i32⟩
  | 81 => ⟨S1200000x64, .f32⟩
  | 82 => ⟨S1200000x64, .f32⟩
  | 83 => ⟨S1x64x64, .f32⟩
  | 84 => ⟨S64x64, .f32⟩
  | 85 => ⟨S64x64, .f32⟩
  | 86 => ⟨S1200000x64, .f32⟩
  | 87 => ⟨S1200000x64, .f32⟩
  | 88 => ⟨S1x64, .f32⟩
  | 89 => ⟨S64, .f32⟩
  | 90 => ⟨S1x64, .f32⟩
  | 91 => ⟨S1200000x64, .f32⟩
  | 92 => ⟨S1200000x64, .f32⟩
  | 93 => ⟨S1200000x64, .f32⟩
  | 94 => ⟨S1200000x64, .f32⟩
  | 95 => ⟨S_, .f32⟩
  | 96 => ⟨S60000x64, .f32⟩
  | 97 => ⟨S1200000x1, .i32⟩
  | 98 => ⟨S60000x64, .f32⟩
  | 99 => ⟨S60000x64, .f32⟩
  | 100 => ⟨S_, .f32⟩
  | 101 => ⟨S60000x64, .f32⟩
  | 102 => ⟨S60000x64, .i1⟩
  | 103 => ⟨S_, .f32⟩
  | 104 => ⟨S60000x64, .f32⟩
  | 105 => ⟨S60000x64, .f32⟩
  | 106 => ⟨S60000x64, .f32⟩
  | 107 => ⟨S1x64x64, .f32⟩
  | 108 => ⟨S64x64, .f32⟩
  | 109 => ⟨S64x64, .f32⟩
  | 110 => ⟨S60000x64, .f32⟩
  | 111 => ⟨S1x64, .f32⟩
  | 112 => ⟨S64, .f32⟩
  | 113 => ⟨S1x64, .f32⟩
  | 114 => ⟨S60000x64, .f32⟩
  | 115 => ⟨S60000x64, .f32⟩
  | 116 => ⟨S_, .i32⟩
  | 117 => ⟨S1200000, .i32⟩
  | 118 => ⟨S1200000, .i1⟩
  | 119 => ⟨S_, .i32⟩
  | 120 => ⟨S1200000, .i32⟩
  | 121 => ⟨S1200000, .i32⟩
  | 122 => ⟨S1200000, .i32⟩
  | 123 => ⟨S1200000x1, .i32⟩
  | 124 => ⟨S1200000x64, .f32⟩
  | 125 => ⟨S_, .i32⟩
  | 126 => ⟨S1200000, .i32⟩
  | 127 => ⟨S1200000, .i1⟩
  | _ => ⟨S2x1200000, .i32⟩

abbrev hbmTy0_1 (i : Nat) : BufTy := match i % 128 with
  | 0 => ⟨S_, .i32⟩
  | 1 => ⟨S1200000, .i32⟩
  | 2 => ⟨S1200000, .i32⟩
  | 3 => ⟨S1200000, .i32⟩
  | 4 => ⟨S1200000x1, .i32⟩
  | 5 => ⟨S1200000x64, .f32⟩
  | 6 => ⟨S_, .i32⟩
  | 7 => ⟨S1200000, .i32⟩
  | 8 => ⟨S1200000, .i1⟩
  | 9 => ⟨S_, .i32⟩
  | 10 => ⟨S1200000, .i32⟩
  | 11 => ⟨S1200000, .i32⟩
  | 12 => ⟨S1200000, .i32⟩
  | 13 => ⟨S1200000x1, .i32⟩
  | 14 => ⟨S1200000x64, .f32⟩
  | 15 => ⟨S1200000x64, .f32⟩
  | 16 => ⟨S1x64x64, .f32⟩
  | 17 => ⟨S64x64, .f32⟩
  | 18 => ⟨S64x64, .f32⟩
  | 19 => ⟨S1200000x64, .f32⟩
  | 20 => ⟨S1200000x64, .f32⟩
  | 21 => ⟨S1x64, .f32⟩
  | 22 => ⟨S64, .f32⟩
  | 23 => ⟨S1x64, .f32⟩
  | 24 => ⟨S1200000x64, .f32⟩
  | 25 => ⟨S1200000x64, .f32⟩
  | 26 => ⟨S1200000x64, .f32⟩
  | 27 => ⟨S1200000x64, .f32⟩
  | 28 => ⟨S_, .f32⟩
  | 29 => ⟨S60000x64, .f32⟩
  | 30 => ⟨S1200000x1, .i32⟩
  | 31 => ⟨S60000x64, .f32⟩
  | 32 => ⟨S60000x64, .f32⟩
  | 33 => ⟨S_, .f32⟩
  | 34 => ⟨S60000x64, .f32⟩
  | 35 => ⟨S60000x64, .i1⟩
  | 36 => ⟨S_, .f32⟩
  | 37 => ⟨S60000x64, .f32⟩
  | 38 => ⟨S60000x64, .f32⟩
  | 39 => ⟨S60000x64, .f32⟩
  | 40 => ⟨S1x64x64, .f32⟩
  | 41 => ⟨S64x64, .f32⟩
  | 42 => ⟨S64x64, .f32⟩
  | 43 => ⟨S60000x64, .f32⟩
  | 44 => ⟨S1x64, .f32⟩
  | 45 => ⟨S64, .f32⟩
  | 46 => ⟨S1x64, .f32⟩
  | 47 => ⟨S60000x64, .f32⟩
  | 48 => ⟨S60000x64, .f32⟩
  | 49 => ⟨S_, .i32⟩
  | 50 => ⟨S1200000, .i32⟩
  | 51 => ⟨S1200000, .i1⟩
  | 52 => ⟨S_, .i32⟩
  | 53 => ⟨S1200000, .i32⟩
  | 54 => ⟨S1200000, .i32⟩
  | 55 => ⟨S1200000, .i32⟩
  | 56 => ⟨S1200000x1, .i32⟩
  | 57 => ⟨S1200000x64, .f32⟩
  | 58 => ⟨S_, .i32⟩
  | 59 => ⟨S1200000, .i32⟩
  | 60 => ⟨S1200000, .i1⟩
  | 61 => ⟨S_, .i32⟩
  | 62 => ⟨S1200000, .i32⟩
  | 63 => ⟨S1200000, .i32⟩
  | 64 => ⟨S1200000, .i32⟩
  | 65 => ⟨S1200000x1, .i32⟩
  | 66 => ⟨S1200000x64, .f32⟩
  | 67 => ⟨S_, .i32⟩
  | 68 => ⟨S1200000, .i32⟩
  | 69 => ⟨S1200000, .i1⟩
  | 70 => ⟨S_, .i32⟩
  | 71 => ⟨S1200000, .i32⟩
  | 72 => ⟨S1200000, .i32⟩
  | 73 => ⟨S1200000, .i32⟩
  | 74 => ⟨S1200000x1, .i32⟩
  | 75 => ⟨S1200000x64, .f32⟩
  | 76 => ⟨S1200000x64, .f32⟩
  | 77 => ⟨S1x64x64, .f32⟩
  | 78 => ⟨S64x64, .f32⟩
  | 79 => ⟨S64x64, .f32⟩
  | 80 => ⟨S1200000x64, .f32⟩
  | 81 => ⟨S1200000x64, .f32⟩
  | 82 => ⟨S1x64, .f32⟩
  | 83 => ⟨S64, .f32⟩
  | 84 => ⟨S1x64, .f32⟩
  | 85 => ⟨S1200000x64, .f32⟩
  | 86 => ⟨S1200000x64, .f32⟩
  | 87 => ⟨S1200000x64, .f32⟩
  | 88 => ⟨S1200000x64, .f32⟩
  | 89 => ⟨S_, .f32⟩
  | 90 => ⟨S60000x64, .f32⟩
  | 91 => ⟨S1200000x1, .i32⟩
  | 92 => ⟨S60000x64, .f32⟩
  | 93 => ⟨S60000x64, .f32⟩
  | 94 => ⟨S_, .f32⟩
  | 95 => ⟨S60000x64, .f32⟩
  | 96 => ⟨S60000x64, .i1⟩
  | 97 => ⟨S_, .f32⟩
  | 98 => ⟨S60000x64, .f32⟩
  | 99 => ⟨S60000x64, .f32⟩
  | 100 => ⟨S60000x64, .f32⟩
  | 101 => ⟨S60000x256, .f32⟩
  | _ => ⟨S2x1200000, .i32⟩

abbrev hbmTy (i : Nat) : BufTy := match i / 128 with
  | 0 => hbmTy0_0 i
  | 1 => hbmTy0_1 i
  | _ => ⟨S2x1200000, .i32⟩

abbrev bufTy : (tb : Table) → Fin (tcTables nBuf tb) → BufTy
  | .hbm, ⟨i, _⟩ => hbmTy i
  | _, _ => ⟨S2x1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_cst_0 : Ref sig .tc := ⟨.hbm, 103, rfl⟩
abbrev main_call1_v2 : Ref sig .tc := ⟨.hbm, 104, rfl⟩
abbrev main_call1_v3 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_14 : Ref sig .tc := ⟨.hbm, 116, rfl⟩
abbrev main_v86 : Ref sig .tc := ⟨.hbm, 117, rfl⟩
abbrev main_v87 : Ref sig .tc := ⟨.hbm, 118, rfl⟩
abbrev main_c_15 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_16 : Ref sig .tc := ⟨.hbm, 125, rfl⟩
abbrev main_v93 : Ref sig .tc := ⟨.hbm, 126, rfl⟩
abbrev main_v94 : Ref sig .tc := ⟨.hbm, 127, rfl⟩
abbrev main_c_17 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_18 : Ref sig .tc := ⟨.hbm, 134, rfl⟩
abbrev main_v100 : Ref sig .tc := ⟨.hbm, 135, rfl⟩
abbrev main_v101 : Ref sig .tc := ⟨.hbm, 136, rfl⟩
abbrev main_c_19 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_20 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_call2_cst : Ref sig .tc := ⟨.hbm, 161, rfl⟩
abbrev main_call2_v0 : Ref sig .tc := ⟨.hbm, 162, rfl⟩
abbrev main_call2_v1 : Ref sig .tc := ⟨.hbm, 163, rfl⟩
abbrev main_call2_cst_0 : Ref sig .tc := ⟨.hbm, 164, rfl⟩
abbrev main_call2_v2 : Ref sig .tc := ⟨.hbm, 165, rfl⟩
abbrev main_call2_v3 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_21 : Ref sig .tc := ⟨.hbm, 177, rfl⟩
abbrev main_v134 : Ref sig .tc := ⟨.hbm, 178, rfl⟩
abbrev main_v135 : Ref sig .tc := ⟨.hbm, 179, rfl⟩
abbrev main_c_22 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_c_23 : Ref sig .tc := ⟨.hbm, 186, rfl⟩
abbrev main_v141 : Ref sig .tc := ⟨.hbm, 187, rfl⟩
abbrev main_v142 : Ref sig .tc := ⟨.hbm, 188, rfl⟩
abbrev main_c_24 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_c_25 : Ref sig .tc := ⟨.hbm, 195, rfl⟩
abbrev main_v148 : Ref sig .tc := ⟨.hbm, 196, rfl⟩
abbrev main_v149 : Ref sig .tc := ⟨.hbm, 197, rfl⟩
abbrev main_c_26 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_27 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_call3_cst : Ref sig .tc := ⟨.hbm, 222, rfl⟩
abbrev main_call3_v0 : Ref sig .tc := ⟨.hbm, 223, rfl⟩
abbrev main_call3_v1 : Ref sig .tc := ⟨.hbm, 224, rfl⟩
abbrev main_call3_cst_0 : Ref sig .tc := ⟨.hbm, 225, rfl⟩
abbrev main_call3_v2 : Ref sig .tc := ⟨.hbm, 226, rfl⟩
abbrev main_call3_v3 : Ref sig .tc := ⟨.hbm, 227, rfl⟩
abbrev main_v172 : Ref sig .tc := ⟨.hbm, 228, rfl⟩
abbrev main_v173 : Ref sig .tc := ⟨.hbm, 229, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S60000 : S_.BroadcastsInDim S60000 (![] : Fin 0 → Fin S60000.rank)
  bcast_S1200000_S1200000x1_0 : S1200000.BroadcastsInDim S1200000x1 (![0] : Fin 1 → Fin S1200000x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S60000x64_0_1 : S1x64.BroadcastsInDim S60000x64 (![0, 1] : Fin 2 → Fin S60000x64.rank)
  bcast_S1x64_S1200000x64_0_1 : S1x64.BroadcastsInDim S1200000x64 (![0, 1] : Fin 2 → Fin S1200000x64.rank)
  bcast_S1200000x1_S1200000x64_0_1 : S1200000x1.BroadcastsInDim S1200000x64 (![0, 1] : Fin 2 → Fin S1200000x64.rank)
  bcast_S_S60000x64 : S_.BroadcastsInDim S60000x64 (![] : Fin 0 → Fin S60000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S60000x64_S60000x64_S60000x64_S60000x64_S60000x256_d1 : Shape.Concatenates [S60000x64, S60000x64, S60000x64, S60000x64] S60000x256 1
  scatter_S60000_S1200000x1_S1200000_n_0_0_1_wf : ScatterDims.WF S60000 S1200000x1 S1200000 [] [0] [0] 1
  gather_S60000_S1200000x1_S1200000_n_0_n_n_0_1_1_wf : GatherDims.WF S60000 S1200000x1 S1200000 [] [0] [] [0] [] 1 ![1]
  dot_S60000x64_S64x64_S60000x64_1_0_0_1_n_n_wf : DotDims.WF S60000x64 S64x64 S60000x64 [1] [0] [0] [1] [] []
  gather_S60000x64_S1200000x1_S1200000x64_1_0_n_n_0_1_164_wf : GatherDims.WF S60000x64 S1200000x1 S1200000x64 [1] [0] [] [0] [] 1 ![1, 64]
  dot_S1200000x64_S64x64_S1200000x64_1_0_0_1_n_n_wf : DotDims.WF S1200000x64 S64x64 S1200000x64 [1] [0] [0] [1] [] []
  scatter_S60000x64_S1200000x1_S1200000x64_1_0_0_1_wf : ScatterDims.WF S60000x64 S1200000x1 S1200000x64 [1] [0] [0] 1

variable [Facts₀]

def scatter_S60000_S1200000x1_S1200000_n_0_0_1 : ScatterDims S60000 S1200000x1 S1200000 where
  updateWindowDims := []
  insertedWindowDims := [0]
  scatterDimsToOperandDims := [0]
  indexVectorDim := 1
  wf := scatter_S60000_S1200000x1_S1200000_n_0_0_1_wf
def gather_S60000_S1200000x1_S1200000_n_0_n_n_0_1_1 : GatherDims S60000 S1200000x1 S1200000 where
  offsetDims := []
  collapsedSliceDims := [0]
  operandBatchingDims := []
  startIndicesBatchingDims := []
  startIndexMap := [0]
  indexVectorDim := 1
  sliceSizes := ![1]
  wf := gather_S60000_S1200000x1_S1200000_n_0_n_n_0_1_1_wf
def dot_S60000x64_S64x64_S60000x64_1_0_0_1_n_n : DotDims S60000x64 S64x64 S60000x64 where
  lhsContracting := [1]
  rhsContracting := [0]
  lhsNonContracting := [0]
  rhsNonContracting := [1]
  lhsBatch := []
  rhsBatch := []
  wf := dot_S60000x64_S64x64_S60000x64_1_0_0_1_n_n_wf
def gather_S60000x64_S1200000x1_S1200000x64_1_0_n_n_0_1_164 : GatherDims S60000x64 S1200000x1 S1200000x64 where
  offsetDims := [1]
  collapsedSliceDims := [0]
  operandBatchingDims := []
  startIndicesBatchingDims := []
  startIndexMap := [0]
  indexVectorDim := 1
  sliceSizes := ![1, 64]
  wf := gather_S60000x64_S1200000x1_S1200000x64_1_0_n_n_0_1_164_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def scatter_S60000x64_S1200000x1_S1200000x64_1_0_0_1 : ScatterDims S60000x64 S1200000x1 S1200000x64 where
  updateWindowDims := [1]
  insertedWindowDims := [0]
  scatterDimsToOperandDims := [0]
  indexVectorDim := 1
  wf := scatter_S60000x64_S1200000x1_S1200000x64_1_0_0_1_wf

class Facts : Prop extends Facts₀ where

variable [Facts]
-- ==== Proof.KbDense0.lean ====
/-
  The dense projection `y = x · Wᵀ + b` of layer 0, as the pipelined kernel region 0 runs it: ten grid points, point `t`
  working on rows `6000·t … 6000·t + 5999` of the node table. The body loads its block of `x` (6000 × 64), the whole
  transposed weight matrix (64 × 64) and the bias row (1 × 64), and stores one 6000 × 64 block: the matrix product
  of the block with the weights plus the bias row repeated down the rows. Here: what the body leaves in the output's
  staging buffer as a function of the three input blocks, the body's triple, and the pipeline's proof data at an
  arbitrary valuation `V` of the buffers at the region's entry (inputs keep their blocks; the output's buffer holds the
  body's result; nothing is owed between points).
-/
import proofs.«119603_j4896262717867_2_alg».proof.Proof.Gen.Kernel.Launch
import proofs.«119603_j4896262717867_2_alg».proof.Proof.Gen.Kernel.Skeleton
import proofs.«119603_j4896262717867_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `6000·t …` of its array for the `x` and output windows, the whole
    array for the weights and the bias, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the block was fetched at this
    point or is still there from an earlier one (the weights and the bias are fetched once: their block never moves). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole 6000 × 64 block, the whole 64 × 64 weight matrix, the whole 1 × 64 bias row. -/
abbrev rX0 : Rect S6000x64 := Rect.unit (s := S6000x64) ![0, 0] S6000x64.size inb_S6000x64_S6000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output's staging buffer: its one store, of `x·W + b` over the three loaded blocks. -/
def dense0 (x : Vec F S6000x64 .f32) (w : Vec F S64x64 .f32) (b : Vec F S1x64 .f32) : Vec F S6000x64 .f32 :=
  View.canon [⟨rX0, k0_pay1 (View.ld x rX0) (View.ld w rW0) (View.ld b rB0)⟩]

/-- The one store covers the whole buffer. -/
theorem dense0_cover (p : Vec F S6000x64 .f32) (y : S6000x64.Idx) :
    ∃ pc ∈ ([⟨rX0, p⟩] : List (View.Piece (Elt F) S6000x64 .f32)), y ∈ pc.1.set :=
  View.cover_of_tiled [⟨rX0, p⟩] S6000x64.size (by rfl) y

set_option maxHeartbeats 1000000 in
/-- The body on whole staging buffers holding `x`, `w`, `b` and anything in the output's: it runs, leaves the inputs
    as they were and the output's buffer at `dense0 x w b`. -/
theorem dense0_triple (c : Dev nD) (E : Set ℕ) (i : grid0.Coords)
    (a1 : Memref sig .tc .vmem S6000x64 .f32) (h1 : a1.IsWhole) (a2 : Memref sig .tc .vmem S64x64 .f32) (h2 : a2.IsWhole)
    (a3 : Memref sig .tc .vmem S1x64 .f32) (h3 : a3.IsWhole) (a4 : Memref sig .tc .vmem S6000x64 .f32) (h4 : a4.IsWhole)
    (x : Vec F S6000x64 .f32) (w : Vec F S64x64 .f32) (b : Vec F S1x64 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (dense0 x w b)) -∗ K ⟨⟩))
      ⊢ wp frame (wpE (defs₀ (F := F)) Variants.none c none) E (cc0__dense_kernel i a1 h1 a2 h2 a3 h3 a4 h4) K := by
  simp only [cc0__dense_kernel_eq_skeleton]; unfold cc0__dense_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (dense0_cover _)

/-- The pipeline's proof data at the entry valuation `V`: the arrays as found; after the body at point `t` each input's
    buffer still at its block and the output's at `dense0` of the three input blocks; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => dense0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = dense0 (blk0 V c 0 t) (blk0 V c 1 t) (blk0 V c 2 t) := by dsimp only [dat0]

theorem dat0_before0 (c : Dev nD) (t : Fin cfg0.N) (d) : (dat0 V c).before 0 t d = blk0 V c 0 t :=
  held0_0_of V (dat0 V c) (dat0_A V c 0) (dat0_after0 V c) t d
theorem dat0_before1 (c : Dev nD) (t : Fin cfg0.N) (d) : (dat0 V c).before 1 t d = blk0 V c 1 t :=
  held0_1_of V (dat0 V c) (dat0_A V c 1) (dat0_after1 V c) t d
theorem dat0_before2 (c : Dev nD) (t : Fin cfg0.N) (d) : (dat0 V c).before 2 t d = blk0 V c 2 t :=
  held0_2_of V (dat0 V c) (dat0_A V c 2) (dat0_after2 V c) t d

/-- What the body is called with at point `t`, and what it returns. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    core's dues pass through untouched. -/
theorem body0_sound (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (dense0_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation at every point. -/
theorem body0_obligation (c : Dev nD) : BodyObligation (dat0 (F := F) V c) (defs₀ (F := F)) Variants.none () Set.univ := fun t => by
  rw [bigSep_W0, bigSep_W0]
  exact body0_sound V c t

end Cert.Kernel.Hand

end
-- ==== Proof.KbEdge1.lean ====
/-
  The per-edge message of layer 0, as the pipelined kernel region 1 runs it: a hundred grid points, point `t` working on
  edges `12000·t … 12000·t + 11999`. The body loads its block of the gathered source rows `xj` and target rows `xi`
  (12000 × 64 each), the block of the edge weights `norm` (12000 × 1), the two transposed weight matrices (64 × 64) and
  the two bias rows (1 × 64), and stores one 12000 × 64 block:
  `norm · ((xj · W1ᵀ + b1) + ((xj ∘ xi) · W2ᵀ + b2))`, the edge weight repeated along the row.
  Here: what the body leaves in the output's staging buffer as a function of the seven input blocks, the body's
  triple, and the pipeline's proof data at an arbitrary valuation `V` of the buffers at the region's entry.
-/
import proofs.«119603_j4896262717867_2_alg».proof.Proof.Gen.Kernel.Launch
import proofs.«119603_j4896262717867_2_alg».proof.Proof.Gen.Kernel.Skeleton
import proofs.«119603_j4896262717867_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the edges `12000·t …` of its array for the three per-edge inputs and the
    output, the whole array for the weights and the biases, read off the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the block was fetched at this
    point or is still there from an earlier one (the weights and the biases are fetched once: their block never moves). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem held1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem held1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- The whole 12000 × 64 block, the whole 12000 × 1 column of edge weights, a whole 64 × 64 matrix, a whole 1 × 64 row. -/
abbrev rE1 : Rect S12000x64 := Rect.unit (s := S12000x64) ![0, 0] S12000x64.size inb_S12000x64_S12000x64_0_0
abbrev rN1 : Rect S12000x1 := Rect.unit (s := S12000x1) ![0, 0] S12000x1.size inb_S12000x1_S12000x1_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output's staging buffer: its one store, of the weighted message over the seven
    loaded blocks. -/
def edge1 (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) : Vec F S12000x64 .f32 :=
  View.canon [⟨rE1, k1_pay1 (View.ld xj rE1) (View.ld xi rE1) (View.ld w1 rW1) (View.ld b1 rB1) (View.ld w2 rW1) (View.ld b2 rB1) (View.ld nr rN1)⟩]

/-- The one store covers the whole buffer. -/
theorem edge1_cover (p : Vec F S12000x64 .f32) (y : S12000x64.Idx) :
    ∃ pc ∈ ([⟨rE1, p⟩] : List (View.Piece (Elt F) S12000x64 .f32)), y ∈ pc.1.set :=
  View.cover_of_tiled [⟨rE1, p⟩] S12000x64.size (by rfl) y

set_option maxHeartbeats 1000000 in
/-- The body on whole staging buffers holding the seven input blocks and anything in the output's: it runs, leaves
    the inputs as they were and the output's buffer at `edge1` of them. -/
theorem edge1_triple (c : Dev nD) (E : Set ℕ) (i : grid1.Coords)
    (a1 : Memref sig .tc .vmem S12000x64 .f32) (h1 : a1.IsWhole) (a2 : Memref sig .tc .vmem S12000x64 .f32) (h2 : a2.IsWhole) (a3 : Memref sig .tc .vmem S12000x1 .f32) (h3 : a3.IsWhole) (a4 : Memref sig .tc .vmem S64x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S12000x64 .f32) (h8 : a8.IsWhole)
    (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) (K : PUnit → sProp 𝕄) :
    iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
        ∗ (∃ d, owns (c : Thread nD τ) a8 fullShare d)
        ∗ (iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
            ∗ owns (c : Thread nD τ) a8 fullShare (edge1 xj xi nr w1 b1 w2 b2)) -∗ K ⟨⟩))
      ⊢ wp frame (wpE (defs₀ (F := F)) Variants.none c none) E (cc1__edge_kernel i a1 h1 a2 h2 a3 h3 a4 h4 a5 h5 a6 h6 a7 h7 a8 h8) K := by
  simp only [cc1__edge_kernel_eq_skeleton]; unfold cc1__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (edge1_cover _)

/-- The pipeline's proof data at the entry valuation `V`: the arrays as found; after the body at point `t` each input's
    buffer still at its block and the output's at `edge1` of the seven input blocks; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => edge1 (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) :
    (dat1 V c).after 7 t = edge1 (blk1 V c 0 t) (blk1 V c 1 t) (blk1 V c 2 t) (blk1 V c 3 t) (blk1 V c 4 t) (blk1 V c 5 t) (blk1 V c 6 t) := by dsimp only [dat1]

theorem dat1_before0 (c : Dev nD) (t : Fin cfg1.N) (d) : (dat1 V c).before 0 t d = blk1 V c 0 t :=
  held1_0_of V (dat1 V c) (dat1_A V c 0) (dat1_after0 V c) t d
theorem dat1_before1 (c : Dev nD) (t : Fin cfg1.N) (d) : (dat1 V c).before 1 t d = blk1 V c 1 t :=
  held1_1_of V (dat1 V c) (dat1_A V c 1) (dat1_after1 V c) t d
theorem dat1_before2 (c : Dev nD) (t : Fin cfg1.N) (d) : (dat1 V c).before 2 t d = blk1 V c 2 t :=
  held1_2_of V (dat1 V c) (dat1_A V c 2) (dat1_after2 V c) t d
theorem dat1_before3 (c : Dev nD) (t : Fin cfg1.N) (d) : (dat1 V c).before 3 t d = blk1 V c 3 t :=
  held1_3_of V (dat1 V c) (dat1_A V c 3) (dat1_after3 V c) t d
theorem dat1_before4 (c : Dev nD) (t : Fin cfg1.N) (d) : (dat1 V c).before 4 t d = blk1 V c 4 t :=
  held1_4_of V (dat1 V c) (dat1_A V c 4) (dat1_after4 V c) t d
theorem dat1_before5 (c : Dev nD) (t : Fin cfg1.N) (d) : (dat1 V c).before 5 t d = blk1 V c 5 t :=
  held1_5_of V (dat1 V c) (dat1_A V c 5) (dat1_after5 V c) t d
theorem dat1_before6 (c : Dev nD) (t : Fin cfg1.N) (d) : (dat1 V c).before 6 t d = blk1 V c 6 t :=
  held1_6_of V (dat1 V c) (dat1_A V c 6) (dat1_after6 V c) t d

/-- What the body is called with at point `t`, and what it returns. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the input buffers hold their blocks, so the body's triple applies; the invariant and the
    core's dues pass through untouched. -/
theorem body1_sound (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge1_triple c Set.univ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation at every point. -/
theorem body1_obligation (c : Dev nD) : BodyObligation (dat1 (F := F) V c) (defs₀ (F := F)) Variants.none () Set.univ := fun t => by
  rw [bigSep_W1, bigSep_W1]
  exact body1_sound V c t

end Cert.Kernel.Hand

end
-- ==== Proof.KbDense2.lean ====
/-
  The dense projection `y = x · Wᵀ + b` of layer 1, as the pipelined kernel region 2 runs it: ten grid points, point `t`
  working on rows `6000·t … 6000·t + 5999` of the node table. The body loads its block of `x` (6000 × 64), the whole
  transposed weight matrix (64 × 64) and the bias row (1 × 64), and stores one 6000 × 64 block: the matrix product
  of the block with the weights plus the bias row repeated down the rows. Here: what the body leaves in the output's
  staging buffer as a function of the three input blocks, the body's triple, and the pipeline's proof data at an
  arbitrary valuation `V` of the buffers at the region's entry (inputs keep their blocks; the output's buffer holds the
  body's result; nothing is owed between points).
-/
import proofs.«119603_j4896262717867_2_alg».proof.Proof.Gen.Kernel.Launch
import proofs.«119603_j4896262717867_2_alg».proof.Proof.Gen.Kernel.Skeleton
import proofs.«119603_j4896262717867_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `6000·t …` of its array for the `x` and output windows, the whole
    array for the weights and the bias, read off the array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the block was fetched at this
    point or is still there from an earlier one (the weights and the bias are fetched once: their block never moves). -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole 6000 × 64 block, the whole 64 × 64 weight matrix, the whole 1 × 64 bias row. -/
abbrev rX2 : Rect S6000x64 := Rect.unit (s := S6000x64) ![0, 0] S6000x64.size inb_S6000x64_S6000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-- What the body leaves in the output's staging buffer: its one store, of `x·W + b` over the three loaded blocks. -/
def dense2 (x : Vec F S6000x64 .f32) (w : Vec F S64x64 .f32) (b : Vec F S1x64 .f32) : Vec F S6000x64 .f32 :=
  View.canon [⟨rX2, k2_pay1 (View.ld x rX2) (View.ld w rW2) (View.ld b rB2)⟩]

/-- The one store covers the whole buffer. -/
theorem dense2_cover (p : Vec F S6000x64 .f32) (y : S6000x64.Idx) :
    ∃ pc ∈ ([⟨rX2, p⟩] : List (View.Piece (Elt F) S6000x64 .f32)), y ∈ pc.1.set :=
  View.cover_of_tiled [⟨rX2, p⟩] S6000x64.size (by rfl) y

set_option maxHeartbeats 1000000 in
/-- The body on whole staging buffers holding `x`, `w`, `b` and anything in the output's: it runs, leaves the inputs
    as they were and the output's buffer at `dense2 x w b`. -/
theorem dense2_triple (c : Dev nD) (E : Set ℕ) (i : grid2.Coords)
    (a1 : Memref sig .tc .vmem S6000x64 .f32) (h1 : a1.IsWhole) (a2 : Memref sig .tc .vmem S64x64 .f32) (h2 : a2.IsWhole)
    (a3 : Memref sig .tc .vmem S1x64 .f32) (h3 : a3.IsWhole) (a4 : Memref sig .tc .vmem S6000x64 .f32) (h4 : a4.IsWhole)
    (x : Vec F S6000x64 .f32) (w : Vec F S64x64 .f32) (b : Vec F S1x64 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (dense2 x w b)) -∗ K ⟨⟩))
      ⊢ wp frame (wpE (defs₀ (F := F)) Variants.none c none) E (cc2__dense_kernel i a1 h1 a2 h2 a3 h3 a4 h4) K := by
  simp only [cc2__dense_kernel_eq_skeleton]; unfold cc2__dense_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (dense2_cover _)

/-- The pipeline's proof data at the entry valuation `V`: the arrays as found; after the body at point `t` each input's
    buffer still at its block and the output's at `dense2` of the three input blocks; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => dense2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) :
    (dat2 V c).after 3 t = dense2 (blk2 V c 0 t) (blk2 V c 1 t) (blk2 V c 2 t) := by dsimp only [dat2]

theorem dat2_before0 (c : Dev nD) (t : Fin cfg2.N) (d) : (dat2 V c).before 0 t d = blk2 V c 0 t :=
  held2_0_of V (dat2 V c) (dat2_A V c 0) (dat2_after0 V c) t d
theorem dat2_before1 (c : Dev nD) (t : Fin cfg2.N) (d) : (dat2 V c).before 1 t d = blk2 V c 1 t :=
  held2_1_of V (dat2 V c) (dat2_A V c 1) (dat2_after1 V c) t d
theorem dat2_before2 (c : Dev nD) (t : Fin cfg2.N) (d) : (dat2 V c).before 2 t d = blk2 V c 2 t :=
  held2_2_of V (dat2 V c) (dat2_A V c 2) (dat2_after2 V c) t d

/-- What the body is called with at point `t`, and what it returns. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and the
    core's dues pass through untouched. -/
theorem body2_sound (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (dense2_triple c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation at every point. -/
theorem body2_obligation (c : Dev nD) : BodyObligation (dat2 (F := F) V c) (defs₀ (F := F)) Variants.none () Set.univ := fun t => by
  rw [bigSep_W2, bigSep_W2]
  exact body2_sound V c t

end Cert.Kernel.Hand

end
-- ==== Proof.KbEdge3.lean ====
/-
  The per-edge message of layer 1, as the pipelined kernel region 3 runs it: a hundred grid points, point `t` working on
  edges `12000·t … 12000·t + 11999`. The body loads its block of the gathered source rows `xj` and target rows `xi`
  (12000 × 64 each), the block of the edge weights `norm` (12000 × 1), the two transposed weight matrices (64 × 64) and
  the two bias rows (1 × 64), and stores one 12000 × 64 block:
  `norm · ((xj · W1ᵀ + b1) + ((xj ∘ xi) · W2ᵀ + b2))`, the edge weight repeated along the row.
  Here: what the body leaves in the output's staging buffer as a function of the seven input blocks, the body's
  triple, and the pipeline's proof data at an arbitrary valuation `V` of the buffers at the region's entry.
-/
import proofs.«119603_j4896262717867_2_alg».proof.Proof.Gen.Kernel.Launch
import proofs.«119603_j4896262717867_2_alg».proof.Proof.Gen.Kernel.Skeleton
import proofs.«119603_j4896262717867_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the edges `12000·t …` of its array for the three per-edge inputs and the
    output, the whole array for the weights and the biases, read off the array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether the block was fetched at this
    point or is still there from an earlier one (the weights and the biases are fetched once: their block never moves). -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem held3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)
theorem held3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)
theorem held3_5_of {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)
theorem held3_6_of {c : Dev nD} (dat : Dat τ (Elt F) Unit ℕ (UR sig nD τ) ℕ cfg3 c) (hA : dat.A 6 = V c (Pipeline.arrRef spec3 6))
    (hafter : ∀ t, dat.after 6 t = blk3 V c 6 t) (t : Fin cfg3.N) (d) : dat.before 6 t d = blk3 V c 6 t :=
  (dat.before_in_eq_fetched 6 rfl (fun _ => rfl) (fun _ _ _ => rfl) (fun t => by rw [hafter]; unfold Dat.blockOf blk3; rw [hA]; try rfl) t d).trans
    (by unfold Dat.fetched Dat.blockOf blk3; rw [hA]; try rfl)

/-- The whole 12000 × 64 block, the whole 12000 × 1 column of edge weights, a whole 64 × 64 matrix, a whole 1 × 64 row. -/
abbrev rE3 : Rect S12000x64 := Rect.unit (s := S12000x64) ![0, 0] S12000x64.size inb_S12000x64_S12000x64_0_0
abbrev rN3 : Rect S12000x1 := Rect.unit (s := S12000x1) ![0, 0] S12000x1.size inb_S12000x1_S12000x1_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0

/-- What the body leaves in the output's staging buffer: its one store, of the weighted message over the seven
    loaded blocks. -/
def edge3 (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) : Vec F S12000x64 .f32 :=
  View.canon [⟨rE3, k3_pay1 (View.ld xj rE3) (View.ld xi rE3) (View.ld w1 rW3) (View.ld b1 rB3) (View.ld w2 rW3) (View.ld b2 rB3) (View.ld nr rN3)⟩]

/-- The one store covers the whole buffer. -/
theorem edge3_cover (p : Vec F S12000x64 .f32) (y : S12000x64.Idx) :
    ∃ pc ∈ ([⟨rE3, p⟩] : List (View.Piece (Elt F) S12000x64 .f32)), y ∈ pc.1.set :=
  View.cover_of_tiled [⟨rE3, p⟩] S12000x64.size (by rfl) y

set_option maxHeartbeats 1000000 in
/-- The body on whole staging buffers holding the seven input blocks and anything in the output's: it runs, leaves
    the inputs as they were and the output's buffer at `edge3` of them. -/
theorem edge3_triple (c : Dev nD) (E : Set ℕ) (i : grid3.Coords)
    (a1 : Memref sig .tc .vmem S12000x64 .f32) (h1 : a1.IsWhole) (a2 : Memref sig .tc .vmem S12000x64 .f32) (h2 : a2.IsWhole) (a3 : Memref sig .tc .vmem S12000x1 .f32) (h3 : a3.IsWhole) (a4 : Memref sig .tc .vmem S64x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S12000x64 .f32) (h8 : a8.IsWhole)
    (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) (K : PUnit → sProp 𝕄) :
    iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
        ∗ (∃ d, owns (c : Thread nD τ) a8 fullShare d)
        ∗ (iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
            ∗ owns (c : Thread nD τ) a8 fullShare (edge3 xj xi nr w1 b1 w2 b2)) -∗ K ⟨⟩))
      ⊢ wp frame (wpE (defs₀ (F := F)) Variants.none c none) E (cc3__edge_kernel i a1 h1 a2 h2 a3 h3 a4 h4 a5 h5 a6 h6 a7 h7 a8 h8) K := by
  simp only [cc3__edge_kernel_eq_skeleton]; unfold cc3__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (edge3_cover _)

/-- The pipeline's proof data at the entry valuation `V`: the arrays as found; after the body at point `t` each input's
    buffer still at its block and the output's at `edge3` of the seven input blocks; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => edge3 (blk3 V c 0 t) (blk3 V c 1 t) (blk3 V c 2 t) (blk3 V c 3 t) (blk3 V c 4 t) (blk3 V c 5 t) (blk3 V c 6 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = blk3 V c 3 t := by dsimp only [dat3]
theorem dat3_after4 (c : Dev nD) (t : Fin cfg3.N) : (dat3 V c).after 4 t = blk3 V c 4 t := by dsimp only [dat3]
theorem dat3_after5 (c : Dev nD) (t : Fin cfg3.N) : (dat3 V c).after 5 t = blk3 V c 5 t := by dsimp only [dat3]
theorem dat3_after6 (c : Dev nD) (t : Fin cfg3.N) : (dat3 V c).after 6 t = blk3 V c 6 t := by dsimp only [dat3]
theorem dat3_after7 (c : Dev nD) (t : Fin cfg3.N) :
    (dat3 V c).after 7 t = edge3 (blk3 V c 0 t) (blk3 V c 1 t) (blk3 V c 2 t) (blk3 V c 3 t) (blk3 V c 4 t) (blk3 V c 5 t) (blk3 V c 6 t) := by dsimp only [dat3]

theorem dat3_before0 (c : Dev nD) (t : Fin cfg3.N) (d) : (dat3 V c).before 0 t d = blk3 V c 0 t :=
  held3_0_of V (dat3 V c) (dat3_A V c 0) (dat3_after0 V c) t d
theorem dat3_before1 (c : Dev nD) (t : Fin cfg3.N) (d) : (dat3 V c).before 1 t d = blk3 V c 1 t :=
  held3_1_of V (dat3 V c) (dat3_A V c 1) (dat3_after1 V c) t d
theorem dat3_before2 (c : Dev nD) (t : Fin cfg3.N) (d) : (dat3 V c).before 2 t d = blk3 V c 2 t :=
  held3_2_of V (dat3 V c) (dat3_A V c 2) (dat3_after2 V c) t d
theorem dat3_before3 (c : Dev nD) (t : Fin cfg3.N) (d) : (dat3 V c).before 3 t d = blk3 V c 3 t :=
  held3_3_of V (dat3 V c) (dat3_A V c 3) (dat3_after3 V c) t d
theorem dat3_before4 (c : Dev nD) (t : Fin cfg3.N) (d) : (dat3 V c).before 4 t d = blk3 V c 4 t :=
  held3_4_of V (dat3 V c) (dat3_A V c 4) (dat3_after4 V c) t d
theorem dat3_before5 (c : Dev nD) (t : Fin cfg3.N) (d) : (dat3 V c).before 5 t d = blk3 V c 5 t :=
  held3_5_of V (dat3 V c) (dat3_A V c 5) (dat3_after5 V c) t d
theorem dat3_before6 (c : Dev nD) (t : Fin cfg3.N) (d) : (dat3 V c).before 6 t d = blk3 V c 6 t :=
  held3_6_of V (dat3 V c) (dat3_A V c 6) (dat3_after6 V c) t d

/-- What the body is called with at point `t`, and what it returns. -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the input buffers hold their blocks, so the body's triple applies; the invariant and the
    core's dues pass through untouched. -/
theorem body3_sound (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1, dat3_before2, dat3_before3, dat3_before4, dat3_before5, dat3_before6]
  rw [show (dat3 V c).Φ t.succ = (dat3 V c).Φ t.castSucc from rfl,
    show (dat3 V c).owesAt () t.succ = (dat3 V c).owesAt () t.castSucc from rfl,
    dat3_after0, dat3_after1, dat3_after2, dat3_after3, dat3_after4, dat3_after5, dat3_after6, dat3_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge3_triple c Set.univ _ _ _ _ _ _ _ _ _ _ _ _ _ _ _ _ _ (blk3 V c 0 t) (blk3 V c 1 t) (blk3 V c 2 t) (blk3 V c 3 t) (blk3 V c 4 t) (blk3 V c 5 t) (blk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation at every point. -/
theorem body3_obligation (c : Dev nD) : BodyObligation (dat3 (F := F) V c) (defs₀ (F := F)) Variants.none () Set.univ := fun t => by
  rw [bigSep_W3, bigSep_W3]
  exact body3_sound V c t

end Cert.Kernel.Hand

end
-- ==== Proof.KbDense4.lean ====
/-
  The dense projection `y = x · Wᵀ + b` of layer 2, as the pipelined kernel region 4 runs it: ten grid points, point `t`
  working on rows `6000·t … 6000·t + 5999` of the node table. The body loads its block of `x` (6000 × 64), the whole
  transposed weight matrix (64 × 64) and the bias row (1 × 64), and stores one 6000 × 64 block: the matrix product
  of the block with the weights plus the bias row repeated down the rows. Here: what the body leaves in the output's
  staging buffer as a function of the three input blocks, the body's triple, and the pipeline's proof data at an
  arbitrary valuation `V` of the buffers at the region's entry (inputs keep their blocks; the output's buffer holds the
  body's result; nothing is owed between points).
-/
import proofs.«119603_j4896262717867_2_alg».proof.Proof.Gen.Kernel.Launch
import proofs.«119603_j4896262717867_2_alg».proof.Proof.Gen.Kernel.Skeleton
import proofs.«119603_j4896262717867_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `6000·t …` of its array for the `x` and output windows, the whole
    array for the weights and the bias, read off the array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every point, whether the block was fetched at this
    point or is still there from an earlier one (the weights and the bias are fetched once: their block never moves). -/
theorem held4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem held4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)
theorem held4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The whole 6000 × 64 block, the whole 64 × 64 weight matrix, the whole 1 × 64 bias row. -/
abbrev rX4 : Rect S6000x64 := Rect.unit (s := S6000x64) ![0, 0] S6000x64.size inb_S6000x64_S6000x64_0_0
abbrev rW4 : Rect S64x64 := Rect.unit (s := S64x64) ![0, 0] S64x64.size inb_S64x64_S64x64_0_0
abbrev rB4 : Rect S1x64 := Rect.unit (s := S1x64) ![0, 0] S1x64.size inb_S1x64_S1x64_0_0

/-- What the body leaves in the output's staging buffer: its one store, of `x·W + b` over the three loaded blocks. -/
def dense4 (x : Vec F S6000x64 .f32) (w : Vec F S64x64 .f32) (b : Vec F S1x64 .f32) : Vec F S6000x64 .f32 :=
  View.canon [⟨rX4, k4_pay1 (View.ld x rX4) (View.ld w rW4) (View.ld b rB4)⟩]

/-- The one store covers the whole buffer. -/
theorem dense4_cover (p : Vec F S6000x64 .f32) (y : S6000x64.Idx) :
    ∃ pc ∈ ([⟨rX4, p⟩] : List (View.Piece (Elt F) S6000x64 .f32)), y ∈ pc.1.set :=
  View.cover_of_tiled [⟨rX4, p⟩] S6000x64.size (by rfl) y

set_option maxHeartbeats 1000000 in
/-- The body on whole staging buffers holding `x`, `w`, `b` and anything in the output's: it runs, leaves the inputs
    as they were and the output's buffer at `dense4 x w b`. -/
theorem dense4_triple (c : Dev nD) (E : Set ℕ) (i : grid4.Coords)
    (a1 : Memref sig .tc .vmem S6000x64 .f32) (h1 : a1.IsWhole) (a2 : Memref sig .tc .vmem S64x64 .f32) (h2 : a2.IsWhole)
    (a3 : Memref sig .tc .vmem S1x64 .f32) (h3 : a3.IsWhole) (a4 : Memref sig .tc .vmem S6000x64 .f32) (h4 : a4.IsWhole)
    (x : Vec F S6000x64 .f32) (w : Vec F S64x64 .f32) (b : Vec F S1x64 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (dense4 x w b)) -∗ K ⟨⟩))
      ⊢ wp frame (wpE (defs₀ (F := F)) Variants.none c none) E (cc4__dense_kernel i a1 h1 a2 h2 a3 h3 a4 h4) K := by
  simp only [cc4__dense_kernel_eq_skeleton]; unfold cc4__dense_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (dense4_cover _)

/-- The pipeline's proof data at the entry valuation `V`: the arrays as found; after the body at point `t` each input's
    buffer still at its block and the output's at `dense4` of the three input blocks; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => dense4 (blk4 V c 0 t) (blk4 V c 1 t) (blk4 V c 2 t)
  Φ _ := Pipeline.ΦA spec4 c
  q _ := fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) : (dat4 V c).after 2 t = blk4 V c 2 t := by dsimp only [dat4]
theorem dat4_after3 (c : Dev nD) (t : Fin cfg4.N) :
    (dat4 V c).after 3 t = dense4 (blk4 V c 0 t) (blk4 V c 1 t) (blk4 V c 2 t) := by dsimp only [dat4]

theorem dat4_before0 (c : Dev nD) (t : Fin cfg4.N) (d) : (dat4 V c).before 0 t d = blk4 V c 0 t :=
  held4_0_of V (dat4 V c) (dat4_A V c 0) (dat4_after0 V c) t d
theorem dat4_before1 (c : Dev nD) (t : Fin cfg4.N) (d) : (dat4 V c).before 1 t d = blk4 V c 1 t :=
  held4_1_of V (dat4 V c) (dat4_A V c 1) (dat4_after1 V c) t d
theorem dat4_before2 (c : Dev nD) (t : Fin cfg4.N) (d) : (dat4 V c).before 2 t d = blk4 V c 2 t :=
  held4_2_of V (dat4 V c) (dat4_A V c 2) (dat4_after2 V c) t d

/-- What the body is called with at point `t`, and what it returns. -/
def pre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def post4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the input buffers hold their blocks, so the body's triple applies; the invariant and the
    core's dues pass through untouched. -/
theorem body4_sound (c : Dev nD) (t : Fin cfg4.N) :
    pre4 V c t ⊢ wp frame (wpE (defs₀ (F := F)) Variants.none c none) Set.univ (bodyAt4 t) (fun _ => post4 V c t) := by
  unfold pre4 post4 bodyAt4
  simp only [dat4_before0, dat4_before1, dat4_before2]
  rw [show (dat4 V c).Φ t.succ = (dat4 V c).Φ t.castSucc from rfl,
    show (dat4 V c).owesAt () t.succ = (dat4 V c).owesAt () t.castSucc from rfl,
    dat4_after0, dat4_after1, dat4_after2, dat4_after3]
  iintro ⟨HΦ, Ho, ⟨%d0, H0⟩, ⟨%d1, H1⟩, ⟨%d2, H2⟩, ⟨%d3, H3⟩⟩
  iapply (dense4_triple c Set.univ _ _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation at every point. -/
theorem body4_obligation (c : Dev nD) : BodyObligation (dat4 (F := F) V c) (defs₀ (F := F)) Variants.none () Set.univ := fun t => by
  rw [bigSep_W4, bigSep_W4]
  exact body4_sound V c t

end Cert.Kernel.Hand

end
-- ==== Proof.KbEdge5.lean ====
/-
  The per-edge message of layer 2, as the pipelined kernel region 5 runs it: a hundred grid points, point `t` working on
  edges `12000·t … 12000·t + 11999`. The body loads its block of the gathered source rows `xj` and target rows `xi`
  (12000 × 64 each), the block of the edge weights `norm` (12000 × 1), the two transposed weight matrices (64 × 64) and
  the two bias rows (1 × 64), and stores one 12000 × 64 block:
  `norm · ((xj · W1ᵀ + b1) + ((xj ∘ xi) · W2ᵀ + b2))`, the edge weight repeated along the row.
  Here: what the body leaves in the output's staging buffer as a function of the seven input blocks, the body's
  triple, and the pipeline's proof data at an arbitrary valuation `V` of the buffers at the region's entry.
-/
import proofs.«119603_j4896262717867_2_alg».proof.Proof.Gen.Kernel.Launch
import proofs.«119603_j4896262717867_2_alg».proof.Proof.Gen.Kernel.Skeleton
import proofs.«119603_j4896262717867_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the edges `12000·t …` of its array for the three per-edge inputs and the
    output, the whole array for the weights and the biases, read off the array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every point, whether the block was fetched at this
    point or is still there from an earlier one (the weights and the biases are fetched once: their block never moves). -/
theorem held5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)
theorem held5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)
theorem held5_2_of {c : Dev nD} (dat : Dat τ (Elt F) Unit ℕ (UR sig nD τ) ℕ cfg5 c) (hA : dat.A 2 = V c (Pipeline.arrRef spec5 2))
    (hafter : ∀ t, dat.after 2 t = blk5 V c 2 t) (t : Fin cfg5.N) (d) : dat.before 2 t d = blk5 V c 2 t :=
  (dat.before_in_eq_fetched 2 rfl (fun _ => rfl) (fun _ _ _ => rfl) (fun t => by rw [hafter]; unfold Dat.blockOf blk5; rw [hA]; try rfl) t d).trans
    (by unfold Dat.fetched Dat.blockOf blk5; rw [hA]; try rfl)
theorem held5_3_of {c : Dev nD} (dat : Dat τ (Elt F) Unit ℕ (UR sig nD τ) ℕ cfg5 c) (hA : dat.A 3 = V c (Pipeline.arrRef spec5 3))
    (hafter : ∀ t, dat.after 3 t = blk5 V c 3 t) (t : Fin cfg5.N) (d) : dat.before 3 t d = blk5 V c 3 t :=
  (dat.before_in_eq_fetched 3 rfl (fun _ => rfl) (fun _ _ _ => rfl) (fun t => by rw [hafter]; unfold Dat.blockOf blk5; rw [hA]; try rfl) t d).trans
    (by unfold Dat.fetched Dat.blockOf blk5; rw [hA]; try rfl)
theorem held5_4_of {c : Dev nD} (dat : Dat τ (Elt F) Unit ℕ (UR sig nD τ) ℕ cfg5 c) (hA : dat.A 4 = V c (Pipeline.arrRef spec5 4))
    (hafter : ∀ t, dat.after 4 t = blk5 V c 4 t) (t : Fin cfg5.N) (d) : dat.before 4 t d = blk5 V c 4 t :=
  (dat.before_in_eq_fetched 4 rfl (fun _ => rfl) (fun _ _ _ => rfl) (fun t => by rw [hafter]; unfold Dat.blockOf blk5; rw [hA]; try rfl) t d).trans
    (by unfold Dat.fetched Dat.blockOf blk5; rw [hA]; try rfl)
theorem held5_5_of {c : Dev nD} (dat : Dat τ (Elt F) Unit ℕ (UR sig nD τ) ℕ cfg5 c) (hA : dat.A 5 = V c (Pipeline.arrRef spec5 5))
    (hafter : ∀ t, dat.after 5 t = blk5 V c 5 t) (t : Fin cfg5.N) (d) : dat.before 5 t d = blk5 V c 5 t :=
  (dat.before_in_eq_fetched 5 rfl (fun _ => rfl) (fun _ _ _ => rfl) (fun t => by rw [hafter]; unfold Dat.blockOf blk5; rw [hA]; try rfl) t d).trans
    (by unfold Dat.fetched Dat.blockOf blk5; rw [hA]; try rfl)
theorem held5_6_of {c : Dev nD} (dat : Dat τ (Elt F) Unit ℕ (UR sig nD τ) ℕ cfg5 c) (hA : dat.A 6 = V c (Pipeline.arrRef spec5 6))
    (hafter : ∀ t, dat.after 6 t = blk5 V c 6 t) (t : Fin cfg5.N) (d) : dat.before 6 t d = blk5 V c 6 t :=
  (dat.before_in_eq_fetched 6 rfl (fun _ => rfl) (fun _ _ _ => rfl) (fun t => by rw [hafter]; unfold Dat.blockOf blk5; rw [hA]; try rfl) t d).trans
    (by unfold Dat.fetched Dat.blockOf blk5; rw [hA]; try rfl)

/-- The whole 12000 × 64 block, the whole 12000 × 1 column of edge weights, a whole 64 × 64 matrix, a whole 1 × 64 row. -/
abbrev rE5 : Rect S12000x64 := Rect.unit (s := S12000x64) ![0, 0] S12000x64.size inb_S12000x64_S12000x64_0_0
abbrev rN5 : Rect S12000x1 := Rect.unit (s := S12000x1) ![0, 0] S12000x1.size inb_S12000x1_S12000x1_0_0
abbrev rW5 : Rect S64x64 := Rect.unit (s := S64x64) ![0, 0] S64x64.size inb_S64x64_S64x64_0_0
abbrev rB5 : Rect S1x64 := Rect.unit (s := S1x64) ![0, 0] S1x64.size inb_S1x64_S1x64_0_0

/-- What the body leaves in the output's staging buffer: its one store, of the weighted message over the seven
    loaded blocks. -/
def edge5 (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) : Vec F S12000x64 .f32 :=
  View.canon [⟨rE5, k5_pay1 (View.ld xj rE5) (View.ld xi rE5) (View.ld w1 rW5) (View.ld b1 rB5) (View.ld w2 rW5) (View.ld b2 rB5) (View.ld nr rN5)⟩]

/-- The one store covers the whole buffer. -/
theorem edge5_cover (p : Vec F S12000x64 .f32) (y : S12000x64.Idx) :
    ∃ pc ∈ ([⟨rE5, p⟩] : List (View.Piece (Elt F) S12000x64 .f32)), y ∈ pc.1.set :=
  View.cover_of_tiled [⟨rE5, p⟩] S12000x64.size (by rfl) y

set_option maxHeartbeats 1000000 in
/-- The body on whole staging buffers holding the seven input blocks and anything in the output's: it runs, leaves
    the inputs as they were and the output's buffer at `edge5` of them. -/
theorem edge5_triple (c : Dev nD) (E : Set ℕ) (i : grid5.Coords)
    (a1 : Memref sig .tc .vmem S12000x64 .f32) (h1 : a1.IsWhole) (a2 : Memref sig .tc .vmem S12000x64 .f32) (h2 : a2.IsWhole) (a3 : Memref sig .tc .vmem S12000x1 .f32) (h3 : a3.IsWhole) (a4 : Memref sig .tc .vmem S64x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S12000x64 .f32) (h8 : a8.IsWhole)
    (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) (K : PUnit → sProp 𝕄) :
    iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
        ∗ (∃ d, owns (c : Thread nD τ) a8 fullShare d)
        ∗ (iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
            ∗ owns (c : Thread nD τ) a8 fullShare (edge5 xj xi nr w1 b1 w2 b2)) -∗ K ⟨⟩))
      ⊢ wp frame (wpE (defs₀ (F := F)) Variants.none c none) E (cc5__edge_kernel i a1 h1 a2 h2 a3 h3 a4 h4 a5 h5 a6 h6 a7 h7 a8 h8) K := by
  simp only [cc5__edge_kernel_eq_skeleton]; unfold cc5__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (edge5_cover _)

/-- The pipeline's proof data at the entry valuation `V`: the arrays as found; after the body at point `t` each input's
    buffer still at its block and the output's at `edge5` of the seven input blocks; nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => blk5 V c 5 t
    | ⟨6, _⟩ => blk5 V c 6 t
    | ⟨7, _⟩ => edge5 (blk5 V c 0 t) (blk5 V c 1 t) (blk5 V c 2 t) (blk5 V c 3 t) (blk5 V c 4 t) (blk5 V c 5 t) (blk5 V c 6 t)
  Φ _ := Pipeline.ΦA spec5 c
  q _ := fullShare
  owed _ := 0

theorem dat5_A (c : Dev nD) (w : Fin cfg5.W) : (dat5 V c).A w = V c (Pipeline.arrRef spec5 w) := by
  dsimp only [dat5]
theorem dat5_after0 (c : Dev nD) (t : Fin cfg5.N) : (dat5 V c).after 0 t = blk5 V c 0 t := by dsimp only [dat5]
theorem dat5_after1 (c : Dev nD) (t : Fin cfg5.N) : (dat5 V c).after 1 t = blk5 V c 1 t := by dsimp only [dat5]
theorem dat5_after2 (c : Dev nD) (t : Fin cfg5.N) : (dat5 V c).after 2 t = blk5 V c 2 t := by dsimp only [dat5]
theorem dat5_after3 (c : Dev nD) (t : Fin cfg5.N) : (dat5 V c).after 3 t = blk5 V c 3 t := by dsimp only [dat5]
theorem dat5_after4 (c : Dev nD) (t : Fin cfg5.N) : (dat5 V c).after 4 t = blk5 V c 4 t := by dsimp only [dat5]
theorem dat5_after5 (c : Dev nD) (t : Fin cfg5.N) : (dat5 V c).after 5 t = blk5 V c 5 t := by dsimp only [dat5]
theorem dat5_after6 (c : Dev nD) (t : Fin cfg5.N) : (dat5 V c).after 6 t = blk5 V c 6 t := by dsimp only [dat5]
theorem dat5_after7 (c : Dev nD) (t : Fin cfg5.N) :
    (dat5 V c).after 7 t = edge5 (blk5 V c 0 t) (blk5 V c 1 t) (blk5 V c 2 t) (blk5 V c 3 t) (blk5 V c 4 t) (blk5 V c 5 t) (blk5 V c 6 t) := by dsimp only [dat5]

theorem dat5_before0 (c : Dev nD) (t : Fin cfg5.N) (d) : (dat5 V c).before 0 t d = blk5 V c 0 t :=
  held5_0_of V (dat5 V c) (dat5_A V c 0) (dat5_after0 V c) t d
theorem dat5_before1 (c : Dev nD) (t : Fin cfg5.N) (d) : (dat5 V c).before 1 t d = blk5 V c 1 t :=
  held5_1_of V (dat5 V c) (dat5_A V c 1) (dat5_after1 V c) t d
theorem dat5_before2 (c : Dev nD) (t : Fin cfg5.N) (d) : (dat5 V c).before 2 t d = blk5 V c 2 t :=
  held5_2_of V (dat5 V c) (dat5_A V c 2) (dat5_after2 V c) t d
theorem dat5_before3 (c : Dev nD) (t : Fin cfg5.N) (d) : (dat5 V c).before 3 t d = blk5 V c 3 t :=
  held5_3_of V (dat5 V c) (dat5_A V c 3) (dat5_after3 V c) t d
theorem dat5_before4 (c : Dev nD) (t : Fin cfg5.N) (d) : (dat5 V c).before 4 t d = blk5 V c 4 t :=
  held5_4_of V (dat5 V c) (dat5_A V c 4) (dat5_after4 V c) t d
theorem dat5_before5 (c : Dev nD) (t : Fin cfg5.N) (d) : (dat5 V c).before 5 t d = blk5 V c 5 t :=
  held5_5_of V (dat5 V c) (dat5_A V c 5) (dat5_after5 V c) t d
theorem dat5_before6 (c : Dev nD) (t : Fin cfg5.N) (d) : (dat5 V c).before 6 t d = blk5 V c 6 t :=
  held5_6_of V (dat5 V c) (dat5_A V c 6) (dat5_after6 V c) t d

/-- What the body is called with at point `t`, and what it returns. -/
def pre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def post5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the input buffers hold their blocks, so the body's triple applies; the invariant and the
    core's dues pass through untouched. -/
theorem body5_sound (c : Dev nD) (t : Fin cfg5.N) :
    pre5 V c t ⊢ wp frame (wpE (defs₀ (F := F)) Variants.none c none) Set.univ (bodyAt5 t) (fun _ => post5 V c t) := by
  unfold pre5 post5 bodyAt5
  simp only [dat5_before0, dat5_before1, dat5_before2, dat5_before3, dat5_before4, dat5_before5, dat5_before6]
  rw [show (dat5 V c).Φ t.succ = (dat5 V c).Φ t.castSucc from rfl,
    show (dat5 V c).owesAt () t.succ = (dat5 V c).owesAt () t.castSucc from rfl,
    dat5_after0, dat5_after1, dat5_after2, dat5_after3, dat5_after4, dat5_after5, dat5_after6, dat5_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge5_triple c Set.univ _ _ _ _ _ _ _ _ _ _ _ _ _ _ _ _ _ (blk5 V c 0 t) (blk5 V c 1 t) (blk5 V c 2 t) (blk5 V c 3 t) (blk5 V c 4 t) (blk5 V c 5 t) (blk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation at every point. -/
theorem body5_obligation (c : Dev nD) : BodyObligation (dat5 (F := F) V c) (defs₀ (F := F)) Variants.none () Set.univ := fun t => by
  rw [bigSep_W5, bigSep_W5]
  exact body5_sound V c t

end Cert.Kernel.Hand

end
-- ==== Proof.KbRun.lean ====
/-
  The six kernel regions of the three message-passing layers as segments of the program's run, and the run itself.
  Between two items of @main every unscoped buffer of a core is held at a valuation: the launch memory, then each host
  stretch applied, then — after a region — the region's output array replaced by what the pipeline's write-backs leave
  (`outs`). Each region is entered with its arrays split out of the held buffers and left with them put back, the
  output's array at the fold of its blocks' write-backs; the core's generator register and its (empty) dues ride along.
  The contents `outs` are any that satisfy `Leaves`: each region's output array is what its own proof data says.
-/
import proofs.«119603_j4896262717867_2_alg».proof.Proof.KbDense0
import proofs.«119603_j4896262717867_2_alg».proof.Proof.KbEdge1
import proofs.«119603_j4896262717867_2_alg».proof.Proof.KbDense2
import proofs.«119603_j4896262717867_2_alg».proof.Proof.KbEdge3
import proofs.«119603_j4896262717867_2_alg».proof.Proof.KbDense4
import proofs.«119603_j4896262717867_2_alg».proof.Proof.KbEdge5
import proofs.«119603_j4896262717867_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The buffers as each region finds and leaves them -/

/-- Region 0's entry and exit contents, read at the TensorCore's references. -/
abbrev en0 : (c : Dev nD) → (b : Ref sig .tc) → Buf (Elt F) ((c : Thread nD τ).loc b) := fun c b => V3 m c b
abbrev ex0 : (c : Dev nD) → (b : Ref sig .tc) → Buf (Elt F) ((c : Thread nD τ).loc b) := fun c b => V4 m outs c b
/-- Region 1's entry and exit contents, read at the TensorCore's references. -/
abbrev en1 : (c : Dev nD) → (b : Ref sig .tc) → Buf (Elt F) ((c : Thread nD τ).loc b) := fun c b => V5 m outs c b
abbrev ex1 : (c : Dev nD) → (b : Ref sig .tc) → Buf (Elt F) ((c : Thread nD τ).loc b) := fun c b => V6 m outs c b
/-- Region 2's entry and exit contents, read at the TensorCore's references. -/
abbrev en2 : (c : Dev nD) → (b : Ref sig .tc) → Buf (Elt F) ((c : Thread nD τ).loc b) := fun c b => V9 m outs c b
abbrev ex2 : (c : Dev nD) → (b : Ref sig .tc) → Buf (Elt F) ((c : Thread nD τ).loc b) := fun c b => V10 m outs c b
/-- Region 3's entry and exit contents, read at the TensorCore's references. -/
abbrev en3 : (c : Dev nD) → (b : Ref sig .tc) → Buf (Elt F) ((c : Thread nD τ).loc b) := fun c b => V11 m outs c b
abbrev ex3 : (c : Dev nD) → (b : Ref sig .tc) → Buf (Elt F) ((c : Thread nD τ).loc b) := fun c b => V12 m outs c b
/-- Region 4's entry and exit contents, read at the TensorCore's references. -/
abbrev en4 : (c : Dev nD) → (b : Ref sig .tc) → Buf (Elt F) ((c : Thread nD τ).loc b) := fun c b => V15 m outs c b
abbrev ex4 : (c : Dev nD) → (b : Ref sig .tc) → Buf (Elt F) ((c : Thread nD τ).loc b) := fun c b => V16 m outs c b
/-- Region 5's entry and exit contents, read at the TensorCore's references. -/
abbrev en5 : (c : Dev nD) → (b : Ref sig .tc) → Buf (Elt F) ((c : Thread nD τ).loc b) := fun c b => V17 m outs c b
abbrev ex5 : (c : Dev nD) → (b : Ref sig .tc) → Buf (Elt F) ((c : Thread nD τ).loc b) := fun c b => V18 m outs c b

/-- The contents the regions leave are the ones their proof data name: each region's output array after the region is
    the fold of its blocks' write-backs over the array as the region found it. -/
structure Leaves : Prop where
  l0 : ∀ c : Dev nD, outs 4 main_v42 c = (dat0 (en0 m) c).arrAt 3 cfg0.N
  l1 : ∀ c : Dev nD, outs 6 main_v57 c = (dat1 (en1 m outs) c).arrAt 7 cfg1.N
  l2 : ∀ c : Dev nD, outs 10 main_v75 c = (dat2 (en2 m outs) c).arrAt 3 cfg2.N
  l3 : ∀ c : Dev nD, outs 12 main_v90 c = (dat3 (en3 m outs) c).arrAt 7 cfg3.N
  l4 : ∀ c : Dev nD, outs 16 main_v108 c = (dat4 (en4 m outs) c).arrAt 3 cfg4.N
  l5 : ∀ c : Dev nD, outs 18 main_v123 c = (dat5 (en5 m outs) c).arrAt 7 cfg5.N

/-- Every pipeline's proof data, each at its region's entry contents. -/
def pdats : (p : Fin 6) → (c : Dev nD) → Dat τ (Elt F) Unit ℕ (UR sig nD τ) ℕ (cfgs p) c
  | ⟨0, _⟩ => fun c => dat0 (en0 m) c
  | ⟨1, _⟩ => fun c => dat1 (en1 m outs) c
  | ⟨2, _⟩ => fun c => dat2 (en2 m outs) c
  | ⟨3, _⟩ => fun c => dat3 (en3 m outs) c
  | ⟨4, _⟩ => fun c => dat4 (en4 m outs) c
  | ⟨5, _⟩ => fun c => dat5 (en5 m outs) c

abbrev 𝒱n : Variants := Variants.none
/-- No core owes another anything: no level is assigned. -/
abbrev Lf : GSem nD τ sig → Finset Unit := fun _ => ∅
abbrev lvf : GSem nD τ sig → Unit → ℕ := fun _ _ => 0
/-- What rides beside the buffers through every item: the core's generator register at some state, and nothing owed. -/
abbrev Rest (c : Dev nD) : sProp 𝕄 := iprop((∃ r, prngReg c r) ∗ ∃ W, owes (c : Thread nD τ) (0 : CellTallies nD τ sig Unit) W)

variable {m outs}

/-! ## What each region leaves: its output array folded, everything else as found -/

theorem ins0 : ∀ w : Fin cfg0.W, w ≠ (3 : Fin cfg0.W) →
    (cfg0.win w).isOut = false ∧ Pipeline.arrRef spec0 w ∉ ([main_v42] : List (Ref sig .tc)) := by decide
theorem left0_in (c : Dev nD) (w : Fin cfg0.W) (hw : (cfg0.win w).isOut = false)
    (hne : Pipeline.arrRef spec0 w ∉ ([main_v42] : List (Ref sig .tc))) :
    (dat0 (en0 m) c).arrAt w cfg0.N = ex0 m outs c (Pipeline.arrRef spec0 w) :=
  ((dat0 (en0 m) c).arrAt_in w hw cfg0.N).trans
    ((dat0_A (en0 m) c w).trans (V4_of m outs c (Pipeline.arrRef spec0 w) hne).symm)
theorem left0 (H : Leaves m outs) (c : Dev nD) (w : Fin cfg0.W) :
    (dat0 (en0 m) c).arrAt w cfg0.N = ex0 m outs c (Pipeline.arrRef spec0 w) := by
  by_cases h : w = (3 : Fin cfg0.W)
  · subst h
    exact (H.l0 c).symm.trans (by
      show _ = Function.update (V3 m c) (Proc.devRef .tc main_v42) (outs 4 main_v42 c) (Proc.devRef .tc main_v42)
      rw [Function.update_self])
  · exact left0_in c w (ins0 w h).1 (ins0 w h).2
theorem kept0 (c : Dev nD) : ∀ b, b ∉ Finset.univ.image (Pipeline.arrRef spec0) → ex0 m outs c b = en0 m c b :=
  fun b hb => V4_of m outs c b (by
    intro h
    rw [List.mem_singleton] at h
    exact hb (Finset.mem_image.mpr ⟨3, Finset.mem_univ _, h.symm⟩))

theorem ins1 : ∀ w : Fin cfg1.W, w ≠ (7 : Fin cfg1.W) →
    (cfg1.win w).isOut = false ∧ Pipeline.arrRef spec1 w ∉ ([main_v57] : List (Ref sig .tc)) := by decide
theorem left1_in (c : Dev nD) (w : Fin cfg1.W) (hw : (cfg1.win w).isOut = false)
    (hne : Pipeline.arrRef spec1 w ∉ ([main_v57] : List (Ref sig .tc))) :
    (dat1 (en1 m outs) c).arrAt w cfg1.N = ex1 m outs c (Pipeline.arrRef spec1 w) :=
  ((dat1 (en1 m outs) c).arrAt_in w hw cfg1.N).trans
    ((dat1_A (en1 m outs) c w).trans (V6_of m outs c (Pipeline.arrRef spec1 w) hne).symm)
theorem left1 (H : Leaves m outs) (c : Dev nD) (w : Fin cfg1.W) :
    (dat1 (en1 m outs) c).arrAt w cfg1.N = ex1 m outs c (Pipeline.arrRef spec1 w) := by
  by_cases h : w = (7 : Fin cfg1.W)
  · subst h
    exact (H.l1 c).symm.trans (by
      show _ = Function.update (V5 m outs c) (Proc.devRef .tc main_v57) (outs 6 main_v57 c) (Proc.devRef .tc main_v57)
      rw [Function.update_self])
  · exact left1_in c w (ins1 w h).1 (ins1 w h).2
theorem kept1 (c : Dev nD) : ∀ b, b ∉ Finset.univ.image (Pipeline.arrRef spec1) → ex1 m outs c b = en1 m outs c b :=
  fun b hb => V6_of m outs c b (by
    intro h
    rw [List.mem_singleton] at h
    exact hb (Finset.mem_image.mpr ⟨7, Finset.mem_univ _, h.symm⟩))

theorem ins2 : ∀ w : Fin cfg2.W, w ≠ (3 : Fin cfg2.W) →
    (cfg2.win w).isOut = false ∧ Pipeline.arrRef spec2 w ∉ ([main_v75] : List (Ref sig .tc)) := by decide
theorem left2_in (c : Dev nD) (w : Fin cfg2.W) (hw : (cfg2.win w).isOut = false)
    (hne : Pipeline.arrRef spec2 w ∉ ([main_v75] : List (Ref sig .tc))) :
    (dat2 (en2 m outs) c).arrAt w cfg2.N = ex2 m outs c (Pipeline.arrRef spec2 w) :=
  ((dat2 (en2 m outs) c).arrAt_in w hw cfg2.N).trans
    ((dat2_A (en2 m outs) c w).trans (V10_of m outs c (Pipeline.arrRef spec2 w) hne).symm)
theorem left2 (H : Leaves m outs) (c : Dev nD) (w : Fin cfg2.W) :
    (dat2 (en2 m outs) c).arrAt w cfg2.N = ex2 m outs c (Pipeline.arrRef spec2 w) := by
  by_cases h : w = (3 : Fin cfg2.W)
  · subst h
    exact (H.l2 c).symm.trans (by
      show _ = Function.update (V9 m outs c) (Proc.devRef .tc main_v75) (outs 10 main_v75 c) (Proc.devRef .tc main_v75)
      rw [Function.update_self])
  · exact left2_in c w (ins2 w h).1 (ins2 w h).2
theorem kept2 (c : Dev nD) : ∀ b, b ∉ Finset.univ.image (Pipeline.arrRef spec2) → ex2 m outs c b = en2 m outs c b :=
  fun b hb => V10_of m outs c b (by
    intro h
    rw [List.mem_singleton] at h
    exact hb (Finset.mem_image.mpr ⟨3, Finset.mem_univ _, h.symm⟩))

theorem ins3 : ∀ w : Fin cfg3.W, w ≠ (7 : Fin cfg3.W) →
    (cfg3.win w).isOut = false ∧ Pipeline.arrRef spec3 w ∉ ([main_v90] : List (Ref sig .tc)) := by decide
theorem left3_in (c : Dev nD) (w : Fin cfg3.W) (hw : (cfg3.win w).isOut = false)
    (hne : Pipeline.arrRef spec3 w ∉ ([main_v90] : List (Ref sig .tc))) :
    (dat3 (en3 m outs) c).arrAt w cfg3.N = ex3 m outs c (Pipeline.arrRef spec3 w) :=
  ((dat3 (en3 m outs) c).arrAt_in w hw cfg3.N).trans
    ((dat3_A (en3 m outs) c w).trans (V12_of m outs c (Pipeline.arrRef spec3 w) hne).symm)
theorem left3 (H : Leaves m outs) (c : Dev nD) (w : Fin cfg3.W) :
    (dat3 (en3 m outs) c).arrAt w cfg3.N = ex3 m outs c (Pipeline.arrRef spec3 w) := by
  by_cases h : w = (7 : Fin cfg3.W)
  · subst h
    exact (H.l3 c).symm.trans (by
      show _ = Function.update (V11 m outs c) (Proc.devRef .tc main_v90) (outs 12 main_v90 c) (Proc.devRef .tc main_v90)
      rw [Function.update_self])
  · exact left3_in c w (ins3 w h).1 (ins3 w h).2
theorem kept3 (c : Dev nD) : ∀ b, b ∉ Finset.univ.image (Pipeline.arrRef spec3) → ex3 m outs c b = en3 m outs c b :=
  fun b hb => V12_of m outs c b (by
    intro h
    rw [List.mem_singleton] at h
    exact hb (Finset.mem_image.mpr ⟨7, Finset.mem_univ _, h.symm⟩))

theorem ins4 : ∀ w : Fin cfg4.W, w ≠ (3 : Fin cfg4.W) →
    (cfg4.win w).isOut = false ∧ Pipeline.arrRef spec4 w ∉ ([main_v108] : List (Ref sig .tc)) := by decide
theorem left4_in (c : Dev nD) (w : Fin cfg4.W) (hw : (cfg4.win w).isOut = false)
    (hne : Pipeline.arrRef spec4 w ∉ ([main_v108] : List (Ref sig .tc))) :
    (dat4 (en4 m outs) c).arrAt w cfg4.N = ex4 m outs c (Pipeline.arrRef spec4 w) :=
  ((dat4 (en4 m outs) c).arrAt_in w hw cfg4.N).trans
    ((dat4_A (en4 m outs) c w).trans (V16_of m outs c (Pipeline.arrRef spec4 w) hne).symm)
theorem left4 (H : Leaves m outs) (c : Dev nD) (w : Fin cfg4.W) :
    (dat4 (en4 m outs) c).arrAt w cfg4.N = ex4 m outs c (Pipeline.arrRef spec4 w) := by
  by_cases h : w = (3 : Fin cfg4.W)
  · subst h
    exact (H.l4 c).symm.trans (by
      show _ = Function.update (V15 m outs c) (Proc.devRef .tc main_v108) (outs 16 main_v108 c) (Proc.devRef .tc main_v108)
      rw [Function.update_self])
  · exact left4_in c w (ins4 w h).1 (ins4 w h).2
theorem kept4 (c : Dev nD) : ∀ b, b ∉ Finset.univ.image (Pipeline.arrRef spec4) → ex4 m outs c b = en4 m outs c b :=
  fun b hb => V16_of m outs c b (by
    intro h
    rw [List.mem_singleton] at h
    exact hb (Finset.mem_image.mpr ⟨3, Finset.mem_univ _, h.symm⟩))

theorem ins5 : ∀ w : Fin cfg5.W, w ≠ (7 : Fin cfg5.W) →
    (cfg5.win w).isOut = false ∧ Pipeline.arrRef spec5 w ∉ ([main_v123] : List (Ref sig .tc)) := by decide
theorem left5_in (c : Dev nD) (w : Fin cfg5.W) (hw : (cfg5.win w).isOut = false)
    (hne : Pipeline.arrRef spec5 w ∉ ([main_v123] : List (Ref sig .tc))) :
    (dat5 (en5 m outs) c).arrAt w cfg5.N = ex5 m outs c (Pipeline.arrRef spec5 w) :=
  ((dat5 (en5 m outs) c).arrAt_in w hw cfg5.N).trans
    ((dat5_A (en5 m outs) c w).trans (V18_of m outs c (Pipeline.arrRef spec5 w) hne).symm)
theorem left5 (H : Leaves m outs) (c : Dev nD) (w : Fin cfg5.W) :
    (dat5 (en5 m outs) c).arrAt w cfg5.N = ex5 m outs c (Pipeline.arrRef spec5 w) := by
  by_cases h : w = (7 : Fin cfg5.W)
  · subst h
    exact (H.l5 c).symm.trans (by
      show _ = Function.update (V17 m outs c) (Proc.devRef .tc main_v123) (outs 18 main_v123 c) (Proc.devRef .tc main_v123)
      rw [Function.update_self])
  · exact left5_in c w (ins5 w h).1 (ins5 w h).2
theorem kept5 (c : Dev nD) : ∀ b, b ∉ Finset.univ.image (Pipeline.arrRef spec5) → ex5 m outs c b = en5 m outs c b :=
  fun b hb => V18_of m outs c b (by
    intro h
    rw [List.mem_singleton] at h
    exact hb (Finset.mem_image.mpr ⟨7, Finset.mem_univ _, h.symm⟩))

/-! ## The regions as segments -/

set_option backward.isDefEq.respectTransparency.types false in
/-- Region 0: entered from every unscoped buffer at its entry valuation, left at its exit valuation. -/
def reg0 (H : Leaves m outs) : RegionSeg (pcfgs (F := F)) adm (pdats m outs) () defs₀ 𝒱n Lf lvf 0 where
  win := launch0.win.to₀
  block_pos := launch0.block_pos
  stage_whole := launch0.stage_whole
  K := PEmpty
  osem k := k.elim
  ho := Pipeline.OwnSemFacts.none _
  hbody c := (body0_obligation (en0 m) c).loose
  hwaits := Pipeline.hwaits_of_owed_zero _ _ _ _ Lf lvf 0 fun _ _ => rfl
  pre c := iprop(StableHlo.held (c : Thread nD τ) (Pipeline.ucRefs τ sig) (V3 m c) ∗ Rest c)
  post c := iprop(StableHlo.held (c : Thread nD τ) (Pipeline.ucRefs τ sig) (V4 m outs c) ∗ Rest c)
  X c := iprop(∃ r, prngReg c r)
  Y c := iprop(∃ r, prngReg c r)
  Z c := Pipeline.unscopedRest (Ix := Unit) (Name := ℕ) (U := UR sig nD τ) (Lvl := ℕ) spec0 c (en0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (en0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (en0 m c) (ex0 m outs c) ((pdats m outs 0 c).arrAt · cfg0.N) (left0 H c) (kept0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at its entry valuation, left at its exit valuation. -/
def reg1 (H : Leaves m outs) : RegionSeg (pcfgs (F := F)) adm (pdats m outs) () defs₀ 𝒱n Lf lvf 1 where
  win := launch1.win.to₀
  block_pos := launch1.block_pos
  stage_whole := launch1.stage_whole
  K := PEmpty
  osem k := k.elim
  ho := Pipeline.OwnSemFacts.none _
  hbody c := (body1_obligation (en1 m outs) c).loose
  hwaits := Pipeline.hwaits_of_owed_zero _ _ _ _ Lf lvf 1 fun _ _ => rfl
  pre c := iprop(StableHlo.held (c : Thread nD τ) (Pipeline.ucRefs τ sig) (V5 m outs c) ∗ Rest c)
  post c := iprop(StableHlo.held (c : Thread nD τ) (Pipeline.ucRefs τ sig) (V6 m outs c) ∗ Rest c)
  X c := iprop(∃ r, prngReg c r)
  Y c := iprop(∃ r, prngReg c r)
  Z c := Pipeline.unscopedRest (Ix := Unit) (Name := ℕ) (U := UR sig nD τ) (Lvl := ℕ) spec1 c (en1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (en1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (en1 m outs c) (ex1 m outs c) ((pdats m outs 1 c).arrAt · cfg1.N) (left1 H c) (kept1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at its entry valuation, left at its exit valuation. -/
def reg2 (H : Leaves m outs) : RegionSeg (pcfgs (F := F)) adm (pdats m outs) () defs₀ 𝒱n Lf lvf 2 where
  win := launch2.win.to₀
  block_pos := launch2.block_pos
  stage_whole := launch2.stage_whole
  K := PEmpty
  osem k := k.elim
  ho := Pipeline.OwnSemFacts.none _
  hbody c := (body2_obligation (en2 m outs) c).loose
  hwaits := Pipeline.hwaits_of_owed_zero _ _ _ _ Lf lvf 2 fun _ _ => rfl
  pre c := iprop(StableHlo.held (c : Thread nD τ) (Pipeline.ucRefs τ sig) (V9 m outs c) ∗ Rest c)
  post c := iprop(StableHlo.held (c : Thread nD τ) (Pipeline.ucRefs τ sig) (V10 m outs c) ∗ Rest c)
  X c := iprop(∃ r, prngReg c r)
  Y c := iprop(∃ r, prngReg c r)
  Z c := Pipeline.unscopedRest (Ix := Unit) (Name := ℕ) (U := UR sig nD τ) (Lvl := ℕ) spec2 c (en2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (en2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (en2 m outs c) (ex2 m outs c) ((pdats m outs 2 c).arrAt · cfg2.N) (left2 H c) (kept2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at its entry valuation, left at its exit valuation. -/
def reg3 (H : Leaves m outs) : RegionSeg (pcfgs (F := F)) adm (pdats m outs) () defs₀ 𝒱n Lf lvf 3 where
  win := launch3.win.to₀
  block_pos := launch3.block_pos
  stage_whole := launch3.stage_whole
  K := PEmpty
  osem k := k.elim
  ho := Pipeline.OwnSemFacts.none _
  hbody c := (body3_obligation (en3 m outs) c).loose
  hwaits := Pipeline.hwaits_of_owed_zero _ _ _ _ Lf lvf 3 fun _ _ => rfl
  pre c := iprop(StableHlo.held (c : Thread nD τ) (Pipeline.ucRefs τ sig) (V11 m outs c) ∗ Rest c)
  post c := iprop(StableHlo.held (c : Thread nD τ) (Pipeline.ucRefs τ sig) (V12 m outs c) ∗ Rest c)
  X c := iprop(∃ r, prngReg c r)
  Y c := iprop(∃ r, prngReg c r)
  Z c := Pipeline.unscopedRest (Ix := Unit) (Name := ℕ) (U := UR sig nD τ) (Lvl := ℕ) spec3 c (en3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (en3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (en3 m outs c) (ex3 m outs c) ((pdats m outs 3 c).arrAt · cfg3.N) (left3 H c) (kept3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at its entry valuation, left at its exit valuation. -/
def reg4 (H : Leaves m outs) : RegionSeg (pcfgs (F := F)) adm (pdats m outs) () defs₀ 𝒱n Lf lvf 4 where
  win := launch4.win.to₀
  block_pos := launch4.block_pos
  stage_whole := launch4.stage_whole
  K := PEmpty
  osem k := k.elim
  ho := Pipeline.OwnSemFacts.none _
  hbody c := (body4_obligation (en4 m outs) c).loose
  hwaits := Pipeline.hwaits_of_owed_zero _ _ _ _ Lf lvf 4 fun _ _ => rfl
  pre c := iprop(StableHlo.held (c : Thread nD τ) (Pipeline.ucRefs τ sig) (V15 m outs c) ∗ Rest c)
  post c := iprop(StableHlo.held (c : Thread nD τ) (Pipeline.ucRefs τ sig) (V16 m outs c) ∗ Rest c)
  X c := iprop(∃ r, prngReg c r)
  Y c := iprop(∃ r, prngReg c r)
  Z c := Pipeline.unscopedRest (Ix := Unit) (Name := ℕ) (U := UR sig nD τ) (Lvl := ℕ) spec4 c (en4 m outs c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (en4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (en4 m outs c) (ex4 m outs c) ((pdats m outs 4 c).arrAt · cfg4.N) (left4 H c) (kept4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at its entry valuation, left at its exit valuation. -/
def reg5 (H : Leaves m outs) : RegionSeg (pcfgs (F := F)) adm (pdats m outs) () defs₀ 𝒱n Lf lvf 5 where
  win := launch5.win.to₀
  block_pos := launch5.block_pos
  stage_whole := launch5.stage_whole
  K := PEmpty
  osem k := k.elim
  ho := Pipeline.OwnSemFacts.none _
  hbody c := (body5_obligation (en5 m outs) c).loose
  hwaits := Pipeline.hwaits_of_owed_zero _ _ _ _ Lf lvf 5 fun _ _ => rfl
  pre c := iprop(StableHlo.held (c : Thread nD τ) (Pipeline.ucRefs τ sig) (V17 m outs c) ∗ Rest c)
  post c := iprop(StableHlo.held (c : Thread nD τ) (Pipeline.ucRefs τ sig) (V18 m outs c) ∗ Rest c)
  X c := iprop(∃ r, prngReg c r)
  Y c := iprop(∃ r, prngReg c r)
  Z c := Pipeline.unscopedRest (Ix := Unit) (Name := ℕ) (U := UR sig nD τ) (Lvl := ℕ) spec5 c (en5 m outs c)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (en5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (en5 m outs c) (ex5 m outs c) ((pdats m outs 5 c).arrAt · cfg5.N) (left5 H c) (kept5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (m outs)

set_option backward.isDefEq.respectTransparency.types false in
/-- Every weakly fair execution of @main from memory `m` with zero counters terminates, nothing faulting, and every final
    memory holds each argument as launched. -/
theorem frame_of_leaves (ρ : Dev nD → PrngReg) (H : Leaves m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.Kernel.Gen.frame_cond m emb₁ () 𝒱n Lf lvf (fun _ _ => rfl) ρ outs (pdats m outs) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (fun _ : Dev nD => (iprop(emp) : sProp 𝕄)) c) : sProp 𝕄)
          ⊢ (Rest c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (fun _ : Dev nD => (iprop(emp) : sProp 𝕄)) c))
          ⊢ (bigSep Finset.univ (fun c : Dev nD => Rest c) : sProp 𝕄) := bigSep_mono fun c _ => hcore c
      iintro ⟨Hall, -⟩
      ihave H' := hmono $$ Hall
      imodintro
      iexact H')
    (fun c => by
      iintro ⟨-, HO⟩
      iexact HO)
    (reg0 H) (fun _ => .rfl) (fun _ => .rfl)
    (reg1 H) (fun _ => .rfl) (fun _ => .rfl)
    (reg2 H) (fun _ => .rfl) (fun _ => .rfl)
    (reg3 H) (fun _ => .rfl) (fun _ => .rfl)
    (reg4 H) (fun _ => .rfl) (fun _ => .rfl)
    (reg5 H) (fun _ => .rfl) (fun _ => .rfl)

end Cert.Kernel.Hand

end
-- ==== Proof.KbOuts.lean ====
/-
  Contents the six regions leave, built one region at a time: the first region's output array is the fold of its
  blocks' write-backs over the buffers as the first host stretches leave them; each later region's is the same fold
  over the buffers as found after the earlier regions' arrays and the host stretches between. A valuation between two
  items depends only on the contents of the regions before it, so fixing a later region's array does not disturb the
  earlier stages.
-/
import proofs.«119603_j4896262717867_2_alg».proof.Proof.KbRun

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-! ## A valuation depends only on the earlier regions' contents -/

theorem V5_agree (o o' : Outs (F := F)) (h4 : ∀ c, o 4 main_v42 c = o' 4 main_v42 c) (c : Dev nD) : V5 m o c = V5 m o' c := by
  show StableHlo.after hostOps1 (Function.update (V3 m c) main_v42 (o 4 main_v42 c))
    = StableHlo.after hostOps1 (Function.update (V3 m c) main_v42 (o' 4 main_v42 c))
  rw [h4]
theorem V9_agree (o o' : Outs (F := F)) (h4 : ∀ c, o 4 main_v42 c = o' 4 main_v42 c) (h6 : ∀ c, o 6 main_v57 c = o' 6 main_v57 c)
    (c : Dev nD) : V9 m o c = V9 m o' c := by
  show StableHlo.after hostOps2_2 (StableHlo.after hostOps2_1 (StableHlo.after hostOps2 (Function.update (V5 m o c) main_v57 (o 6 main_v57 c))))
    = StableHlo.after hostOps2_2 (StableHlo.after hostOps2_1 (StableHlo.after hostOps2 (Function.update (V5 m o' c) main_v57 (o' 6 main_v57 c))))
  rw [V5_agree m o o' h4 c, h6]
theorem V11_agree (o o' : Outs (F := F)) (h4 : ∀ c, o 4 main_v42 c = o' 4 main_v42 c) (h6 : ∀ c, o 6 main_v57 c = o' 6 main_v57 c)
    (h10 : ∀ c, o 10 main_v75 c = o' 10 main_v75 c) (c : Dev nD) : V11 m o c = V11 m o' c := by
  show StableHlo.after hostOps3 (Function.update (V9 m o c) main_v75 (o 10 main_v75 c))
    = StableHlo.after hostOps3 (Function.update (V9 m o' c) main_v75 (o' 10 main_v75 c))
  rw [V9_agree m o o' h4 h6 c, h10]
theorem V15_agree (o o' : Outs (F := F)) (h4 : ∀ c, o 4 main_v42 c = o' 4 main_v42 c) (h6 : ∀ c, o 6 main_v57 c = o' 6 main_v57 c)
    (h10 : ∀ c, o 10 main_v75 c = o' 10 main_v75 c) (h12 : ∀ c, o 12 main_v90 c = o' 12 main_v90 c) (c : Dev nD) : V15 m o c = V15 m o' c := by
  show StableHlo.after hostOps4_2 (StableHlo.after hostOps4_1 (StableHlo.after hostOps4 (Function.update (V11 m o c) main_v90 (o 12 main_v90 c))))
    = StableHlo.after hostOps4_2 (StableHlo.after hostOps4_1 (StableHlo.after hostOps4 (Function.update (V11 m o' c) main_v90 (o' 12 main_v90 c))))
  rw [V11_agree m o o' h4 h6 h10 c, h12]
theorem V17_agree (o o' : Outs (F := F)) (h4 : ∀ c, o 4 main_v42 c = o' 4 main_v42 c) (h6 : ∀ c, o 6 main_v57 c = o' 6 main_v57 c)
    (h10 : ∀ c, o 10 main_v75 c = o' 10 main_v75 c) (h12 : ∀ c, o 12 main_v90 c = o' 12 main_v90 c)
    (h16 : ∀ c, o 16 main_v108 c = o' 16 main_v108 c) (c : Dev nD) : V17 m o c = V17 m o' c := by
  show StableHlo.after hostOps5 (Function.update (V15 m o c) main_v108 (o 16 main_v108 c))
    = StableHlo.after hostOps5 (Function.update (V15 m o' c) main_v108 (o' 16 main_v108 c))
  rw [V15_agree m o o' h4 h6 h10 h12 c, h16]

/-! ## The stages -/

/-- Region 0's output array after the region. -/
def a4 (c : Dev nD) : Buf (Elt F) ((c : Thread nD τ).loc main_v42) := (dat0 (en0 m) c).arrAt 3 cfg0.N
/-- The contents with the regions up to region 0 fixed. -/
def o1 : Outs (F := F) := fun J r c =>
  if J = 4 then (Function.update (V3 m c) main_v42 (a4 m c)) r else V0 m c r
theorem o1_at (c : Dev nD) : o1 m 4 main_v42 c = a4 m c := by
  show (if (4 : ℕ) = 4 then (Function.update (V3 m c) main_v42 (a4 m c)) main_v42 else _) = _
  rw [if_pos rfl, Function.update_self]
theorem o1_ne (J : ℕ) (h : J ≠ 4) (r : Ref sig .tc) (c : Dev nD) : o1 m J r c = V0 m c r := by
  show (if J = 4 then _ else _) = _
  rw [if_neg h]

/-- Region 1's output array after the region. -/
def a6 (c : Dev nD) : Buf (Elt F) ((c : Thread nD τ).loc main_v57) := (dat1 (en1 m (o1 m)) c).arrAt 7 cfg1.N
/-- The contents with the regions up to region 1 fixed. -/
def o2 : Outs (F := F) := fun J r c =>
  if J = 6 then (Function.update (V5 m (o1 m) c) main_v57 (a6 m c)) r else o1 m J r c
theorem o2_at (c : Dev nD) : o2 m 6 main_v57 c = a6 m c := by
  show (if (6 : ℕ) = 6 then (Function.update (V5 m (o1 m) c) main_v57 (a6 m c)) main_v57 else _) = _
  rw [if_pos rfl, Function.update_self]
theorem o2_ne (J : ℕ) (h : J ≠ 6) (r : Ref sig .tc) (c : Dev nD) : o2 m J r c = o1 m J r c := by
  show (if J = 6 then _ else _) = _
  rw [if_neg h]

/-- Region 2's output array after the region. -/
def a10 (c : Dev nD) : Buf (Elt F) ((c : Thread nD τ).loc main_v75) := (dat2 (en2 m (o2 m)) c).arrAt 3 cfg2.N
/-- The contents with the regions up to region 2 fixed. -/
def o3 : Outs (F := F) := fun J r c =>
  if J = 10 then (Function.update (V9 m (o2 m) c) main_v75 (a10 m c)) r else o2 m J r c
theorem o3_at (c : Dev nD) : o3 m 10 main_v75 c = a10 m c := by
  show (if (10 : ℕ) = 10 then (Function.update (V9 m (o2 m) c) main_v75 (a10 m c)) main_v75 else _) = _
  rw [if_pos rfl, Function.update_self]
theorem o3_ne (J : ℕ) (h : J ≠ 10) (r : Ref sig .tc) (c : Dev nD) : o3 m J r c = o2 m J r c := by
  show (if J = 10 then _ else _) = _
  rw [if_neg h]

/-- Region 3's output array after the region. -/
def a12 (c : Dev nD) : Buf (Elt F) ((c : Thread nD τ).loc main_v90) := (dat3 (en3 m (o3 m)) c).arrAt 7 cfg3.N
/-- The contents with the regions up to region 3 fixed. -/
def o4 : Outs (F := F) := fun J r c =>
  if J = 12 then (Function.update (V11 m (o3 m) c) main_v90 (a12 m c)) r else o3 m J r c
theorem o4_at (c : Dev nD) : o4 m 12 main_v90 c = a12 m c := by
  show (if (12 : ℕ) = 12 then (Function.update (V11 m (o3 m) c) main_v90 (a12 m c)) main_v90 else _) = _
  rw [if_pos rfl, Function.update_self]
theorem o4_ne (J : ℕ) (h : J ≠ 12) (r : Ref sig .tc) (c : Dev nD) : o4 m J r c = o3 m J r c := by
  show (if J = 12 then _ else _) = _
  rw [if_neg h]

/-- Region 4's output array after the region. -/
def a16 (c : Dev nD) : Buf (Elt F) ((c : Thread nD τ).loc main_v108) := (dat4 (en4 m (o4 m)) c).arrAt 3 cfg4.N
/-- The contents with the regions up to region 4 fixed. -/
def o5 : Outs (F := F) := fun J r c =>
  if J = 16 then (Function.update (V15 m (o4 m) c) main_v108 (a16 m c)) r else o4 m J r c
theorem o5_at (c : Dev nD) : o5 m 16 main_v108 c = a16 m c := by
  show (if (16 : ℕ) = 16 then (Function.update (V15 m (o4 m) c) main_v108 (a16 m c)) main_v108 else _) = _
  rw [if_pos rfl, Function.update_self]
theorem o5_ne (J : ℕ) (h : J ≠ 16) (r : Ref sig .tc) (c : Dev nD) : o5 m J r c = o4 m J r c := by
  show (if J = 16 then _ else _) = _
  rw [if_neg h]

/-- Region 5's output array after the region. -/
def a18 (c : Dev nD) : Buf (Elt F) ((c : Thread nD τ).loc main_v123) := (dat5 (en5 m (o5 m)) c).arrAt 7 cfg5.N
/-- The contents with the regions up to region 5 fixed. -/
def o6 : Outs (F := F) := fun J r c =>
  if J = 18 then (Function.update (V17 m (o5 m) c) main_v123 (a18 m c)) r else o5 m J r c
theorem o6_at (c : Dev nD) : o6 m 18 main_v123 c = a18 m c := by
  show (if (18 : ℕ) = 18 then (Function.update (V17 m (o5 m) c) main_v123 (a18 m c)) main_v123 else _) = _
  rw [if_pos rfl, Function.update_self]
theorem o6_ne (J : ℕ) (h : J ≠ 18) (r : Ref sig .tc) (c : Dev nD) : o6 m J r c = o5 m J r c := by
  show (if J = 18 then _ else _) = _
  rw [if_neg h]

/-! ## The last stage at each region's reference -/

theorem o6_4 (c : Dev nD) : o6 m 4 main_v42 c = a4 m c := by
  rw [o6_ne m 4 (by decide), o5_ne m 4 (by decide), o4_ne m 4 (by decide), o3_ne m 4 (by decide), o2_ne m 4 (by decide), o1_at]
theorem o6_6 (c : Dev nD) : o6 m 6 main_v57 c = a6 m c := by
  rw [o6_ne m 6 (by decide), o5_ne m 6 (by decide), o4_ne m 6 (by decide), o3_ne m 6 (by decide), o2_at]
theorem o6_10 (c : Dev nD) : o6 m 10 main_v75 c = a10 m c := by
  rw [o6_ne m 10 (by decide), o5_ne m 10 (by decide), o4_ne m 10 (by decide), o3_at]
theorem o6_12 (c : Dev nD) : o6 m 12 main_v90 c = a12 m c := by
  rw [o6_ne m 12 (by decide), o5_ne m 12 (by decide), o4_at]
theorem o6_16 (c : Dev nD) : o6 m 16 main_v108 c = a16 m c := by
  rw [o6_ne m 16 (by decide), o5_at]
theorem o6_18 (c : Dev nD) : o6 m 18 main_v123 c = a18 m c := o6_at m c

theorem o1_4 (c : Dev nD) : o1 m 4 main_v42 c = a4 m c := o1_at m c
theorem o2_4 (c : Dev nD) : o2 m 4 main_v42 c = a4 m c := by rw [o2_ne m 4 (by decide), o1_at]
theorem o2_6 (c : Dev nD) : o2 m 6 main_v57 c = a6 m c := o2_at m c
theorem o3_4 (c : Dev nD) : o3 m 4 main_v42 c = a4 m c := by rw [o3_ne m 4 (by decide), o2_4]
theorem o3_6 (c : Dev nD) : o3 m 6 main_v57 c = a6 m c := by rw [o3_ne m 6 (by decide), o2_6]
theorem o3_10 (c : Dev nD) : o3 m 10 main_v75 c = a10 m c := o3_at m c
theorem o4_4 (c : Dev nD) : o4 m 4 main_v42 c = a4 m c := by rw [o4_ne m 4 (by decide), o3_4]
theorem o4_6 (c : Dev nD) : o4 m 6 main_v57 c = a6 m c := by rw [o4_ne m 6 (by decide), o3_6]
theorem o4_10 (c : Dev nD) : o4 m 10 main_v75 c = a10 m c := by rw [o4_ne m 10 (by decide), o3_10]
theorem o4_12 (c : Dev nD) : o4 m 12 main_v90 c = a12 m c := o4_at m c
theorem o5_4 (c : Dev nD) : o5 m 4 main_v42 c = a4 m c := by rw [o5_ne m 4 (by decide), o4_4]
theorem o5_6 (c : Dev nD) : o5 m 6 main_v57 c = a6 m c := by rw [o5_ne m 6 (by decide), o4_6]
theorem o5_10 (c : Dev nD) : o5 m 10 main_v75 c = a10 m c := by rw [o5_ne m 10 (by decide), o4_10]
theorem o5_12 (c : Dev nD) : o5 m 12 main_v90 c = a12 m c := by rw [o5_ne m 12 (by decide), o4_12]
theorem o5_16 (c : Dev nD) : o5 m 16 main_v108 c = a16 m c := o5_at m c

/-! ## The built contents are the ones the regions' proof data name -/

theorem en1_eq : en1 m (o6 m) = en1 m (o1 m) := funext fun c => funext fun b =>
  congrFun (V5_agree m _ _ (fun c => (o6_4 m c).trans (o1_4 m c).symm) c) (Proc.devRef .tc b)
theorem en2_eq : en2 m (o6 m) = en2 m (o2 m) := funext fun c => funext fun b =>
  congrFun (V9_agree m _ _ (fun c => (o6_4 m c).trans (o2_4 m c).symm) (fun c => (o6_6 m c).trans (o2_6 m c).symm) c) (Proc.devRef .tc b)
theorem en3_eq : en3 m (o6 m) = en3 m (o3 m) := funext fun c => funext fun b =>
  congrFun (V11_agree m _ _ (fun c => (o6_4 m c).trans (o3_4 m c).symm) (fun c => (o6_6 m c).trans (o3_6 m c).symm)
    (fun c => (o6_10 m c).trans (o3_10 m c).symm) c) (Proc.devRef .tc b)
theorem en4_eq : en4 m (o6 m) = en4 m (o4 m) := funext fun c => funext fun b =>
  congrFun (V15_agree m _ _ (fun c => (o6_4 m c).trans (o4_4 m c).symm) (fun c => (o6_6 m c).trans (o4_6 m c).symm)
    (fun c => (o6_10 m c).trans (o4_10 m c).symm) (fun c => (o6_12 m c).trans (o4_12 m c).symm) c) (Proc.devRef .tc b)
theorem en5_eq : en5 m (o6 m) = en5 m (o5 m) := funext fun c => funext fun b =>
  congrFun (V17_agree m _ _ (fun c => (o6_4 m c).trans (o5_4 m c).symm) (fun c => (o6_6 m c).trans (o5_6 m c).symm)
    (fun c => (o6_10 m c).trans (o5_10 m c).symm) (fun c => (o6_12 m c).trans (o5_12 m c).symm)
    (fun c => (o6_16 m c).trans (o5_16 m c).symm) c) (Proc.devRef .tc b)

/-- The contents built above are left by the regions. -/
theorem leaves : Leaves m (o6 m) where
  l0 c := o6_4 m c
  l1 c := by rw [en1_eq]; exact o6_6 m c
  l2 c := by rw [en2_eq]; exact o6_10 m c
  l3 c := by rw [en3_eq]; exact o6_12 m c
  l4 c := by rw [en4_eq]; exact o6_16 m c
  l5 c := by rw [en5_eq]; exact o6_18 m c

end Cert.Kernel.Hand

end
-- ==== Proof.KiDense0.lean ====
/-
  The dense projection `y = x · Wᵀ + b` of layer 0, as the pipelined kernel region 0 runs it: ten grid points, point `t`
  working on rows `6000·t … 6000·t + 5999` of the node table. The body loads its block of `x` (6000 × 64), the whole
  transposed weight matrix (64 × 64) and the bias row (1 × 64), and stores one 6000 × 64 block: the matrix product
  of the block with the weights plus the bias row repeated down the rows. Here: what the body leaves in the output's
  staging buffer as a function of the three input blocks, the body's triple, and the pipeline's proof data at an
  arbitrary valuation `V` of the buffers at the region's entry (inputs keep their blocks; the output's buffer holds the
  body's result; nothing is owed between points).
-/
import proofs.«119603_j4896262717867_2_alg».proof.Proof.Gen.KernelIdeal.Launch
import proofs.«119603_j4896262717867_2_alg».proof.Proof.Gen.KernelIdeal.Skeleton
import proofs.«119603_j4896262717867_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `6000·t …` of its array for the `x` and output windows, the whole
    array for the weights and the bias, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the block was fetched at this
    point or is still there from an earlier one (the weights and the bias are fetched once: their block never moves). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole 6000 × 64 block, the whole 64 × 64 weight matrix, the whole 1 × 64 bias row. -/
abbrev rX0 : Rect S6000x64 := Rect.unit (s := S6000x64) ![0, 0] S6000x64.size inb_S6000x64_S6000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output's staging buffer: its one store, of `x·W + b` over the three loaded blocks. -/
def dense0 (x : Vec F S6000x64 .f32) (w : Vec F S64x64 .f32) (b : Vec F S1x64 .f32) : Vec F S6000x64 .f32 :=
  View.canon [⟨rX0, k0_pay1 (View.ld x rX0) (View.ld w rW0) (View.ld b rB0)⟩]

/-- The one store covers the whole buffer. -/
theorem dense0_cover (p : Vec F S6000x64 .f32) (y : S6000x64.Idx) :
    ∃ pc ∈ ([⟨rX0, p⟩] : List (View.Piece (Elt F) S6000x64 .f32)), y ∈ pc.1.set :=
  View.cover_of_tiled [⟨rX0, p⟩] S6000x64.size (by rfl) y

set_option maxHeartbeats 1000000 in
/-- The body on whole staging buffers holding `x`, `w`, `b` and anything in the output's: it runs, leaves the inputs
    as they were and the output's buffer at `dense0 x w b`. -/
theorem dense0_triple (c : Dev nD) (E : Set ℕ) (i : grid0.Coords)
    (a1 : Memref sig .tc .vmem S6000x64 .f32) (h1 : a1.IsWhole) (a2 : Memref sig .tc .vmem S64x64 .f32) (h2 : a2.IsWhole)
    (a3 : Memref sig .tc .vmem S1x64 .f32) (h3 : a3.IsWhole) (a4 : Memref sig .tc .vmem S6000x64 .f32) (h4 : a4.IsWhole)
    (x : Vec F S6000x64 .f32) (w : Vec F S64x64 .f32) (b : Vec F S1x64 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (dense0 x w b)) -∗ K ⟨⟩))
      ⊢ wp frame (wpE (defs₀ (F := F)) Variants.none c none) E (cc0__dense_kernel i a1 h1 a2 h2 a3 h3 a4 h4) K := by
  simp only [cc0__dense_kernel_eq_skeleton]; unfold cc0__dense_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (dense0_cover _)

/-- The pipeline's proof data at the entry valuation `V`: the arrays as found; after the body at point `t` each input's
    buffer still at its block and the output's at `dense0` of the three input blocks; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => dense0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = dense0 (blk0 V c 0 t) (blk0 V c 1 t) (blk0 V c 2 t) := by dsimp only [dat0]

theorem dat0_before0 (c : Dev nD) (t : Fin cfg0.N) (d) : (dat0 V c).before 0 t d = blk0 V c 0 t :=
  held0_0_of V (dat0 V c) (dat0_A V c 0) (dat0_after0 V c) t d
theorem dat0_before1 (c : Dev nD) (t : Fin cfg0.N) (d) : (dat0 V c).before 1 t d = blk0 V c 1 t :=
  held0_1_of V (dat0 V c) (dat0_A V c 1) (dat0_after1 V c) t d
theorem dat0_before2 (c : Dev nD) (t : Fin cfg0.N) (d) : (dat0 V c).before 2 t d = blk0 V c 2 t :=
  held0_2_of V (dat0 V c) (dat0_A V c 2) (dat0_after2 V c) t d

/-- What the body is called with at point `t`, and what it returns. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    core's dues pass through untouched. -/
theorem body0_sound (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (dense0_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation at every point. -/
theorem body0_obligation (c : Dev nD) : BodyObligation (dat0 (F := F) V c) (defs₀ (F := F)) Variants.none () Set.univ := fun t => by
  rw [bigSep_W0, bigSep_W0]
  exact body0_sound V c t

end Cert.KernelIdeal.Hand

end
-- ==== Proof.KiEdge1.lean ====
/-
  The per-edge message of layer 0, as the pipelined kernel region 1 runs it: a hundred grid points, point `t` working on
  edges `12000·t … 12000·t + 11999`. The body loads its block of the gathered source rows `xj` and target rows `xi`
  (12000 × 64 each), the block of the edge weights `norm` (12000 × 1), the two transposed weight matrices (64 × 64) and
  the two bias rows (1 × 64), and stores one 12000 × 64 block:
  `norm · ((xj · W1ᵀ + b1) + ((xj ∘ xi) · W2ᵀ + b2))`, the edge weight repeated along the row.
  Here: what the body leaves in the output's staging buffer as a function of the seven input blocks, the body's
  triple, and the pipeline's proof data at an arbitrary valuation `V` of the buffers at the region's entry.
-/
import proofs.«119603_j4896262717867_2_alg».proof.Proof.Gen.KernelIdeal.Launch
import proofs.«119603_j4896262717867_2_alg».proof.Proof.Gen.KernelIdeal.Skeleton
import proofs.«119603_j4896262717867_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the edges `12000·t …` of its array for the three per-edge inputs and the
    output, the whole array for the weights and the biases, read off the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the block was fetched at this
    point or is still there from an earlier one (the weights and the biases are fetched once: their block never moves). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem held1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem held1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- The whole 12000 × 64 block, the whole 12000 × 1 column of edge weights, a whole 64 × 64 matrix, a whole 1 × 64 row. -/
abbrev rE1 : Rect S12000x64 := Rect.unit (s := S12000x64) ![0, 0] S12000x64.size inb_S12000x64_S12000x64_0_0
abbrev rN1 : Rect S12000x1 := Rect.unit (s := S12000x1) ![0, 0] S12000x1.size inb_S12000x1_S12000x1_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output's staging buffer: its one store, of the weighted message over the seven
    loaded blocks. -/
def edge1 (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) : Vec F S12000x64 .f32 :=
  View.canon [⟨rE1, k1_pay1 (View.ld xj rE1) (View.ld xi rE1) (View.ld w1 rW1) (View.ld b1 rB1) (View.ld w2 rW1) (View.ld b2 rB1) (View.ld nr rN1)⟩]

/-- The one store covers the whole buffer. -/
theorem edge1_cover (p : Vec F S12000x64 .f32) (y : S12000x64.Idx) :
    ∃ pc ∈ ([⟨rE1, p⟩] : List (View.Piece (Elt F) S12000x64 .f32)), y ∈ pc.1.set :=
  View.cover_of_tiled [⟨rE1, p⟩] S12000x64.size (by rfl) y

set_option maxHeartbeats 1000000 in
/-- The body on whole staging buffers holding the seven input blocks and anything in the output's: it runs, leaves
    the inputs as they were and the output's buffer at `edge1` of them. -/
theorem edge1_triple (c : Dev nD) (E : Set ℕ) (i : grid1.Coords)
    (a1 : Memref sig .tc .vmem S12000x64 .f32) (h1 : a1.IsWhole) (a2 : Memref sig .tc .vmem S12000x64 .f32) (h2 : a2.IsWhole) (a3 : Memref sig .tc .vmem S12000x1 .f32) (h3 : a3.IsWhole) (a4 : Memref sig .tc .vmem S64x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S12000x64 .f32) (h8 : a8.IsWhole)
    (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) (K : PUnit → sProp 𝕄) :
    iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
        ∗ (∃ d, owns (c : Thread nD τ) a8 fullShare d)
        ∗ (iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
            ∗ owns (c : Thread nD τ) a8 fullShare (edge1 xj xi nr w1 b1 w2 b2)) -∗ K ⟨⟩))
      ⊢ wp frame (wpE (defs₀ (F := F)) Variants.none c none) E (cc1__edge_kernel i a1 h1 a2 h2 a3 h3 a4 h4 a5 h5 a6 h6 a7 h7 a8 h8) K := by
  simp only [cc1__edge_kernel_eq_skeleton]; unfold cc1__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (edge1_cover _)

/-- The pipeline's proof data at the entry valuation `V`: the arrays as found; after the body at point `t` each input's
    buffer still at its block and the output's at `edge1` of the seven input blocks; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => edge1 (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) :
    (dat1 V c).after 7 t = edge1 (blk1 V c 0 t) (blk1 V c 1 t) (blk1 V c 2 t) (blk1 V c 3 t) (blk1 V c 4 t) (blk1 V c 5 t) (blk1 V c 6 t) := by dsimp only [dat1]

theorem dat1_before0 (c : Dev nD) (t : Fin cfg1.N) (d) : (dat1 V c).before 0 t d = blk1 V c 0 t :=
  held1_0_of V (dat1 V c) (dat1_A V c 0) (dat1_after0 V c) t d
theorem dat1_before1 (c : Dev nD) (t : Fin cfg1.N) (d) : (dat1 V c).before 1 t d = blk1 V c 1 t :=
  held1_1_of V (dat1 V c) (dat1_A V c 1) (dat1_after1 V c) t d
theorem dat1_before2 (c : Dev nD) (t : Fin cfg1.N) (d) : (dat1 V c).before 2 t d = blk1 V c 2 t :=
  held1_2_of V (dat1 V c) (dat1_A V c 2) (dat1_after2 V c) t d
theorem dat1_before3 (c : Dev nD) (t : Fin cfg1.N) (d) : (dat1 V c).before 3 t d = blk1 V c 3 t :=
  held1_3_of V (dat1 V c) (dat1_A V c 3) (dat1_after3 V c) t d
theorem dat1_before4 (c : Dev nD) (t : Fin cfg1.N) (d) : (dat1 V c).before 4 t d = blk1 V c 4 t :=
  held1_4_of V (dat1 V c) (dat1_A V c 4) (dat1_after4 V c) t d
theorem dat1_before5 (c : Dev nD) (t : Fin cfg1.N) (d) : (dat1 V c).before 5 t d = blk1 V c 5 t :=
  held1_5_of V (dat1 V c) (dat1_A V c 5) (dat1_after5 V c) t d
theorem dat1_before6 (c : Dev nD) (t : Fin cfg1.N) (d) : (dat1 V c).before 6 t d = blk1 V c 6 t :=
  held1_6_of V (dat1 V c) (dat1_A V c 6) (dat1_after6 V c) t d

/-- What the body is called with at point `t`, and what it returns. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the input buffers hold their blocks, so the body's triple applies; the invariant and the
    core's dues pass through untouched. -/
theorem body1_sound (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge1_triple c Set.univ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation at every point. -/
theorem body1_obligation (c : Dev nD) : BodyObligation (dat1 (F := F) V c) (defs₀ (F := F)) Variants.none () Set.univ := fun t => by
  rw [bigSep_W1, bigSep_W1]
  exact body1_sound V c t

end Cert.KernelIdeal.Hand

end
-- ==== Proof.KiDense2.lean ====
/-
  The dense projection `y = x · Wᵀ + b` of layer 1, as the pipelined kernel region 2 runs it: ten grid points, point `t`
  working on rows `6000·t … 6000·t + 5999` of the node table. The body loads its block of `x` (6000 × 64), the whole
  transposed weight matrix (64 × 64) and the bias row (1 × 64), and stores one 6000 × 64 block: the matrix product
  of the block with the weights plus the bias row repeated down the rows. Here: what the body leaves in the output's
  staging buffer as a function of the three input blocks, the body's triple, and the pipeline's proof data at an
  arbitrary valuation `V` of the buffers at the region's entry (inputs keep their blocks; the output's buffer holds the
  body's result; nothing is owed between points).
-/
import proofs.«119603_j4896262717867_2_alg».proof.Proof.Gen.KernelIdeal.Launch
import proofs.«119603_j4896262717867_2_alg».proof.Proof.Gen.KernelIdeal.Skeleton
import proofs.«119603_j4896262717867_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `6000·t …` of its array for the `x` and output windows, the whole
    array for the weights and the bias, read off the array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the block was fetched at this
    point or is still there from an earlier one (the weights and the bias are fetched once: their block never moves). -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole 6000 × 64 block, the whole 64 × 64 weight matrix, the whole 1 × 64 bias row. -/
abbrev rX2 : Rect S6000x64 := Rect.unit (s := S6000x64) ![0, 0] S6000x64.size inb_S6000x64_S6000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-- What the body leaves in the output's staging buffer: its one store, of `x·W + b` over the three loaded blocks. -/
def dense2 (x : Vec F S6000x64 .f32) (w : Vec F S64x64 .f32) (b : Vec F S1x64 .f32) : Vec F S6000x64 .f32 :=
  View.canon [⟨rX2, k2_pay1 (View.ld x rX2) (View.ld w rW2) (View.ld b rB2)⟩]

/-- The one store covers the whole buffer. -/
theorem dense2_cover (p : Vec F S6000x64 .f32) (y : S6000x64.Idx) :
    ∃ pc ∈ ([⟨rX2, p⟩] : List (View.Piece (Elt F) S6000x64 .f32)), y ∈ pc.1.set :=
  View.cover_of_tiled [⟨rX2, p⟩] S6000x64.size (by rfl) y

set_option maxHeartbeats 1000000 in
/-- The body on whole staging buffers holding `x`, `w`, `b` and anything in the output's: it runs, leaves the inputs
    as they were and the output's buffer at `dense2 x w b`. -/
theorem dense2_triple (c : Dev nD) (E : Set ℕ) (i : grid2.Coords)
    (a1 : Memref sig .tc .vmem S6000x64 .f32) (h1 : a1.IsWhole) (a2 : Memref sig .tc .vmem S64x64 .f32) (h2 : a2.IsWhole)
    (a3 : Memref sig .tc .vmem S1x64 .f32) (h3 : a3.IsWhole) (a4 : Memref sig .tc .vmem S6000x64 .f32) (h4 : a4.IsWhole)
    (x : Vec F S6000x64 .f32) (w : Vec F S64x64 .f32) (b : Vec F S1x64 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (dense2 x w b)) -∗ K ⟨⟩))
      ⊢ wp frame (wpE (defs₀ (F := F)) Variants.none c none) E (cc2__dense_kernel i a1 h1 a2 h2 a3 h3 a4 h4) K := by
  simp only [cc2__dense_kernel_eq_skeleton]; unfold cc2__dense_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (dense2_cover _)

/-- The pipeline's proof data at the entry valuation `V`: the arrays as found; after the body at point `t` each input's
    buffer still at its block and the output's at `dense2` of the three input blocks; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => dense2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) :
    (dat2 V c).after 3 t = dense2 (blk2 V c 0 t) (blk2 V c 1 t) (blk2 V c 2 t) := by dsimp only [dat2]

theorem dat2_before0 (c : Dev nD) (t : Fin cfg2.N) (d) : (dat2 V c).before 0 t d = blk2 V c 0 t :=
  held2_0_of V (dat2 V c) (dat2_A V c 0) (dat2_after0 V c) t d
theorem dat2_before1 (c : Dev nD) (t : Fin cfg2.N) (d) : (dat2 V c).before 1 t d = blk2 V c 1 t :=
  held2_1_of V (dat2 V c) (dat2_A V c 1) (dat2_after1 V c) t d
theorem dat2_before2 (c : Dev nD) (t : Fin cfg2.N) (d) : (dat2 V c).before 2 t d = blk2 V c 2 t :=
  held2_2_of V (dat2 V c) (dat2_A V c 2) (dat2_after2 V c) t d

/-- What the body is called with at point `t`, and what it returns. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and the
    core's dues pass through untouched. -/
theorem body2_sound (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (dense2_triple c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation at every point. -/
theorem body2_obligation (c : Dev nD) : BodyObligation (dat2 (F := F) V c) (defs₀ (F := F)) Variants.none () Set.univ := fun t => by
  rw [bigSep_W2, bigSep_W2]
  exact body2_sound V c t

end Cert.KernelIdeal.Hand

end
-- ==== Proof.KiEdge3.lean ====
/-
  The per-edge message of layer 1, as the pipelined kernel region 3 runs it: a hundred grid points, point `t` working on
  edges `12000·t … 12000·t + 11999`. The body loads its block of the gathered source rows `xj` and target rows `xi`
  (12000 × 64 each), the block of the edge weights `norm` (12000 × 1), the two transposed weight matrices (64 × 64) and
  the two bias rows (1 × 64), and stores one 12000 × 64 block:
  `norm · ((xj · W1ᵀ + b1) + ((xj ∘ xi) · W2ᵀ + b2))`, the edge weight repeated along the row.
  Here: what the body leaves in the output's staging buffer as a function of the seven input blocks, the body's
  triple, and the pipeline's proof data at an arbitrary valuation `V` of the buffers at the region's entry.
-/
import proofs.«119603_j4896262717867_2_alg».proof.Proof.Gen.KernelIdeal.Launch
import proofs.«119603_j4896262717867_2_alg».proof.Proof.Gen.KernelIdeal.Skeleton
import proofs.«119603_j4896262717867_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the edges `12000·t …` of its array for the three per-edge inputs and the
    output, the whole array for the weights and the biases, read off the array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether the block was fetched at this
    point or is still there from an earlier one (the weights and the biases are fetched once: their block never moves). -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem held3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)
theorem held3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)
theorem held3_5_of {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)
theorem held3_6_of {c : Dev nD} (dat : Dat τ (Elt F) Unit ℕ (UR sig nD τ) ℕ cfg3 c) (hA : dat.A 6 = V c (Pipeline.arrRef spec3 6))
    (hafter : ∀ t, dat.after 6 t = blk3 V c 6 t) (t : Fin cfg3.N) (d) : dat.before 6 t d = blk3 V c 6 t :=
  (dat.before_in_eq_fetched 6 rfl (fun _ => rfl) (fun _ _ _ => rfl) (fun t => by rw [hafter]; unfold Dat.blockOf blk3; rw [hA]; try rfl) t d).trans
    (by unfold Dat.fetched Dat.blockOf blk3; rw [hA]; try rfl)

/-- The whole 12000 × 64 block, the whole 12000 × 1 column of edge weights, a whole 64 × 64 matrix, a whole 1 × 64 row. -/
abbrev rE3 : Rect S12000x64 := Rect.unit (s := S12000x64) ![0, 0] S12000x64.size inb_S12000x64_S12000x64_0_0
abbrev rN3 : Rect S12000x1 := Rect.unit (s := S12000x1) ![0, 0] S12000x1.size inb_S12000x1_S12000x1_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0

/-- What the body leaves in the output's staging buffer: its one store, of the weighted message over the seven
    loaded blocks. -/
def edge3 (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) : Vec F S12000x64 .f32 :=
  View.canon [⟨rE3, k3_pay1 (View.ld xj rE3) (View.ld xi rE3) (View.ld w1 rW3) (View.ld b1 rB3) (View.ld w2 rW3) (View.ld b2 rB3) (View.ld nr rN3)⟩]

/-- The one store covers the whole buffer. -/
theorem edge3_cover (p : Vec F S12000x64 .f32) (y : S12000x64.Idx) :
    ∃ pc ∈ ([⟨rE3, p⟩] : List (View.Piece (Elt F) S12000x64 .f32)), y ∈ pc.1.set :=
  View.cover_of_tiled [⟨rE3, p⟩] S12000x64.size (by rfl) y

set_option maxHeartbeats 1000000 in
/-- The body on whole staging buffers holding the seven input blocks and anything in the output's: it runs, leaves
    the inputs as they were and the output's buffer at `edge3` of them. -/
theorem edge3_triple (c : Dev nD) (E : Set ℕ) (i : grid3.Coords)
    (a1 : Memref sig .tc .vmem S12000x64 .f32) (h1 : a1.IsWhole) (a2 : Memref sig .tc .vmem S12000x64 .f32) (h2 : a2.IsWhole) (a3 : Memref sig .tc .vmem S12000x1 .f32) (h3 : a3.IsWhole) (a4 : Memref sig .tc .vmem S64x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S12000x64 .f32) (h8 : a8.IsWhole)
    (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) (K : PUnit → sProp 𝕄) :
    iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
        ∗ (∃ d, owns (c : Thread nD τ) a8 fullShare d)
        ∗ (iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
            ∗ owns (c : Thread nD τ) a8 fullShare (edge3 xj xi nr w1 b1 w2 b2)) -∗ K ⟨⟩))
      ⊢ wp frame (wpE (defs₀ (F := F)) Variants.none c none) E (cc3__edge_kernel i a1 h1 a2 h2 a3 h3 a4 h4 a5 h5 a6 h6 a7 h7 a8 h8) K := by
  simp only [cc3__edge_kernel_eq_skeleton]; unfold cc3__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (edge3_cover _)

/-- The pipeline's proof data at the entry valuation `V`: the arrays as found; after the body at point `t` each input's
    buffer still at its block and the output's at `edge3` of the seven input blocks; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => edge3 (blk3 V c 0 t) (blk3 V c 1 t) (blk3 V c 2 t) (blk3 V c 3 t) (blk3 V c 4 t) (blk3 V c 5 t) (blk3 V c 6 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = blk3 V c 3 t := by dsimp only [dat3]
theorem dat3_after4 (c : Dev nD) (t : Fin cfg3.N) : (dat3 V c).after 4 t = blk3 V c 4 t := by dsimp only [dat3]
theorem dat3_after5 (c : Dev nD) (t : Fin cfg3.N) : (dat3 V c).after 5 t = blk3 V c 5 t := by dsimp only [dat3]
theorem dat3_after6 (c : Dev nD) (t : Fin cfg3.N) : (dat3 V c).after 6 t = blk3 V c 6 t := by dsimp only [dat3]
theorem dat3_after7 (c : Dev nD) (t : Fin cfg3.N) :
    (dat3 V c).after 7 t = edge3 (blk3 V c 0 t) (blk3 V c 1 t) (blk3 V c 2 t) (blk3 V c 3 t) (blk3 V c 4 t) (blk3 V c 5 t) (blk3 V c 6 t) := by dsimp only [dat3]

theorem dat3_before0 (c : Dev nD) (t : Fin cfg3.N) (d) : (dat3 V c).before 0 t d = blk3 V c 0 t :=
  held3_0_of V (dat3 V c) (dat3_A V c 0) (dat3_after0 V c) t d
theorem dat3_before1 (c : Dev nD) (t : Fin cfg3.N) (d) : (dat3 V c).before 1 t d = blk3 V c 1 t :=
  held3_1_of V (dat3 V c) (dat3_A V c 1) (dat3_after1 V c) t d
theorem dat3_before2 (c : Dev nD) (t : Fin cfg3.N) (d) : (dat3 V c).before 2 t d = blk3 V c 2 t :=
  held3_2_of V (dat3 V c) (dat3_A V c 2) (dat3_after2 V c) t d
theorem dat3_before3 (c : Dev nD) (t : Fin cfg3.N) (d) : (dat3 V c).before 3 t d = blk3 V c 3 t :=
  held3_3_of V (dat3 V c) (dat3_A V c 3) (dat3_after3 V c) t d
theorem dat3_before4 (c : Dev nD) (t : Fin cfg3.N) (d) : (dat3 V c).before 4 t d = blk3 V c 4 t :=
  held3_4_of V (dat3 V c) (dat3_A V c 4) (dat3_after4 V c) t d
theorem dat3_before5 (c : Dev nD) (t : Fin cfg3.N) (d) : (dat3 V c).before 5 t d = blk3 V c 5 t :=
  held3_5_of V (dat3 V c) (dat3_A V c 5) (dat3_after5 V c) t d
theorem dat3_before6 (c : Dev nD) (t : Fin cfg3.N) (d) : (dat3 V c).before 6 t d = blk3 V c 6 t :=
  held3_6_of V (dat3 V c) (dat3_A V c 6) (dat3_after6 V c) t d

/-- What the body is called with at point `t`, and what it returns. -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the input buffers hold their blocks, so the body's triple applies; the invariant and the
    core's dues pass through untouched. -/
theorem body3_sound (c : Dev nD) (t : Fin cfg3.N) :
    pre3 V c t ⊢ wp frame (wpE (defs₀ (F := F)) Variants.none c none) Set.univ (bodyAt3 t) (fun _ => post3 V c t) := by
  unfold pre3 post3 bodyAt3
  simp only [dat3_before0, dat3_before1, dat3_before2, dat3_before3, dat3_before4, dat3_before5, dat3_before6]
  rw [show (dat3 V c).Φ t.succ = (dat3 V c).Φ t.castSucc from rfl,
    show (dat3 V c).owesAt () t.succ = (dat3 V c).owesAt () t.castSucc from rfl,
    dat3_after0, dat3_after1, dat3_after2, dat3_after3, dat3_after4, dat3_after5, dat3_after6, dat3_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge3_triple c Set.univ _ _ _ _ _ _ _ _ _ _ _ _ _ _ _ _ _ (blk3 V c 0 t) (blk3 V c 1 t) (blk3 V c 2 t) (blk3 V c 3 t) (blk3 V c 4 t) (blk3 V c 5 t) (blk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation at every point. -/
theorem body3_obligation (c : Dev nD) : BodyObligation (dat3 (F := F) V c) (defs₀ (F := F)) Variants.none () Set.univ := fun t => by
  rw [bigSep_W3, bigSep_W3]
  exact body3_sound V c t

end Cert.KernelIdeal.Hand

end
-- ==== Proof.KiDense4.lean ====
/-
  The dense projection `y = x · Wᵀ + b` of layer 2, as the pipelined kernel region 4 runs it: ten grid points, point `t`
  working on rows `6000·t … 6000·t + 5999` of the node table. The body loads its block of `x` (6000 × 64), the whole
  transposed weight matrix (64 × 64) and the bias row (1 × 64), and stores one 6000 × 64 block: the matrix product
  of the block with the weights plus the bias row repeated down the rows. Here: what the body leaves in the output's
  staging buffer as a function of the three input blocks, the body's triple, and the pipeline's proof data at an
  arbitrary valuation `V` of the buffers at the region's entry (inputs keep their blocks; the output's buffer holds the
  body's result; nothing is owed between points).
-/
import proofs.«119603_j4896262717867_2_alg».proof.Proof.Gen.KernelIdeal.Launch
import proofs.«119603_j4896262717867_2_alg».proof.Proof.Gen.KernelIdeal.Skeleton
import proofs.«119603_j4896262717867_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `6000·t …` of its array for the `x` and output windows, the whole
    array for the weights and the bias, read off the array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every point, whether the block was fetched at this
    point or is still there from an earlier one (the weights and the bias are fetched once: their block never moves). -/
theorem held4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem held4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)
theorem held4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The whole 6000 × 64 block, the whole 64 × 64 weight matrix, the whole 1 × 64 bias row. -/
abbrev rX4 : Rect S6000x64 := Rect.unit (s := S6000x64) ![0, 0] S6000x64.size inb_S6000x64_S6000x64_0_0
abbrev rW4 : Rect S64x64 := Rect.unit (s := S64x64) ![0, 0] S64x64.size inb_S64x64_S64x64_0_0
abbrev rB4 : Rect S1x64 := Rect.unit (s := S1x64) ![0, 0] S1x64.size inb_S1x64_S1x64_0_0

/-- What the body leaves in the output's staging buffer: its one store, of `x·W + b` over the three loaded blocks. -/
def dense4 (x : Vec F S6000x64 .f32) (w : Vec F S64x64 .f32) (b : Vec F S1x64 .f32) : Vec F S6000x64 .f32 :=
  View.canon [⟨rX4, k4_pay1 (View.ld x rX4) (View.ld w rW4) (View.ld b rB4)⟩]

/-- The one store covers the whole buffer. -/
theorem dense4_cover (p : Vec F S6000x64 .f32) (y : S6000x64.Idx) :
    ∃ pc ∈ ([⟨rX4, p⟩] : List (View.Piece (Elt F) S6000x64 .f32)), y ∈ pc.1.set :=
  View.cover_of_tiled [⟨rX4, p⟩] S6000x64.size (by rfl) y

set_option maxHeartbeats 1000000 in
/-- The body on whole staging buffers holding `x`, `w`, `b` and anything in the output's: it runs, leaves the inputs
    as they were and the output's buffer at `dense4 x w b`. -/
theorem dense4_triple (c : Dev nD) (E : Set ℕ) (i : grid4.Coords)
    (a1 : Memref sig .tc .vmem S6000x64 .f32) (h1 : a1.IsWhole) (a2 : Memref sig .tc .vmem S64x64 .f32) (h2 : a2.IsWhole)
    (a3 : Memref sig .tc .vmem S1x64 .f32) (h3 : a3.IsWhole) (a4 : Memref sig .tc .vmem S6000x64 .f32) (h4 : a4.IsWhole)
    (x : Vec F S6000x64 .f32) (w : Vec F S64x64 .f32) (b : Vec F S1x64 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (dense4 x w b)) -∗ K ⟨⟩))
      ⊢ wp frame (wpE (defs₀ (F := F)) Variants.none c none) E (cc4__dense_kernel i a1 h1 a2 h2 a3 h3 a4 h4) K := by
  simp only [cc4__dense_kernel_eq_skeleton]; unfold cc4__dense_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (dense4_cover _)

/-- The pipeline's proof data at the entry valuation `V`: the arrays as found; after the body at point `t` each input's
    buffer still at its block and the output's at `dense4` of the three input blocks; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => dense4 (blk4 V c 0 t) (blk4 V c 1 t) (blk4 V c 2 t)
  Φ _ := Pipeline.ΦA spec4 c
  q _ := fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) : (dat4 V c).after 2 t = blk4 V c 2 t := by dsimp only [dat4]
theorem dat4_after3 (c : Dev nD) (t : Fin cfg4.N) :
    (dat4 V c).after 3 t = dense4 (blk4 V c 0 t) (blk4 V c 1 t) (blk4 V c 2 t) := by dsimp only [dat4]

theorem dat4_before0 (c : Dev nD) (t : Fin cfg4.N) (d) : (dat4 V c).before 0 t d = blk4 V c 0 t :=
  held4_0_of V (dat4 V c) (dat4_A V c 0) (dat4_after0 V c) t d
theorem dat4_before1 (c : Dev nD) (t : Fin cfg4.N) (d) : (dat4 V c).before 1 t d = blk4 V c 1 t :=
  held4_1_of V (dat4 V c) (dat4_A V c 1) (dat4_after1 V c) t d
theorem dat4_before2 (c : Dev nD) (t : Fin cfg4.N) (d) : (dat4 V c).before 2 t d = blk4 V c 2 t :=
  held4_2_of V (dat4 V c) (dat4_A V c 2) (dat4_after2 V c) t d

/-- What the body is called with at point `t`, and what it returns. -/
def pre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def post4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the input buffers hold their blocks, so the body's triple applies; the invariant and the
    core's dues pass through untouched. -/
theorem body4_sound (c : Dev nD) (t : Fin cfg4.N) :
    pre4 V c t ⊢ wp frame (wpE (defs₀ (F := F)) Variants.none c none) Set.univ (bodyAt4 t) (fun _ => post4 V c t) := by
  unfold pre4 post4 bodyAt4
  simp only [dat4_before0, dat4_before1, dat4_before2]
  rw [show (dat4 V c).Φ t.succ = (dat4 V c).Φ t.castSucc from rfl,
    show (dat4 V c).owesAt () t.succ = (dat4 V c).owesAt () t.castSucc from rfl,
    dat4_after0, dat4_after1, dat4_after2, dat4_after3]
  iintro ⟨HΦ, Ho, ⟨%d0, H0⟩, ⟨%d1, H1⟩, ⟨%d2, H2⟩, ⟨%d3, H3⟩⟩
  iapply (dense4_triple c Set.univ _ _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation at every point. -/
theorem body4_obligation (c : Dev nD) : BodyObligation (dat4 (F := F) V c) (defs₀ (F := F)) Variants.none () Set.univ := fun t => by
  rw [bigSep_W4, bigSep_W4]
  exact body4_sound V c t

end Cert.KernelIdeal.Hand

end
-- ==== Proof.KiEdge5.lean ====
/-
  The per-edge message of layer 2, as the pipelined kernel region 5 runs it: a hundred grid points, point `t` working on
  edges `12000·t … 12000·t + 11999`. The body loads its block of the gathered source rows `xj` and target rows `xi`
  (12000 × 64 each), the block of the edge weights `norm` (12000 × 1), the two transposed weight matrices (64 × 64) and
  the two bias rows (1 × 64), and stores one 12000 × 64 block:
  `norm · ((xj · W1ᵀ + b1) + ((xj ∘ xi) · W2ᵀ + b2))`, the edge weight repeated along the row.
  Here: what the body leaves in the output's staging buffer as a function of the seven input blocks, the body's
  triple, and the pipeline's proof data at an arbitrary valuation `V` of the buffers at the region's entry.
-/
import proofs.«119603_j4896262717867_2_alg».proof.Proof.Gen.KernelIdeal.Launch
import proofs.«119603_j4896262717867_2_alg».proof.Proof.Gen.KernelIdeal.Skeleton
import proofs.«119603_j4896262717867_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the edges `12000·t …` of its array for the three per-edge inputs and the
    output, the whole array for the weights and the biases, read off the array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every point, whether the block was fetched at this
    point or is still there from an earlier one (the weights and the biases are fetched once: their block never moves). -/
theorem held5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)
theorem held5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)
theorem held5_2_of {c : Dev nD} (dat : Dat τ (Elt F) Unit ℕ (UR sig nD τ) ℕ cfg5 c) (hA : dat.A 2 = V c (Pipeline.arrRef spec5 2))
    (hafter : ∀ t, dat.after 2 t = blk5 V c 2 t) (t : Fin cfg5.N) (d) : dat.before 2 t d = blk5 V c 2 t :=
  (dat.before_in_eq_fetched 2 rfl (fun _ => rfl) (fun _ _ _ => rfl) (fun t => by rw [hafter]; unfold Dat.blockOf blk5; rw [hA]; try rfl) t d).trans
    (by unfold Dat.fetched Dat.blockOf blk5; rw [hA]; try rfl)
theorem held5_3_of {c : Dev nD} (dat : Dat τ (Elt F) Unit ℕ (UR sig nD τ) ℕ cfg5 c) (hA : dat.A 3 = V c (Pipeline.arrRef spec5 3))
    (hafter : ∀ t, dat.after 3 t = blk5 V c 3 t) (t : Fin cfg5.N) (d) : dat.before 3 t d = blk5 V c 3 t :=
  (dat.before_in_eq_fetched 3 rfl (fun _ => rfl) (fun _ _ _ => rfl) (fun t => by rw [hafter]; unfold Dat.blockOf blk5; rw [hA]; try rfl) t d).trans
    (by unfold Dat.fetched Dat.blockOf blk5; rw [hA]; try rfl)
theorem held5_4_of {c : Dev nD} (dat : Dat τ (Elt F) Unit ℕ (UR sig nD τ) ℕ cfg5 c) (hA : dat.A 4 = V c (Pipeline.arrRef spec5 4))
    (hafter : ∀ t, dat.after 4 t = blk5 V c 4 t) (t : Fin cfg5.N) (d) : dat.before 4 t d = blk5 V c 4 t :=
  (dat.before_in_eq_fetched 4 rfl (fun _ => rfl) (fun _ _ _ => rfl) (fun t => by rw [hafter]; unfold Dat.blockOf blk5; rw [hA]; try rfl) t d).trans
    (by unfold Dat.fetched Dat.blockOf blk5; rw [hA]; try rfl)
theorem held5_5_of {c : Dev nD} (dat : Dat τ (Elt F) Unit ℕ (UR sig nD τ) ℕ cfg5 c) (hA : dat.A 5 = V c (Pipeline.arrRef spec5 5))
    (hafter : ∀ t, dat.after 5 t = blk5 V c 5 t) (t : Fin cfg5.N) (d) : dat.before 5 t d = blk5 V c 5 t :=
  (dat.before_in_eq_fetched 5 rfl (fun _ => rfl) (fun _ _ _ => rfl) (fun t => by rw [hafter]; unfold Dat.blockOf blk5; rw [hA]; try rfl) t d).trans
    (by unfold Dat.fetched Dat.blockOf blk5; rw [hA]; try rfl)
theorem held5_6_of {c : Dev nD} (dat : Dat τ (Elt F) Unit ℕ (UR sig nD τ) ℕ cfg5 c) (hA : dat.A 6 = V c (Pipeline.arrRef spec5 6))
    (hafter : ∀ t, dat.after 6 t = blk5 V c 6 t) (t : Fin cfg5.N) (d) : dat.before 6 t d = blk5 V c 6 t :=
  (dat.before_in_eq_fetched 6 rfl (fun _ => rfl) (fun _ _ _ => rfl) (fun t => by rw [hafter]; unfold Dat.blockOf blk5; rw [hA]; try rfl) t d).trans
    (by unfold Dat.fetched Dat.blockOf blk5; rw [hA]; try rfl)

/-- The whole 12000 × 64 block, the whole 12000 × 1 column of edge weights, a whole 64 × 64 matrix, a whole 1 × 64 row. -/
abbrev rE5 : Rect S12000x64 := Rect.unit (s := S12000x64) ![0, 0] S12000x64.size inb_S12000x64_S12000x64_0_0
abbrev rN5 : Rect S12000x1 := Rect.unit (s := S12000x1) ![0, 0] S12000x1.size inb_S12000x1_S12000x1_0_0
abbrev rW5 : Rect S64x64 := Rect.unit (s := S64x64) ![0, 0] S64x64.size inb_S64x64_S64x64_0_0
abbrev rB5 : Rect S1x64 := Rect.unit (s := S1x64) ![0, 0] S1x64.size inb_S1x64_S1x64_0_0

/-- What the body leaves in the output's staging buffer: its one store, of the weighted message over the seven
    loaded blocks. -/
def edge5 (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) : Vec F S12000x64 .f32 :=
  View.canon [⟨rE5, k5_pay1 (View.ld xj rE5) (View.ld xi rE5) (View.ld w1 rW5) (View.ld b1 rB5) (View.ld w2 rW5) (View.ld b2 rB5) (View.ld nr rN5)⟩]

/-- The one store covers the whole buffer. -/
theorem edge5_cover (p : Vec F S12000x64 .f32) (y : S12000x64.Idx) :
    ∃ pc ∈ ([⟨rE5, p⟩] : List (View.Piece (Elt F) S12000x64 .f32)), y ∈ pc.1.set :=
  View.cover_of_tiled [⟨rE5, p⟩] S12000x64.size (by rfl) y

set_option maxHeartbeats 1000000 in
/-- The body on whole staging buffers holding the seven input blocks and anything in the output's: it runs, leaves
    the inputs as they were and the output's buffer at `edge5` of them. -/
theorem edge5_triple (c : Dev nD) (E : Set ℕ) (i : grid5.Coords)
    (a1 : Memref sig .tc .vmem S12000x64 .f32) (h1 : a1.IsWhole) (a2 : Memref sig .tc .vmem S12000x64 .f32) (h2 : a2.IsWhole) (a3 : Memref sig .tc .vmem S12000x1 .f32) (h3 : a3.IsWhole) (a4 : Memref sig .tc .vmem S64x64 .f32) (h4 : a4.IsWhole) (a5 : Memref sig .tc .vmem S1x64 .f32) (h5 : a5.IsWhole) (a6 : Memref sig .tc .vmem S64x64 .f32) (h6 : a6.IsWhole) (a7 : Memref sig .tc .vmem S1x64 .f32) (h7 : a7.IsWhole) (a8 : Memref sig .tc .vmem S12000x64 .f32) (h8 : a8.IsWhole)
    (xj : Vec F S12000x64 .f32) (xi : Vec F S12000x64 .f32) (nr : Vec F S12000x1 .f32) (w1 : Vec F S64x64 .f32) (b1 : Vec F S1x64 .f32) (w2 : Vec F S64x64 .f32) (b2 : Vec F S1x64 .f32) (K : PUnit → sProp 𝕄) :
    iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
        ∗ (∃ d, owns (c : Thread nD τ) a8 fullShare d)
        ∗ (iprop(owns (c : Thread nD τ) a1 fullShare xj ∗ owns (c : Thread nD τ) a2 fullShare xi ∗ owns (c : Thread nD τ) a3 fullShare nr ∗ owns (c : Thread nD τ) a4 fullShare w1 ∗ owns (c : Thread nD τ) a5 fullShare b1 ∗ owns (c : Thread nD τ) a6 fullShare w2 ∗ owns (c : Thread nD τ) a7 fullShare b2
            ∗ owns (c : Thread nD τ) a8 fullShare (edge5 xj xi nr w1 b1 w2 b2)) -∗ K ⟨⟩))
      ⊢ wp frame (wpE (defs₀ (F := F)) Variants.none c none) E (cc5__edge_kernel i a1 h1 a2 h2 a3 h3 a4 h4 a5 h5 a6 h6 a7 h7 a8 h8) K := by
  simp only [cc5__edge_kernel_eq_skeleton]; unfold cc5__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (edge5_cover _)

/-- The pipeline's proof data at the entry valuation `V`: the arrays as found; after the body at point `t` each input's
    buffer still at its block and the output's at `edge5` of the seven input blocks; nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => blk5 V c 5 t
    | ⟨6, _⟩ => blk5 V c 6 t
    | ⟨7, _⟩ => edge5 (blk5 V c 0 t) (blk5 V c 1 t) (blk5 V c 2 t) (blk5 V c 3 t) (blk5 V c 4 t) (blk5 V c 5 t) (blk5 V c 6 t)
  Φ _ := Pipeline.ΦA spec5 c
  q _ := fullShare
  owed _ := 0

theorem dat5_A (c : Dev nD) (w : Fin cfg5.W) : (dat5 V c).A w = V c (Pipeline.arrRef spec5 w) := by
  dsimp only [dat5]
theorem dat5_after0 (c : Dev nD) (t : Fin cfg5.N) : (dat5 V c).after 0 t = blk5 V c 0 t := by dsimp only [dat5]
theorem dat5_after1 (c : Dev nD) (t : Fin cfg5.N) : (dat5 V c).after 1 t = blk5 V c 1 t := by dsimp only [dat5]
theorem dat5_after2 (c : Dev nD) (t : Fin cfg5.N) : (dat5 V c).after 2 t = blk5 V c 2 t := by dsimp only [dat5]
theorem dat5_after3 (c : Dev nD) (t : Fin cfg5.N) : (dat5 V c).after 3 t = blk5 V c 3 t := by dsimp only [dat5]
theorem dat5_after4 (c : Dev nD) (t : Fin cfg5.N) : (dat5 V c).after 4 t = blk5 V c 4 t := by dsimp only [dat5]
theorem dat5_after5 (c : Dev nD) (t : Fin cfg5.N) : (dat5 V c).after 5 t = blk5 V c 5 t := by dsimp only [dat5]
theorem dat5_after6 (c : Dev nD) (t : Fin cfg5.N) : (dat5 V c).after 6 t = blk5 V c 6 t := by dsimp only [dat5]
theorem dat5_after7 (c : Dev nD) (t : Fin cfg5.N) :
    (dat5 V c).after 7 t = edge5 (blk5 V c 0 t) (blk5 V c 1 t) (blk5 V c 2 t) (blk5 V c 3 t) (blk5 V c 4 t) (blk5 V c 5 t) (blk5 V c 6 t) := by dsimp only [dat5]

theorem dat5_before0 (c : Dev nD) (t : Fin cfg5.N) (d) : (dat5 V c).before 0 t d = blk5 V c 0 t :=
  held5_0_of V (dat5 V c) (dat5_A V c 0) (dat5_after0 V c) t d
theorem dat5_before1 (c : Dev nD) (t : Fin cfg5.N) (d) : (dat5 V c).before 1 t d = blk5 V c 1 t :=
  held5_1_of V (dat5 V c) (dat5_A V c 1) (dat5_after1 V c) t d
theorem dat5_before2 (c : Dev nD) (t : Fin cfg5.N) (d) : (dat5 V c).before 2 t d = blk5 V c 2 t :=
  held5_2_of V (dat5 V c) (dat5_A V c 2) (dat5_after2 V c) t d
theorem dat5_before3 (c : Dev nD) (t : Fin cfg5.N) (d) : (dat5 V c).before 3 t d = blk5 V c 3 t :=
  held5_3_of V (dat5 V c) (dat5_A V c 3) (dat5_after3 V c) t d
theorem dat5_before4 (c : Dev nD) (t : Fin cfg5.N) (d) : (dat5 V c).before 4 t d = blk5 V c 4 t :=
  held5_4_of V (dat5 V c) (dat5_A V c 4) (dat5_after4 V c) t d
theorem dat5_before5 (c : Dev nD) (t : Fin cfg5.N) (d) : (dat5 V c).before 5 t d = blk5 V c 5 t :=
  held5_5_of V (dat5 V c) (dat5_A V c 5) (dat5_after5 V c) t d
theorem dat5_before6 (c : Dev nD) (t : Fin cfg5.N) (d) : (dat5 V c).before 6 t d = blk5 V c 6 t :=
  held5_6_of V (dat5 V c) (dat5_A V c 6) (dat5_after6 V c) t d

/-- What the body is called with at point `t`, and what it returns. -/
def pre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def post5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the input buffers hold their blocks, so the body's triple applies; the invariant and the
    core's dues pass through untouched. -/
theorem body5_sound (c : Dev nD) (t : Fin cfg5.N) :
    pre5 V c t ⊢ wp frame (wpE (defs₀ (F := F)) Variants.none c none) Set.univ (bodyAt5 t) (fun _ => post5 V c t) := by
  unfold pre5 post5 bodyAt5
  simp only [dat5_before0, dat5_before1, dat5_before2, dat5_before3, dat5_before4, dat5_before5, dat5_before6]
  rw [show (dat5 V c).Φ t.succ = (dat5 V c).Φ t.castSucc from rfl,
    show (dat5 V c).owesAt () t.succ = (dat5 V c).owesAt () t.castSucc from rfl,
    dat5_after0, dat5_after1, dat5_after2, dat5_after3, dat5_after4, dat5_after5, dat5_after6, dat5_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge5_triple c Set.univ _ _ _ _ _ _ _ _ _ _ _ _ _ _ _ _ _ (blk5 V c 0 t) (blk5 V c 1 t) (blk5 V c 2 t) (blk5 V c 3 t) (blk5 V c 4 t) (blk5 V c 5 t) (blk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation at every point. -/
theorem body5_obligation (c : Dev nD) : BodyObligation (dat5 (F := F) V c) (defs₀ (F := F)) Variants.none () Set.univ := fun t => by
  rw [bigSep_W5, bigSep_W5]
  exact body5_sound V c t

end Cert.KernelIdeal.Hand

end
-- ==== Proof.KiRun.lean ====
/-
  The six kernel regions of the three message-passing layers as segments of the program's run, and the run itself.
  Between two items of @main every unscoped buffer of a core is held at a valuation: the launch memory, then each host
  stretch applied, then — after a region — the region's output array replaced by what the pipeline's write-backs leave
  (`outs`). Each region is entered with its arrays split out of the held buffers and left with them put back, the
  output's array at the fold of its blocks' write-backs; the core's generator register and its (empty) dues ride along.
  The contents `outs` are any that satisfy `Leaves`: each region's output array is what its own proof data says.
-/
import proofs.«119603_j4896262717867_2_alg».proof.Proof.KiDense0
import proofs.«119603_j4896262717867_2_alg».proof.Proof.KiEdge1
import proofs.«119603_j4896262717867_2_alg».proof.Proof.KiDense2
import proofs.«119603_j4896262717867_2_alg».proof.Proof.KiEdge3
import proofs.«119603_j4896262717867_2_alg».proof.Proof.KiDense4
import proofs.«119603_j4896262717867_2_alg».proof.Proof.KiEdge5
import proofs.«119603_j4896262717867_2_alg».proof.Proof.Gen.KernelIdeal.Regions
import proofs.«119603_j4896262717867_2_alg».proof.Proof.KiCondAll

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The buffers as each region finds and leaves them -/

/-- Region 0's entry and exit contents, read at the TensorCore's references. -/
abbrev en0 : (c : Dev nD) → (b : Ref sig .tc) → Buf (Elt F) ((c : Thread nD τ).loc b) := fun c b => V3 m c b
abbrev ex0 : (c : Dev nD) → (b : Ref sig .tc) → Buf (Elt F) ((c : Thread nD τ).loc b) := fun c b => V4 m outs c b
/-- Region 1's entry and exit contents, read at the TensorCore's references. -/
abbrev en1 : (c : Dev nD) → (b : Ref sig .tc) → Buf (Elt F) ((c : Thread nD τ).loc b) := fun c b => V5 m outs c b
abbrev ex1 : (c : Dev nD) → (b : Ref sig .tc) → Buf (Elt F) ((c : Thread nD τ).loc b) := fun c b => V6 m outs c b
/-- Region 2's entry and exit contents, read at the TensorCore's references. -/
abbrev en2 : (c : Dev nD) → (b : Ref sig .tc) → Buf (Elt F) ((c : Thread nD τ).loc b) := fun c b => V9 m outs c b
abbrev ex2 : (c : Dev nD) → (b : Ref sig .tc) → Buf (Elt F) ((c : Thread nD τ).loc b) := fun c b => V10 m outs c b
/-- Region 3's entry and exit contents, read at the TensorCore's references. -/
abbrev en3 : (c : Dev nD) → (b : Ref sig .tc) → Buf (Elt F) ((c : Thread nD τ).loc b) := fun c b => V11 m outs c b
abbrev ex3 : (c : Dev nD) → (b : Ref sig .tc) → Buf (Elt F) ((c : Thread nD τ).loc b) := fun c b => V12 m outs c b
/-- Region 4's entry and exit contents, read at the TensorCore's references. -/
abbrev en4 : (c : Dev nD) → (b : Ref sig .tc) → Buf (Elt F) ((c : Thread nD τ).loc b) := fun c b => V15 m outs c b
abbrev ex4 : (c : Dev nD) → (b : Ref sig .tc) → Buf (Elt F) ((c : Thread nD τ).loc b) := fun c b => V16 m outs c b
/-- Region 5's entry and exit contents, read at the TensorCore's references. -/
abbrev en5 : (c : Dev nD) → (b : Ref sig .tc) → Buf (Elt F) ((c : Thread nD τ).loc b) := fun c b => V17 m outs c b
abbrev ex5 : (c : Dev nD) → (b : Ref sig .tc) → Buf (Elt F) ((c : Thread nD τ).loc b) := fun c b => V18 m outs c b

/-- The contents the regions leave are the ones their proof data name: each region's output array after the region is
    the fold of its blocks' write-backs over the array as the region found it. -/
structure Leaves : Prop where
  l0 : ∀ c : Dev nD, outs 4 main_v42 c = (dat0 (en0 m) c).arrAt 3 cfg0.N
  l1 : ∀ c : Dev nD, outs 6 main_v57 c = (dat1 (en1 m outs) c).arrAt 7 cfg1.N
  l2 : ∀ c : Dev nD, outs 10 main_v75 c = (dat2 (en2 m outs) c).arrAt 3 cfg2.N
  l3 : ∀ c : Dev nD, outs 12 main_v90 c = (dat3 (en3 m outs) c).arrAt 7 cfg3.N
  l4 : ∀ c : Dev nD, outs 16 main_v108 c = (dat4 (en4 m outs) c).arrAt 3 cfg4.N
  l5 : ∀ c : Dev nD, outs 18 main_v123 c = (dat5 (en5 m outs) c).arrAt 7 cfg5.N

/-- Every pipeline's proof data, each at its region's entry contents. -/
def pdats : (p : Fin 6) → (c : Dev nD) → Dat τ (Elt F) Unit ℕ (UR sig nD τ) ℕ (cfgs p) c
  | ⟨0, _⟩ => fun c => dat0 (en0 m) c
  | ⟨1, _⟩ => fun c => dat1 (en1 m outs) c
  | ⟨2, _⟩ => fun c => dat2 (en2 m outs) c
  | ⟨3, _⟩ => fun c => dat3 (en3 m outs) c
  | ⟨4, _⟩ => fun c => dat4 (en4 m outs) c
  | ⟨5, _⟩ => fun c => dat5 (en5 m outs) c

abbrev 𝒱n : Variants := Variants.none
/-- No core owes another anything: no level is assigned. -/
abbrev Lf : GSem nD τ sig → Finset Unit := fun _ => ∅
abbrev lvf : GSem nD τ sig → Unit → ℕ := fun _ _ => 0
/-- What rides beside the buffers through every item: the core's generator register at some state, and nothing owed. -/
abbrev Rest (c : Dev nD) : sProp 𝕄 := iprop((∃ r, prngReg c r) ∗ ∃ W, owes (c : Thread nD τ) (0 : CellTallies nD τ sig Unit) W)

variable {m outs}

/-! ## What each region leaves: its output array folded, everything else as found -/

theorem ins0 : ∀ w : Fin cfg0.W, w ≠ (3 : Fin cfg0.W) →
    (cfg0.win w).isOut = false ∧ Pipeline.arrRef spec0 w ∉ ([main_v42] : List (Ref sig .tc)) := by decide
theorem left0_in (c : Dev nD) (w : Fin cfg0.W) (hw : (cfg0.win w).isOut = false)
    (hne : Pipeline.arrRef spec0 w ∉ ([main_v42] : List (Ref sig .tc))) :
    (dat0 (en0 m) c).arrAt w cfg0.N = ex0 m outs c (Pipeline.arrRef spec0 w) :=
  ((dat0 (en0 m) c).arrAt_in w hw cfg0.N).trans
    ((dat0_A (en0 m) c w).trans (V4_of m outs c (Pipeline.arrRef spec0 w) hne).symm)
theorem left0 (H : Leaves m outs) (c : Dev nD) (w : Fin cfg0.W) :
    (dat0 (en0 m) c).arrAt w cfg0.N = ex0 m outs c (Pipeline.arrRef spec0 w) := by
  by_cases h : w = (3 : Fin cfg0.W)
  · subst h
    exact (H.l0 c).symm.trans (by
      show _ = Function.update (V3 m c) (Proc.devRef .tc main_v42) (outs 4 main_v42 c) (Proc.devRef .tc main_v42)
      rw [Function.update_self])
  · exact left0_in c w (ins0 w h).1 (ins0 w h).2
theorem kept0 (c : Dev nD) : ∀ b, b ∉ Finset.univ.image (Pipeline.arrRef spec0) → ex0 m outs c b = en0 m c b :=
  fun b hb => V4_of m outs c b (by
    intro h
    rw [List.mem_singleton] at h
    exact hb (Finset.mem_image.mpr ⟨3, Finset.mem_univ _, h.symm⟩))

theorem ins1 : ∀ w : Fin cfg1.W, w ≠ (7 : Fin cfg1.W) →
    (cfg1.win w).isOut = false ∧ Pipeline.arrRef spec1 w ∉ ([main_v57] : List (Ref sig .tc)) := by decide
theorem left1_in (c : Dev nD) (w : Fin cfg1.W) (hw : (cfg1.win w).isOut = false)
    (hne : Pipeline.arrRef spec1 w ∉ ([main_v57] : List (Ref sig .tc))) :
    (dat1 (en1 m outs) c).arrAt w cfg1.N = ex1 m outs c (Pipeline.arrRef spec1 w) :=
  ((dat1 (en1 m outs) c).arrAt_in w hw cfg1.N).trans
    ((dat1_A (en1 m outs) c w).trans (V6_of m outs c (Pipeline.arrRef spec1 w) hne).symm)
theorem left1 (H : Leaves m outs) (c : Dev nD) (w : Fin cfg1.W) :
    (dat1 (en1 m outs) c).arrAt w cfg1.N = ex1 m outs c (Pipeline.arrRef spec1 w) := by
  by_cases h : w = (7 : Fin cfg1.W)
  · subst h
    exact (H.l1 c).symm.trans (by
      show _ = Function.update (V5 m outs c) (Proc.devRef .tc main_v57) (outs 6 main_v57 c) (Proc.devRef .tc main_v57)
      rw [Function.update_self])
  · exact left1_in c w (ins1 w h).1 (ins1 w h).2
theorem kept1 (c : Dev nD) : ∀ b, b ∉ Finset.univ.image (Pipeline.arrRef spec1) → ex1 m outs c b = en1 m outs c b :=
  fun b hb => V6_of m outs c b (by
    intro h
    rw [List.mem_singleton] at h
    exact hb (Finset.mem_image.mpr ⟨7, Finset.mem_univ _, h.symm⟩))

theorem ins2 : ∀ w : Fin cfg2.W, w ≠ (3 : Fin cfg2.W) →
    (cfg2.win w).isOut = false ∧ Pipeline.arrRef spec2 w ∉ ([main_v75] : List (Ref sig .tc)) := by decide
theorem left2_in (c : Dev nD) (w : Fin cfg2.W) (hw : (cfg2.win w).isOut = false)
    (hne : Pipeline.arrRef spec2 w ∉ ([main_v75] : List (Ref sig .tc))) :
    (dat2 (en2 m outs) c).arrAt w cfg2.N = ex2 m outs c (Pipeline.arrRef spec2 w) :=
  ((dat2 (en2 m outs) c).arrAt_in w hw cfg2.N).trans
    ((dat2_A (en2 m outs) c w).trans (V10_of m outs c (Pipeline.arrRef spec2 w) hne).symm)
theorem left2 (H : Leaves m outs) (c : Dev nD) (w : Fin cfg2.W) :
    (dat2 (en2 m outs) c).arrAt w cfg2.N = ex2 m outs c (Pipeline.arrRef spec2 w) := by
  by_cases h : w = (3 : Fin cfg2.W)
  · subst h
    exact (H.l2 c).symm.trans (by
      show _ = Function.update (V9 m outs c) (Proc.devRef .tc main_v75) (outs 10 main_v75 c) (Proc.devRef .tc main_v75)
      rw [Function.update_self])
  · exact left2_in c w (ins2 w h).1 (ins2 w h).2
theorem kept2 (c : Dev nD) : ∀ b, b ∉ Finset.univ.image (Pipeline.arrRef spec2) → ex2 m outs c b = en2 m outs c b :=
  fun b hb => V10_of m outs c b (by
    intro h
    rw [List.mem_singleton] at h
    exact hb (Finset.mem_image.mpr ⟨3, Finset.mem_univ _, h.symm⟩))

theorem ins3 : ∀ w : Fin cfg3.W, w ≠ (7 : Fin cfg3.W) →
    (cfg3.win w).isOut = false ∧ Pipeline.arrRef spec3 w ∉ ([main_v90] : List (Ref sig .tc)) := by decide
theorem left3_in (c : Dev nD) (w : Fin cfg3.W) (hw : (cfg3.win w).isOut = false)
    (hne : Pipeline.arrRef spec3 w ∉ ([main_v90] : List (Ref sig .tc))) :
    (dat3 (en3 m outs) c).arrAt w cfg3.N = ex3 m outs c (Pipeline.arrRef spec3 w) :=
  ((dat3 (en3 m outs) c).arrAt_in w hw cfg3.N).trans
    ((dat3_A (en3 m outs) c w).trans (V12_of m outs c (Pipeline.arrRef spec3 w) hne).symm)
theorem left3 (H : Leaves m outs) (c : Dev nD) (w : Fin cfg3.W) :
    (dat3 (en3 m outs) c).arrAt w cfg3.N = ex3 m outs c (Pipeline.arrRef spec3 w) := by
  by_cases h : w = (7 : Fin cfg3.W)
  · subst h
    exact (H.l3 c).symm.trans (by
      show _ = Function.update (V11 m outs c) (Proc.devRef .tc main_v90) (outs 12 main_v90 c) (Proc.devRef .tc main_v90)
      rw [Function.update_self])
  · exact left3_in c w (ins3 w h).1 (ins3 w h).2
theorem kept3 (c : Dev nD) : ∀ b, b ∉ Finset.univ.image (Pipeline.arrRef spec3) → ex3 m outs c b = en3 m outs c b :=
  fun b hb => V12_of m outs c b (by
    intro h
    rw [List.mem_singleton] at h
    exact hb (Finset.mem_image.mpr ⟨7, Finset.mem_univ _, h.symm⟩))

theorem ins4 : ∀ w : Fin cfg4.W, w ≠ (3 : Fin cfg4.W) →
    (cfg4.win w).isOut = false ∧ Pipeline.arrRef spec4 w ∉ ([main_v108] : List (Ref sig .tc)) := by decide
theorem left4_in (c : Dev nD) (w : Fin cfg4.W) (hw : (cfg4.win w).isOut = false)
    (hne : Pipeline.arrRef spec4 w ∉ ([main_v108] : List (Ref sig .tc))) :
    (dat4 (en4 m outs) c).arrAt w cfg4.N = ex4 m outs c (Pipeline.arrRef spec4 w) :=
  ((dat4 (en4 m outs) c).arrAt_in w hw cfg4.N).trans
    ((dat4_A (en4 m outs) c w).trans (V16_of m outs c (Pipeline.arrRef spec4 w) hne).symm)
theorem left4 (H : Leaves m outs) (c : Dev nD) (w : Fin cfg4.W) :
    (dat4 (en4 m outs) c).arrAt w cfg4.N = ex4 m outs c (Pipeline.arrRef spec4 w) := by
  by_cases h : w = (3 : Fin cfg4.W)
  · subst h
    exact (H.l4 c).symm.trans (by
      show _ = Function.update (V15 m outs c) (Proc.devRef .tc main_v108) (outs 16 main_v108 c) (Proc.devRef .tc main_v108)
      rw [Function.update_self])
  · exact left4_in c w (ins4 w h).1 (ins4 w h).2
theorem kept4 (c : Dev nD) : ∀ b, b ∉ Finset.univ.image (Pipeline.arrRef spec4) → ex4 m outs c b = en4 m outs c b :=
  fun b hb => V16_of m outs c b (by
    intro h
    rw [List.mem_singleton] at h
    exact hb (Finset.mem_image.mpr ⟨3, Finset.mem_univ _, h.symm⟩))

theorem ins5 : ∀ w : Fin cfg5.W, w ≠ (7 : Fin cfg5.W) →
    (cfg5.win w).isOut = false ∧ Pipeline.arrRef spec5 w ∉ ([main_v123] : List (Ref sig .tc)) := by decide
theorem left5_in (c : Dev nD) (w : Fin cfg5.W) (hw : (cfg5.win w).isOut = false)
    (hne : Pipeline.arrRef spec5 w ∉ ([main_v123] : List (Ref sig .tc))) :
    (dat5 (en5 m outs) c).arrAt w cfg5.N = ex5 m outs c (Pipeline.arrRef spec5 w) :=
  ((dat5 (en5 m outs) c).arrAt_in w hw cfg5.N).trans
    ((dat5_A (en5 m outs) c w).trans (V18_of m outs c (Pipeline.arrRef spec5 w) hne).symm)
theorem left5 (H : Leaves m outs) (c : Dev nD) (w : Fin cfg5.W) :
    (dat5 (en5 m outs) c).arrAt w cfg5.N = ex5 m outs c (Pipeline.arrRef spec5 w) := by
  by_cases h : w = (7 : Fin cfg5.W)
  · subst h
    exact (H.l5 c).symm.trans (by
      show _ = Function.update (V17 m outs c) (Proc.devRef .tc main_v123) (outs 18 main_v123 c) (Proc.devRef .tc main_v123)
      rw [Function.update_self])
  · exact left5_in c w (ins5 w h).1 (ins5 w h).2
theorem kept5 (c : Dev nD) : ∀ b, b ∉ Finset.univ.image (Pipeline.arrRef spec5) → ex5 m outs c b = en5 m outs c b :=
  fun b hb => V18_of m outs c b (by
    intro h
    rw [List.mem_singleton] at h
    exact hb (Finset.mem_image.mpr ⟨7, Finset.mem_univ _, h.symm⟩))

/-! ## The regions as segments -/

set_option backward.isDefEq.respectTransparency.types false in
/-- Region 0: entered from every unscoped buffer at its entry valuation, left at its exit valuation. -/
def reg0 (H : Leaves m outs) : RegionSeg (pcfgs (F := F)) adm (pdats m outs) () defs₀ 𝒱n Lf lvf 0 where
  win := launch0.win.to₀
  block_pos := launch0.block_pos
  stage_whole := launch0.stage_whole
  K := PEmpty
  osem k := k.elim
  ho := Pipeline.OwnSemFacts.none _
  hbody c := (body0_obligation (en0 m) c).loose
  hwaits := Pipeline.hwaits_of_owed_zero _ _ _ _ Lf lvf 0 fun _ _ => rfl
  pre c := iprop(StableHlo.held (c : Thread nD τ) (Pipeline.ucRefs τ sig) (V3 m c) ∗ Rest c)
  post c := iprop(StableHlo.held (c : Thread nD τ) (Pipeline.ucRefs τ sig) (V4 m outs c) ∗ Rest c)
  X c := iprop(∃ r, prngReg c r)
  Y c := iprop(∃ r, prngReg c r)
  Z c := Pipeline.unscopedRest (Ix := Unit) (Name := ℕ) (U := UR sig nD τ) (Lvl := ℕ) spec0 c (en0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (en0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (en0 m c) (ex0 m outs c) ((pdats m outs 0 c).arrAt · cfg0.N) (left0 H c) (kept0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at its entry valuation, left at its exit valuation. -/
def reg1 (H : Leaves m outs) : RegionSeg (pcfgs (F := F)) adm (pdats m outs) () defs₀ 𝒱n Lf lvf 1 where
  win := launch1.win.to₀
  block_pos := launch1.block_pos
  stage_whole := launch1.stage_whole
  K := PEmpty
  osem k := k.elim
  ho := Pipeline.OwnSemFacts.none _
  hbody c := (body1_obligation (en1 m outs) c).loose
  hwaits := Pipeline.hwaits_of_owed_zero _ _ _ _ Lf lvf 1 fun _ _ => rfl
  pre c := iprop(StableHlo.held (c : Thread nD τ) (Pipeline.ucRefs τ sig) (V5 m outs c) ∗ Rest c)
  post c := iprop(StableHlo.held (c : Thread nD τ) (Pipeline.ucRefs τ sig) (V6 m outs c) ∗ Rest c)
  X c := iprop(∃ r, prngReg c r)
  Y c := iprop(∃ r, prngReg c r)
  Z c := Pipeline.unscopedRest (Ix := Unit) (Name := ℕ) (U := UR sig nD τ) (Lvl := ℕ) spec1 c (en1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (en1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (en1 m outs c) (ex1 m outs c) ((pdats m outs 1 c).arrAt · cfg1.N) (left1 H c) (kept1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at its entry valuation, left at its exit valuation. -/
def reg2 (H : Leaves m outs) : RegionSeg (pcfgs (F := F)) adm (pdats m outs) () defs₀ 𝒱n Lf lvf 2 where
  win := launch2.win.to₀
  block_pos := launch2.block_pos
  stage_whole := launch2.stage_whole
  K := PEmpty
  osem k := k.elim
  ho := Pipeline.OwnSemFacts.none _
  hbody c := (body2_obligation (en2 m outs) c).loose
  hwaits := Pipeline.hwaits_of_owed_zero _ _ _ _ Lf lvf 2 fun _ _ => rfl
  pre c := iprop(StableHlo.held (c : Thread nD τ) (Pipeline.ucRefs τ sig) (V9 m outs c) ∗ Rest c)
  post c := iprop(StableHlo.held (c : Thread nD τ) (Pipeline.ucRefs τ sig) (V10 m outs c) ∗ Rest c)
  X c := iprop(∃ r, prngReg c r)
  Y c := iprop(∃ r, prngReg c r)
  Z c := Pipeline.unscopedRest (Ix := Unit) (Name := ℕ) (U := UR sig nD τ) (Lvl := ℕ) spec2 c (en2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (en2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (en2 m outs c) (ex2 m outs c) ((pdats m outs 2 c).arrAt · cfg2.N) (left2 H c) (kept2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at its entry valuation, left at its exit valuation. -/
def reg3 (H : Leaves m outs) : RegionSeg (pcfgs (F := F)) adm (pdats m outs) () defs₀ 𝒱n Lf lvf 3 where
  win := launch3.win.to₀
  block_pos := launch3.block_pos
  stage_whole := launch3.stage_whole
  K := PEmpty
  osem k := k.elim
  ho := Pipeline.OwnSemFacts.none _
  hbody c := (body3_obligation (en3 m outs) c).loose
  hwaits := Pipeline.hwaits_of_owed_zero _ _ _ _ Lf lvf 3 fun _ _ => rfl
  pre c := iprop(StableHlo.held (c : Thread nD τ) (Pipeline.ucRefs τ sig) (V11 m outs c) ∗ Rest c)
  post c := iprop(StableHlo.held (c : Thread nD τ) (Pipeline.ucRefs τ sig) (V12 m outs c) ∗ Rest c)
  X c := iprop(∃ r, prngReg c r)
  Y c := iprop(∃ r, prngReg c r)
  Z c := Pipeline.unscopedRest (Ix := Unit) (Name := ℕ) (U := UR sig nD τ) (Lvl := ℕ) spec3 c (en3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (en3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (en3 m outs c) (ex3 m outs c) ((pdats m outs 3 c).arrAt · cfg3.N) (left3 H c) (kept3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at its entry valuation, left at its exit valuation. -/
def reg4 (H : Leaves m outs) : RegionSeg (pcfgs (F := F)) adm (pdats m outs) () defs₀ 𝒱n Lf lvf 4 where
  win := launch4.win.to₀
  block_pos := launch4.block_pos
  stage_whole := launch4.stage_whole
  K := PEmpty
  osem k := k.elim
  ho := Pipeline.OwnSemFacts.none _
  hbody c := (body4_obligation (en4 m outs) c).loose
  hwaits := Pipeline.hwaits_of_owed_zero _ _ _ _ Lf lvf 4 fun _ _ => rfl
  pre c := iprop(StableHlo.held (c : Thread nD τ) (Pipeline.ucRefs τ sig) (V15 m outs c) ∗ Rest c)
  post c := iprop(StableHlo.held (c : Thread nD τ) (Pipeline.ucRefs τ sig) (V16 m outs c) ∗ Rest c)
  X c := iprop(∃ r, prngReg c r)
  Y c := iprop(∃ r, prngReg c r)
  Z c := Pipeline.unscopedRest (Ix := Unit) (Name := ℕ) (U := UR sig nD τ) (Lvl := ℕ) spec4 c (en4 m outs c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (en4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (en4 m outs c) (ex4 m outs c) ((pdats m outs 4 c).arrAt · cfg4.N) (left4 H c) (kept4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at its entry valuation, left at its exit valuation. -/
def reg5 (H : Leaves m outs) : RegionSeg (pcfgs (F := F)) adm (pdats m outs) () defs₀ 𝒱n Lf lvf 5 where
  win := launch5.win.to₀
  block_pos := launch5.block_pos
  stage_whole := launch5.stage_whole
  K := PEmpty
  osem k := k.elim
  ho := Pipeline.OwnSemFacts.none _
  hbody c := (body5_obligation (en5 m outs) c).loose
  hwaits := Pipeline.hwaits_of_owed_zero _ _ _ _ Lf lvf 5 fun _ _ => rfl
  pre c := iprop(StableHlo.held (c : Thread nD τ) (Pipeline.ucRefs τ sig) (V17 m outs c) ∗ Rest c)
  post c := iprop(StableHlo.held (c : Thread nD τ) (Pipeline.ucRefs τ sig) (V18 m outs c) ∗ Rest c)
  X c := iprop(∃ r, prngReg c r)
  Y c := iprop(∃ r, prngReg c r)
  Z c := Pipeline.unscopedRest (Ix := Unit) (Name := ℕ) (U := UR sig nD τ) (Lvl := ℕ) spec5 c (en5 m outs c)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (en5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (en5 m outs c) (ex5 m outs c) ((pdats m outs 5 c).arrAt · cfg5.N) (left5 H c) (kept5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (m outs)

set_option backward.isDefEq.respectTransparency.types false in
/-- Every weakly fair execution of @main from memory `m` with zero counters terminates, nothing faulting, and every final
    memory holds each unscoped buffer at the last valuation. -/
theorem run_all (ρ : Dev nD → PrngReg) (H : Leaves m outs) :
    θ_run defs (onTc (τ := τ) (main (F := F))) ⟨m, fun _ => 0, ρ⟩ (fun r => ∀ c : Dev nD,
      ∀ b ∈ Pipeline.ucRefs τ sig, r.2.mem ((c : Thread nD τ).1, b) = V21 m outs c b) :=
  Cert.KernelIdeal.GenP.cond_all m emb₁ () 𝒱n Lf lvf (fun _ _ => rfl) ρ outs (pdats m outs) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (fun _ : Dev nD => (iprop(emp) : sProp 𝕄)) c) : sProp 𝕄)
          ⊢ (Rest c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (fun _ : Dev nD => (iprop(emp) : sProp 𝕄)) c))
          ⊢ (bigSep Finset.univ (fun c : Dev nD => Rest c) : sProp 𝕄) := bigSep_mono fun c _ => hcore c
      iintro ⟨Hall, -⟩
      ihave H' := hmono $$ Hall
      imodintro
      iexact H')
    (fun c => by
      iintro ⟨-, HO⟩
      iexact HO)
    (reg0 H) (fun _ => .rfl) (fun _ => .rfl)
    (reg1 H) (fun _ => .rfl) (fun _ => .rfl)
    (reg2 H) (fun _ => .rfl) (fun _ => .rfl)
    (reg3 H) (fun _ => .rfl) (fun _ => .rfl)
    (reg4 H) (fun _ => .rfl) (fun _ => .rfl)
    (reg5 H) (fun _ => .rfl) (fun _ => .rfl)

end Cert.KernelIdeal.Hand

end
-- ==== Proof.KiOuts.lean ====
/-
  Contents the six regions leave, built one region at a time: the first region's output array is the fold of its
  blocks' write-backs over the buffers as the first host stretches leave them; each later region's is the same fold
  over the buffers as found after the earlier regions' arrays and the host stretches between. A valuation between two
  items depends only on the contents of the regions before it, so fixing a later region's array does not disturb the
  earlier stages.
-/
import proofs.«119603_j4896262717867_2_alg».proof.Proof.KiRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-! ## A valuation depends only on the earlier regions' contents -/

theorem V5_agree (o o' : Outs (F := F)) (h4 : ∀ c, o 4 main_v42 c = o' 4 main_v42 c) (c : Dev nD) : V5 m o c = V5 m o' c := by
  show StableHlo.after hostOps1 (Function.update (V3 m c) main_v42 (o 4 main_v42 c))
    = StableHlo.after hostOps1 (Function.update (V3 m c) main_v42 (o' 4 main_v42 c))
  rw [h4]
theorem V9_agree (o o' : Outs (F := F)) (h4 : ∀ c, o 4 main_v42 c = o' 4 main_v42 c) (h6 : ∀ c, o 6 main_v57 c = o' 6 main_v57 c)
    (c : Dev nD) : V9 m o c = V9 m o' c := by
  show StableHlo.after hostOps2_2 (StableHlo.after hostOps2_1 (StableHlo.after hostOps2 (Function.update (V5 m o c) main_v57 (o 6 main_v57 c))))
    = StableHlo.after hostOps2_2 (StableHlo.after hostOps2_1 (StableHlo.after hostOps2 (Function.update (V5 m o' c) main_v57 (o' 6 main_v57 c))))
  rw [V5_agree m o o' h4 c, h6]
theorem V11_agree (o o' : Outs (F := F)) (h4 : ∀ c, o 4 main_v42 c = o' 4 main_v42 c) (h6 : ∀ c, o 6 main_v57 c = o' 6 main_v57 c)
    (h10 : ∀ c, o 10 main_v75 c = o' 10 main_v75 c) (c : Dev nD) : V11 m o c = V11 m o' c := by
  show StableHlo.after hostOps3 (Function.update (V9 m o c) main_v75 (o 10 main_v75 c))
    = StableHlo.after hostOps3 (Function.update (V9 m o' c) main_v75 (o' 10 main_v75 c))
  rw [V9_agree m o o' h4 h6 c, h10]
theorem V15_agree (o o' : Outs (F := F)) (h4 : ∀ c, o 4 main_v42 c = o' 4 main_v42 c) (h6 : ∀ c, o 6 main_v57 c = o' 6 main_v57 c)
    (h10 : ∀ c, o 10 main_v75 c = o' 10 main_v75 c) (h12 : ∀ c, o 12 main_v90 c = o' 12 main_v90 c) (c : Dev nD) : V15 m o c = V15 m o' c := by
  show StableHlo.after hostOps4_2 (StableHlo.after hostOps4_1 (StableHlo.after hostOps4 (Function.update (V11 m o c) main_v90 (o 12 main_v90 c))))
    = StableHlo.after hostOps4_2 (StableHlo.after hostOps4_1 (StableHlo.after hostOps4 (Function.update (V11 m o' c) main_v90 (o' 12 main_v90 c))))
  rw [V11_agree m o o' h4 h6 h10 c, h12]
theorem V17_agree (o o' : Outs (F := F)) (h4 : ∀ c, o 4 main_v42 c = o' 4 main_v42 c) (h6 : ∀ c, o 6 main_v57 c = o' 6 main_v57 c)
    (h10 : ∀ c, o 10 main_v75 c = o' 10 main_v75 c) (h12 : ∀ c, o 12 main_v90 c = o' 12 main_v90 c)
    (h16 : ∀ c, o 16 main_v108 c = o' 16 main_v108 c) (c : Dev nD) : V17 m o c = V17 m o' c := by
  show StableHlo.after hostOps5 (Function.update (V15 m o c) main_v108 (o 16 main_v108 c))
    = StableHlo.after hostOps5 (Function.update (V15 m o' c) main_v108 (o' 16 main_v108 c))
  rw [V15_agree m o o' h4 h6 h10 h12 c, h16]

/-! ## The stages -/

/-- Region 0's output array after the region. -/
def a4 (c : Dev nD) : Buf (Elt F) ((c : Thread nD τ).loc main_v42) := (dat0 (en0 m) c).arrAt 3 cfg0.N
/-- The contents with the regions up to region 0 fixed. -/
def o1 : Outs (F := F) := fun J r c =>
  if J = 4 then (Function.update (V3 m c) main_v42 (a4 m c)) r else V0 m c r
theorem o1_at (c : Dev nD) : o1 m 4 main_v42 c = a4 m c := by
  show (if (4 : ℕ) = 4 then (Function.update (V3 m c) main_v42 (a4 m c)) main_v42 else _) = _
  rw [if_pos rfl, Function.update_self]
theorem o1_ne (J : ℕ) (h : J ≠ 4) (r : Ref sig .tc) (c : Dev nD) : o1 m J r c = V0 m c r := by
  show (if J = 4 then _ else _) = _
  rw [if_neg h]

/-- Region 1's output array after the region. -/
def a6 (c : Dev nD) : Buf (Elt F) ((c : Thread nD τ).loc main_v57) := (dat1 (en1 m (o1 m)) c).arrAt 7 cfg1.N
/-- The contents with the regions up to region 1 fixed. -/
def o2 : Outs (F := F) := fun J r c =>
  if J = 6 then (Function.update (V5 m (o1 m) c) main_v57 (a6 m c)) r else o1 m J r c
theorem o2_at (c : Dev nD) : o2 m 6 main_v57 c = a6 m c := by
  show (if (6 : ℕ) = 6 then (Function.update (V5 m (o1 m) c) main_v57 (a6 m c)) main_v57 else _) = _
  rw [if_pos rfl, Function.update_self]
theorem o2_ne (J : ℕ) (h : J ≠ 6) (r : Ref sig .tc) (c : Dev nD) : o2 m J r c = o1 m J r c := by
  show (if J = 6 then _ else _) = _
  rw [if_neg h]

/-- Region 2's output array after the region. -/
def a10 (c : Dev nD) : Buf (Elt F) ((c : Thread nD τ).loc main_v75) := (dat2 (en2 m (o2 m)) c).arrAt 3 cfg2.N
/-- The contents with the regions up to region 2 fixed. -/
def o3 : Outs (F := F) := fun J r c =>
  if J = 10 then (Function.update (V9 m (o2 m) c) main_v75 (a10 m c)) r else o2 m J r c
theorem o3_at (c : Dev nD) : o3 m 10 main_v75 c = a10 m c := by
  show (if (10 : ℕ) = 10 then (Function.update (V9 m (o2 m) c) main_v75 (a10 m c)) main_v75 else _) = _
  rw [if_pos rfl, Function.update_self]
theorem o3_ne (J : ℕ) (h : J ≠ 10) (r : Ref sig .tc) (c : Dev nD) : o3 m J r c = o2 m J r c := by
  show (if J = 10 then _ else _) = _
  rw [if_neg h]

/-- Region 3's output array after the region. -/
def a12 (c : Dev nD) : Buf (Elt F) ((c : Thread nD τ).loc main_v90) := (dat3 (en3 m (o3 m)) c).arrAt 7 cfg3.N
/-- The contents with the regions up to region 3 fixed. -/
def o4 : Outs (F := F) := fun J r c =>
  if J = 12 then (Function.update (V11 m (o3 m) c) main_v90 (a12 m c)) r else o3 m J r c
theorem o4_at (c : Dev nD) : o4 m 12 main_v90 c = a12 m c := by
  show (if (12 : ℕ) = 12 then (Function.update (V11 m (o3 m) c) main_v90 (a12 m c)) main_v90 else _) = _
  rw [if_pos rfl, Function.update_self]
theorem o4_ne (J : ℕ) (h : J ≠ 12) (r : Ref sig .tc) (c : Dev nD) : o4 m J r c = o3 m J r c := by
  show (if J = 12 then _ else _) = _
  rw [if_neg h]

/-- Region 4's output array after the region. -/
def a16 (c : Dev nD) : Buf (Elt F) ((c : Thread nD τ).loc main_v108) := (dat4 (en4 m (o4 m)) c).arrAt 3 cfg4.N
/-- The contents with the regions up to region 4 fixed. -/
def o5 : Outs (F := F) := fun J r c =>
  if J = 16 then (Function.update (V15 m (o4 m) c) main_v108 (a16 m c)) r else o4 m J r c
theorem o5_at (c : Dev nD) : o5 m 16 main_v108 c = a16 m c := by
  show (if (16 : ℕ) = 16 then (Function.update (V15 m (o4 m) c) main_v108 (a16 m c)) main_v108 else _) = _
  rw [if_pos rfl, Function.update_self]
theorem o5_ne (J : ℕ) (h : J ≠ 16) (r : Ref sig .tc) (c : Dev nD) : o5 m J r c = o4 m J r c := by
  show (if J = 16 then _ else _) = _
  rw [if_neg h]

/-- Region 5's output array after the region. -/
def a18 (c : Dev nD) : Buf (Elt F) ((c : Thread nD τ).loc main_v123) := (dat5 (en5 m (o5 m)) c).arrAt 7 cfg5.N
/-- The contents with the regions up to region 5 fixed. -/
def o6 : Outs (F := F) := fun J r c =>
  if J = 18 then (Function.update (V17 m (o5 m) c) main_v123 (a18 m c)) r else o5 m J r c
theorem o6_at (c : Dev nD) : o6 m 18 main_v123 c = a18 m c := by
  show (if (18 : ℕ) = 18 then (Function.update (V17 m (o5 m) c) main_v123 (a18 m c)) main_v123 else _) = _
  rw [if_pos rfl, Function.update_self]
theorem o6_ne (J : ℕ) (h : J ≠ 18) (r : Ref sig .tc) (c : Dev nD) : o6 m J r c = o5 m J r c := by
  show (if J = 18 then _ else _) = _
  rw [if_neg h]

/-! ## The last stage at each region's reference -/

theorem o6_4 (c : Dev nD) : o6 m 4 main_v42 c = a4 m c := by
  rw [o6_ne m 4 (by decide), o5_ne m 4 (by decide), o4_ne m 4 (by decide), o3_ne m 4 (by decide), o2_ne m 4 (by decide), o1_at]
theorem o6_6 (c : Dev nD) : o6 m 6 main_v57 c = a6 m c := by
  rw [o6_ne m 6 (by decide), o5_ne m 6 (by decide), o4_ne m 6 (by decide), o3_ne m 6 (by decide), o2_at]
theorem o6_10 (c : Dev nD) : o6 m 10 main_v75 c = a10 m c := by
  rw [o6_ne m 10 (by decide), o5_ne m 10 (by decide), o4_ne m 10 (by decide), o3_at]
theorem o6_12 (c : Dev nD) : o6 m 12 main_v90 c = a12 m c := by
  rw [o6_ne m 12 (by decide), o5_ne m 12 (by decide), o4_at]
theorem o6_16 (c : Dev nD) : o6 m 16 main_v108 c = a16 m c := by
  rw [o6_ne m 16 (by decide), o5_at]
theorem o6_18 (c : Dev nD) : o6 m 18 main_v123 c = a18 m c := o6_at m c

theorem o1_4 (c : Dev nD) : o1 m 4 main_v42 c = a4 m c := o1_at m c
theorem o2_4 (c : Dev nD) : o2 m 4 main_v42 c = a4 m c := by rw [o2_ne m 4 (by decide), o1_at]
theorem o2_6 (c : Dev nD) : o2 m 6 main_v57 c = a6 m c := o2_at m c
theorem o3_4 (c : Dev nD) : o3 m 4 main_v42 c = a4 m c := by rw [o3_ne m 4 (by decide), o2_4]
theorem o3_6 (c : Dev nD) : o3 m 6 main_v57 c = a6 m c := by rw [o3_ne m 6 (by decide), o2_6]
theorem o3_10 (c : Dev nD) : o3 m 10 main_v75 c = a10 m c := o3_at m c
theorem o4_4 (c : Dev nD) : o4 m 4 main_v42 c = a4 m c := by rw [o4_ne m 4 (by decide), o3_4]
theorem o4_6 (c : Dev nD) : o4 m 6 main_v57 c = a6 m c := by rw [o4_ne m 6 (by decide), o3_6]
theorem o4_10 (c : Dev nD) : o4 m 10 main_v75 c = a10 m c := by rw [o4_ne m 10 (by decide), o3_10]
theorem o4_12 (c : Dev nD) : o4 m 12 main_v90 c = a12 m c := o4_at m c
theorem o5_4 (c : Dev nD) : o5 m 4 main_v42 c = a4 m c := by rw [o5_ne m 4 (by decide), o4_4]
theorem o5_6 (c : Dev nD) : o5 m 6 main_v57 c = a6 m c := by rw [o5_ne m 6 (by decide), o4_6]
theorem o5_10 (c : Dev nD) : o5 m 10 main_v75 c = a10 m c := by rw [o5_ne m 10 (by decide), o4_10]
theorem o5_12 (c : Dev nD) : o5 m 12 main_v90 c = a12 m c := by rw [o5_ne m 12 (by decide), o4_12]
theorem o5_16 (c : Dev nD) : o5 m 16 main_v108 c = a16 m c := o5_at m c

/-! ## The built contents are the ones the regions' proof data name -/

theorem en1_eq : en1 m (o6 m) = en1 m (o1 m) := funext fun c => funext fun b =>
  congrFun (V5_agree m _ _ (fun c => (o6_4 m c).trans (o1_4 m c).symm) c) (Proc.devRef .tc b)
theorem en2_eq : en2 m (o6 m) = en2 m (o2 m) := funext fun c => funext fun b =>
  congrFun (V9_agree m _ _ (fun c => (o6_4 m c).trans (o2_4 m c).symm) (fun c => (o6_6 m c).trans (o2_6 m c).symm) c) (Proc.devRef .tc b)
theorem en3_eq : en3 m (o6 m) = en3 m (o3 m) := funext fun c => funext fun b =>
  congrFun (V11_agree m _ _ (fun c => (o6_4 m c).trans (o3_4 m c).symm) (fun c => (o6_6 m c).trans (o3_6 m c).symm)
    (fun c => (o6_10 m c).trans (o3_10 m c).symm) c) (Proc.devRef .tc b)
theorem en4_eq : en4 m (o6 m) = en4 m (o4 m) := funext fun c => funext fun b =>
  congrFun (V15_agree m _ _ (fun c => (o6_4 m c).trans (o4_4 m c).symm) (fun c => (o6_6 m c).trans (o4_6 m c).symm)
    (fun c => (o6_10 m c).trans (o4_10 m c).symm) (fun c => (o6_12 m c).trans (o4_12 m c).symm) c) (Proc.devRef .tc b)
theorem en5_eq : en5 m (o6 m) = en5 m (o5 m) := funext fun c => funext fun b =>
  congrFun (V17_agree m _ _ (fun c => (o6_4 m c).trans (o5_4 m c).symm) (fun c => (o6_6 m c).trans (o5_6 m c).symm)
    (fun c => (o6_10 m c).trans (o5_10 m c).symm) (fun c => (o6_12 m c).trans (o5_12 m c).symm)
    (fun c => (o6_16 m c).trans (o5_16 m c).symm) c) (Proc.devRef .tc b)

/-- The contents built above are left by the regions. -/
theorem leaves : Leaves m (o6 m) where
  l0 c := o6_4 m c
  l1 c := by rw [en1_eq]; exact o6_6 m c
  l2 c := by rw [en2_eq]; exact o6_10 m c
  l3 c := by rw [en3_eq]; exact o6_12 m c
  l4 c := by rw [en4_eq]; exact o6_16 m c
  l5 c := by rw [en5_eq]; exact o6_18 m c

end Cert.KernelIdeal.Hand

end
-- ==== Proof.Frames.lean ====
/-
  The two kernel programs' frames: each runs to the end from any launch memory, faults nowhere and leaves its six
  argument arrays as launched. The word-level program: the conditional frame over the six region records, at the
  contents the regions leave. The idealized program: the same run with every unscoped buffer named at the end; an
  argument's buffer is written by no host stretch and changed by no region, so it reads back the launch memory.
-/
import proofs.«119603_j4896262717867_2_alg».proof.Defs
import proofs.«119603_j4896262717867_2_alg».proof.Proof.Gen.Pre_finite_inputs
import proofs.«119603_j4896262717867_2_alg».proof.Proof.KbOuts
import proofs.«119603_j4896262717867_2_alg».proof.Proof.KiOuts

noncomputable section

namespace Cert.Proof.Parts

open Idealize.ShloMosaic Idealize.ShloMosaic.TcCoe Idealize.SL.Sem

theorem frame_kernel : Cert.frame_Kernel := fun m ρ _ =>
  Cert.Kernel.Hand.frame_of_leaves m (Cert.Kernel.Hand.o6 m) ρ (Cert.Kernel.Hand.leaves m)

section Ideal
open Cert.KernelIdeal Cert.KernelIdeal.Gen Cert.KernelIdeal.Hand

/-- The idealized kernel's run with every unscoped buffer named at the end. -/
theorem ideal_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      ∀ b ∈ Pipeline.ucRefs τ sig, r.2.mem ((c : Thread nD τ).1, b) = V21 m (o6 m) c b) :=
  run_all m (o6 m) ρ (leaves m)

/-- An unscoped TensorCore reference is among those named at the end. -/
theorem named (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame_ideal : Cert.frame_KernelIdeal := fun m ρ _ =>
  (θ_run (defs (F := Ideal)) _ _).mono (fun r h c =>
    ⟨(h c _ (named main_arg0 (by decide))).trans (V21_main_arg0 m (o6 m) c),
     (h c _ (named main_arg1 (by decide))).trans (V21_main_arg1 m (o6 m) c),
     (h c _ (named main_arg2 (by decide))).trans (V21_main_arg2 m (o6 m) c),
     (h c _ (named main_arg3 (by decide))).trans (V21_main_arg3 m (o6 m) c),
     (h c _ (named main_arg4 (by decide))).trans (V21_main_arg4 m (o6 m) c),
     (h c _ (named main_arg5 (by decide))).trans (V21_main_arg5 m (o6 m) c)⟩)
    (ideal_run m ρ)
end Ideal

end Cert.Proof.Parts

end
-- ==== Proof.RefStages.lean ====
/- The reference program's values as functions of its arguments, stage by stage: each definition is the
   composition of the host operations that compute the value, written over the earlier stages. Floats are read
   as extended reals throughout. -/
import proofs.«119603_j4896262717867_2_alg».proof.ReferenceIdeal
import Idealize.ShloMosaic.PureOps.Ideal

noncomputable section

namespace Cert.ReferenceIdeal.RefRun

open Cert.ReferenceIdeal Idealize.ShloMosaic Idealize.SL.Sem

variable [Facts]
open Facts₀ Facts

/-! ## The graph: edge ends, index columns, degrees, edge weights -/

/-- Row 0 of the edge list: each edge's source. -/
def frm (a0 : IVec S2x1200000 32) : IVec S1200000 32 :=
  shapeCast S1200000 (extractStridedSlice S1x1200000 ![0, 0] a0 slices_S2x1200000_S1x1200000_0_0) shapeCasts_S1x1200000_S1200000

/-- Row 1 of the edge list: each edge's destination. -/
def dst (a0 : IVec S2x1200000 32) : IVec S1200000 32 :=
  shapeCast S1200000 (extractStridedSlice S1x1200000 ![1, 0] a0 slices_S2x1200000_S1x1200000_1_0) shapeCasts_S1x1200000_S1200000

/-- The sources as the column of start indices a row gather reads: a negative word has the node count added. -/
def idxF (a0 : IVec S2x1200000 32) : IVec S1200000x1 32 :=
  broadcastInDim S1200000x1 ![0] bcast_S1200000_S1200000x1_0
    (select (cmpi .slt (frm a0) (broadcastInDim S1200000 ![] bcast_S_S1200000 (constantI S_ 32 0#32)))
      (addi (frm a0) (broadcastInDim S1200000 ![] bcast_S_S1200000 (constantI S_ 32 60000#32))) (frm a0))

/-- The destinations as the column of start indices a row gather reads. -/
def idxT (a0 : IVec S2x1200000 32) : IVec S1200000x1 32 :=
  broadcastInDim S1200000x1 ![0] bcast_S1200000_S1200000x1_0
    (select (cmpi .slt (dst a0) (broadcastInDim S1200000 ![] bcast_S_S1200000 (constantI S_ 32 0#32)))
      (addi (dst a0) (broadcastInDim S1200000 ![] bcast_S_S1200000 (constantI S_ 32 60000#32))) (dst a0))

/-- The destinations as the column of indices an accumulating scatter takes. -/
def colT (a0 : IVec S2x1200000 32) : IVec S1200000x1 32 :=
  broadcastInDim S1200000x1 ![0] bcast_S1200000_S1200000x1_0 (dst a0)

/-- The in-degree of every node: ones accumulated at the destinations, from zero. -/
def deg (a0 : IVec S2x1200000 32) : FVec Ideal S60000 .f32 :=
  Host.scatterAdd (F := Ideal) scatter_S60000_S1200000x1_S1200000_n_0_0_1
    (broadcastInDim S60000 ![] bcast_S_S60000 (constant (F := Ideal) S_ .f32 0x00000000#32))
    (colT a0)
    (broadcastInDim S1200000 ![] bcast_S_S1200000 (constant (F := Ideal) S_ .f32 0x3F800000#32))

/-- The degree to the power -1/2 where the degree is positive, zero elsewhere. -/
def dinv (a0 : IVec S2x1200000 32) : FVec Ideal S60000 .f32 :=
  select (cmpf (F := Ideal) .ogt (deg a0) (broadcastInDim S60000 ![] bcast_S_S60000 (constant (F := Ideal) S_ .f32 0x00000000#32)))
    (Host.powf (F := Ideal) (deg a0) (broadcastInDim S60000 ![] bcast_S_S60000 (constant (F := Ideal) S_ .f32 0xBF000000#32)))
    (broadcastInDim S60000 ![] bcast_S_S60000 (constant (F := Ideal) S_ .f32 0x00000000#32))

/-- The weight of every edge, as a column, from per-node factors `dv`: the product of the two ends' factors. -/
def nrmOf (dv : FVec Ideal S60000 .f32) (a0 : IVec S2x1200000 32) : FVec Ideal S1200000x1 .f32 :=
  broadcastInDim S1200000x1 ![0] bcast_S1200000_S1200000x1_0
    (mulf (F := Ideal) (Host.gather gather_S60000_S1200000x1_S1200000_n_0_n_n_0_1_1 dv (idxF a0))
      (Host.gather gather_S60000_S1200000x1_S1200000_n_0_n_n_0_1_1 dv (idxT a0)))

/-- The weight of every edge: the product of the two ends' `dinv`. -/
def nrm (a0 : IVec S2x1200000 32) : FVec Ideal S1200000x1 .f32 := nrmOf (dinv a0) a0

/-- The rows of `x` at the edges' sources. -/
def gF (x : FVec Ideal S60000x64 .f32) (a0 : IVec S2x1200000 32) : FVec Ideal S1200000x64 .f32 :=
  Host.gather gather_S60000x64_S1200000x1_S1200000x64_1_0_n_n_0_1_164 x (idxF a0)

/-- The rows of `x` at the edges' destinations. -/
def gT (x : FVec Ideal S60000x64 .f32) (a0 : IVec S2x1200000 32) : FVec Ideal S1200000x64 .f32 :=
  Host.gather gather_S60000x64_S1200000x1_S1200000x64_1_0_n_n_0_1_164 x (idxT a0)

/-- The leaky rectifier of slope 0.01 of the messages accumulated at their destinations, from zero, plus `lin`. -/
def upd (lin : FVec Ideal S60000x64 .f32) (msg : FVec Ideal S1200000x64 .f32) (a0 : IVec S2x1200000 32) : FVec Ideal S60000x64 .f32 :=
  select
    (cmpf (F := Ideal) .oge
      (addf (F := Ideal) (Host.scatterAdd (F := Ideal) scatter_S60000x64_S1200000x1_S1200000x64_1_0_0_1
        (broadcastInDim S60000x64 ![] bcast_S_S60000x64 (constant (F := Ideal) S_ .f32 0x00000000#32)) (colT a0) msg) lin)
      (broadcastInDim S60000x64 ![] bcast_S_S60000x64 (constant (F := Ideal) S_ .f32 0x00000000#32)))
    (addf (F := Ideal) (Host.scatterAdd (F := Ideal) scatter_S60000x64_S1200000x1_S1200000x64_1_0_0_1
      (broadcastInDim S60000x64 ![] bcast_S_S60000x64 (constant (F := Ideal) S_ .f32 0x00000000#32)) (colT a0) msg) lin)
    (mulf (F := Ideal) (broadcastInDim S60000x64 ![] bcast_S_S60000x64 (constant (F := Ideal) S_ .f32 0x3C23D70A#32))
      (addf (F := Ideal) (Host.scatterAdd (F := Ideal) scatter_S60000x64_S1200000x1_S1200000x64_1_0_0_1
        (broadcastInDim S60000x64 ![] bcast_S_S60000x64 (constant (F := Ideal) S_ .f32 0x00000000#32)) (colT a0) msg) lin))

/-- Four blocks of 64 columns side by side. -/
def cat (a1 x1 x2 x3 : FVec Ideal S60000x64 .f32) : FVec Ideal S60000x256 .f32 :=
  concatenate S60000x256 1 [⟨S60000x64, a1⟩, ⟨S60000x64, x1⟩, ⟨S60000x64, x2⟩, ⟨S60000x64, x3⟩]
    concatenates_S60000x64_S60000x64_S60000x64_S60000x64_S60000x256_d1

/-! ## The three layers -/

/-- Row 0 of the first weights, transposed. -/
def w1T_0 (a2 : FVec Ideal S3x64x64 .f32) : FVec Ideal S64x64 .f32 :=
  transpose S64x64 [1, 0] (shapeCast S64x64 (extractStridedSlice S1x64x64 ![0, 0, 0] a2 slices_S3x64x64_S1x64x64_0_0_0) shapeCasts_S1x64x64_S64x64) transposes_S64x64_S64x64_1_0
/-- Row 0 of the first biases. -/
def b1row_0 (a3 : FVec Ideal S3x64 .f32) : FVec Ideal S64 .f32 :=
  shapeCast S64 (extractStridedSlice S1x64 ![0, 0] a3 slices_S3x64_S1x64_0_0) shapeCasts_S1x64_S64
/-- Row 0 of the second weights, transposed. -/
def w2T_0 (a4 : FVec Ideal S3x64x64 .f32) : FVec Ideal S64x64 .f32 :=
  transpose S64x64 [1, 0] (shapeCast S64x64 (extractStridedSlice S1x64x64 ![0, 0, 0] a4 slices_S3x64x64_S1x64x64_0_0_0) shapeCasts_S1x64x64_S64x64) transposes_S64x64_S64x64_1_0
/-- Row 0 of the second biases. -/
def b2row_0 (a5 : FVec Ideal S3x64 .f32) : FVec Ideal S64 .f32 :=
  shapeCast S64 (extractStridedSlice S1x64 ![0, 0] a5 slices_S3x64_S1x64_0_0) shapeCasts_S1x64_S64

/-- Layer 0's first linear map: `x · W1[0]ᵀ + B1[0]`. -/
def lin1_0 (x : FVec Ideal S60000x64 .f32) (a2 : FVec Ideal S3x64x64 .f32) (a3 : FVec Ideal S3x64 .f32) : FVec Ideal S60000x64 .f32 :=
  addf (F := Ideal) (Host.dotGeneral (F := Ideal) dot_S60000x64_S64x64_S60000x64_1_0_0_1_n_n none x (w1T_0 a2))
    (broadcastInDim S60000x64 ![0, 1] bcast_S1x64_S60000x64_0_1 (broadcastInDim S1x64 ![1] bcast_S64_S1x64_1 (b1row_0 a3)))

/-- Layer 0's messages from `lin` (the first linear map's value), the embeddings `x` and the edge weights `nr`:
    the weight times `lin[from] + (x[from] * x[to]) · W2[0]ᵀ + B2[0]`. -/
def msgOf_0 (lin x : FVec Ideal S60000x64 .f32) (nr : FVec Ideal S1200000x1 .f32) (a0 : IVec S2x1200000 32)
    (a4 : FVec Ideal S3x64x64 .f32) (a5 : FVec Ideal S3x64 .f32) : FVec Ideal S1200000x64 .f32 :=
  mulf (F := Ideal) (broadcastInDim S1200000x64 ![0, 1] bcast_S1200000x1_S1200000x64_0_1 nr)
    (addf (F := Ideal)
      (addf (F := Ideal) (gF lin a0)
        (Host.dotGeneral (F := Ideal) dot_S1200000x64_S64x64_S1200000x64_1_0_0_1_n_n none (mulf (F := Ideal) (gF x a0) (gT x a0)) (w2T_0 a4)))
      (broadcastInDim S1200000x64 ![0, 1] bcast_S1x64_S1200000x64_0_1 (broadcastInDim S1x64 ![1] bcast_S64_S1x64_1 (b2row_0 a5))))

/-- Row 1 of the first weights, transposed. -/
def w1T_1 (a2 : FVec Ideal S3x64x64 .f32) : FVec Ideal S64x64 .f32 :=
  transpose S64x64 [1, 0] (shapeCast S64x64 (extractStridedSlice S1x64x64 ![1, 0, 0] a2 slices_S3x64x64_S1x64x64_1_0_0) shapeCasts_S1x64x64_S64x64) transposes_S64x64_S64x64_1_0
/-- Row 1 of the first biases. -/
def b1row_1 (a3 : FVec Ideal S3x64 .f32) : FVec Ideal S64 .f32 :=
  shapeCast S64 (extractStridedSlice S1x64 ![1, 0] a3 slices_S3x64_S1x64_1_0) shapeCasts_S1x64_S64
/-- Row 1 of the second weights, transposed. -/
def w2T_1 (a4 : FVec Ideal S3x64x64 .f32) : FVec Ideal S64x64 .f32 :=
  transpose S64x64 [1, 0] (shapeCast S64x64 (extractStridedSlice S1x64x64 ![1, 0, 0] a4 slices_S3x64x64_S1x64x64_1_0_0) shapeCasts_S1x64x64_S64x64) transposes_S64x64_S64x64_1_0
/-- Row 1 of the second biases. -/
def b2row_1 (a5 : FVec Ideal S3x64 .f32) : FVec Ideal S64 .f32 :=
  shapeCast S64 (extractStridedSlice S1x64 ![1, 0] a5 slices_S3x64_S1x64_1_0) shapeCasts_S1x64_S64

/-- Layer 1's first linear map: `x · W1[1]ᵀ + B1[1]`. -/
def lin1_1 (x : FVec Ideal S60000x64 .f32) (a2 : FVec Ideal S3x64x64 .f32) (a3 : FVec Ideal S3x64 .f32) : FVec Ideal S60000x64 .f32 :=
  addf (F := Ideal) (Host.dotGeneral (F := Ideal) dot_S60000x64_S64x64_S60000x64_1_0_0_1_n_n none x (w1T_1 a2))
    (broadcastInDim S60000x64 ![0, 1] bcast_S1x64_S60000x64_0_1 (broadcastInDim S1x64 ![1] bcast_S64_S1x64_1 (b1row_1 a3)))

/-- Layer 1's messages from `lin` (the first linear map's value), the embeddings `x` and the edge weights `nr`:
    the weight times `lin[from] + (x[from] * x[to]) · W2[1]ᵀ + B2[1]`. -/
def msgOf_1 (lin x : FVec Ideal S60000x64 .f32) (nr : FVec Ideal S1200000x1 .f32) (a0 : IVec S2x1200000 32)
    (a4 : FVec Ideal S3x64x64 .f32) (a5 : FVec Ideal S3x64 .f32) : FVec Ideal S1200000x64 .f32 :=
  mulf (F := Ideal) (broadcastInDim S1200000x64 ![0, 1] bcast_S1200000x1_S1200000x64_0_1 nr)
    (addf (F := Ideal)
      (addf (F := Ideal) (gF lin a0)
        (Host.dotGeneral (F := Ideal) dot_S1200000x64_S64x64_S1200000x64_1_0_0_1_n_n none (mulf (F := Ideal) (gF x a0) (gT x a0)) (w2T_1 a4)))
      (broadcastInDim S1200000x64 ![0, 1] bcast_S1x64_S1200000x64_0_1 (broadcastInDim S1x64 ![1] bcast_S64_S1x64_1 (b2row_1 a5))))

/-- Row 2 of the first weights, transposed. -/
def w1T_2 (a2 : FVec Ideal S3x64x64 .f32) : FVec Ideal S64x64 .f32 :=
  transpose S64x64 [1, 0] (shapeCast S64x64 (extractStridedSlice S1x64x64 ![2, 0, 0] a2 slices_S3x64x64_S1x64x64_2_0_0) shapeCasts_S1x64x64_S64x64) transposes_S64x64_S64x64_1_0
/-- Row 2 of the first biases. -/
def b1row_2 (a3 : FVec Ideal S3x64 .f32) : FVec Ideal S64 .f32 :=
  shapeCast S64 (extractStridedSlice S1x64 ![2, 0] a3 slices_S3x64_S1x64_2_0) shapeCasts_S1x64_S64
/-- Row 2 of the second weights, transposed. -/
def w2T_2 (a4 : FVec Ideal S3x64x64 .f32) : FVec Ideal S64x64 .f32 :=
  transpose S64x64 [1, 0] (shapeCast S64x64 (extractStridedSlice S1x64x64 ![2, 0, 0] a4 slices_S3x64x64_S1x64x64_2_0_0) shapeCasts_S1x64x64_S64x64) transposes_S64x64_S64x64_1_0
/-- Row 2 of the second biases. -/
def b2row_2 (a5 : FVec Ideal S3x64 .f32) : FVec Ideal S64 .f32 :=
  shapeCast S64 (extractStridedSlice S1x64 ![2, 0] a5 slices_S3x64_S1x64_2_0) shapeCasts_S1x64_S64

/-- Layer 2's first linear map: `x · W1[2]ᵀ + B1[2]`. -/
def lin1_2 (x : FVec Ideal S60000x64 .f32) (a2 : FVec Ideal S3x64x64 .f32) (a3 : FVec Ideal S3x64 .f32) : FVec Ideal S60000x64 .f32 :=
  addf (F := Ideal) (Host.dotGeneral (F := Ideal) dot_S60000x64_S64x64_S60000x64_1_0_0_1_n_n none x (w1T_2 a2))
    (broadcastInDim S60000x64 ![0, 1] bcast_S1x64_S60000x64_0_1 (broadcastInDim S1x64 ![1] bcast_S64_S1x64_1 (b1row_2 a3)))

/-- Layer 2's messages from `lin` (the first linear map's value), the embeddings `x` and the edge weights `nr`:
    the weight times `lin[from] + (x[from] * x[to]) · W2[2]ᵀ + B2[2]`. -/
def msgOf_2 (lin x : FVec Ideal S60000x64 .f32) (nr : FVec Ideal S1200000x1 .f32) (a0 : IVec S2x1200000 32)
    (a4 : FVec Ideal S3x64x64 .f32) (a5 : FVec Ideal S3x64 .f32) : FVec Ideal S1200000x64 .f32 :=
  mulf (F := Ideal) (broadcastInDim S1200000x64 ![0, 1] bcast_S1200000x1_S1200000x64_0_1 nr)
    (addf (F := Ideal)
      (addf (F := Ideal) (gF lin a0)
        (Host.dotGeneral (F := Ideal) dot_S1200000x64_S64x64_S1200000x64_1_0_0_1_n_n none (mulf (F := Ideal) (gF x a0) (gT x a0)) (w2T_2 a4)))
      (broadcastInDim S1200000x64 ![0, 1] bcast_S1x64_S1200000x64_0_1 (broadcastInDim S1x64 ![1] bcast_S64_S1x64_1 (b2row_2 a5))))

/-! ## The result -/

/-- The embeddings after layer 0. -/
def x1 (a0 : IVec S2x1200000 32) (a1 : FVec Ideal S60000x64 .f32) (a2 : FVec Ideal S3x64x64 .f32) (a3 : FVec Ideal S3x64 .f32) (a4 : FVec Ideal S3x64x64 .f32) (a5 : FVec Ideal S3x64 .f32) : FVec Ideal S60000x64 .f32 :=
  upd (lin1_0 a1 a2 a3) (msgOf_0 (lin1_0 a1 a2 a3) a1 (nrm a0) a0 a4 a5) a0
/-- The embeddings after layer 1. -/
def x2 (a0 : IVec S2x1200000 32) (a1 : FVec Ideal S60000x64 .f32) (a2 : FVec Ideal S3x64x64 .f32) (a3 : FVec Ideal S3x64 .f32) (a4 : FVec Ideal S3x64x64 .f32) (a5 : FVec Ideal S3x64 .f32) : FVec Ideal S60000x64 .f32 :=
  upd (lin1_1 (x1 a0 a1 a2 a3 a4 a5) a2 a3) (msgOf_1 (lin1_1 (x1 a0 a1 a2 a3 a4 a5) a2 a3) (x1 a0 a1 a2 a3 a4 a5) (nrm a0) a0 a4 a5) a0
/-- The embeddings after layer 2. -/
def x3 (a0 : IVec S2x1200000 32) (a1 : FVec Ideal S60000x64 .f32) (a2 : FVec Ideal S3x64x64 .f32) (a3 : FVec Ideal S3x64 .f32) (a4 : FVec Ideal S3x64x64 .f32) (a5 : FVec Ideal S3x64 .f32) : FVec Ideal S60000x64 .f32 :=
  upd (lin1_2 (x2 a0 a1 a2 a3 a4 a5) a2 a3) (msgOf_2 (lin1_2 (x2 a0 a1 a2 a3 a4 a5) a2 a3) (x2 a0 a1 a2 a3 a4 a5) (nrm a0) a0 a4 a5) a0

/-- The second result: the input embeddings and the three layers' outputs side by side. -/
def res (a0 : IVec S2x1200000 32) (a1 : FVec Ideal S60000x64 .f32) (a2 : FVec Ideal S3x64x64 .f32) (a3 : FVec Ideal S3x64 .f32) (a4 : FVec Ideal S3x64x64 .f32) (a5 : FVec Ideal S3x64 .f32) : FVec Ideal S60000x256 .f32 :=
  cat a1 (x1 a0 a1 a2 a3 a4 a5) (x2 a0 a1 a2 a3 a4 a5) (x3 a0 a1 a2 a3 a4 a5)

end Cert.ReferenceIdeal.RefRun

end
-- ==== Proof.KiStages.lean ====
/- What the host operations of the kernel's program leave in the arrays the six kernel regions read, and the
   program's result, as the reference's stage functions of the launch arguments and of what the regions wrote.
   Floats are read as extended reals. -/
import proofs.«119603_j4896262717867_2_alg».proof.Proof.Gen.KernelIdeal.Regions
import proofs.«119603_j4896262717867_2_alg».proof.Proof.RefStages
import Idealize.ShloMosaic.Lib.StableHlo.Run

set_option maxRecDepth 1460

noncomputable section

namespace Cert.KernelIdeal.Stages

open Cert.KernelIdeal Cert.KernelIdeal.Gen Cert.ReferenceIdeal.RefRun
open Idealize.ShloMosaic Idealize.ShloMosaic.TcCoe Idealize.SL.Sem

variable [Cert.ReferenceIdeal.Facts]

/-! ## Two stages the reference does not name -/

/-- The kernel's per-node factor: the reciprocal square root of the degree raised to at least one where the degree
    is positive, zero elsewhere. -/
def dinvK (a0 : IVec S2x1200000 32) : FVec Ideal S60000 .f32 :=
  select (cmpf (F := Ideal) .ogt (deg a0) (broadcastInDim S60000 ![] Facts₀.bcast_S_S60000 (constant (F := Ideal) S_ .f32 0x00000000#32)))
    (Host.rsqrt (F := Ideal) (maximumf (F := Ideal) (deg a0) (broadcastInDim S60000 ![] Facts₀.bcast_S_S60000 (constant (F := Ideal) S_ .f32 0x3F800000#32))))
    (broadcastInDim S60000 ![] Facts₀.bcast_S_S60000 (constant (F := Ideal) S_ .f32 0x00000000#32))

/-- A vector of 64 entries as a matrix of one row. -/
def row2 (v : FVec Ideal S64 .f32) : FVec Ideal S1x64 .f32 :=
  shapeCast S1x64 v Facts₀.shapeCasts_S64_S1x64

/-! ## The host stretches, one result at a time

Each lemma reads one array after a stretch of host operations run from any contents `W`, given what `W` holds in the
arrays the stretch reads. -/

/-! ### Before region 0 -/

/-- Row 0 of the edge list. -/
theorem hostOps0_v1 (W : Valuation τ sig (Elt Ideal)) (a0 : IVec S2x1200000 32)
    (e0 : W (Proc.devRef .tc main_arg0) = a0) :
    StableHlo.after hostOps0 W (Proc.devRef .tc main_v1) = frm a0 := by
  after_results_simp
  rw [e0]
  rfl
/-- Row 1 of the edge list. -/
theorem hostOps0_v3 (W : Valuation τ sig (Elt Ideal)) (a0 : IVec S2x1200000 32)
    (e0 : W (Proc.devRef .tc main_arg0) = a0) :
    StableHlo.after hostOps0 W (Proc.devRef .tc main_v3) = dst a0 := by
  after_results_simp
  rw [e0]
  rfl
/-- Where the degree is positive. -/
theorem hostOps0_v9 (W : Valuation τ sig (Elt Ideal)) (a0 : IVec S2x1200000 32)
    (e0 : W (Proc.devRef .tc main_arg0) = a0) :
    StableHlo.after hostOps0 W (Proc.devRef .tc main_v9) = cmpf (F := Ideal) .ogt (deg a0) (broadcastInDim S60000 ![] Facts₀.bcast_S_S60000 (constant (F := Ideal) S_ .f32 0x00000000#32)) := by
  after_results_simp
  rw [e0]
  rfl
/-- The reciprocal square root of the degree raised to at least one. -/
theorem hostOps0_v12 (W : Valuation τ sig (Elt Ideal)) (a0 : IVec S2x1200000 32)
    (e0 : W (Proc.devRef .tc main_arg0) = a0) :
    StableHlo.after hostOps0 W (Proc.devRef .tc main_v12) = Host.rsqrt (F := Ideal) (maximumf (F := Ideal) (deg a0) (broadcastInDim S60000 ![] Facts₀.bcast_S_S60000 (constant (F := Ideal) S_ .f32 0x3F800000#32))) := by
  after_results_simp
  rw [e0]
  rfl
/-- The scalar zero. -/
theorem hostOps0_cst_3 (W : Valuation τ sig (Elt Ideal)) :
    StableHlo.after hostOps0 W (Proc.devRef .tc main_cst_3) = constant (F := Ideal) S_ .f32 0x00000000#32 := by
  after_results_simp
/-- The choice between a vector and a broadcast scalar. -/
theorem hostOps0_1_v13 (W : Valuation τ sig (Elt Ideal)) (p : IVec S60000 1) (r : FVec Ideal S60000 .f32) (z : FVec Ideal S_ .f32)
    (e0 : W (Proc.devRef .tc main_v9) = p) (e1 : W (Proc.devRef .tc main_v12) = r) (e2 : W (Proc.devRef .tc main_cst_3) = z) :
    StableHlo.after hostOps0_1 W (Proc.devRef .tc main_v13) = select p r (broadcastInDim S60000 ![] Facts₀.bcast_S_S60000 z) := by
  after_results
  rw [e0, e1, e2]
  rfl
/-- The edge weights from per-node factors. -/
theorem hostOps0_2_v29 (W : Valuation τ sig (Elt Ideal)) (a0 : IVec S2x1200000 32) (dv : FVec Ideal S60000 .f32)
    (e0 : W (Proc.devRef .tc main_v1) = frm a0) (e1 : W (Proc.devRef .tc main_v3) = dst a0) (e2 : W (Proc.devRef .tc main_v13) = dv) :
    StableHlo.after hostOps0_2 W (Proc.devRef .tc main_v29) = nrmOf dv a0 := by
  after_results_simp
  rw [e0, e1, e2]
  rfl
/-- Layer 0's first weights, transposed. -/
theorem hostOps0_2_v32 (W : Valuation τ sig (Elt Ideal)) (a2 : FVec Ideal S3x64x64 .f32)
    (e0 : W (Proc.devRef .tc main_arg2) = a2) :
    StableHlo.after hostOps0_2 W (Proc.devRef .tc main_v32) = w1T_0 a2 := by
  after_results_simp
  rw [e0]
  rfl
/-- Layer 0's first bias, as a row. -/
theorem hostOps0_2_v35 (W : Valuation τ sig (Elt Ideal)) (a3 : FVec Ideal S3x64 .f32)
    (e0 : W (Proc.devRef .tc main_arg3) = a3) :
    StableHlo.after hostOps0_2 W (Proc.devRef .tc main_v35) = row2 (b1row_0 a3) := by
  after_results_simp
  rw [e0]
  rfl
/-- Layer 0's second weights, transposed. -/
theorem hostOps0_2_v38 (W : Valuation τ sig (Elt Ideal)) (a4 : FVec Ideal S3x64x64 .f32)
    (e0 : W (Proc.devRef .tc main_arg4) = a4) :
    StableHlo.after hostOps0_2 W (Proc.devRef .tc main_v38) = w2T_0 a4 := by
  after_results_simp
  rw [e0]
  rfl
/-- Layer 0's second bias, as a row. -/
theorem hostOps0_2_v41 (W : Valuation τ sig (Elt Ideal)) (a5 : FVec Ideal S3x64 .f32)
    (e0 : W (Proc.devRef .tc main_arg5) = a5) :
    StableHlo.after hostOps0_2 W (Proc.devRef .tc main_v41) = row2 (b2row_0 a5) := by
  after_results_simp
  rw [e0]
  rfl

/-! ### Layer 0: between its two regions, and after them -/

/-- The rows of the embeddings at the edges' sources. -/
theorem hostOps1_v49 (W : Valuation τ sig (Elt Ideal)) (a0 : IVec S2x1200000 32) (x : FVec Ideal S60000x64 .f32)
    (e0 : W (Proc.devRef .tc main_v1) = frm a0) (e1 : W (Proc.devRef .tc main_arg1) = x) :
    StableHlo.after hostOps1 W (Proc.devRef .tc main_v49) = gF x a0 := by
  after_results_simp
  rw [e0, e1]
  rfl
/-- The rows of the embeddings at the edges' destinations. -/
theorem hostOps1_v56 (W : Valuation τ sig (Elt Ideal)) (a0 : IVec S2x1200000 32) (x : FVec Ideal S60000x64 .f32)
    (e0 : W (Proc.devRef .tc main_v3) = dst a0) (e1 : W (Proc.devRef .tc main_arg1) = x) :
    StableHlo.after hostOps1 W (Proc.devRef .tc main_v56) = gT x a0 := by
  after_results_simp
  rw [e0, e1]
  rfl
/-- The messages accumulated at their destinations, from zero, plus the first linear map's value. -/
theorem hostOps2_v61 (W : Valuation τ sig (Elt Ideal)) (a0 : IVec S2x1200000 32) (lin : FVec Ideal S60000x64 .f32) (msg : FVec Ideal S1200000x64 .f32)
    (e0 : W (Proc.devRef .tc main_v3) = dst a0) (e1 : W (Proc.devRef .tc main_v57) = msg) (e2 : W (Proc.devRef .tc main_v42) = lin) :
    StableHlo.after hostOps2 W (Proc.devRef .tc main_v61) = addf (F := Ideal) (Host.scatterAdd (F := Ideal) scatter_S60000x64_S1200000x1_S1200000x64_1_0_0_1 (broadcastInDim S60000x64 ![] Facts₀.bcast_S_S60000x64 (constant (F := Ideal) S_ .f32 0x00000000#32)) (colT a0) msg) lin := by
  after_results
  rw [e0, e1, e2]
  rfl
/-- The rectifier's slope. -/
theorem hostOps2_cst_12 (W : Valuation τ sig (Elt Ideal)) :
    StableHlo.after hostOps2 W (Proc.devRef .tc main_cst_12) = constant (F := Ideal) S_ .f32 0x3C23D70A#32 := by
  after_results
/-- The leaky rectifier: the value where it is at least zero, the slope times it elsewhere. -/
theorem hostOps2_1_v62 (W : Valuation τ sig (Elt Ideal)) (pre : FVec Ideal S60000x64 .f32) (s : FVec Ideal S_ .f32)
    (e0 : W (Proc.devRef .tc main_v61) = pre) (e1 : W (Proc.devRef .tc main_cst_12) = s) :
    StableHlo.after hostOps2_1 W (Proc.devRef .tc main_v62) = select (cmpf (F := Ideal) .oge pre (broadcastInDim S60000x64 ![] Facts₀.bcast_S_S60000x64 (constant (F := Ideal) S_ .f32 0x00000000#32))) pre (mulf (F := Ideal) (broadcastInDim S60000x64 ![] Facts₀.bcast_S_S60000x64 s) pre) := by
  after_results
  rw [e0, e1]
  rfl
/-- Layer 1's first weights, transposed. -/
theorem hostOps2_2_v65 (W : Valuation τ sig (Elt Ideal)) (a2 : FVec Ideal S3x64x64 .f32)
    (e0 : W (Proc.devRef .tc main_arg2) = a2) :
    StableHlo.after hostOps2_2 W (Proc.devRef .tc main_v65) = w1T_1 a2 := by
  after_results
  rw [e0]
  rfl
/-- Layer 1's first bias, as a row. -/
theorem hostOps2_2_v68 (W : Valuation τ sig (Elt Ideal)) (a3 : FVec Ideal S3x64 .f32)
    (e0 : W (Proc.devRef .tc main_arg3) = a3) :
    StableHlo.after hostOps2_2 W (Proc.devRef .tc main_v68) = row2 (b1row_1 a3) := by
  after_results
  rw [e0]
  rfl
/-- Layer 1's second weights, transposed. -/
theorem hostOps2_2_v71 (W : Valuation τ sig (Elt Ideal)) (a4 : FVec Ideal S3x64x64 .f32)
    (e0 : W (Proc.devRef .tc main_arg4) = a4) :
    StableHlo.after hostOps2_2 W (Proc.devRef .tc main_v71) = w2T_1 a4 := by
  after_results
  rw [e0]
  rfl
/-- Layer 1's second bias, as a row. -/
theorem hostOps2_2_v74 (W : Valuation τ sig (Elt Ideal)) (a5 : FVec Ideal S3x64 .f32)
    (e0 : W (Proc.devRef .tc main_arg5) = a5) :
    StableHlo.after hostOps2_2 W (Proc.devRef .tc main_v74) = row2 (b2row_1 a5) := by
  after_results
  rw [e0]
  rfl

/-! ### Layer 1: between its two regions, and after them -/

/-- The rows of the embeddings at the edges' sources. -/
theorem hostOps3_v82 (W : Valuation τ sig (Elt Ideal)) (a0 : IVec S2x1200000 32) (x : FVec Ideal S60000x64 .f32)
    (e0 : W (Proc.devRef .tc main_v1) = frm a0) (e1 : W (Proc.devRef .tc main_v62) = x) :
    StableHlo.after hostOps3 W (Proc.devRef .tc main_v82) = gF x a0 := by
  after_results_simp
  rw [e0, e1]
  rfl
/-- The rows of the embeddings at the edges' destinations. -/
theorem hostOps3_v89 (W : Valuation τ sig (Elt Ideal)) (a0 : IVec S2x1200000 32) (x : FVec Ideal S60000x64 .f32)
    (e0 : W (Proc.devRef .tc main_v3) = dst a0) (e1 : W (Proc.devRef .tc main_v62) = x) :
    StableHlo.after hostOps3 W (Proc.devRef .tc main_v89) = gT x a0 := by
  after_results_simp
  rw [e0, e1]
  rfl
/-- The messages accumulated at their destinations, from zero, plus the first linear map's value. -/
theorem hostOps4_v94 (W : Valuation τ sig (Elt Ideal)) (a0 : IVec S2x1200000 32) (lin : FVec Ideal S60000x64 .f32) (msg : FVec Ideal S1200000x64 .f32)
    (e0 : W (Proc.devRef .tc main_v3) = dst a0) (e1 : W (Proc.devRef .tc main_v90) = msg) (e2 : W (Proc.devRef .tc main_v75) = lin) :
    StableHlo.after hostOps4 W (Proc.devRef .tc main_v94) = addf (F := Ideal) (Host.scatterAdd (F := Ideal) scatter_S60000x64_S1200000x1_S1200000x64_1_0_0_1 (broadcastInDim S60000x64 ![] Facts₀.bcast_S_S60000x64 (constant (F := Ideal) S_ .f32 0x00000000#32)) (colT a0) msg) lin := by
  after_results
  rw [e0, e1, e2]
  rfl
/-- The rectifier's slope. -/
theorem hostOps4_cst_18 (W : Valuation τ sig (Elt Ideal)) :
    StableHlo.after hostOps4 W (Proc.devRef .tc main_cst_18) = constant (F := Ideal) S_ .f32 0x3C23D70A#32 := by
  after_results
/-- The leaky rectifier: the value where it is at least zero, the slope times it elsewhere. -/
theorem hostOps4_1_v95 (W : Valuation τ sig (Elt Ideal)) (pre : FVec Ideal S60000x64 .f32) (s : FVec Ideal S_ .f32)
    (e0 : W (Proc.devRef .tc main_v94) = pre) (e1 : W (Proc.devRef .tc main_cst_18) = s) :
    StableHlo.after hostOps4_1 W (Proc.devRef .tc main_v95) = select (cmpf (F := Ideal) .oge pre (broadcastInDim S60000x64 ![] Facts₀.bcast_S_S60000x64 (constant (F := Ideal) S_ .f32 0x00000000#32))) pre (mulf (F := Ideal) (broadcastInDim S60000x64 ![] Facts₀.bcast_S_S60000x64 s) pre) := by
  after_results
  rw [e0, e1]
  rfl
/-- Layer 2's first weights, transposed. -/
theorem hostOps4_2_v98 (W : Valuation τ sig (Elt Ideal)) (a2 : FVec Ideal S3x64x64 .f32)
    (e0 : W (Proc.devRef .tc main_arg2) = a2) :
    StableHlo.after hostOps4_2 W (Proc.devRef .tc main_v98) = w1T_2 a2 := by
  after_results
  rw [e0]
  rfl
/-- Layer 2's first bias, as a row. -/
theorem hostOps4_2_v101 (W : Valuation τ sig (Elt Ideal)) (a3 : FVec Ideal S3x64 .f32)
    (e0 : W (Proc.devRef .tc main_arg3) = a3) :
    StableHlo.after hostOps4_2 W (Proc.devRef .tc main_v101) = row2 (b1row_2 a3) := by
  after_results
  rw [e0]
  rfl
/-- Layer 2's second weights, transposed. -/
theorem hostOps4_2_v104 (W : Valuation τ sig (Elt Ideal)) (a4 : FVec Ideal S3x64x64 .f32)
    (e0 : W (Proc.devRef .tc main_arg4) = a4) :
    StableHlo.after hostOps4_2 W (Proc.devRef .tc main_v104) = w2T_2 a4 := by
  after_results
  rw [e0]
  rfl
/-- Layer 2's second bias, as a row. -/
theorem hostOps4_2_v107 (W : Valuation τ sig (Elt Ideal)) (a5 : FVec Ideal S3x64 .f32)
    (e0 : W (Proc.devRef .tc main_arg5) = a5) :
    StableHlo.after hostOps4_2 W (Proc.devRef .tc main_v107) = row2 (b2row_2 a5) := by
  after_results
  rw [e0]
  rfl

/-! ### Layer 2: between its two regions, and after them -/

/-- The rows of the embeddings at the edges' sources. -/
theorem hostOps5_v115 (W : Valuation τ sig (Elt Ideal)) (a0 : IVec S2x1200000 32) (x : FVec Ideal S60000x64 .f32)
    (e0 : W (Proc.devRef .tc main_v1) = frm a0) (e1 : W (Proc.devRef .tc main_v95) = x) :
    StableHlo.after hostOps5 W (Proc.devRef .tc main_v115) = gF x a0 := by
  after_results_simp
  rw [e0, e1]
  rfl
/-- The rows of the embeddings at the edges' destinations. -/
theorem hostOps5_v122 (W : Valuation τ sig (Elt Ideal)) (a0 : IVec S2x1200000 32) (x : FVec Ideal S60000x64 .f32)
    (e0 : W (Proc.devRef .tc main_v3) = dst a0) (e1 : W (Proc.devRef .tc main_v95) = x) :
    StableHlo.after hostOps5 W (Proc.devRef .tc main_v122) = gT x a0 := by
  after_results_simp
  rw [e0, e1]
  rfl
/-- The messages accumulated at their destinations, from zero, plus the first linear map's value. -/
theorem hostOps6_v127 (W : Valuation τ sig (Elt Ideal)) (a0 : IVec S2x1200000 32) (lin : FVec Ideal S60000x64 .f32) (msg : FVec Ideal S1200000x64 .f32)
    (e0 : W (Proc.devRef .tc main_v3) = dst a0) (e1 : W (Proc.devRef .tc main_v123) = msg) (e2 : W (Proc.devRef .tc main_v108) = lin) :
    StableHlo.after hostOps6 W (Proc.devRef .tc main_v127) = addf (F := Ideal) (Host.scatterAdd (F := Ideal) scatter_S60000x64_S1200000x1_S1200000x64_1_0_0_1 (broadcastInDim S60000x64 ![] Facts₀.bcast_S_S60000x64 (constant (F := Ideal) S_ .f32 0x00000000#32)) (colT a0) msg) lin := by
  after_results
  rw [e0, e1, e2]
  rfl
/-- The rectifier's slope. -/
theorem hostOps6_cst_24 (W : Valuation τ sig (Elt Ideal)) :
    StableHlo.after hostOps6 W (Proc.devRef .tc main_cst_24) = constant (F := Ideal) S_ .f32 0x3C23D70A#32 := by
  after_results
/-- The leaky rectifier: the value where it is at least zero, the slope times it elsewhere. -/
theorem hostOps6_1_v128 (W : Valuation τ sig (Elt Ideal)) (pre : FVec Ideal S60000x64 .f32) (s : FVec Ideal S_ .f32)
    (e0 : W (Proc.devRef .tc main_v127) = pre) (e1 : W (Proc.devRef .tc main_cst_24) = s) :
    StableHlo.after hostOps6_1 W (Proc.devRef .tc main_v128) = select (cmpf (F := Ideal) .oge pre (broadcastInDim S60000x64 ![] Facts₀.bcast_S_S60000x64 (constant (F := Ideal) S_ .f32 0x00000000#32))) pre (mulf (F := Ideal) (broadcastInDim S60000x64 ![] Facts₀.bcast_S_S60000x64 s) pre) := by
  after_results
  rw [e0, e1]
  rfl
/-- The input embeddings and the three layers' outputs side by side. -/
theorem hostOps6_2_v129 (W : Valuation τ sig (Elt Ideal)) (x0 x1 x2 x3 : FVec Ideal S60000x64 .f32)
    (e0 : W (Proc.devRef .tc main_arg1) = x0) (e1 : W (Proc.devRef .tc main_v62) = x1) (e2 : W (Proc.devRef .tc main_v95) = x2) (e3 : W (Proc.devRef .tc main_v128) = x3) :
    StableHlo.after hostOps6_2 W (Proc.devRef .tc main_v129) = cat x0 x1 x2 x3 := by
  after_results
  subst e0 e1 e2 e3
  rfl

/-! ## The arrays between the items of the program

`m` is the launch memory, `outs` what the six regions leave in their outputs, `c` the core. -/

variable (m : (ℓ : Loc nD τ sig) → Buf (Elt Ideal) ℓ) (outs : Outs (F := Ideal)) (c : Dev nD)

/-! ### Before region 0 -/

theorem V1_v1 : V1 m c main_v1 = frm (m ((c : Thread nD τ).loc main_arg0)) :=
  hostOps0_v1 (V0 m c) _ rfl
theorem V1_v3 : V1 m c main_v3 = dst (m ((c : Thread nD τ).loc main_arg0)) :=
  hostOps0_v3 (V0 m c) _ rfl
theorem V1_v9 : V1 m c main_v9 = cmpf (F := Ideal) .ogt (deg (m ((c : Thread nD τ).loc main_arg0))) (broadcastInDim S60000 ![] Facts₀.bcast_S_S60000 (constant (F := Ideal) S_ .f32 0x00000000#32)) :=
  hostOps0_v9 (V0 m c) _ rfl
theorem V1_v12 : V1 m c main_v12 = Host.rsqrt (F := Ideal) (maximumf (F := Ideal) (deg (m ((c : Thread nD τ).loc main_arg0))) (broadcastInDim S60000 ![] Facts₀.bcast_S_S60000 (constant (F := Ideal) S_ .f32 0x3F800000#32))) :=
  hostOps0_v12 (V0 m c) _ rfl
theorem V1_cst_3 : V1 m c main_cst_3 = constant (F := Ideal) S_ .f32 0x00000000#32 :=
  hostOps0_cst_3 (V0 m c)
/-- The kernel's per-node factors. -/
theorem V2_v13 : V2 m c main_v13 = dinvK (m ((c : Thread nD τ).loc main_arg0)) :=
  hostOps0_1_v13 (V1 m c) _ _ _ (V1_v9 m c) (V1_v12 m c) (V1_cst_3 m c)
theorem V2_v1 : V2 m c main_v1 = frm (m ((c : Thread nD τ).loc main_arg0)) :=
  (V2_of m c main_v1 (by decide)).trans <| V1_v1 m c
theorem V2_v3 : V2 m c main_v3 = dst (m ((c : Thread nD τ).loc main_arg0)) :=
  (V2_of m c main_v3 (by decide)).trans <| V1_v3 m c
theorem V2_arg2 : V2 m c main_arg2 = (m ((c : Thread nD τ).loc main_arg2)) :=
  (V2_of m c main_arg2 (by decide)).trans <| (V1_of m c main_arg2 (by decide)).trans <| rfl
theorem V2_arg3 : V2 m c main_arg3 = (m ((c : Thread nD τ).loc main_arg3)) :=
  (V2_of m c main_arg3 (by decide)).trans <| (V1_of m c main_arg3 (by decide)).trans <| rfl
theorem V2_arg4 : V2 m c main_arg4 = (m ((c : Thread nD τ).loc main_arg4)) :=
  (V2_of m c main_arg4 (by decide)).trans <| (V1_of m c main_arg4 (by decide)).trans <| rfl
theorem V2_arg5 : V2 m c main_arg5 = (m ((c : Thread nD τ).loc main_arg5)) :=
  (V2_of m c main_arg5 (by decide)).trans <| (V1_of m c main_arg5 (by decide)).trans <| rfl

/-! #### What region 0 reads -/

/-- The embeddings as launched. -/
theorem V3_arg1 : V3 m c main_arg1 = (m ((c : Thread nD τ).loc main_arg1)) :=
  (V3_of m c main_arg1 (by decide)).trans <| (V2_of m c main_arg1 (by decide)).trans <| (V1_of m c main_arg1 (by decide)).trans <| rfl
/-- The edge weights, from the kernel's per-node factors. -/
theorem V3_v29 : V3 m c main_v29 = nrmOf (dinvK (m ((c : Thread nD τ).loc main_arg0))) (m ((c : Thread nD τ).loc main_arg0)) :=
  hostOps0_2_v29 (V2 m c) _ _ (V2_v1 m c) (V2_v3 m c) (V2_v13 m c)
theorem V3_v32 : V3 m c main_v32 = w1T_0 (m ((c : Thread nD τ).loc main_arg2)) :=
  hostOps0_2_v32 (V2 m c) _ (V2_arg2 m c)
theorem V3_v35 : V3 m c main_v35 = row2 (b1row_0 (m ((c : Thread nD τ).loc main_arg3))) :=
  hostOps0_2_v35 (V2 m c) _ (V2_arg3 m c)
theorem V3_v38 : V3 m c main_v38 = w2T_0 (m ((c : Thread nD τ).loc main_arg4)) :=
  hostOps0_2_v38 (V2 m c) _ (V2_arg4 m c)
theorem V3_v41 : V3 m c main_v41 = row2 (b2row_0 (m ((c : Thread nD τ).loc main_arg5))) :=
  hostOps0_2_v41 (V2 m c) _ (V2_arg5 m c)

/-! ### Layer 0 -/

theorem V4_v1 : V4 m outs c main_v1 = frm (m ((c : Thread nD τ).loc main_arg0)) :=
  (V4_of m outs c main_v1 (by decide)).trans <| (V3_of m c main_v1 (by decide)).trans <| V2_v1 m c
theorem V4_v3 : V4 m outs c main_v3 = dst (m ((c : Thread nD τ).loc main_arg0)) :=
  (V4_of m outs c main_v3 (by decide)).trans <| (V3_of m c main_v3 (by decide)).trans <| V2_v3 m c
theorem V4_arg1 : V4 m outs c main_arg1 = (m ((c : Thread nD τ).loc main_arg1)) :=
  (V4_of m outs c main_arg1 (by decide)).trans <| V3_arg1 m c

/-! #### What region 1 reads -/

theorem V5_v49 : V5 m outs c main_v49 = gF (m ((c : Thread nD τ).loc main_arg1)) (m ((c : Thread nD τ).loc main_arg0)) :=
  hostOps1_v49 (V4 m outs c) _ _ (V4_v1 m outs c) (V4_arg1 m outs c)
theorem V5_v56 : V5 m outs c main_v56 = gT (m ((c : Thread nD τ).loc main_arg1)) (m ((c : Thread nD τ).loc main_arg0)) :=
  hostOps1_v56 (V4 m outs c) _ _ (V4_v3 m outs c) (V4_arg1 m outs c)
theorem V5_v29 : V5 m outs c main_v29 = nrmOf (dinvK (m ((c : Thread nD τ).loc main_arg0))) (m ((c : Thread nD τ).loc main_arg0)) :=
  (V5_of m outs c main_v29 (by decide)).trans <| (V4_of m outs c main_v29 (by decide)).trans <| V3_v29 m c
theorem V5_v32 : V5 m outs c main_v32 = w1T_0 (m ((c : Thread nD τ).loc main_arg2)) :=
  (V5_of m outs c main_v32 (by decide)).trans <| (V4_of m outs c main_v32 (by decide)).trans <| V3_v32 m c
theorem V5_v35 : V5 m outs c main_v35 = row2 (b1row_0 (m ((c : Thread nD τ).loc main_arg3))) :=
  (V5_of m outs c main_v35 (by decide)).trans <| (V4_of m outs c main_v35 (by decide)).trans <| V3_v35 m c
theorem V5_v38 : V5 m outs c main_v38 = w2T_0 (m ((c : Thread nD τ).loc main_arg4)) :=
  (V5_of m outs c main_v38 (by decide)).trans <| (V4_of m outs c main_v38 (by decide)).trans <| V3_v38 m c
theorem V5_v41 : V5 m outs c main_v41 = row2 (b2row_0 (m ((c : Thread nD τ).loc main_arg5))) :=
  (V5_of m outs c main_v41 (by decide)).trans <| (V4_of m outs c main_v41 (by decide)).trans <| V3_v41 m c

/-! #### After region 1 -/

theorem V6_v57 : V6 m outs c main_v57 = outs 6 main_v57 c :=
  Function.update_self ..
theorem V6_v42 : V6 m outs c main_v42 = outs 4 main_v42 c :=
  (V6_of m outs c main_v42 (by decide)).trans <| (V5_of m outs c main_v42 (by decide)).trans <| Function.update_self ..
theorem V6_v3 : V6 m outs c main_v3 = dst (m ((c : Thread nD τ).loc main_arg0)) :=
  (V6_of m outs c main_v3 (by decide)).trans <| (V5_of m outs c main_v3 (by decide)).trans <| V4_v3 m outs c
theorem V7_v61 : V7 m outs c main_v61 = addf (F := Ideal) (Host.scatterAdd (F := Ideal) scatter_S60000x64_S1200000x1_S1200000x64_1_0_0_1 (broadcastInDim S60000x64 ![] Facts₀.bcast_S_S60000x64 (constant (F := Ideal) S_ .f32 0x00000000#32)) (colT (m ((c : Thread nD τ).loc main_arg0))) (outs 6 main_v57 c)) (outs 4 main_v42 c) :=
  hostOps2_v61 (V6 m outs c) _ _ _ (V6_v3 m outs c) (V6_v57 m outs c) (V6_v42 m outs c)
theorem V7_cst_12 : V7 m outs c main_cst_12 = constant (F := Ideal) S_ .f32 0x3C23D70A#32 :=
  hostOps2_cst_12 (V6 m outs c)
/-- The embeddings after layer 0. -/
theorem V8_v62 : V8 m outs c main_v62 = (upd (outs 4 main_v42 c) (outs 6 main_v57 c) (m ((c : Thread nD τ).loc main_arg0))) :=
  hostOps2_1_v62 (V7 m outs c) _ _ (V7_v61 m outs c) (V7_cst_12 m outs c)
theorem V8_arg2 : V8 m outs c main_arg2 = (m ((c : Thread nD τ).loc main_arg2)) :=
  (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans <| rfl
theorem V8_arg3 : V8 m outs c main_arg3 = (m ((c : Thread nD τ).loc main_arg3)) :=
  (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m c main_arg3 (by decide)).trans <| (V2_of m c main_arg3 (by decide)).trans <| (V1_of m c main_arg3 (by decide)).trans <| rfl
theorem V8_arg4 : V8 m outs c main_arg4 = (m ((c : Thread nD τ).loc main_arg4)) :=
  (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans <| rfl
theorem V8_arg5 : V8 m outs c main_arg5 = (m ((c : Thread nD τ).loc main_arg5)) :=
  (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans <| rfl

/-! #### What region 2 reads -/

theorem V9_v62 : V9 m outs c main_v62 = (upd (outs 4 main_v42 c) (outs 6 main_v57 c) (m ((c : Thread nD τ).loc main_arg0))) :=
  (V9_of m outs c main_v62 (by decide)).trans <| V8_v62 m outs c
theorem V9_v65 : V9 m outs c main_v65 = w1T_1 (m ((c : Thread nD τ).loc main_arg2)) :=
  hostOps2_2_v65 (V8 m outs c) _ (V8_arg2 m outs c)
theorem V9_v68 : V9 m outs c main_v68 = row2 (b1row_1 (m ((c : Thread nD τ).loc main_arg3))) :=
  hostOps2_2_v68 (V8 m outs c) _ (V8_arg3 m outs c)
theorem V9_v71 : V9 m outs c main_v71 = w2T_1 (m ((c : Thread nD τ).loc main_arg4)) :=
  hostOps2_2_v71 (V8 m outs c) _ (V8_arg4 m outs c)
theorem V9_v74 : V9 m outs c main_v74 = row2 (b2row_1 (m ((c : Thread nD τ).loc main_arg5))) :=
  hostOps2_2_v74 (V8 m outs c) _ (V8_arg5 m outs c)

/-! ### Layer 1 -/

theorem V10_v1 : V10 m outs c main_v1 = frm (m ((c : Thread nD τ).loc main_arg0)) :=
  (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| V4_v1 m outs c
theorem V10_v3 : V10 m outs c main_v3 = dst (m ((c : Thread nD τ).loc main_arg0)) :=
  (V10_of m outs c main_v3 (by decide)).trans <| (V9_of m outs c main_v3 (by decide)).trans <| (V8_of m outs c main_v3 (by decide)).trans <| (V7_of m outs c main_v3 (by decide)).trans <| V6_v3 m outs c
theorem V10_v62 : V10 m outs c main_v62 = (upd (outs 4 main_v42 c) (outs 6 main_v57 c) (m ((c : Thread nD τ).loc main_arg0))) :=
  (V10_of m outs c main_v62 (by decide)).trans <| V9_v62 m outs c

/-! #### What region 3 reads -/

theorem V11_v82 : V11 m outs c main_v82 = gF (upd (outs 4 main_v42 c) (outs 6 main_v57 c) (m ((c : Thread nD τ).loc main_arg0))) (m ((c : Thread nD τ).loc main_arg0)) :=
  hostOps3_v82 (V10 m outs c) _ _ (V10_v1 m outs c) (V10_v62 m outs c)
theorem V11_v89 : V11 m outs c main_v89 = gT (upd (outs 4 main_v42 c) (outs 6 main_v57 c) (m ((c : Thread nD τ).loc main_arg0))) (m ((c : Thread nD τ).loc main_arg0)) :=
  hostOps3_v89 (V10 m outs c) _ _ (V10_v3 m outs c) (V10_v62 m outs c)
theorem V11_v29 : V11 m outs c main_v29 = nrmOf (dinvK (m ((c : Thread nD τ).loc main_arg0))) (m ((c : Thread nD τ).loc main_arg0)) :=
  (V11_of m outs c main_v29 (by decide)).trans <| (V10_of m outs c main_v29 (by decide)).trans <| (V9_of m outs c main_v29 (by decide)).trans <| (V8_of m outs c main_v29 (by decide)).trans <| (V7_of m outs c main_v29 (by decide)).trans <| (V6_of m outs c main_v29 (by decide)).trans <| V5_v29 m outs c
theorem V11_v65 : V11 m outs c main_v65 = w1T_1 (m ((c : Thread nD τ).loc main_arg2)) :=
  (V11_of m outs c main_v65 (by decide)).trans <| (V10_of m outs c main_v65 (by decide)).trans <| V9_v65 m outs c
theorem V11_v68 : V11 m outs c main_v68 = row2 (b1row_1 (m ((c : Thread nD τ).loc main_arg3))) :=
  (V11_of m outs c main_v68 (by decide)).trans <| (V10_of m outs c main_v68 (by decide)).trans <| V9_v68 m outs c
theorem V11_v71 : V11 m outs c main_v71 = w2T_1 (m ((c : Thread nD τ).loc main_arg4)) :=
  (V11_of m outs c main_v71 (by decide)).trans <| (V10_of m outs c main_v71 (by decide)).trans <| V9_v71 m outs c
theorem V11_v74 : V11 m outs c main_v74 = row2 (b2row_1 (m ((c : Thread nD τ).loc main_arg5))) :=
  (V11_of m outs c main_v74 (by decide)).trans <| (V10_of m outs c main_v74 (by decide)).trans <| V9_v74 m outs c

/-! #### After region 3 -/

theorem V12_v90 : V12 m outs c main_v90 = outs 12 main_v90 c :=
  Function.update_self ..
theorem V12_v75 : V12 m outs c main_v75 = outs 10 main_v75 c :=
  (V12_of m outs c main_v75 (by decide)).trans <| (V11_of m outs c main_v75 (by decide)).trans <| Function.update_self ..
theorem V12_v3 : V12 m outs c main_v3 = dst (m ((c : Thread nD τ).loc main_arg0)) :=
  (V12_of m outs c main_v3 (by decide)).trans <| (V11_of m outs c main_v3 (by decide)).trans <| V10_v3 m outs c
theorem V13_v94 : V13 m outs c main_v94 = addf (F := Ideal) (Host.scatterAdd (F := Ideal) scatter_S60000x64_S1200000x1_S1200000x64_1_0_0_1 (broadcastInDim S60000x64 ![] Facts₀.bcast_S_S60000x64 (constant (F := Ideal) S_ .f32 0x00000000#32)) (colT (m ((c : Thread nD τ).loc main_arg0))) (outs 12 main_v90 c)) (outs 10 main_v75 c) :=
  hostOps4_v94 (V12 m outs c) _ _ _ (V12_v3 m outs c) (V12_v90 m outs c) (V12_v75 m outs c)
theorem V13_cst_18 : V13 m outs c main_cst_18 = constant (F := Ideal) S_ .f32 0x3C23D70A#32 :=
  hostOps4_cst_18 (V12 m outs c)
/-- The embeddings after layer 1. -/
theorem V14_v95 : V14 m outs c main_v95 = (upd (outs 10 main_v75 c) (outs 12 main_v90 c) (m ((c : Thread nD τ).loc main_arg0))) :=
  hostOps4_1_v95 (V13 m outs c) _ _ (V13_v94 m outs c) (V13_cst_18 m outs c)
theorem V14_arg2 : V14 m outs c main_arg2 = (m ((c : Thread nD τ).loc main_arg2)) :=
  (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans <| rfl
theorem V14_arg3 : V14 m outs c main_arg3 = (m ((c : Thread nD τ).loc main_arg3)) :=
  (V14_of m outs c main_arg3 (by decide)).trans <| (V13_of m outs c main_arg3 (by decide)).trans <| (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m c main_arg3 (by decide)).trans <| (V2_of m c main_arg3 (by decide)).trans <| (V1_of m c main_arg3 (by decide)).trans <| rfl
theorem V14_arg4 : V14 m outs c main_arg4 = (m ((c : Thread nD τ).loc main_arg4)) :=
  (V14_of m outs c main_arg4 (by decide)).trans <| (V13_of m outs c main_arg4 (by decide)).trans <| (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans <| rfl
theorem V14_arg5 : V14 m outs c main_arg5 = (m ((c : Thread nD τ).loc main_arg5)) :=
  (V14_of m outs c main_arg5 (by decide)).trans <| (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans <| rfl

/-! #### What region 4 reads -/

theorem V15_v95 : V15 m outs c main_v95 = (upd (outs 10 main_v75 c) (outs 12 main_v90 c) (m ((c : Thread nD τ).loc main_arg0))) :=
  (V15_of m outs c main_v95 (by decide)).trans <| V14_v95 m outs c
theorem V15_v98 : V15 m outs c main_v98 = w1T_2 (m ((c : Thread nD τ).loc main_arg2)) :=
  hostOps4_2_v98 (V14 m outs c) _ (V14_arg2 m outs c)
theorem V15_v101 : V15 m outs c main_v101 = row2 (b1row_2 (m ((c : Thread nD τ).loc main_arg3))) :=
  hostOps4_2_v101 (V14 m outs c) _ (V14_arg3 m outs c)
theorem V15_v104 : V15 m outs c main_v104 = w2T_2 (m ((c : Thread nD τ).loc main_arg4)) :=
  hostOps4_2_v104 (V14 m outs c) _ (V14_arg4 m outs c)
theorem V15_v107 : V15 m outs c main_v107 = row2 (b2row_2 (m ((c : Thread nD τ).loc main_arg5))) :=
  hostOps4_2_v107 (V14 m outs c) _ (V14_arg5 m outs c)

/-! ### Layer 2 -/

theorem V16_v1 : V16 m outs c main_v1 = frm (m ((c : Thread nD τ).loc main_arg0)) :=
  (V16_of m outs c main_v1 (by decide)).trans <| (V15_of m outs c main_v1 (by decide)).trans <| (V14_of m outs c main_v1 (by decide)).trans <| (V13_of m outs c main_v1 (by decide)).trans <| (V12_of m outs c main_v1 (by decide)).trans <| (V11_of m outs c main_v1 (by decide)).trans <| V10_v1 m outs c
theorem V16_v3 : V16 m outs c main_v3 = dst (m ((c : Thread nD τ).loc main_arg0)) :=
  (V16_of m outs c main_v3 (by decide)).trans <| (V15_of m outs c main_v3 (by decide)).trans <| (V14_of m outs c main_v3 (by decide)).trans <| (V13_of m outs c main_v3 (by decide)).trans <| V12_v3 m outs c
theorem V16_v95 : V16 m outs c main_v95 = (upd (outs 10 main_v75 c) (outs 12 main_v90 c) (m ((c : Thread nD τ).loc main_arg0))) :=
  (V16_of m outs c main_v95 (by decide)).trans <| V15_v95 m outs c

/-! #### What region 5 reads -/

theorem V17_v115 : V17 m outs c main_v115 = gF (upd (outs 10 main_v75 c) (outs 12 main_v90 c) (m ((c : Thread nD τ).loc main_arg0))) (m ((c : Thread nD τ).loc main_arg0)) :=
  hostOps5_v115 (V16 m outs c) _ _ (V16_v1 m outs c) (V16_v95 m outs c)
theorem V17_v122 : V17 m outs c main_v122 = gT (upd (outs 10 main_v75 c) (outs 12 main_v90 c) (m ((c : Thread nD τ).loc main_arg0))) (m ((c : Thread nD τ).loc main_arg0)) :=
  hostOps5_v122 (V16 m outs c) _ _ (V16_v3 m outs c) (V16_v95 m outs c)
theorem V17_v29 : V17 m outs c main_v29 = nrmOf (dinvK (m ((c : Thread nD τ).loc main_arg0))) (m ((c : Thread nD τ).loc main_arg0)) :=
  (V17_of m outs c main_v29 (by decide)).trans <| (V16_of m outs c main_v29 (by decide)).trans <| (V15_of m outs c main_v29 (by decide)).trans <| (V14_of m outs c main_v29 (by decide)).trans <| (V13_of m outs c main_v29 (by decide)).trans <| (V12_of m outs c main_v29 (by decide)).trans <| V11_v29 m outs c
theorem V17_v98 : V17 m outs c main_v98 = w1T_2 (m ((c : Thread nD τ).loc main_arg2)) :=
  (V17_of m outs c main_v98 (by decide)).trans <| (V16_of m outs c main_v98 (by decide)).trans <| V15_v98 m outs c
theorem V17_v101 : V17 m outs c main_v101 = row2 (b1row_2 (m ((c : Thread nD τ).loc main_arg3))) :=
  (V17_of m outs c main_v101 (by decide)).trans <| (V16_of m outs c main_v101 (by decide)).trans <| V15_v101 m outs c
theorem V17_v104 : V17 m outs c main_v104 = w2T_2 (m ((c : Thread nD τ).loc main_arg4)) :=
  (V17_of m outs c main_v104 (by decide)).trans <| (V16_of m outs c main_v104 (by decide)).trans <| V15_v104 m outs c
theorem V17_v107 : V17 m outs c main_v107 = row2 (b2row_2 (m ((c : Thread nD τ).loc main_arg5))) :=
  (V17_of m outs c main_v107 (by decide)).trans <| (V16_of m outs c main_v107 (by decide)).trans <| V15_v107 m outs c

/-! #### After region 5 -/

theorem V18_v123 : V18 m outs c main_v123 = outs 18 main_v123 c :=
  Function.update_self ..
theorem V18_v108 : V18 m outs c main_v108 = outs 16 main_v108 c :=
  (V18_of m outs c main_v108 (by decide)).trans <| (V17_of m outs c main_v108 (by decide)).trans <| Function.update_self ..
theorem V18_v3 : V18 m outs c main_v3 = dst (m ((c : Thread nD τ).loc main_arg0)) :=
  (V18_of m outs c main_v3 (by decide)).trans <| (V17_of m outs c main_v3 (by decide)).trans <| V16_v3 m outs c
theorem V19_v127 : V19 m outs c main_v127 = addf (F := Ideal) (Host.scatterAdd (F := Ideal) scatter_S60000x64_S1200000x1_S1200000x64_1_0_0_1 (broadcastInDim S60000x64 ![] Facts₀.bcast_S_S60000x64 (constant (F := Ideal) S_ .f32 0x00000000#32)) (colT (m ((c : Thread nD τ).loc main_arg0))) (outs 18 main_v123 c)) (outs 16 main_v108 c) :=
  hostOps6_v127 (V18 m outs c) _ _ _ (V18_v3 m outs c) (V18_v123 m outs c) (V18_v108 m outs c)
theorem V19_cst_24 : V19 m outs c main_cst_24 = constant (F := Ideal) S_ .f32 0x3C23D70A#32 :=
  hostOps6_cst_24 (V18 m outs c)
/-- The embeddings after layer 2. -/
theorem V20_v128 : V20 m outs c main_v128 = (upd (outs 16 main_v108 c) (outs 18 main_v123 c) (m ((c : Thread nD τ).loc main_arg0))) :=
  hostOps6_1_v128 (V19 m outs c) _ _ (V19_v127 m outs c) (V19_cst_24 m outs c)

/-! ### The result -/

theorem V20_arg1 : V20 m outs c main_arg1 = (m ((c : Thread nD τ).loc main_arg1)) :=
  (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m outs c main_arg1 (by decide)).trans <| V4_arg1 m outs c
theorem V20_v62 : V20 m outs c main_v62 = (upd (outs 4 main_v42 c) (outs 6 main_v57 c) (m ((c : Thread nD τ).loc main_arg0))) :=
  (V20_of m outs c main_v62 (by decide)).trans <| (V19_of m outs c main_v62 (by decide)).trans <| (V18_of m outs c main_v62 (by decide)).trans <| (V17_of m outs c main_v62 (by decide)).trans <| (V16_of m outs c main_v62 (by decide)).trans <| (V15_of m outs c main_v62 (by decide)).trans <| (V14_of m outs c main_v62 (by decide)).trans <| (V13_of m outs c main_v62 (by decide)).trans <| (V12_of m outs c main_v62 (by decide)).trans <| (V11_of m outs c main_v62 (by decide)).trans <| (V10_of m outs c main_v62 (by decide)).trans <| V9_v62 m outs c
theorem V20_v95 : V20 m outs c main_v95 = (upd (outs 10 main_v75 c) (outs 12 main_v90 c) (m ((c : Thread nD τ).loc main_arg0))) :=
  (V20_of m outs c main_v95 (by decide)).trans <| (V19_of m outs c main_v95 (by decide)).trans <| (V18_of m outs c main_v95 (by decide)).trans <| (V17_of m outs c main_v95 (by decide)).trans <| (V16_of m outs c main_v95 (by decide)).trans <| V15_v95 m outs c
/-- The program's result: the input embeddings and the three layers' outputs side by side. -/
theorem V21_v129 : V21 m outs c main_v129 = cat (m ((c : Thread nD τ).loc main_arg1)) (upd (outs 4 main_v42 c) (outs 6 main_v57 c) (m ((c : Thread nD τ).loc main_arg0))) (upd (outs 10 main_v75 c) (outs 12 main_v90 c) (m ((c : Thread nD τ).loc main_arg0))) (upd (outs 16 main_v108 c) (outs 18 main_v123 c) (m ((c : Thread nD τ).loc main_arg0))) :=
  hostOps6_2_v129 (V20 m outs c) _ _ _ _ (V20_arg1 m outs c) (V20_v62 m outs c) (V20_v95 m outs c) (V20_v128 m outs c)

end Cert.KernelIdeal.Stages
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«119603_j4896262717867_2_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.LibKeepdims.lean ====
/-
  Row reductions that keep the reduced axis as a unit axis, read at an entry on the extended reals.

  A kernel that takes `sum(x, axis=-1, keepdims=True)` of an [a, b] block does three layout steps around the
  arithmetic: the lane sum into [a], a cast of [a] to the column shape [a, 1], and later a broadcast of an [a, 1]
  column back over the b lanes. Read at an entry written by its coordinates:
    * the cast [a] → [a, 1] at (i, u) is the vector at i;
    * the broadcast [a, 1] → [a, b] at (p, c) is the column at (p, 0);
    * the lane sum of an [a, b] array at i is the sum over k of the array at (i, k);
    * a [1, b] row cast to its own shape and broadcast over a rows reads, at (p, c), the row at (0, c).
  Over any extents a, b.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type} {a b : ℕ}

/-- An `[a]` vector cast to the column shape `[a, 1]` reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast over `b` lanes reads, at `(p, c)`, the column at `(p, 0)`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, at row `i`, is the sum over `k` of the array at `(i, k)`. -/
theorem laneSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax; apply Fin.ext
  match ax with
  | ⟨0, _⟩ => rfl
  | ⟨1, _⟩ => rfl

/-- The lane sum kept as a column: the `[a]` sums cast to `[a, 1]` read, at `(i, u)`, the sum over `k` of the array at `(i, k)`. -/
theorem keepdimsSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (hc : (⟨1, ![a]⟩ : Shape).ShapeCasts ⟨2, ![a, 1]⟩)
    (i : Fin a) (u : Fin 1) :
    shapeCast ⟨2, ![a, 1]⟩ (multiReduction .add [1] ⟨1, ![a]⟩ src 0x00000000#32 h hφ hacc) hc (ix2 i u)
      = ∑ k : Fin b, src (ix2 i k) :=
  (shapeCast_a_a1_apply _ hc i u).trans (laneSum_apply src h hφ hacc i)

/-- A `[1, b]` row, cast to its own shape and broadcast over `a` rows, reads at `(p, c)` the row at `(0, c)`. -/
theorem rowBroadcast_apply (v : (⟨2, ![1, b]⟩ : Shape).Idx → α) (hc : (⟨2, ![1, b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix2 (0 : Fin 1) c) := by
  rw [shapeCast_self]
  exact broadcastTo_1b_ab_apply v h p c

end Cert.LibKeepdims
-- ==== Proof.KiDenseVal0.lean ====
/-
  The output array of the dense region 0 (layer 0) on the extended reals, as one function of the arrays the region finds:
  entry (n, d) is the sum over k of x(n, k) · w(k, d), plus the bias row's entry d. Point t of the grid writes rows
  6000·t … 6000·t + 5999; the ten blocks tile the 60000 rows.
-/
import proofs.«119603_j4896262717867_2_alg».proof.Proof.KiDense0
import proofs.«119603_j4896262717867_2_alg».proof.Proof.LibMatmul2D
import proofs.«119603_j4896262717867_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem zeroOffsets : (![0, 0] : Fin 2 → Nat) = fun _ => 0 := funext fun a => by fin_cases a <;> rfl

/-- The dense layer as a function of whole arrays: `x · w + b`, entry by entry. -/
def denseG (x : FVec Ideal S60000x64 .f32) (w : FVec Ideal S64x64 .f32) (b : FVec Ideal S1x64 .f32) : FVec Ideal S60000x64 .f32 :=
  fun i => (∑ k : Fin 64, x (ix2 (i 0) k) * w (ix2 k (i 1))) + b (ix2 (0 : Fin 1) (i 1))

/-- The body's stored value at entry (p, q) of the block: row p of the block against column q of the weights, plus
    the bias row's entry q (rounding the operands to a narrower format is the identity on the extended reals). -/
theorem pay_dense0 (x0 : FVec Ideal S6000x64 .f32) (x1 : FVec Ideal S64x64 .f32) (x2 : FVec Ideal S1x64 .f32) (p : Fin 6000) (q : Fin 64) :
    k0_pay1 (F := Ideal) x0 x1 x2 (ix2 p q) = (∑ k : Fin 64, x0 (ix2 p k) * x1 (ix2 k q)) + x2 (ix2 (0 : Fin 1) q) := by
  unfold k0_pay1
  exact congrArg₂ (· + ·)
    ((Cert.LibMatmul2D.rows_cols _ none _ _ p q).trans
      (Finset.sum_congr rfl fun k _ => congrArg₂ (· * ·) rfl (congrFun (shapeCast_self x1 _) _)))
    ((Cert.LibKeepdims.rowBroadcast_apply _ _ _ p q).trans (congrFun (shapeCast_self x2 _) _))

/-- The block index maps over the grid: the x and output windows move together along the rows, the weights and the
    bias stay at block 0. -/
theorem idx_dense0 : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 :=
  (by decide +kernel : ∀ t : Fin grid0.N, _)

/-- Every block of rows is some point's. -/
theorem onto_dense0 : ∀ q0 : Fin 10, ∃ t : Fin cfg0.N, win0_3.index t = ![q0.val, 0] :=
  (by decide +kernel : ∀ q0 : Fin 10, ∃ t : Fin grid0.N, win0_3.index t = ![q0.val, 0])

/-- Reading the three input blocks of point `t` where the output block's entry (p, q) needs them is reading the whole
    arrays at row `6000·t + p`, column q. -/
theorem blocks_dense0 (t : Fin cfg0.N) (X : FVec Ideal S60000x64 .f32) (W : FVec Ideal S64x64 .f32) (B : FVec Ideal S1x64 .f32)
    (p : Fin 6000) (q : Fin 64) :
    (∑ k : Fin 64, X (((cfg0.win 0).blk t).view.emb (ix2 p k)) * W (((cfg0.win 1).blk t).view.emb (ix2 k q)))
        + B (((cfg0.win 2).blk t).view.emb (ix2 (0 : Fin 1) q))
      = denseG X W B (((cfg0.win 3).blk t).view.emb (ix2 p q)) := by
  obtain ⟨e0, e1, e2, e3, e4, e5, e6, -⟩ := idx_dense0 t
  have hx : ∀ k : Fin 64, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 6000 + 1 * p.val = win0_3.index t (0 : Fin 2) * 6000 + 1 * p.val; omega
    | ⟨1, _⟩ => show win0_0.index t (1 : Fin 2) * 64 + 1 * k.val = k.val; omega
  have hw : ∀ k : Fin 64, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  have hb : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  unfold denseG
  exact congrArg₂ (· + ·)
    (Finset.sum_congr rfl fun k _ => congrArg₂ (· * ·) (congrArg X (hx k)) (congrArg W (hw k)))
    (congrArg B hb)

variable (V : (c : Dev nD) → (b : Ref sig .tc) → Buf (Elt Ideal) ((c : Thread nD τ).loc b))

set_option backward.isDefEq.respectTransparency.types false in
/-- What point `t` writes back is block `t` of `denseG` of the arrays the region finds. -/
theorem flushed_dense0 (c : Dev nD) (t : Fin cfg0.N) :
    (dat0 V c).flushed 3 t = ((cfg0.win 3).blk t).view.read (Elt Ideal)
      (denseG (V c (Pipeline.arrRef spec0 0)) (V c (Pipeline.arrRef spec0 1)) (V c (Pipeline.arrRef spec0 2))) := by
  show (cfg0.win 3).cut (grid0.coords t) ((dat0 V c).after 3 t) = _
  rw [dat0_after3]
  unfold dense0
  rw [View.canon_unit_zero zeroOffsets]
  simp only [View.ld_unit_zero (S := S6000x64) zeroOffsets, View.ld_unit_zero (S := S64x64) zeroOffsets, View.ld_unit_zero (S := S1x64) zeroOffsets]
  funext j
  refine ((congrArg (k0_pay1 (F := Ideal) _ _ _) (eq_ix2 (n0 := 6000) (n1 := 64) j)).trans (pay_dense0 _ _ _ (j 0) (j 1))).trans ?_
  exact (blocks_dense0 t (V c (Pipeline.arrRef spec0 0)) (V c (Pipeline.arrRef spec0 1)) (V c (Pipeline.arrRef spec0 2)) (j 0) (j 1)).trans
    (congrArg (fun y => denseG (V c (Pipeline.arrRef spec0 0)) (V c (Pipeline.arrRef spec0 1)) (V c (Pipeline.arrRef spec0 2)) (((cfg0.win 3).blk t).view.emb y))
      (eq_ix2 (n0 := 6000) (n1 := 64) j).symm)

/-- An index of the output array is in point `t`'s block iff each coordinate is in the block's range on its axis. -/
theorem mem_dense0 (t : Fin cfg0.N) (i : S60000x64.Idx) :
    i ∈ ((cfg0.win 3).blk t).view.set ↔ ∀ a : Fin 2, win0_3.index t a * S6000x64.size a ≤ (i a).val ∧ (i a).val < win0_3.index t a * S6000x64.size a + S6000x64.size a := by
  show i ∈ ((View.whole main_v42).slice (win0_3.rect t)).set ↔ _
  rw [View.set_slice_whole, Rect.mem_set_unit]
  exact Iff.rfl

/-- The ten blocks cover the output array. -/
theorem cover_dense0 (i : S60000x64.Idx) : ∃ t : Fin cfg0.N, (cfg0.win 3).flush t = true ∧ i ∈ ((cfg0.win 3).blk t).view.set := by
  have hi0 : (i 0).val < 60000 := (i 0).isLt
  have hi1 : (i 1).val < 64 := (i 1).isLt
  obtain ⟨t, ht⟩ := onto_dense0 ⟨(i 0).val / 6000, by omega⟩
  have q0 : win0_3.index t (0 : Fin 2) = (i 0).val / 6000 := congrFun ht 0
  have q1 : win0_3.index t (1 : Fin 2) = 0 := congrFun ht 1
  refine ⟨t, flush0_3 t, ?_⟩
  rw [mem_dense0]
  intro a
  match a with
  | ⟨0, _⟩ => show win0_3.index t (0 : Fin 2) * 6000 ≤ (i 0).val ∧ (i 0).val < win0_3.index t (0 : Fin 2) * 6000 + 6000; omega
  | ⟨1, _⟩ => show win0_3.index t (1 : Fin 2) * 64 ≤ (i 1).val ∧ (i 1).val < win0_3.index t (1 : Fin 2) * 64 + 64; omega

set_option backward.isDefEq.respectTransparency.types false in
/-- The output array after the region: `denseG` of the arrays the region finds. -/
theorem arr_dense0 (c : Dev nD) : (dat0 V c).arrAt 3 cfg0.N
    = denseG (V c (Pipeline.arrRef spec0 0)) (V c (Pipeline.arrRef spec0 1)) (V c (Pipeline.arrRef spec0 2)) :=
  (dat0 V c).arrAt_eq_of_cover 3 _ (fun t _ => flushed_dense0 V c t) (cover_dense0)

end Cert.KernelIdeal.Hand

end
-- ==== Proof.KiDenseVal2.lean ====
/-
  The output array of the dense region 2 (layer 1) on the extended reals, as one function of the arrays the region finds:
  entry (n, d) is the sum over k of x(n, k) · w(k, d), plus the bias row's entry d. Point t of the grid writes rows
  6000·t … 6000·t + 5999; the ten blocks tile the 60000 rows.
-/
import proofs.«119603_j4896262717867_2_alg».proof.Proof.KiDense2
import proofs.«119603_j4896262717867_2_alg».proof.Proof.LibMatmul2D
import proofs.«119603_j4896262717867_2_alg».proof.Proof.LibKeepdims
import proofs.«119603_j4896262717867_2_alg».proof.Proof.KiDenseVal0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's stored value at entry (p, q) of the block: row p of the block against column q of the weights, plus
    the bias row's entry q (rounding the operands to a narrower format is the identity on the extended reals). -/
theorem pay_dense2 (x0 : FVec Ideal S6000x64 .f32) (x1 : FVec Ideal S64x64 .f32) (x2 : FVec Ideal S1x64 .f32) (p : Fin 6000) (q : Fin 64) :
    k2_pay1 (F := Ideal) x0 x1 x2 (ix2 p q) = (∑ k : Fin 64, x0 (ix2 p k) * x1 (ix2 k q)) + x2 (ix2 (0 : Fin 1) q) := by
  unfold k2_pay1
  exact congrArg₂ (· + ·)
    ((Cert.LibMatmul2D.rows_cols _ none _ _ p q).trans
      (Finset.sum_congr rfl fun k _ => congrArg₂ (· * ·) (congrFun (shapeCast_self x0 _) _) (congrFun (shapeCast_self x1 _) _)))
    ((Cert.LibKeepdims.rowBroadcast_apply _ _ _ p q).trans (congrFun (shapeCast_self x2 _) _))

/-- The block index maps over the grid: the x and output windows move together along the rows, the weights and the
    bias stay at block 0. -/
theorem idx_dense2 : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 9 :=
  (by decide +kernel : ∀ t : Fin grid2.N, _)

/-- Every block of rows is some point's. -/
theorem onto_dense2 : ∀ q0 : Fin 10, ∃ t : Fin cfg2.N, win2_3.index t = ![q0.val, 0] :=
  (by decide +kernel : ∀ q0 : Fin 10, ∃ t : Fin grid2.N, win2_3.index t = ![q0.val, 0])

/-- Reading the three input blocks of point `t` where the output block's entry (p, q) needs them is reading the whole
    arrays at row `6000·t + p`, column q. -/
theorem blocks_dense2 (t : Fin cfg2.N) (X : FVec Ideal S60000x64 .f32) (W : FVec Ideal S64x64 .f32) (B : FVec Ideal S1x64 .f32)
    (p : Fin 6000) (q : Fin 64) :
    (∑ k : Fin 64, X (((cfg2.win 0).blk t).view.emb (ix2 p k)) * W (((cfg2.win 1).blk t).view.emb (ix2 k q)))
        + B (((cfg2.win 2).blk t).view.emb (ix2 (0 : Fin 1) q))
      = denseG X W B (((cfg2.win 3).blk t).view.emb (ix2 p q)) := by
  obtain ⟨e0, e1, e2, e3, e4, e5, e6, -⟩ := idx_dense2 t
  have hx : ∀ k : Fin 64, ((cfg2.win 0).blk t).view.emb (ix2 p k) = ix2 ((((cfg2.win 3).blk t).view.emb (ix2 p q)) 0) k := fun k => by
    funext a; apply Fin.ext
    match a with
    | ⟨0, _⟩ => show win2_0.index t (0 : Fin 2) * 6000 + 1 * p.val = win2_3.index t (0 : Fin 2) * 6000 + 1 * p.val; omega
    | ⟨1, _⟩ => show win2_0.index t (1 : Fin 2) * 64 + 1 * k.val = k.val; omega
  have hw : ∀ k : Fin 64, ((cfg2.win 1).blk t).view.emb (ix2 k q) = ix2 k ((((cfg2.win 3).blk t).view.emb (ix2 p q)) 1) := fun k => by
    funext a; apply Fin.ext
    match a with
    | ⟨0, _⟩ => show win2_1.index t (0 : Fin 2) * 64 + 1 * k.val = k.val; omega
    | ⟨1, _⟩ => show win2_1.index t (1 : Fin 2) * 64 + 1 * q.val = win2_3.index t (1 : Fin 2) * 64 + 1 * q.val; omega
  have hb : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega
  unfold denseG
  exact congrArg₂ (· + ·)
    (Finset.sum_congr rfl fun k _ => congrArg₂ (· * ·) (congrArg X (hx k)) (congrArg W (hw k)))
    (congrArg B hb)

variable (V : (c : Dev nD) → (b : Ref sig .tc) → Buf (Elt Ideal) ((c : Thread nD τ).loc b))

set_option backward.isDefEq.respectTransparency.types false in
/-- What point `t` writes back is block `t` of `denseG` of the arrays the region finds. -/
theorem flushed_dense2 (c : Dev nD) (t : Fin cfg2.N) :
    (dat2 V c).flushed 3 t = ((cfg2.win 3).blk t).view.read (Elt Ideal)
      (denseG (V c (Pipeline.arrRef spec2 0)) (V c (Pipeline.arrRef spec2 1)) (V c (Pipeline.arrRef spec2 2))) := by
  show (cfg2.win 3).cut (grid2.coords t) ((dat2 V c).after 3 t) = _
  rw [dat2_after3]
  unfold dense2
  rw [View.canon_unit_zero zeroOffsets]
  simp only [View.ld_unit_zero (S := S6000x64) zeroOffsets, View.ld_unit_zero (S := S64x64) zeroOffsets, View.ld_unit_zero (S := S1x64) zeroOffsets]
  funext j
  refine ((congrArg (k2_pay1 (F := Ideal) _ _ _) (eq_ix2 (n0 := 6000) (n1 := 64) j)).trans (pay_dense2 _ _ _ (j 0) (j 1))).trans ?_
  exact (blocks_dense2 t (V c (Pipeline.arrRef spec2 0)) (V c (Pipeline.arrRef spec2 1)) (V c (Pipeline.arrRef spec2 2)) (j 0) (j 1)).trans
    (congrArg (fun y => denseG (V c (Pipeline.arrRef spec2 0)) (V c (Pipeline.arrRef spec2 1)) (V c (Pipeline.arrRef spec2 2)) (((cfg2.win 3).blk t).view.emb y))
      (eq_ix2 (n0 := 6000) (n1 := 64) j).symm)

/-- An index of the output array is in point `t`'s block iff each coordinate is in the block's range on its axis. -/
theorem mem_dense2 (t : Fin cfg2.N) (i : S60000x64.Idx) :
    i ∈ ((cfg2.win 3).blk t).view.set ↔ ∀ a : Fin 2, win2_3.index t a * S6000x64.size a ≤ (i a).val ∧ (i a).val < win2_3.index t a * S6000x64.size a + S6000x64.size a := by
  show i ∈ ((View.whole main_v75).slice (win2_3.rect t)).set ↔ _
  rw [View.set_slice_whole, Rect.mem_set_unit]
  exact Iff.rfl

/-- The ten blocks cover the output array. -/
theorem cover_dense2 (i : S60000x64.Idx) : ∃ t : Fin cfg2.N, (cfg2.win 3).flush t = true ∧ i ∈ ((cfg2.win 3).blk t).view.set := by
  have hi0 : (i 0).val < 60000 := (i 0).isLt
  have hi1 : (i 1).val < 64 := (i 1).isLt
  obtain ⟨t, ht⟩ := onto_dense2 ⟨(i 0).val / 6000, by omega⟩
  have q0 : win2_3.index t (0 : Fin 2) = (i 0).val / 6000 := congrFun ht 0
  have q1 : win2_3.index t (1 : Fin 2) = 0 := congrFun ht 1
  refine ⟨t, flush2_3 t, ?_⟩
  rw [mem_dense2]
  intro a
  match a with
  | ⟨0, _⟩ => show win2_3.index t (0 : Fin 2) * 6000 ≤ (i 0).val ∧ (i 0).val < win2_3.index t (0 : Fin 2) * 6000 + 6000; omega
  | ⟨1, _⟩ => show win2_3.index t (1 : Fin 2) * 64 ≤ (i 1).val ∧ (i 1).val < win2_3.index t (1 : Fin 2) * 64 + 64; omega

set_option backward.isDefEq.respectTransparency.types false in
/-- The output array after the region: `denseG` of the arrays the region finds. -/
theorem arr_dense2 (c : Dev nD) : (dat2 V c).arrAt 3 cfg2.N
    = denseG (V c (Pipeline.arrRef spec2 0)) (V c (Pipeline.arrRef spec2 1)) (V c (Pipeline.arrRef spec2 2)) :=
  (dat2 V c).arrAt_eq_of_cover 3 _ (fun t _ => flushed_dense2 V c t) (cover_dense2)

end Cert.KernelIdeal.Hand

end
-- ==== Proof.KiDenseVal4.lean ====
/-
  The output array of the dense region 4 (layer 2) on the extended reals, as one function of the arrays the region finds:
  entry (n, d) is the sum over k of x(n, k) · w(k, d), plus the bias row's entry d. Point t of the grid writes rows
  6000·t … 6000·t + 5999; the ten blocks tile the 60000 rows.
-/
import proofs.«119603_j4896262717867_2_alg».proof.Proof.KiDense4
import proofs.«119603_j4896262717867_2_alg».proof.Proof.LibMatmul2D
import proofs.«119603_j4896262717867_2_alg».proof.Proof.LibKeepdims
import proofs.«119603_j4896262717867_2_alg».proof.Proof.KiDenseVal0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's stored value at entry (p, q) of the block: row p of the block against column q of the weights, plus
    the bias row's entry q (rounding the operands to a narrower format is the identity on the extended reals). -/
theorem pay_dense4 (x0 : FVec Ideal S6000x64 .f32) (x1 : FVec Ideal S64x64 .f32) (x2 : FVec Ideal S1x64 .f32) (p : Fin 6000) (q : Fin 64) :
    k4_pay1 (F := Ideal) x0 x1 x2 (ix2 p q) = (∑ k : Fin 64, x0 (ix2 p k) * x1 (ix2 k q)) + x2 (ix2 (0 : Fin 1) q) := by
  unfold k4_pay1
  exact congrArg₂ (· + ·)
    ((Cert.LibMatmul2D.rows_cols _ none _ _ p q).trans
      (Finset.sum_congr rfl fun k _ => congrArg₂ (· * ·) (congrFun (shapeCast_self x0 _) _) (congrFun (shapeCast_self x1 _) _)))
    ((Cert.LibKeepdims.rowBroadcast_apply _ _ _ p q).trans (congrFun (shapeCast_self x2 _) _))

/-- The block index maps over the grid: the x and output windows move together along the rows, the weights and the
    bias stay at block 0. -/
theorem idx_dense4 : ∀ t : Fin cfg4.N, win4_0.index t (0 : Fin 2) = win4_3.index t (0 : Fin 2)
    ∧ win4_0.index t (1 : Fin 2) = 0 ∧ win4_3.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 9 :=
  (by decide +kernel : ∀ t : Fin grid4.N, _)

/-- Every block of rows is some point's. -/
theorem onto_dense4 : ∀ q0 : Fin 10, ∃ t : Fin cfg4.N, win4_3.index t = ![q0.val, 0] :=
  (by decide +kernel : ∀ q0 : Fin 10, ∃ t : Fin grid4.N, win4_3.index t = ![q0.val, 0])

/-- Reading the three input blocks of point `t` where the output block's entry (p, q) needs them is reading the whole
    arrays at row `6000·t + p`, column q. -/
theorem blocks_dense4 (t : Fin cfg4.N) (X : FVec Ideal S60000x64 .f32) (W : FVec Ideal S64x64 .f32) (B : FVec Ideal S1x64 .f32)
    (p : Fin 6000) (q : Fin 64) :
    (∑ k : Fin 64, X (((cfg4.win 0).blk t).view.emb (ix2 p k)) * W (((cfg4.win 1).blk t).view.emb (ix2 k q)))
        + B (((cfg4.win 2).blk t).view.emb (ix2 (0 : Fin 1) q))
      = denseG X W B (((cfg4.win 3).blk t).view.emb (ix2 p q)) := by
  obtain ⟨e0, e1, e2, e3, e4, e5, e6, -⟩ := idx_dense4 t
  have hx : ∀ k : Fin 64, ((cfg4.win 0).blk t).view.emb (ix2 p k) = ix2 ((((cfg4.win 3).blk t).view.emb (ix2 p q)) 0) k := fun k => by
    funext a; apply Fin.ext
    match a with
    | ⟨0, _⟩ => show win4_0.index t (0 : Fin 2) * 6000 + 1 * p.val = win4_3.index t (0 : Fin 2) * 6000 + 1 * p.val; omega
    | ⟨1, _⟩ => show win4_0.index t (1 : Fin 2) * 64 + 1 * k.val = k.val; omega
  have hw : ∀ k : Fin 64, ((cfg4.win 1).blk t).view.emb (ix2 k q) = ix2 k ((((cfg4.win 3).blk t).view.emb (ix2 p q)) 1) := fun k => by
    funext a; apply Fin.ext
    match a with
    | ⟨0, _⟩ => show win4_1.index t (0 : Fin 2) * 64 + 1 * k.val = k.val; omega
    | ⟨1, _⟩ => show win4_1.index t (1 : Fin 2) * 64 + 1 * q.val = win4_3.index t (1 : Fin 2) * 64 + 1 * q.val; omega
  have hb : ((cfg4.win 2).blk t).view.emb (ix2 (0 : Fin 1) q) = ix2 (0 : Fin 1) ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega
  unfold denseG
  exact congrArg₂ (· + ·)
    (Finset.sum_congr rfl fun k _ => congrArg₂ (· * ·) (congrArg X (hx k)) (congrArg W (hw k)))
    (congrArg B hb)

variable (V : (c : Dev nD) → (b : Ref sig .tc) → Buf (Elt Ideal) ((c : Thread nD τ).loc b))

set_option backward.isDefEq.respectTransparency.types false in
/-- What point `t` writes back is block `t` of `denseG` of the arrays the region finds. -/
theorem flushed_dense4 (c : Dev nD) (t : Fin cfg4.N) :
    (dat4 V c).flushed 3 t = ((cfg4.win 3).blk t).view.read (Elt Ideal)
      (denseG (V c (Pipeline.arrRef spec4 0)) (V c (Pipeline.arrRef spec4 1)) (V c (Pipeline.arrRef spec4 2))) := by
  show (cfg4.win 3).cut (grid4.coords t) ((dat4 V c).after 3 t) = _
  rw [dat4_after3]
  unfold dense4
  rw [View.canon_unit_zero zeroOffsets]
  simp only [View.ld_unit_zero (S := S6000x64) zeroOffsets, View.ld_unit_zero (S := S64x64) zeroOffsets, View.ld_unit_zero (S := S1x64) zeroOffsets]
  funext j
  refine ((congrArg (k4_pay1 (F := Ideal) _ _ _) (eq_ix2 (n0 := 6000) (n1 := 64) j)).trans (pay_dense4 _ _ _ (j 0) (j 1))).trans ?_
  exact (blocks_dense4 t (V c (Pipeline.arrRef spec4 0)) (V c (Pipeline.arrRef spec4 1)) (V c (Pipeline.arrRef spec4 2)) (j 0) (j 1)).trans
    (congrArg (fun y => denseG (V c (Pipeline.arrRef spec4 0)) (V c (Pipeline.arrRef spec4 1)) (V c (Pipeline.arrRef spec4 2)) (((cfg4.win 3).blk t).view.emb y))
      (eq_ix2 (n0 := 6000) (n1 := 64) j).symm)

/-- An index of the output array is in point `t`'s block iff each coordinate is in the block's range on its axis. -/
theorem mem_dense4 (t : Fin cfg4.N) (i : S60000x64.Idx) :
    i ∈ ((cfg4.win 3).blk t).view.set ↔ ∀ a : Fin 2, win4_3.index t a * S6000x64.size a ≤ (i a).val ∧ (i a).val < win4_3.index t a * S6000x64.size a + S6000x64.size a := by
  show i ∈ ((View.whole main_v108).slice (win4_3.rect t)).set ↔ _
  rw [View.set_slice_whole, Rect.mem_set_unit]
  exact Iff.rfl

/-- The ten blocks cover the output array. -/
theorem cover_dense4 (i : S60000x64.Idx) : ∃ t : Fin cfg4.N, (cfg4.win 3).flush t = true ∧ i ∈ ((cfg4.win 3).blk t).view.set := by
  have hi0 : (i 0).val < 60000 := (i 0).isLt
  have hi1 : (i 1).val < 64 := (i 1).isLt
  obtain ⟨t, ht⟩ := onto_dense4 ⟨(i 0).val / 6000, by omega⟩
  have q0 : win4_3.index t (0 : Fin 2) = (i 0).val / 6000 := congrFun ht 0
  have q1 : win4_3.index t (1 : Fin 2) = 0 := congrFun ht 1
  refine ⟨t, flush4_3 t, ?_⟩
  rw [mem_dense4]
  intro a
  match a with
  | ⟨0, _⟩ => show win4_3.index t (0 : Fin 2) * 6000 ≤ (i 0).val ∧ (i 0).val < win4_3.index t (0 : Fin 2) * 6000 + 6000; omega
  | ⟨1, _⟩ => show win4_3.index t (1 : Fin 2) * 64 ≤ (i 1).val ∧ (i 1).val < win4_3.index t (1 : Fin 2) * 64 + 64; omega

set_option backward.isDefEq.respectTransparency.types false in
/-- The output array after the region: `denseG` of the arrays the region finds. -/
theorem arr_dense4 (c : Dev nD) : (dat4 V c).arrAt 3 cfg4.N
    = denseG (V c (Pipeline.arrRef spec4 0)) (V c (Pipeline.arrRef spec4 1)) (V c (Pipeline.arrRef spec4 2)) :=
  (dat4 V c).arrAt_eq_of_cover 3 _ (fun t _ => flushed_dense4 V c t) (cover_dense4)

end Cert.KernelIdeal.Hand

end
-- ==== Proof.KiEdgeVal1.lean ====
/-
  The output array of the edge region 1 (layer 0) on the extended reals, as one function of the arrays the region finds:
  entry (e, d) is the edge weight nr(e) times
  ((∑ k, xj(e, k) · w1(k, d)) + b1(d)) + ((∑ k, (xj(e, k) · xi(e, k)) · w2(k, d)) + b2(d)).
  Point t of the grid writes edges 12000·t … 12000·t + 11999; the hundred blocks tile the 1200000 edges.
-/
import proofs.«119603_j4896262717867_2_alg».proof.Proof.KiEdge1
import proofs.«119603_j4896262717867_2_alg».proof.Proof.LibMatmul2D
import proofs.«119603_j4896262717867_2_alg».proof.Proof.LibKeepdims
import proofs.«119603_j4896262717867_2_alg».proof.Proof.KiDenseVal0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The weighted message as a function of whole arrays, entry by entry. -/
def edgeG (xj xi : FVec Ideal S1200000x64 .f32) (nr : FVec Ideal S1200000x1 .f32) (w1 : FVec Ideal S64x64 .f32) (b1 : FVec Ideal S1x64 .f32)
    (w2 : FVec Ideal S64x64 .f32) (b2 : FVec Ideal S1x64 .f32) : FVec Ideal S1200000x64 .f32 :=
  fun i => nr (ix2 (i 0) (0 : Fin 1)) *
    (((∑ k : Fin 64, xj (ix2 (i 0) k) * w1 (ix2 k (i 1))) + b1 (ix2 (0 : Fin 1) (i 1)))
      + ((∑ k : Fin 64, (xj (ix2 (i 0) k) * xi (ix2 (i 0) k)) * w2 (ix2 k (i 1))) + b2 (ix2 (0 : Fin 1) (i 1))))

/-- The body's stored value at entry (p, q) of the block (rounding the operands to a narrower format and a cast of a
    shape to itself are the identity). -/
theorem pay_edge1 (v0 v2 : FVec Ideal S12000x64 .f32) (v5 : FVec Ideal S64x64 .f32) (v9 : FVec Ideal S1x64 .f32)
    (v16 : FVec Ideal S64x64 .f32) (v20 : FVec Ideal S1x64 .f32) (v25 : FVec Ideal S12000x1 .f32) (p : Fin 12000) (q : Fin 64) :
    k1_pay1 (F := Ideal) v0 v2 v5 v9 v16 v20 v25 (ix2 p q) = v25 (ix2 p (0 : Fin 1)) *
      (((∑ k : Fin 64, v0 (ix2 p k) * v5 (ix2 k q)) + v9 (ix2 (0 : Fin 1) q))
        + ((∑ k : Fin 64, (v0 (ix2 p k) * v2 (ix2 p k)) * v16 (ix2 k q)) + v20 (ix2 (0 : Fin 1) q))) := by
  unfold k1_pay1
  exact congrArg₂ (· * ·)
    ((Cert.LibKeepdims.broadcastTo_a1_ab_apply _ _ p q).trans
      ((congrFun (shapeCast_self _ _) _).trans (congrFun (shapeCast_self v25 _) _)))
    (congrArg₂ (· + ·)
      (congrArg₂ (· + ·)
        ((Cert.LibMatmul2D.rows_cols _ none _ _ p q).trans
          (Finset.sum_congr rfl fun k _ => congrArg₂ (· * ·) (congrFun (shapeCast_self v0 _) _) (congrFun (shapeCast_self v5 _) _)))
        ((Cert.LibKeepdims.rowBroadcast_apply _ _ _ p q).trans (congrFun (shapeCast_self v9 _) _)))
      (congrArg₂ (· + ·)
        ((Cert.LibMatmul2D.rows_cols _ none _ _ p q).trans
          (Finset.sum_congr rfl fun k _ => congrArg₂ (· * ·)
            (congrArg₂ (· * ·) (congrFun (shapeCast_self v0 _) _) (congrFun (shapeCast_self v2 _) _))
            (congrFun (shapeCast_self v16 _) _)))
        ((Cert.LibKeepdims.rowBroadcast_apply _ _ _ p q).trans (congrFun (shapeCast_self v20 _) _))))

/-- The block index maps over the grid: the three per-edge inputs and the output move together along the edges, the
    weights and the biases stay at block 0. -/
theorem idx_edge1 : ∀ t : Fin cfg1.N, win1_0.index t (0 : Fin 2) = win1_7.index t (0 : Fin 2)
    ∧ win1_1.index t (0 : Fin 2) = win1_7.index t (0 : Fin 2) ∧ win1_2.index t (0 : Fin 2) = win1_7.index t (0 : Fin 2)
    ∧ win1_0.index t (1 : Fin 2) = 0 ∧ win1_1.index t (1 : Fin 2) = 0 ∧ win1_2.index t (1 : Fin 2) = 0 ∧ win1_7.index t (1 : Fin 2) = 0
    ∧ win1_3.index t (0 : Fin 2) = 0 ∧ win1_3.index t (1 : Fin 2) = 0 ∧ win1_4.index t (0 : Fin 2) = 0 ∧ win1_4.index t (1 : Fin 2) = 0
    ∧ win1_5.index t (0 : Fin 2) = 0 ∧ win1_5.index t (1 : Fin 2) = 0 ∧ win1_6.index t (0 : Fin 2) = 0 ∧ win1_6.index t (1 : Fin 2) = 0 :=
  (by decide +kernel : ∀ t : Fin grid1.N, _)

/-- Every block of edges is some point's. -/
theorem onto_edge1 : ∀ q0 : Fin 100, ∃ t : Fin cfg1.N, win1_7.index t = ![q0.val, 0] :=
  (by decide +kernel : ∀ q0 : Fin 100, ∃ t : Fin grid1.N, win1_7.index t = ![q0.val, 0])

/-- Reading the seven input blocks of point `t` where the output block's entry (p, q) needs them is reading the whole
    arrays at edge `12000·t + p`, column q. -/
theorem blocks_edge1 (t : Fin cfg1.N) (XJ XI : FVec Ideal S1200000x64 .f32) (NR : FVec Ideal S1200000x1 .f32)
    (W1 : FVec Ideal S64x64 .f32) (B1 : FVec Ideal S1x64 .f32) (W2 : FVec Ideal S64x64 .f32) (B2 : FVec Ideal S1x64 .f32)
    (p : Fin 12000) (q : Fin 64) :
    NR (((cfg1.win 2).blk t).view.emb (ix2 p (0 : Fin 1))) *
      (((∑ k : Fin 64, XJ (((cfg1.win 0).blk t).view.emb (ix2 p k)) * W1 (((cfg1.win 3).blk t).view.emb (ix2 k q)))
          + B1 (((cfg1.win 4).blk t).view.emb (ix2 (0 : Fin 1) q)))
        + ((∑ k : Fin 64, (XJ (((cfg1.win 0).blk t).view.emb (ix2 p k)) * XI (((cfg1.win 1).blk t).view.emb (ix2 p k)))
              * W2 (((cfg1.win 5).blk t).view.emb (ix2 k q)))
          + B2 (((cfg1.win 6).blk t).view.emb (ix2 (0 : Fin 1) q))))
      = edgeG XJ XI NR W1 B1 W2 B2 (((cfg1.win 7).blk t).view.emb (ix2 p q)) := by
  obtain ⟨e0, e1, e2, e3, e4, e5, e6, e7, e8, e9, e10, e11, e12, e13, e14⟩ := idx_edge1 t
  have hj : ∀ k : Fin 64, ((cfg1.win 0).blk t).view.emb (ix2 p k) = ix2 ((((cfg1.win 7).blk t).view.emb (ix2 p q)) 0) k := fun k => by
    funext a; apply Fin.ext
    match a with
    | ⟨0, _⟩ => show win1_0.index t (0 : Fin 2) * 12000 + 1 * p.val = win1_7.index t (0 : Fin 2) * 12000 + 1 * p.val; omega
    | ⟨1, _⟩ => show win1_0.index t (1 : Fin 2) * 64 + 1 * k.val = k.val; omega
  have hi : ∀ k : Fin 64, ((cfg1.win 1).blk t).view.emb (ix2 p k) = ix2 ((((cfg1.win 7).blk t).view.emb (ix2 p q)) 0) k := fun k => by
    funext a; apply Fin.ext
    match a with
    | ⟨0, _⟩ => show win1_1.index t (0 : Fin 2) * 12000 + 1 * p.val = win1_7.index t (0 : Fin 2) * 12000 + 1 * p.val; omega
    | ⟨1, _⟩ => show win1_1.index t (1 : Fin 2) * 64 + 1 * k.val = k.val; omega
  have hn : ((cfg1.win 2).blk t).view.emb (ix2 p (0 : Fin 1)) = ix2 ((((cfg1.win 7).blk t).view.emb (ix2 p q)) 0) (0 : Fin 1) := by
    funext a; apply Fin.ext
    match a with
    | ⟨0, _⟩ => show win1_2.index t (0 : Fin 2) * 12000 + 1 * p.val = win1_7.index t (0 : Fin 2) * 12000 + 1 * p.val; omega
    | ⟨1, _⟩ => show win1_2.index t (1 : Fin 2) * 1 + 1 * 0 = 0; omega
  have hw1 : ∀ k : Fin 64, ((cfg1.win 3).blk t).view.emb (ix2 k q) = ix2 k ((((cfg1.win 7).blk t).view.emb (ix2 p q)) 1) := fun k => by
    funext a; apply Fin.ext
    match a with
    | ⟨0, _⟩ => show win1_3.index t (0 : Fin 2) * 64 + 1 * k.val = k.val; omega
    | ⟨1, _⟩ => show win1_3.index t (1 : Fin 2) * 64 + 1 * q.val = win1_7.index t (1 : Fin 2) * 64 + 1 * q.val; omega
  have hw2 : ∀ k : Fin 64, ((cfg1.win 5).blk t).view.emb (ix2 k q) = ix2 k ((((cfg1.win 7).blk t).view.emb (ix2 p q)) 1) := fun k => by
    funext a; apply Fin.ext
    match a with
    | ⟨0, _⟩ => show win1_5.index t (0 : Fin 2) * 64 + 1 * k.val = k.val; omega
    | ⟨1, _⟩ => show win1_5.index t (1 : Fin 2) * 64 + 1 * q.val = win1_7.index t (1 : Fin 2) * 64 + 1 * q.val; omega
  have hb1 : ((cfg1.win 4).blk t).view.emb (ix2 (0 : Fin 1) q) = ix2 (0 : Fin 1) ((((cfg1.win 7).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 64 + 1 * q.val = win1_7.index t (1 : Fin 2) * 64 + 1 * q.val; omega
  have hb2 : ((cfg1.win 6).blk t).view.emb (ix2 (0 : Fin 1) q) = ix2 (0 : Fin 1) ((((cfg1.win 7).blk t).view.emb (ix2 p q)) 1) := by
    funext a; apply Fin.ext
    match a with
    | ⟨0, _⟩ => show win1_6.index t (0 : Fin 2) * 1 + 1 * 0 = 0; omega
    | ⟨1, _⟩ => show win1_6.index t (1 : Fin 2) * 64 + 1 * q.val = win1_7.index t (1 : Fin 2) * 64 + 1 * q.val; omega
  unfold edgeG
  exact congrArg₂ (· * ·) (congrArg NR hn)
    (congrArg₂ (· + ·)
      (congrArg₂ (· + ·)
        (Finset.sum_congr rfl fun k _ => congrArg₂ (· * ·) (congrArg XJ (hj k)) (congrArg W1 (hw1 k)))
        (congrArg B1 hb1))
      (congrArg₂ (· + ·)
        (Finset.sum_congr rfl fun k _ => congrArg₂ (· * ·)
          (congrArg₂ (· * ·) (congrArg XJ (hj k)) (congrArg XI (hi k))) (congrArg W2 (hw2 k)))
        (congrArg B2 hb2)))

variable (V : (c : Dev nD) → (b : Ref sig .tc) → Buf (Elt Ideal) ((c : Thread nD τ).loc b))

set_option maxHeartbeats 4000000 in
set_option backward.isDefEq.respectTransparency.types false in
/-- What point `t` writes back is block `t` of `edgeG` of the arrays the region finds. -/
theorem flushed_edge1 (c : Dev nD) (t : Fin cfg1.N) :
    (dat1 V c).flushed 7 t = ((cfg1.win 7).blk t).view.read (Elt Ideal)
      (edgeG (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (V c (Pipeline.arrRef spec1 6))) := by
  show (cfg1.win 7).cut (grid1.coords t) ((dat1 V c).after 7 t) = _
  rw [dat1_after7]
  unfold edge1
  rw [View.canon_unit_zero zeroOffsets]
  simp only [View.ld_unit_zero (S := S12000x64) zeroOffsets, View.ld_unit_zero (S := S12000x1) zeroOffsets,
    View.ld_unit_zero (S := S64x64) zeroOffsets, View.ld_unit_zero (S := S1x64) zeroOffsets]
  funext j
  refine ((congrArg (k1_pay1 (F := Ideal) _ _ _ _ _ _ _) (eq_ix2 (n0 := 12000) (n1 := 64) j)).trans (pay_edge1 _ _ _ _ _ _ _ (j 0) (j 1))).trans ?_
  exact (blocks_edge1 t (V c (Pipeline.arrRef spec1 0)) (V c (Pipeline.arrRef spec1 1)) (V c (Pipeline.arrRef spec1 2))
      (V c (Pipeline.arrRef spec1 3)) (V c (Pipeline.arrRef spec1 4)) (V c (Pipeline.arrRef spec1 5)) (V c (Pipeline.arrRef spec1 6)) (j 0) (j 1)).trans
    (congrArg (fun y => edgeG (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (V c (Pipeline.arrRef spec1 6))
        (((cfg1.win 7).blk t).view.emb y))
      (eq_ix2 (n0 := 12000) (n1 := 64) j).symm)

/-- An index of the output array is in point `t`'s block iff each coordinate is in the block's range on its axis. -/
theorem mem_edge1 (t : Fin cfg1.N) (i : S1200000x64.Idx) :
    i ∈ ((cfg1.win 7).blk t).view.set ↔ ∀ a : Fin 2, win1_7.index t a * S12000x64.size a ≤ (i a).val ∧ (i a).val < win1_7.index t a * S12000x64.size a + S12000x64.size a := by
  show i ∈ ((View.whole main_v57).slice (win1_7.rect t)).set ↔ _
  rw [View.set_slice_whole, Rect.mem_set_unit]
  exact Iff.rfl

/-- The hundred blocks cover the output array. -/
theorem cover_edge1 (i : S1200000x64.Idx) : ∃ t : Fin cfg1.N, (cfg1.win 7).flush t = true ∧ i ∈ ((cfg1.win 7).blk t).view.set := by
  have hi0 : (i 0).val < 1200000 := (i 0).isLt
  have hi1 : (i 1).val < 64 := (i 1).isLt
  obtain ⟨t, ht⟩ := onto_edge1 ⟨(i 0).val / 12000, by omega⟩
  have q0 : win1_7.index t (0 : Fin 2) = (i 0).val / 12000 := congrFun ht 0
  have q1 : win1_7.index t (1 : Fin 2) = 0 := congrFun ht 1
  refine ⟨t, flush1_7 t, ?_⟩
  rw [mem_edge1]
  intro a
  match a with
  | ⟨0, _⟩ => show win1_7.index t (0 : Fin 2) * 12000 ≤ (i 0).val ∧ (i 0).val < win1_7.index t (0 : Fin 2) * 12000 + 12000; omega
  | ⟨1, _⟩ => show win1_7.index t (1 : Fin 2) * 64 ≤ (i 1).val ∧ (i 1).val < win1_7.index t (1 : Fin 2) * 64 + 64; omega

set_option backward.isDefEq.respectTransparency.types false in
/-- The output array after the region: `edgeG` of the arrays the region finds. -/
theorem arr_edge1 (c : Dev nD) : (dat1 V c).arrAt 7 cfg1.N
    = edgeG (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (V c (Pipeline.arrRef spec1 6)) :=
  (dat1 V c).arrAt_eq_of_cover 7 _ (fun t _ => flushed_edge1 V c t) (cover_edge1)

end Cert.KernelIdeal.Hand

end
-- ==== Proof.KiEdgeVal3.lean ====
/-
  The output array of the edge region 3 (layer 1) on the extended reals, as one function of the arrays the region finds:
  entry (e, d) is the edge weight nr(e) times
  ((∑ k, xj(e, k) · w1(k, d)) + b1(d)) + ((∑ k, (xj(e, k) · xi(e, k)) · w2(k, d)) + b2(d)).
  Point t of the grid writes edges 12000·t … 12000·t + 11999; the hundred blocks tile the 1200000 edges.
-/
import proofs.«119603_j4896262717867_2_alg».proof.Proof.KiEdge3
import proofs.«119603_j4896262717867_2_alg».proof.Proof.LibMatmul2D
import proofs.«119603_j4896262717867_2_alg».proof.Proof.LibKeepdims
import proofs.«119603_j4896262717867_2_alg».proof.Proof.KiDenseVal0
import proofs.«119603_j4896262717867_2_alg».proof.Proof.KiEdgeVal1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's stored value at entry (p, q) of the block (rounding the operands to a narrower format and a cast of a
    shape to itself are the identity). -/
theorem pay_edge3 (v0 v2 : FVec Ideal S12000x64 .f32) (v5 : FVec Ideal S64x64 .f32) (v9 : FVec Ideal S1x64 .f32)
    (v16 : FVec Ideal S64x64 .f32) (v20 : FVec Ideal S1x64 .f32) (v25 : FVec Ideal S12000x1 .f32) (p : Fin 12000) (q : Fin 64) :
    k3_pay1 (F := Ideal) v0 v2 v5 v9 v16 v20 v25 (ix2 p q) = v25 (ix2 p (0 : Fin 1)) *
      (((∑ k : Fin 64, v0 (ix2 p k) * v5 (ix2 k q)) + v9 (ix2 (0 : Fin 1) q))
        + ((∑ k : Fin 64, (v0 (ix2 p k) * v2 (ix2 p k)) * v16 (ix2 k q)) + v20 (ix2 (0 : Fin 1) q))) := by
  unfold k3_pay1
  exact congrArg₂ (· * ·)
    ((Cert.LibKeepdims.broadcastTo_a1_ab_apply _ _ p q).trans
      ((congrFun (shapeCast_self _ _) _).trans (congrFun (shapeCast_self v25 _) _)))
    (congrArg₂ (· + ·)
      (congrArg₂ (· + ·)
        ((Cert.LibMatmul2D.rows_cols _ none _ _ p q).trans
          (Finset.sum_congr rfl fun k _ => congrArg₂ (· * ·) (congrFun (shapeCast_self v0 _) _) (congrFun (shapeCast_self v5 _) _)))
        ((Cert.LibKeepdims.rowBroadcast_apply _ _ _ p q).trans (congrFun (shapeCast_self v9 _) _)))
      (congrArg₂ (· + ·)
        ((Cert.LibMatmul2D.rows_cols _ none _ _ p q).trans
          (Finset.sum_congr rfl fun k _ => congrArg₂ (· * ·)
            (congrArg₂ (· * ·) (congrFun (shapeCast_self v0 _) _) (congrFun (shapeCast_self v2 _) _))
            (congrFun (shapeCast_self v16 _) _)))
        ((Cert.LibKeepdims.rowBroadcast_apply _ _ _ p q).trans (congrFun (shapeCast_self v20 _) _))))

/-- The block index maps over the grid: the three per-edge inputs and the output move together along the edges, the
    weights and the biases stay at block 0. -/
theorem idx_edge3 : ∀ t : Fin cfg3.N, win3_0.index t (0 : Fin 2) = win3_7.index t (0 : Fin 2)
    ∧ win3_1.index t (0 : Fin 2) = win3_7.index t (0 : Fin 2) ∧ win3_2.index t (0 : Fin 2) = win3_7.index t (0 : Fin 2)
    ∧ win3_0.index t (1 : Fin 2) = 0 ∧ win3_1.index t (1 : Fin 2) = 0 ∧ win3_2.index t (1 : Fin 2) = 0 ∧ win3_7.index t (1 : Fin 2) = 0
    ∧ win3_3.index t (0 : Fin 2) = 0 ∧ win3_3.index t (1 : Fin 2) = 0 ∧ win3_4.index t (0 : Fin 2) = 0 ∧ win3_4.index t (1 : Fin 2) = 0
    ∧ win3_5.index t (0 : Fin 2) = 0 ∧ win3_5.index t (1 : Fin 2) = 0 ∧ win3_6.index t (0 : Fin 2) = 0 ∧ win3_6.index t (1 : Fin 2) = 0 :=
  (by decide +kernel : ∀ t : Fin grid3.N, _)

/-- Every block of edges is some point's. -/
theorem onto_edge3 : ∀ q0 : Fin 100, ∃ t : Fin cfg3.N, win3_7.index t = ![q0.val, 0] :=
  (by decide +kernel : ∀ q0 : Fin 100, ∃ t : Fin grid3.N, win3_7.index t = ![q0.val, 0])

/-- Reading the seven input blocks of point `t` where the output block's entry (p, q) needs them is reading the whole
    arrays at edge `12000·t + p`, column q. -/
theorem blocks_edge3 (t : Fin cfg3.N) (XJ XI : FVec Ideal S1200000x64 .f32) (NR : FVec Ideal S1200000x1 .f32)
    (W1 : FVec Ideal S64x64 .f32) (B1 : FVec Ideal S1x64 .f32) (W2 : FVec Ideal S64x64 .f32) (B2 : FVec Ideal S1x64 .f32)
    (p : Fin 12000) (q : Fin 64) :
    NR (((cfg3.win 2).blk t).view.emb (ix2 p (0 : Fin 1))) *
      (((∑ k : Fin 64, XJ (((cfg3.win 0).blk t).view.emb (ix2 p k)) * W1 (((cfg3.win 3).blk t).view.emb (ix2 k q)))
          + B1 (((cfg3.win 4).blk t).view.emb (ix2 (0 : Fin 1) q)))
        + ((∑ k : Fin 64, (XJ (((cfg3.win 0).blk t).view.emb (ix2 p k)) * XI (((cfg3.win 1).blk t).view.emb (ix2 p k)))
              * W2 (((cfg3.win 5).blk t).view.emb (ix2 k q)))
          + B2 (((cfg3.win 6).blk t).view.emb (ix2 (0 : Fin 1) q))))
      = edgeG XJ XI NR W1 B1 W2 B2 (((cfg3.win 7).blk t).view.emb (ix2 p q)) := by
  obtain ⟨e0, e1, e2, e3, e4, e5, e6, e7, e8, e9, e10, e11, e12, e13, e14⟩ := idx_edge3 t
  have hj : ∀ k : Fin 64, ((cfg3.win 0).blk t).view.emb (ix2 p k) = ix2 ((((cfg3.win 7).blk t).view.emb (ix2 p q)) 0) k := fun k => by
    funext a; apply Fin.ext
    match a with
    | ⟨0, _⟩ => show win3_0.index t (0 : Fin 2) * 12000 + 1 * p.val = win3_7.index t (0 : Fin 2) * 12000 + 1 * p.val; omega
    | ⟨1, _⟩ => show win3_0.index t (1 : Fin 2) * 64 + 1 * k.val = k.val; omega
  have hi : ∀ k : Fin 64, ((cfg3.win 1).blk t).view.emb (ix2 p k) = ix2 ((((cfg3.win 7).blk t).view.emb (ix2 p q)) 0) k := fun k => by
    funext a; apply Fin.ext
    match a with
    | ⟨0, _⟩ => show win3_1.index t (0 : Fin 2) * 12000 + 1 * p.val = win3_7.index t (0 : Fin 2) * 12000 + 1 * p.val; omega
    | ⟨1, _⟩ => show win3_1.index t (1 : Fin 2) * 64 + 1 * k.val = k.val; omega
  have hn : ((cfg3.win 2).blk t).view.emb (ix2 p (0 : Fin 1)) = ix2 ((((cfg3.win 7).blk t).view.emb (ix2 p q)) 0) (0 : Fin 1) := by
    funext a; apply Fin.ext
    match a with
    | ⟨0, _⟩ => show win3_2.index t (0 : Fin 2) * 12000 + 1 * p.val = win3_7.index t (0 : Fin 2) * 12000 + 1 * p.val; omega
    | ⟨1, _⟩ => show win3_2.index t (1 : Fin 2) * 1 + 1 * 0 = 0; omega
  have hw1 : ∀ k : Fin 64, ((cfg3.win 3).blk t).view.emb (ix2 k q) = ix2 k ((((cfg3.win 7).blk t).view.emb (ix2 p q)) 1) := fun k => by
    funext a; apply Fin.ext
    match a with
    | ⟨0, _⟩ => show win3_3.index t (0 : Fin 2) * 64 + 1 * k.val = k.val; omega
    | ⟨1, _⟩ => show win3_3.index t (1 : Fin 2) * 64 + 1 * q.val = win3_7.index t (1 : Fin 2) * 64 + 1 * q.val; omega
  have hw2 : ∀ k : Fin 64, ((cfg3.win 5).blk t).view.emb (ix2 k q) = ix2 k ((((cfg3.win 7).blk t).view.emb (ix2 p q)) 1) := fun k => by
    funext a; apply Fin.ext
    match a with
    | ⟨0, _⟩ => show win3_5.index t (0 : Fin 2) * 64 + 1 * k.val = k.val; omega
    | ⟨1, _⟩ => show win3_5.index t (1 : Fin 2) * 64 + 1 * q.val = win3_7.index t (1 : Fin 2) * 64 + 1 * q.val; omega
  have hb1 : ((cfg3.win 4).blk t).view.emb (ix2 (0 : Fin 1) q) = ix2 (0 : Fin 1) ((((cfg3.win 7).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 64 + 1 * q.val = win3_7.index t (1 : Fin 2) * 64 + 1 * q.val; omega
  have hb2 : ((cfg3.win 6).blk t).view.emb (ix2 (0 : Fin 1) q) = ix2 (0 : Fin 1) ((((cfg3.win 7).blk t).view.emb (ix2 p q)) 1) := by
    funext a; apply Fin.ext
    match a with
    | ⟨0, _⟩ => show win3_6.index t (0 : Fin 2) * 1 + 1 * 0 = 0; omega
    | ⟨1, _⟩ => show win3_6.index t (1 : Fin 2) * 64 + 1 * q.val = win3_7.index t (1 : Fin 2) * 64 + 1 * q.val; omega
  unfold edgeG
  exact congrArg₂ (· * ·) (congrArg NR hn)
    (congrArg₂ (· + ·)
      (congrArg₂ (· + ·)
        (Finset.sum_congr rfl fun k _ => congrArg₂ (· * ·) (congrArg XJ (hj k)) (congrArg W1 (hw1 k)))
        (congrArg B1 hb1))
      (congrArg₂ (· + ·)
        (Finset.sum_congr rfl fun k _ => congrArg₂ (· * ·)
          (congrArg₂ (· * ·) (congrArg XJ (hj k)) (congrArg XI (hi k))) (congrArg W2 (hw2 k)))
        (congrArg B2 hb2)))

variable (V : (c : Dev nD) → (b : Ref sig .tc) → Buf (Elt Ideal) ((c : Thread nD τ).loc b))

set_option maxHeartbeats 4000000 in
set_option backward.isDefEq.respectTransparency.types false in
/-- What point `t` writes back is block `t` of `edgeG` of the arrays the region finds. -/
theorem flushed_edge3 (c : Dev nD) (t : Fin cfg3.N) :
    (dat3 V c).flushed 7 t = ((cfg3.win 7).blk t).view.read (Elt Ideal)
      (edgeG (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  rw [dat3_after7]
  unfold edge3
  rw [View.canon_unit_zero zeroOffsets]
  simp only [View.ld_unit_zero (S := S12000x64) zeroOffsets, View.ld_unit_zero (S := S12000x1) zeroOffsets,
    View.ld_unit_zero (S := S64x64) zeroOffsets, View.ld_unit_zero (S := S1x64) zeroOffsets]
  funext j
  refine ((congrArg (k3_pay1 (F := Ideal) _ _ _ _ _ _ _) (eq_ix2 (n0 := 12000) (n1 := 64) j)).trans (pay_edge3 _ _ _ _ _ _ _ (j 0) (j 1))).trans ?_
  exact (blocks_edge3 t (V c (Pipeline.arrRef spec3 0)) (V c (Pipeline.arrRef spec3 1)) (V c (Pipeline.arrRef spec3 2))
      (V c (Pipeline.arrRef spec3 3)) (V c (Pipeline.arrRef spec3 4)) (V c (Pipeline.arrRef spec3 5)) (V c (Pipeline.arrRef spec3 6)) (j 0) (j 1)).trans
    (congrArg (fun y => edgeG (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (V c (Pipeline.arrRef spec3 6))
        (((cfg3.win 7).blk t).view.emb y))
      (eq_ix2 (n0 := 12000) (n1 := 64) j).symm)

/-- An index of the output array is in point `t`'s block iff each coordinate is in the block's range on its axis. -/
theorem mem_edge3 (t : Fin cfg3.N) (i : S1200000x64.Idx) :
    i ∈ ((cfg3.win 7).blk t).view.set ↔ ∀ a : Fin 2, win3_7.index t a * S12000x64.size a ≤ (i a).val ∧ (i a).val < win3_7.index t a * S12000x64.size a + S12000x64.size a := by
  show i ∈ ((View.whole main_v90).slice (win3_7.rect t)).set ↔ _
  rw [View.set_slice_whole, Rect.mem_set_unit]
  exact Iff.rfl

/-- The hundred blocks cover the output array. -/
theorem cover_edge3 (i : S1200000x64.Idx) : ∃ t : Fin cfg3.N, (cfg3.win 7).flush t = true ∧ i ∈ ((cfg3.win 7).blk t).view.set := by
  have hi0 : (i 0).val < 1200000 := (i 0).isLt
  have hi1 : (i 1).val < 64 := (i 1).isLt
  obtain ⟨t, ht⟩ := onto_edge3 ⟨(i 0).val / 12000, by omega⟩
  have q0 : win3_7.index t (0 : Fin 2) = (i 0).val / 12000 := congrFun ht 0
  have q1 : win3_7.index t (1 : Fin 2) = 0 := congrFun ht 1
  refine ⟨t, flush3_7 t, ?_⟩
  rw [mem_edge3]
  intro a
  match a with
  | ⟨0, _⟩ => show win3_7.index t (0 : Fin 2) * 12000 ≤ (i 0).val ∧ (i 0).val < win3_7.index t (0 : Fin 2) * 12000 + 12000; omega
  | ⟨1, _⟩ => show win3_7.index t (1 : Fin 2) * 64 ≤ (i 1).val ∧ (i 1).val < win3_7.index t (1 : Fin 2) * 64 + 64; omega

set_option backward.isDefEq.respectTransparency.types false in
/-- The output array after the region: `edgeG` of the arrays the region finds. -/
theorem arr_edge3 (c : Dev nD) : (dat3 V c).arrAt 7 cfg3.N
    = edgeG (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (V c (Pipeline.arrRef spec3 6)) :=
  (dat3 V c).arrAt_eq_of_cover 7 _ (fun t _ => flushed_edge3 V c t) (cover_edge3)

end Cert.KernelIdeal.Hand

end
-- ==== Proof.KiEdgeVal5.lean ====
/-
  The output array of the edge region 5 (layer 2) on the extended reals, as one function of the arrays the region finds:
  entry (e, d) is the edge weight nr(e) times
  ((∑ k, xj(e, k) · w1(k, d)) + b1(d)) + ((∑ k, (xj(e, k) · xi(e, k)) · w2(k, d)) + b2(d)).
  Point t of the grid writes edges 12000·t … 12000·t + 11999; the hundred blocks tile the 1200000 edges.
-/
import proofs.«119603_j4896262717867_2_alg».proof.Proof.KiEdge5
import proofs.«119603_j4896262717867_2_alg».proof.Proof.LibMatmul2D
import proofs.«119603_j4896262717867_2_alg».proof.Proof.LibKeepdims
import proofs.«119603_j4896262717867_2_alg».proof.Proof.KiDenseVal0
import proofs.«119603_j4896262717867_2_alg».proof.Proof.KiEdgeVal1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's stored value at entry (p, q) of the block (rounding the operands to a narrower format and a cast of a
    shape to itself are the identity). -/
theorem pay_edge5 (v0 v2 : FVec Ideal S12000x64 .f32) (v5 : FVec Ideal S64x64 .f32) (v9 : FVec Ideal S1x64 .f32)
    (v16 : FVec Ideal S64x64 .f32) (v20 : FVec Ideal S1x64 .f32) (v25 : FVec Ideal S12000x1 .f32) (p : Fin 12000) (q : Fin 64) :
    k5_pay1 (F := Ideal) v0 v2 v5 v9 v16 v20 v25 (ix2 p q) = v25 (ix2 p (0 : Fin 1)) *
      (((∑ k : Fin 64, v0 (ix2 p k) * v5 (ix2 k q)) + v9 (ix2 (0 : Fin 1) q))
        + ((∑ k : Fin 64, (v0 (ix2 p k) * v2 (ix2 p k)) * v16 (ix2 k q)) + v20 (ix2 (0 : Fin 1) q))) := by
  unfold k5_pay1
  exact congrArg₂ (· * ·)
    ((Cert.LibKeepdims.broadcastTo_a1_ab_apply _ _ p q).trans
      ((congrFun (shapeCast_self _ _) _).trans (congrFun (shapeCast_self v25 _) _)))
    (congrArg₂ (· + ·)
      (congrArg₂ (· + ·)
        ((Cert.LibMatmul2D.rows_cols _ none _ _ p q).trans
          (Finset.sum_congr rfl fun k _ => congrArg₂ (· * ·) (congrFun (shapeCast_self v0 _) _) (congrFun (shapeCast_self v5 _) _)))
        ((Cert.LibKeepdims.rowBroadcast_apply _ _ _ p q).trans (congrFun (shapeCast_self v9 _) _)))
      (congrArg₂ (· + ·)
        ((Cert.LibMatmul2D.rows_cols _ none _ _ p q).trans
          (Finset.sum_congr rfl fun k _ => congrArg₂ (· * ·)
            (congrArg₂ (· * ·) (congrFun (shapeCast_self v0 _) _) (congrFun (shapeCast_self v2 _) _))
            (congrFun (shapeCast_self v16 _) _)))
        ((Cert.LibKeepdims.rowBroadcast_apply _ _ _ p q).trans (congrFun (shapeCast_self v20 _) _))))

/-- The block index maps over the grid: the three per-edge inputs and the output move together along the edges, the
    weights and the biases stay at block 0. -/
theorem idx_edge5 : ∀ t : Fin cfg5.N, win5_0.index t (0 : Fin 2) = win5_7.index t (0 : Fin 2)
    ∧ win5_1.index t (0 : Fin 2) = win5_7.index t (0 : Fin 2) ∧ win5_2.index t (0 : Fin 2) = win5_7.index t (0 : Fin 2)
    ∧ win5_0.index t (1 : Fin 2) = 0 ∧ win5_1.index t (1 : Fin 2) = 0 ∧ win5_2.index t (1 : Fin 2) = 0 ∧ win5_7.index t (1 : Fin 2) = 0
    ∧ win5_3.index t (0 : Fin 2) = 0 ∧ win5_3.index t (1 : Fin 2) = 0 ∧ win5_4.index t (0 : Fin 2) = 0 ∧ win5_4.index t (1 : Fin 2) = 0
    ∧ win5_5.index t (0 : Fin 2) = 0 ∧ win5_5.index t (1 : Fin 2) = 0 ∧ win5_6.index t (0 : Fin 2) = 0 ∧ win5_6.index t (1 : Fin 2) = 0 :=
  (by decide +kernel : ∀ t : Fin grid5.N, _)

/-- Every block of edges is some point's. -/
theorem onto_edge5 : ∀ q0 : Fin 100, ∃ t : Fin cfg5.N, win5_7.index t = ![q0.val, 0] :=
  (by decide +kernel : ∀ q0 : Fin 100, ∃ t : Fin grid5.N, win5_7.index t = ![q0.val, 0])

/-- Reading the seven input blocks of point `t` where the output block's entry (p, q) needs them is reading the whole
    arrays at edge `12000·t + p`, column q. -/
theorem blocks_edge5 (t : Fin cfg5.N) (XJ XI : FVec Ideal S1200000x64 .f32) (NR : FVec Ideal S1200000x1 .f32)
    (W1 : FVec Ideal S64x64 .f32) (B1 : FVec Ideal S1x64 .f32) (W2 : FVec Ideal S64x64 .f32) (B2 : FVec Ideal S1x64 .f32)
    (p : Fin 12000) (q : Fin 64) :
    NR (((cfg5.win 2).blk t).view.emb (ix2 p (0 : Fin 1))) *
      (((∑ k : Fin 64, XJ (((cfg5.win 0).blk t).view.emb (ix2 p k)) * W1 (((cfg5.win 3).blk t).view.emb (ix2 k q)))
          + B1 (((cfg5.win 4).blk t).view.emb (ix2 (0 : Fin 1) q)))
        + ((∑ k : Fin 64, (XJ (((cfg5.win 0).blk t).view.emb (ix2 p k)) * XI (((cfg5.win 1).blk t).view.emb (ix2 p k)))
              * W2 (((cfg5.win 5).blk t).view.emb (ix2 k q)))
          + B2 (((cfg5.win 6).blk t).view.emb (ix2 (0 : Fin 1) q))))
      = edgeG XJ XI NR W1 B1 W2 B2 (((cfg5.win 7).blk t).view.emb (ix2 p q)) := by
  obtain ⟨e0, e1, e2, e3, e4, e5, e6, e7, e8, e9, e10, e11, e12, e13, e14⟩ := idx_edge5 t
  have hj : ∀ k : Fin 64, ((cfg5.win 0).blk t).view.emb (ix2 p k) = ix2 ((((cfg5.win 7).blk t).view.emb (ix2 p q)) 0) k := fun k => by
    funext a; apply Fin.ext
    match a with
    | ⟨0, _⟩ => show win5_0.index t (0 : Fin 2) * 12000 + 1 * p.val = win5_7.index t (0 : Fin 2) * 12000 + 1 * p.val; omega
    | ⟨1, _⟩ => show win5_0.index t (1 : Fin 2) * 64 + 1 * k.val = k.val; omega
  have hi : ∀ k : Fin 64, ((cfg5.win 1).blk t).view.emb (ix2 p k) = ix2 ((((cfg5.win 7).blk t).view.emb (ix2 p q)) 0) k := fun k => by
    funext a; apply Fin.ext
    match a with
    | ⟨0, _⟩ => show win5_1.index t (0 : Fin 2) * 12000 + 1 * p.val = win5_7.index t (0 : Fin 2) * 12000 + 1 * p.val; omega
    | ⟨1, _⟩ => show win5_1.index t (1 : Fin 2) * 64 + 1 * k.val = k.val; omega
  have hn : ((cfg5.win 2).blk t).view.emb (ix2 p (0 : Fin 1)) = ix2 ((((cfg5.win 7).blk t).view.emb (ix2 p q)) 0) (0 : Fin 1) := by
    funext a; apply Fin.ext
    match a with
    | ⟨0, _⟩ => show win5_2.index t (0 : Fin 2) * 12000 + 1 * p.val = win5_7.index t (0 : Fin 2) * 12000 + 1 * p.val; omega
    | ⟨1, _⟩ => show win5_2.index t (1 : Fin 2) * 1 + 1 * 0 = 0; omega
  have hw1 : ∀ k : Fin 64, ((cfg5.win 3).blk t).view.emb (ix2 k q) = ix2 k ((((cfg5.win 7).blk t).view.emb (ix2 p q)) 1) := fun k => by
    funext a; apply Fin.ext
    match a with
    | ⟨0, _⟩ => show win5_3.index t (0 : Fin 2) * 64 + 1 * k.val = k.val; omega
    | ⟨1, _⟩ => show win5_3.index t (1 : Fin 2) * 64 + 1 * q.val = win5_7.index t (1 : Fin 2) * 64 + 1 * q.val; omega
  have hw2 : ∀ k : Fin 64, ((cfg5.win 5).blk t).view.emb (ix2 k q) = ix2 k ((((cfg5.win 7).blk t).view.emb (ix2 p q)) 1) := fun k => by
    funext a; apply Fin.ext
    match a with
    | ⟨0, _⟩ => show win5_5.index t (0 : Fin 2) * 64 + 1 * k.val = k.val; omega
    | ⟨1, _⟩ => show win5_5.index t (1 : Fin 2) * 64 + 1 * q.val = win5_7.index t (1 : Fin 2) * 64 + 1 * q.val; omega
  have hb1 : ((cfg5.win 4).blk t).view.emb (ix2 (0 : Fin 1) q) = ix2 (0 : Fin 1) ((((cfg5.win 7).blk t).view.emb (ix2 p q)) 1) := by
    funext a; apply Fin.ext
    match a with
    | ⟨0, _⟩ => show win5_4.index t (0 : Fin 2) * 1 + 1 * 0 = 0; omega
    | ⟨1, _⟩ => show win5_4.index t (1 : Fin 2) * 64 + 1 * q.val = win5_7.index t (1 : Fin 2) * 64 + 1 * q.val; omega
  have hb2 : ((cfg5.win 6).blk t).view.emb (ix2 (0 : Fin 1) q) = ix2 (0 : Fin 1) ((((cfg5.win 7).blk t).view.emb (ix2 p q)) 1) := by
    funext a; apply Fin.ext
    match a with
    | ⟨0, _⟩ => show win5_6.index t (0 : Fin 2) * 1 + 1 * 0 = 0; omega
    | ⟨1, _⟩ => show win5_6.index t (1 : Fin 2) * 64 + 1 * q.val = win5_7.index t (1 : Fin 2) * 64 + 1 * q.val; omega
  unfold edgeG
  exact congrArg₂ (· * ·) (congrArg NR hn)
    (congrArg₂ (· + ·)
      (congrArg₂ (· + ·)
        (Finset.sum_congr rfl fun k _ => congrArg₂ (· * ·) (congrArg XJ (hj k)) (congrArg W1 (hw1 k)))
        (congrArg B1 hb1))
      (congrArg₂ (· + ·)
        (Finset.sum_congr rfl fun k _ => congrArg₂ (· * ·)
          (congrArg₂ (· * ·) (congrArg XJ (hj k)) (congrArg XI (hi k))) (congrArg W2 (hw2 k)))
        (congrArg B2 hb2)))

variable (V : (c : Dev nD) → (b : Ref sig .tc) → Buf (Elt Ideal) ((c : Thread nD τ).loc b))

set_option maxHeartbeats 4000000 in
set_option backward.isDefEq.respectTransparency.types false in
/-- What point `t` writes back is block `t` of `edgeG` of the arrays the region finds. -/
theorem flushed_edge5 (c : Dev nD) (t : Fin cfg5.N) :
    (dat5 V c).flushed 7 t = ((cfg5.win 7).blk t).view.read (Elt Ideal)
      (edgeG (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6))) := by
  show (cfg5.win 7).cut (grid5.coords t) ((dat5 V c).after 7 t) = _
  rw [dat5_after7]
  unfold edge5
  rw [View.canon_unit_zero zeroOffsets]
  simp only [View.ld_unit_zero (S := S12000x64) zeroOffsets, View.ld_unit_zero (S := S12000x1) zeroOffsets,
    View.ld_unit_zero (S := S64x64) zeroOffsets, View.ld_unit_zero (S := S1x64) zeroOffsets]
  funext j
  refine ((congrArg (k5_pay1 (F := Ideal) _ _ _ _ _ _ _) (eq_ix2 (n0 := 12000) (n1 := 64) j)).trans (pay_edge5 _ _ _ _ _ _ _ (j 0) (j 1))).trans ?_
  exact (blocks_edge5 t (V c (Pipeline.arrRef spec5 0)) (V c (Pipeline.arrRef spec5 1)) (V c (Pipeline.arrRef spec5 2))
      (V c (Pipeline.arrRef spec5 3)) (V c (Pipeline.arrRef spec5 4)) (V c (Pipeline.arrRef spec5 5)) (V c (Pipeline.arrRef spec5 6)) (j 0) (j 1)).trans
    (congrArg (fun y => edgeG (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6))
        (((cfg5.win 7).blk t).view.emb y))
      (eq_ix2 (n0 := 12000) (n1 := 64) j).symm)

/-- An index of the output array is in point `t`'s block iff each coordinate is in the block's range on its axis. -/
theorem mem_edge5 (t : Fin cfg5.N) (i : S1200000x64.Idx) :
    i ∈ ((cfg5.win 7).blk t).view.set ↔ ∀ a : Fin 2, win5_7.index t a * S12000x64.size a ≤ (i a).val ∧ (i a).val < win5_7.index t a * S12000x64.size a + S12000x64.size a := by
  show i ∈ ((View.whole main_v123).slice (win5_7.rect t)).set ↔ _
  rw [View.set_slice_whole, Rect.mem_set_unit]
  exact Iff.rfl

/-- The hundred blocks cover the output array. -/
theorem cover_edge5 (i : S1200000x64.Idx) : ∃ t : Fin cfg5.N, (cfg5.win 7).flush t = true ∧ i ∈ ((cfg5.win 7).blk t).view.set := by
  have hi0 : (i 0).val < 1200000 := (i 0).isLt
  have hi1 : (i 1).val < 64 := (i 1).isLt
  obtain ⟨t, ht⟩ := onto_edge5 ⟨(i 0).val / 12000, by omega⟩
  have q0 : win5_7.index t (0 : Fin 2) = (i 0).val / 12000 := congrFun ht 0
  have q1 : win5_7.index t (1 : Fin 2) = 0 := congrFun ht 1
  refine ⟨t, flush5_7 t, ?_⟩
  rw [mem_edge5]
  intro a
  match a with
  | ⟨0, _⟩ => show win5_7.index t (0 : Fin 2) * 12000 ≤ (i 0).val ∧ (i 0).val < win5_7.index t (0 : Fin 2) * 12000 + 12000; omega
  | ⟨1, _⟩ => show win5_7.index t (1 : Fin 2) * 64 ≤ (i 1).val ∧ (i 1).val < win5_7.index t (1 : Fin 2) * 64 + 64; omega

set_option backward.isDefEq.respectTransparency.types false in
/-- The output array after the region: `edgeG` of the arrays the region finds. -/
theorem arr_edge5 (c : Dev nD) : (dat5 V c).arrAt 7 cfg5.N
    = edgeG (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6)) :=
  (dat5 V c).arrAt_eq_of_cover 7 _ (fun t _ => flushed_edge5 V c t) (cover_edge5)

end Cert.KernelIdeal.Hand

end
-- ==== Proof.LibRowGather.lean ====
/-
  A gather of whole rows, read at an entry.

  `x[idx]` for a matrix x : [N, K] and R start indices kept as a column [R, 1] takes, for each e, the row of x whose
  number is the e-th start index read as a signed integer and clamped into [0, N - 1]; entry (e, k) of the result is x at
  that row and column k.  The same for a vector x : [N]: entry e of the result is x at that row.  The row read depends
  only on the start indices, not on the width K: gathers of different widths at the same indices read the same rows.
  The dimension records are the ones built from the literal axis lists; their well-formedness proofs are parameters.
-/
import Idealize.ShloMosaic.Lib.ValueIdx
import Idealize.ShloMosaic.PureOps.Ideal

namespace Cert.LibRowGather

open Idealize.ShloMosaic Idealize.ShloMosaic.ValueIdx

variable {α : Type}

/-- The row a start index names: read signed, clamped into [0, N - 1]. -/
def row (N : Nat) (hN : 0 < N) {R w : Nat} (idx : IVec ⟨2, ![R, 1]⟩ w) (e : Fin R) : Fin N :=
  ⟨min (idx (ix2 e (0 : Fin 1))).toInt.toNat (N - 1), by omega⟩

/-- The dimension numbers of a row gather out of [N, K] at start indices [R, 1] into [R, K]. -/
abbrev rowDims (N R K : Nat)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- Entry (e, k) of the row gather is the operand at the row the e-th start index names and column k. -/
theorem rowGather_apply {N R K w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (e : Fin R) (k : Fin K) :
    Host.gather (rowDims N R K wf) x idx (ix2 e k) = x (ix2 (row N hN idx e) k) := by
  unfold Host.gather
  congr 1
  funext a
  refine Fin.ext ?_
  match a with
  | ⟨0, _⟩ =>
    show (rowDims N R K wf).start (ix2 e k) idx 0 + (rowDims N R K wf).batchCoord (ix2 e k) 0
        + (rowDims N R K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R K wf).startIndexMap from List.mem_singleton.mpr rfl)]
    have hsi : (rowDims N R K wf).siIdx (ix2 e k) ⟨List.idxOf (0 : Fin 2) (rowDims N R K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R K wf).start (ix2 e k) idx 1 + (rowDims N R K wf).batchCoord (ix2 e k) 1
        + (rowDims N R K wf).offCoord (ix2 e k) 1 = _
    rw [GatherDims.batchCoord_eq_zero _ _ _ List.not_mem_nil]
    unfold GatherDims.start
    rw [dif_neg (fun h => Nat.one_ne_zero (congrArg Fin.val (List.mem_singleton.mp h)))]
    unfold GatherDims.offCoord
    rw [dif_pos ((GatherDims.mem_sKept _ _).mpr ⟨fun h => Nat.one_ne_zero (congrArg Fin.val (List.mem_singleton.mp h)), List.not_mem_nil⟩)]
    simp only [Nat.zero_add]
    rfl

/-- The dimension numbers of a gather out of a vector [N] at start indices [R, 1] into [R]. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry e of the vector gather is the operand at the row the e-th start index names. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e) = x (ix1 (row N hN idx e)) := by
  unfold Host.gather
  congr 1
  funext a
  obtain rfl : a = 0 := Subsingleton.elim _ _
  refine Fin.ext ?_
  show (vecDims N R wf).start (ix1 e) idx 0 + (vecDims N R wf).batchCoord (ix1 e) 0
      + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibRowGather
-- ==== Proof.LibRowScatterAdd.lean ====
/-
  An accumulating scatter of whole rows, read at an entry on the extended reals.

  Rows u : [R, K] are added into x : [N, K]; row e goes to the row whose number is the e-th scatter index (kept as a
  column [R, 1]) read as a signed integer, and is dropped when that number is outside [0, N).  Entry (v, k) of the result is
  x (v, k) plus the sum of u (e, k) over the rows e that land on v.  The set of rows landing on v depends only on the
  scatter indices, not on the width K.  The same for vectors: u : [R] added into x : [N].
-/
import Idealize.ShloMosaic.Lib.ValueIdx
import Idealize.ShloMosaic.PureOps.Ideal

namespace Cert.LibRowScatterAdd

open Idealize.ShloMosaic Idealize.ShloMosaic.ValueIdx

/-- The rows that land on row v: their scatter index, read signed, is v. -/
def hits (N : Nat) {R w : Nat} (idx : IVec ⟨2, ![R, 1]⟩ w) (v : Fin N) : Finset (Fin R) :=
  Finset.univ.filter fun e => (idx (ix2 e (0 : Fin 1))).toInt = (v.val : Int)

/-- The dimension numbers of a row scatter of [R, K] into [N, K] at scatter indices [R, 1]. -/
abbrev rowDims (N R K : Nat) (wf : ScatterDims.WF ⟨2, ![N, K]⟩ ⟨2, ![R, 1]⟩ ⟨2, ![R, K]⟩ [1] [0] [0] 1) :
    ScatterDims ⟨2, ![N, K]⟩ ⟨2, ![R, 1]⟩ ⟨2, ![R, K]⟩ where
  updateWindowDims := [1]
  insertedWindowDims := [0]
  scatterDimsToOperandDims := [0]
  indexVectorDim := 1
  wf := wf

section Row
variable {N R K w : Nat} (wf : ScatterDims.WF ⟨2, ![N, K]⟩ ⟨2, ![R, 1]⟩ ⟨2, ![R, K]⟩ [1] [0] [0] 1)
  (idx : IVec ⟨2, ![R, 1]⟩ w)

theorem start0 (e : Fin R) (k' : Fin K) :
    (rowDims N R K wf).start (ix2 e k') idx 0 = (idx (ix2 e (0 : Fin 1))).toInt := by
  unfold ScatterDims.start
  rw [dif_pos (show (0 : Fin 2) ∈ (rowDims N R K wf).scatterDimsToOperandDims from List.mem_singleton.mpr rfl)]
  have hsi : (rowDims N R K wf).siIdx (ix2 e k') ⟨List.idxOf (0 : Fin 2) (rowDims N R K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start1 (e : Fin R) (k' : Fin K) : (rowDims N R K wf).start (ix2 e k') idx 1 = 0 := by
  unfold ScatterDims.start
  rw [dif_neg (fun h => Nat.one_ne_zero (congrArg Fin.val (List.mem_singleton.mp h)))]

theorem window0 (e : Fin R) (k' : Fin K) : (rowDims N R K wf).window (ix2 e k') 0 = 0 := by
  unfold ScatterDims.window
  rw [dif_neg]
  intro h
  simp [ScatterDims.sKept, Shape.kept] at h

theorem window1 (e : Fin R) (k' : Fin K) : (rowDims N R K wf).window (ix2 e k') 1 = k'.val := by
  unfold ScatterDims.window
  rw [dif_pos (by simp [ScatterDims.sKept, Shape.kept])]
  rfl

theorem resultIdx_eq_some_iff (e : Fin R) (k' : Fin K) (v : Fin N) (k : Fin K) :
    (rowDims N R K wf).resultIdx? (ix2 e k') idx = some (ix2 v k)
      ↔ (idx (ix2 e (0 : Fin 1))).toInt = (v.val : Int) ∧ k' = k := by
  unfold ScatterDims.resultIdx?
  constructor
  · intro h
    split at h
    · rename_i hc
      have hf := Option.some.inj h
      have h0 : ((rowDims N R K wf).start (ix2 e k') idx 0 + ((rowDims N R K wf).window (ix2 e k') 0 : Nat)).toNat = v.val :=
        congrArg (fun f => (f 0).val) hf
      have h1 : ((rowDims N R K wf).start (ix2 e k') idx 1 + ((rowDims N R K wf).window (ix2 e k') 1 : Nat)).toNat = k.val :=
        congrArg (fun f => (f 1).val) hf
      have hc0 := hc 0
      rw [start0, window0] at h0 hc0
      rw [start1, window1] at h1
      refine ⟨by omega, Fin.ext (by omega)⟩
    · exact absurd h (by simp)
  · rintro ⟨hz, rfl⟩
    have hc : ∀ a, 0 ≤ (rowDims N R K wf).start (ix2 e k') idx a + ((rowDims N R K wf).window (ix2 e k') a : Nat)
        ∧ (rowDims N R K wf).start (ix2 e k') idx a + ((rowDims N R K wf).window (ix2 e k') a : Nat)
            < ((⟨2, ![N, K]⟩ : Shape).size a : Nat) := by
      intro a
      match a with
      | ⟨0, _⟩ =>
        show 0 ≤ (rowDims N R K wf).start (ix2 e k') idx 0 + ((rowDims N R K wf).window (ix2 e k') 0 : Nat)
          ∧ (rowDims N R K wf).start (ix2 e k') idx 0 + ((rowDims N R K wf).window (ix2 e k') 0 : Nat) < (N : Int)
        rw [start0, window0, hz]
        have := v.isLt
        omega
      | ⟨1, _⟩ =>
        show 0 ≤ (rowDims N R K wf).start (ix2 e k') idx 1 + ((rowDims N R K wf).window (ix2 e k') 1 : Nat)
          ∧ (rowDims N R K wf).start (ix2 e k') idx 1 + ((rowDims N R K wf).window (ix2 e k') 1 : Nat) < (K : Int)
        rw [start1, window1]
        have := k'.isLt
        omega
    rw [dif_pos hc]
    congr 1
    funext a
    apply Fin.ext
    match a with
    | ⟨0, _⟩ =>
      show ((rowDims N R K wf).start (ix2 e k') idx 0 + ((rowDims N R K wf).window (ix2 e k') 0 : Nat)).toNat = v.val
      rw [start0, window0, hz]; omega
    | ⟨1, _⟩ =>
      show ((rowDims N R K wf).start (ix2 e k') idx 1 + ((rowDims N R K wf).window (ix2 e k') 1 : Nat)).toNat = k'.val
      rw [start1, window1]; omega

open Classical in
/-- Entry (v, k) of the accumulating row scatter: the operand's entry plus the sum over the rows landing on v of their
    entries in column k. -/
theorem rowScatterAdd_apply (x : (⟨2, ![N, K]⟩ : Shape).Idx → EReal) (upd : (⟨2, ![R, K]⟩ : Shape).Idx → EReal)
    (v : Fin N) (k : Fin K) :
    Ideal.hostScatterAdd (rowDims N R K wf) x idx upd (ix2 v k)
      = x (ix2 v k) + ∑ e ∈ hits N idx v, upd (ix2 e k) := by
  unfold Ideal.hostScatterAdd
  congr 1
  rw [Finset.sum_filter, sum_idx2]
  unfold hits
  rw [Finset.sum_filter]
  refine Finset.sum_congr rfl fun e _ => ?_
  simp only [resultIdx_eq_some_iff wf idx]
  by_cases hz : (idx (ix2 e (0 : Fin 1))).toInt = (v.val : Int)
  · simp only [hz, true_and, if_true]
    rw [Finset.sum_ite_eq' Finset.univ k (fun k' => upd (ix2 e k'))]
    simp
  · simp only [hz, false_and, if_false]
    exact Finset.sum_const_zero

end Row

/-! ## The same for vectors -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of a vector [R] into a vector [N] at scatter indices [R, 1]. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)
  (idx : IVec ⟨2, ![R, 1]⟩ w)

theorem vstart0 (e : Fin R) :
    (vecDims N R wf).start (ix1 e) idx 0 = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vwindow0 (e : Fin R) : (vecDims N R wf).window (ix1 e) 0 = 0 := by
  unfold ScatterDims.window
  rw [dif_neg]
  intro h
  simp [ScatterDims.sKept, Shape.kept] at h

theorem vresultIdx_eq_some_iff (e : Fin R) (v : Fin N) :
    (vecDims N R wf).resultIdx? (ix1 e) idx = some (ix1 v) ↔ (idx (ix2 e (0 : Fin 1))).toInt = (v.val : Int) := by
  unfold ScatterDims.resultIdx?
  constructor
  · intro h
    split at h
    · rename_i hc
      have hf := Option.some.inj h
      have h0 : ((vecDims N R wf).start (ix1 e) idx 0 + ((vecDims N R wf).window (ix1 e) 0 : Nat)).toNat = v.val :=
        congrArg (fun f => (f 0).val) hf
      have hc0 := hc 0
      rw [vstart0, vwindow0] at h0 hc0
      omega
    · exact absurd h (by simp)
  · intro hz
    have hc : ∀ a, 0 ≤ (vecDims N R wf).start (ix1 e) idx a + ((vecDims N R wf).window (ix1 e) a : Nat)
        ∧ (vecDims N R wf).start (ix1 e) idx a + ((vecDims N R wf).window (ix1 e) a : Nat)
            < ((⟨1, ![N]⟩ : Shape).size a : Nat) := by
      intro a
      obtain rfl : a = 0 := Subsingleton.elim _ _
      show 0 ≤ (vecDims N R wf).start (ix1 e) idx 0 + ((vecDims N R wf).window (ix1 e) 0 : Nat)
        ∧ (vecDims N R wf).start (ix1 e) idx 0 + ((vecDims N R wf).window (ix1 e) 0 : Nat) < (N : Int)
      rw [vstart0, vwindow0, hz]
      have := v.isLt
      omega
    rw [dif_pos hc]
    congr 1
    funext a
    apply Fin.ext
    obtain rfl : a = 0 := Subsingleton.elim _ _
    show ((vecDims N R wf).start (ix1 e) idx 0 + ((vecDims N R wf).window (ix1 e) 0 : Nat)).toNat = v.val
    rw [vstart0, vwindow0, hz]; omega

open Classical in
/-- Entry v of the accumulating vector scatter: the operand's entry plus the sum of the entries landing on v. -/
theorem vecScatterAdd_apply (x : (⟨1, ![N]⟩ : Shape).Idx → EReal) (upd : (⟨1, ![R]⟩ : Shape).Idx → EReal) (v : Fin N) :
    Ideal.hostScatterAdd (vecDims N R wf) x idx upd (ix1 v) = x (ix1 v) + ∑ e ∈ hits N idx v, upd (ix1 e) := by
  unfold Ideal.hostScatterAdd
  congr 1
  rw [Finset.sum_filter, sum_idx1]
  unfold hits
  rw [Finset.sum_filter]
  refine Finset.sum_congr rfl fun e _ => ?_
  simp only [vresultIdx_eq_some_iff wf idx]

end Vec

end Cert.LibRowScatterAdd
-- ==== Proof.LibBcast.lean ====
/-
  Four layouts of `broadcast_in_dim` read at an entry, for any element type and extents:
    * a vector [n] as a column [n, 1]:            entry (p, u) is the vector at p;
    * a column [n, 1] spread over k lanes [n, k]:  entry (p, q) is the column at (p, 0);
    * a vector [k] as a row [1, k]:               entry (u, q) is the vector at q;
    * a row [1, k] spread down n rows [n, k]:      entry (p, q) is the row at (0, q).
-/
import Idealize.ShloMosaic.Lib.ValueIdx
import Idealize.ShloMosaic.Lib.Pipeline.Value

namespace Cert.LibBcast

open Idealize.ShloMosaic Idealize.ShloMosaic.ValueIdx

variable {α : Type} {n k : ℕ}

theorem vecAsCol_apply (x : (⟨1, ![n]⟩ : Shape).Idx → α) (h : (⟨1, ![n]⟩ : Shape).BroadcastsInDim ⟨2, ![n, 1]⟩ ![0])
    (p : Fin n) (u : Fin 1) : broadcastInDim ⟨2, ![n, 1]⟩ ![0] h x (ix2 p u) = x (ix1 p) := by
  refine broadcastInDim_apply _ h x (ix2 p u) (ix1 p) fun a => ?_
  obtain rfl : a = 0 := Subsingleton.elim _ _
  show p.val = if n = 1 then 0 else p.val
  split
  · have := p.isLt; omega
  · rfl

theorem colOverLanes_apply (x : (⟨2, ![n, 1]⟩ : Shape).Idx → α)
    (h : (⟨2, ![n, 1]⟩ : Shape).BroadcastsInDim ⟨2, ![n, k]⟩ ![0, 1]) (p : Fin n) (q : Fin k) :
    broadcastInDim ⟨2, ![n, k]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => rfl

theorem vecAsRow_apply (x : (⟨1, ![k]⟩ : Shape).Idx → α) (h : (⟨1, ![k]⟩ : Shape).BroadcastsInDim ⟨2, ![1, k]⟩ ![1])
    (u : Fin 1) (q : Fin k) : broadcastInDim ⟨2, ![1, k]⟩ ![1] h x (ix2 u q) = x (ix1 q) := by
  refine broadcastInDim_apply _ h x (ix2 u q) (ix1 q) fun a => ?_
  obtain rfl : a = 0 := Subsingleton.elim _ _
  show q.val = if k = 1 then 0 else q.val
  split
  · have := q.isLt; omega
  · rfl

theorem rowDownRows_apply (x : (⟨2, ![1, k]⟩ : Shape).Idx → α)
    (h : (⟨2, ![1, k]⟩ : Shape).BroadcastsInDim ⟨2, ![n, k]⟩ ![0, 1]) (p : Fin n) (q : Fin k) :
    broadcastInDim ⟨2, ![n, k]⟩ ![0, 1] h x (ix2 p q) = x (ix2 (0 : Fin 1) q) := by
  refine broadcastInDim_apply _ h x (ix2 p q) (ix2 (0 : Fin 1) q) fun a => ?_
  match a with
  | ⟨0, _⟩ => rfl
  | ⟨1, _⟩ =>
    show q.val = if k = 1 then 0 else q.val
    split
    · have := q.isLt; omega
    · rfl

end Cert.LibBcast
-- ==== Proof.LibDot2D.lean ====
/-
  The host's dot_general of two matrices, rows by columns — [M, K] against [K, N], the left operand's axis 1 contracted
  with the right operand's axis 0, no batch axis — read at an output entry on the extended reals: entry (m, n) is the
  sum over k of lhs (m, k) * rhs (k, n), whatever the precision attribute and the schedule key. The general form, for
  any dimension record with ONE contracted axis of extent K, takes the operand indices at contraction coordinate k as
  two families with the two equations that say so. The dimension record of the matrix form is the one built from the
  literal axis lists; its well-formedness proof is a parameter. Over any extents M, K, N.
-/
import Idealize.ShloMosaic.PureOps.Ideal.Laws
import Idealize.ShloMosaic.Lib.ValueIdx

namespace Cert.LibDot2D

open Idealize.ShloMosaic Idealize.ShloMosaic.ValueIdx

/-- A host dot_general with one contracted axis of extent `K`: at output index `j` it is
    `∑ k : Fin K, lhs (li k) * rhs (ri k)`, where `li k` / `ri k` are the operand indices the dimension record gives at
    `j` and contraction coordinate `k` (`hl`, `hr`). -/
theorem dotGeneral_sum {sl sr so : Shape} {φ₁ φ₂ : FTy} (D : DotDims sl sr so) (prec : Option ContractPrecision)
    (sched : HostSchedule) (K : Nat) (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.dotGeneral D prec sched lhs rhs j = ∑ k : Fin K, lhs (li k) * rhs (ri k) := by
  rw [Ideal.dotGeneral_apply, ← Equiv.sum_comp (contrEquiv1 D K hrank hsize).symm]
  exact Finset.sum_congr rfl fun k _ => by rw [hl k, hr k]

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (sched : HostSchedule)
    (lhs : FVec Ideal (⟨2, ![M, K]⟩ : Shape) φ₁) (rhs : FVec Ideal (⟨2, ![K, N]⟩ : Shape) φ₂)
    (m : Fin M) (n : Fin N) :
    FloatOps.dotGeneral (⟨[1], [0], [0], [1], [], [], wf⟩ : DotDims (⟨2, ![M, K]⟩ : Shape) (⟨2, ![K, N]⟩ : Shape) (⟨2, ![M, N]⟩ : Shape))
        prec sched lhs rhs (ix2 m n)
      = ∑ k : Fin K, lhs (ix2 m k) * rhs (ix2 k n) := by
  refine dotGeneral_sum _ prec sched K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

end Cert.LibDot2D
-- ==== Proof.LibCountInvSqrt.lean ====
/-
  The inverse square root of a count, two ways, on the extended reals.

  A degree is a count: the cast of a natural number. Guarded by "the count is positive", the reciprocal square root of
  the count clamped below at one, `rsqrt (max d 1)`, and the power `d ^ (-1/2)` are the same number: a positive count is
  at least one, so the clamp does nothing, and on a positive real both are `(√d)⁻¹`. Where the guard fails both sides
  take the other branch. Also here: the two float literals the guard's branches use, `1.0` and `-0.5`, as reals.
-/
import Idealize.ShloMosaic.PureOps.Ideal
import Idealize.ShloMosaic.PureOps.Ideal.Laws
import Idealize.ShloMosaic.Lib.ValueIdx

namespace Cert.LibCountInvSqrt

open Idealize.ShloMosaic

/-- The f32 pattern of `1.0` denotes one. -/
theorem one_f32 : Ideal.ofBits .f32 0x3F800000#32 = 1 := by
  simp [Ideal.ofBits, Ideal.ieee, -EReal.coe_mul]; norm_num

/-- The f32 pattern of `-0.5` denotes minus one half. -/
theorem neg_half_f32 : Ideal.ofBits .f32 0xBF000000#32 = ((-(1 / 2) : ℝ) : EReal) := by
  simp [Ideal.ofBits, Ideal.ieee, -EReal.coe_mul]; norm_num

/-- For a positive count the clamp at one does nothing and the two inverse square roots agree. -/
theorem rsqrt_max_one_eq_pow (k : ℕ) (hk : 0 < k) :
    Ideal.rsqrt (max (((k : ℝ)) : EReal) 1) = Ideal.pow ((k : ℝ) : EReal) ((-(1 / 2) : ℝ) : EReal) := by
  have h1 : (1 : ℝ) ≤ (k : ℝ) := by exact_mod_cast hk
  have hpos : (0 : ℝ) < (k : ℝ) := by linarith
  have hmax : max (((k : ℝ)) : EReal) 1 = ((k : ℝ) : EReal) := max_eq_left (by exact_mod_cast h1)
  rw [hmax, Ideal.rsqrt_coe, Ideal.pow_coe_coe, if_neg (not_lt.mpr hpos.le), if_neg hpos.ne']
  congr 1
  show (Real.sqrt (k : ℝ))⁻¹ = (k : ℝ) ^ (-(1 / 2) : ℝ)
  rw [Real.sqrt_eq_rpow, Real.rpow_neg hpos.le]

/-- The guarded forms agree at every count. -/
theorem guarded (k : ℕ) (z : EReal) :
    Scalar.select (Ideal.cmp .ogt ((k : ℝ) : EReal) 0) (Ideal.rsqrt (max (((k : ℝ)) : EReal) 1)) z
      = Scalar.select (Ideal.cmp .ogt ((k : ℝ) : EReal) 0) (Ideal.pow ((k : ℝ) : EReal) ((-(1 / 2) : ℝ) : EReal)) z := by
  rcases Nat.eq_zero_or_pos k with h | h
  · subst h
    have hc : Ideal.cmp .ogt (((0 : ℕ) : ℝ) : EReal) 0 = 0#1 := by simp [Ideal.cmp]
    rw [hc, ValueIdx.select_zero, ValueIdx.select_zero]
  · rw [rsqrt_max_one_eq_pow k h]

end Cert.LibCountInvSqrt
-- ==== Proof.RefRead.lean ====
/-
  The reference's stages read at an entry, on the extended reals.
  * A gather of rows reads, for edge e, the row its start index names (read signed, clamped into the node range): the
    same row whatever array is gathered.
  * The first linear map at (n, d) is row n against column d of the transposed weights plus the bias entry.
  * A message at (e, d) is the edge's weight times (the linear map at the source row, plus the product of the two
    ends' rows against the second weights' column, plus the second bias entry).
  * A degree is a count: zero plus a one for every edge whose destination is the node.
-/
import proofs.«119603_j4896262717867_2_alg».proof.Proof.RefStages
import proofs.«119603_j4896262717867_2_alg».proof.Proof.Gen.ReferenceIdeal
import proofs.«119603_j4896262717867_2_alg».proof.Proof.LibRowGather
import proofs.«119603_j4896262717867_2_alg».proof.Proof.LibRowScatterAdd
import proofs.«119603_j4896262717867_2_alg».proof.Proof.LibBcast
import proofs.«119603_j4896262717867_2_alg».proof.Proof.LibDot2D
import proofs.«119603_j4896262717867_2_alg».proof.Proof.LibCountInvSqrt
import Idealize.ShloMosaic.Lib.ValueIdx
import Idealize.ShloMosaic.Lib.IdealHost
import Idealize.ShloMosaic.PureOps.Ideal.Laws

noncomputable section

namespace Cert.ReferenceIdeal.RefRun

open Cert.ReferenceIdeal Idealize.ShloMosaic Idealize.ShloMosaic.ValueIdx
open Facts₀ Facts

/-- The node row edge e's source index names. -/
def rowF (a0 : IVec S2x1200000 32) (e : Fin 1200000) : Fin 60000 := Cert.LibRowGather.row 60000 (by decide) (idxF a0) e

/-- A gather of rows at the sources reads row `rowF a0 e`, whatever array is gathered. -/
theorem gF_apply (y : FVec Ideal S60000x64 .f32) (a0 : IVec S2x1200000 32) (e : Fin 1200000) (k : Fin 64) :
    gF y a0 (ix2 e k) = y (ix2 (rowF a0 e) k) := by
  unfold gF
  exact Cert.LibRowGather.rowGather_apply (by decide) _ y (idxF a0) e k

/-- Layer 0's first linear map at entry (n, d): row n of `x` against column d of the transposed weights, plus the
    bias entry d. -/
theorem lin1_0_apply (x : FVec Ideal S60000x64 .f32) (a2 : FVec Ideal S3x64x64 .f32) (a3 : FVec Ideal S3x64 .f32)
    (n : Fin 60000) (d : Fin 64) :
    lin1_0 x a2 a3 (ix2 n d) = (∑ k : Fin 64, x (ix2 n k) * w1T_0 a2 (ix2 k d)) + b1row_0 a3 (ix1 d) := by
  unfold lin1_0
  exact congrArg₂ (· + ·) (Cert.LibDot2D.rows_cols _ none _ x (w1T_0 a2) n d)
    ((Cert.LibBcast.rowDownRows_apply _ _ n d).trans (Cert.LibBcast.vecAsRow_apply (b1row_0 a3) _ (0 : Fin 1) d))

/-- Layer 0's message at entry (e, d): the edge weight times the first linear map's value at the source row plus
    the product of the two ends' rows against column d of the second weights, plus the second bias entry d. -/
theorem msgOf_0_apply (lin x : FVec Ideal S60000x64 .f32) (nr : FVec Ideal S1200000x1 .f32) (a0 : IVec S2x1200000 32)
    (a4 : FVec Ideal S3x64x64 .f32) (a5 : FVec Ideal S3x64 .f32) (e : Fin 1200000) (d : Fin 64) :
    msgOf_0 lin x nr a0 a4 a5 (ix2 e d) = nr (ix2 e (0 : Fin 1)) *
      ((lin (ix2 (rowF a0 e) d) + ∑ k : Fin 64, (gF x a0 (ix2 e k) * gT x a0 (ix2 e k)) * w2T_0 a4 (ix2 k d))
        + b2row_0 a5 (ix1 d)) := by
  unfold msgOf_0
  exact congrArg₂ (· * ·) (Cert.LibBcast.colOverLanes_apply nr _ e d)
    (congrArg₂ (· + ·)
      (congrArg₂ (· + ·) (gF_apply lin a0 e d)
        (Cert.LibDot2D.rows_cols _ none _ (mulf (F := Ideal) (gF x a0) (gT x a0)) (w2T_0 a4) e d))
      ((Cert.LibBcast.rowDownRows_apply _ _ e d).trans (Cert.LibBcast.vecAsRow_apply (b2row_0 a5) _ (0 : Fin 1) d)))

/-- Layer 1's first linear map at entry (n, d): row n of `x` against column d of the transposed weights, plus the
    bias entry d. -/
theorem lin1_1_apply (x : FVec Ideal S60000x64 .f32) (a2 : FVec Ideal S3x64x64 .f32) (a3 : FVec Ideal S3x64 .f32)
    (n : Fin 60000) (d : Fin 64) :
    lin1_1 x a2 a3 (ix2 n d) = (∑ k : Fin 64, x (ix2 n k) * w1T_1 a2 (ix2 k d)) + b1row_1 a3 (ix1 d) := by
  unfold lin1_1
  exact congrArg₂ (· + ·) (Cert.LibDot2D.rows_cols _ none _ x (w1T_1 a2) n d)
    ((Cert.LibBcast.rowDownRows_apply _ _ n d).trans (Cert.LibBcast.vecAsRow_apply (b1row_1 a3) _ (0 : Fin 1) d))

/-- Layer 1's message at entry (e, d): the edge weight times the first linear map's value at the source row plus
    the product of the two ends' rows against column d of the second weights, plus the second bias entry d. -/
theorem msgOf_1_apply (lin x : FVec Ideal S60000x64 .f32) (nr : FVec Ideal S1200000x1 .f32) (a0 : IVec S2x1200000 32)
    (a4 : FVec Ideal S3x64x64 .f32) (a5 : FVec Ideal S3x64 .f32) (e : Fin 1200000) (d : Fin 64) :
    msgOf_1 lin x nr a0 a4 a5 (ix2 e d) = nr (ix2 e (0 : Fin 1)) *
      ((lin (ix2 (rowF a0 e) d) + ∑ k : Fin 64, (gF x a0 (ix2 e k) * gT x a0 (ix2 e k)) * w2T_1 a4 (ix2 k d))
        + b2row_1 a5 (ix1 d)) := by
  unfold msgOf_1
  exact congrArg₂ (· * ·) (Cert.LibBcast.colOverLanes_apply nr _ e d)
    (congrArg₂ (· + ·)
      (congrArg₂ (· + ·) (gF_apply lin a0 e d)
        (Cert.LibDot2D.rows_cols _ none _ (mulf (F := Ideal) (gF x a0) (gT x a0)) (w2T_1 a4) e d))
      ((Cert.LibBcast.rowDownRows_apply _ _ e d).trans (Cert.LibBcast.vecAsRow_apply (b2row_1 a5) _ (0 : Fin 1) d)))

/-- Layer 2's first linear map at entry (n, d): row n of `x` against column d of the transposed weights, plus the
    bias entry d. -/
theorem lin1_2_apply (x : FVec Ideal S60000x64 .f32) (a2 : FVec Ideal S3x64x64 .f32) (a3 : FVec Ideal S3x64 .f32)
    (n : Fin 60000) (d : Fin 64) :
    lin1_2 x a2 a3 (ix2 n d) = (∑ k : Fin 64, x (ix2 n k) * w1T_2 a2 (ix2 k d)) + b1row_2 a3 (ix1 d) := by
  unfold lin1_2
  exact congrArg₂ (· + ·) (Cert.LibDot2D.rows_cols _ none _ x (w1T_2 a2) n d)
    ((Cert.LibBcast.rowDownRows_apply _ _ n d).trans (Cert.LibBcast.vecAsRow_apply (b1row_2 a3) _ (0 : Fin 1) d))

/-- Layer 2's message at entry (e, d): the edge weight times the first linear map's value at the source row plus
    the product of the two ends' rows against column d of the second weights, plus the second bias entry d. -/
theorem msgOf_2_apply (lin x : FVec Ideal S60000x64 .f32) (nr : FVec Ideal S1200000x1 .f32) (a0 : IVec S2x1200000 32)
    (a4 : FVec Ideal S3x64x64 .f32) (a5 : FVec Ideal S3x64 .f32) (e : Fin 1200000) (d : Fin 64) :
    msgOf_2 lin x nr a0 a4 a5 (ix2 e d) = nr (ix2 e (0 : Fin 1)) *
      ((lin (ix2 (rowF a0 e) d) + ∑ k : Fin 64, (gF x a0 (ix2 e k) * gT x a0 (ix2 e k)) * w2T_2 a4 (ix2 k d))
        + b2row_2 a5 (ix1 d)) := by
  unfold msgOf_2
  exact congrArg₂ (· * ·) (Cert.LibBcast.colOverLanes_apply nr _ e d)
    (congrArg₂ (· + ·)
      (congrArg₂ (· + ·) (gF_apply lin a0 e d)
        (Cert.LibDot2D.rows_cols _ none _ (mulf (F := Ideal) (gF x a0) (gT x a0)) (w2T_2 a4) e d))
      ((Cert.LibBcast.rowDownRows_apply _ _ e d).trans (Cert.LibBcast.vecAsRow_apply (b2row_2 a5) _ (0 : Fin 1) d)))

/-- The all-zeros and all-ones vectors at an entry. -/
theorem zerosV_apply (i : S60000.Idx) :
    broadcastInDim S60000 ![] bcast_S_S60000 (constant (F := Ideal) S_ .f32 0x00000000#32) i = 0 :=
  (broadcastInDim_scalar_apply bcast_S_S60000 _ i).trans ((constant_apply _ _).trans Ideal.ofBits_zero_f32)

theorem scatterAdd_ideal {s si u : Shape} {w : Nat} (d : ScatterDims s si u) (x : FVec Ideal s .f32) (idx : IVec si w) (upd : FVec Ideal u .f32) :
    Host.scatterAdd (F := Ideal) d x idx upd = Ideal.hostScatterAdd d x idx upd := rfl

/-- A degree at node n: zero plus the ones of the edges whose destination is n. -/
theorem deg_sum (a0 : IVec S2x1200000 32) (n : Fin 60000) :
    deg a0 (ix1 n) = broadcastInDim S60000 ![] bcast_S_S60000 (constant (F := Ideal) S_ .f32 0x00000000#32) (ix1 n)
      + ∑ e ∈ Cert.LibRowScatterAdd.hits 60000 (colT a0) n,
          broadcastInDim S1200000 ![] bcast_S_S1200000 (constant (F := Ideal) S_ .f32 0x3F800000#32) (ix1 e) := by
  unfold deg
  rw [scatterAdd_ideal]
  exact Cert.LibRowScatterAdd.vecScatterAdd_apply scatter_S60000_S1200000x1_S1200000_n_0_0_1.wf (colT a0) _ _ n

/-- The all-ones vector over the edges at an entry. -/
theorem onesE_apply (i : S1200000.Idx) :
    broadcastInDim S1200000 ![] bcast_S_S1200000 (constant (F := Ideal) S_ .f32 0x3F800000#32) i = 1 :=
  (broadcastInDim_scalar_apply bcast_S_S1200000 _ i).trans ((constant_apply _ _).trans Cert.LibCountInvSqrt.one_f32)

/-- A sum of ones over a finite set is the set's size. -/
theorem sum_ones {ι : Type} (s : Finset ι) : (∑ _e ∈ s, (1 : EReal)) = ((s.card : ℝ) : EReal) := by
  rw [Finset.sum_const, nsmul_one, EReal.coe_natCast]

/-- A degree is the cast of a natural number: the number of edges whose destination is the node. -/
theorem deg_nat (a0 : IVec S2x1200000 32) (n : Fin 60000) : ∃ k : ℕ, deg a0 (ix1 n) = ((k : ℝ) : EReal) := by
  refine ⟨(Cert.LibRowScatterAdd.hits 60000 (colT a0) n).card, (deg_sum a0 n).trans ?_⟩
  have hs : (∑ e ∈ Cert.LibRowScatterAdd.hits 60000 (colT a0) n,
        broadcastInDim S1200000 ![] bcast_S_S1200000 (constant (F := Ideal) S_ .f32 0x3F800000#32) (ix1 e))
      = ∑ _e ∈ Cert.LibRowScatterAdd.hits 60000 (colT a0) n, (1 : EReal) :=
    Finset.sum_congr rfl fun e _ => onesE_apply (ix1 e)
  rw [hs, zerosV_apply, zero_add]
  exact sum_ones _
/-- Host operations at an entry, on the extended reals. -/
theorem hostRsqrt_apply {s : Shape} (v : FVec Ideal s .f32) (i : s.Idx) : Host.rsqrt (F := Ideal) v i = Ideal.rsqrt (v i) := rfl
theorem hostPowf_apply {s : Shape} (a b : FVec Ideal s .f32) (i : s.Idx) : Host.powf (F := Ideal) a b i = Ideal.pow (a i) (b i) := rfl
theorem cmpfI_apply {s : Shape} (p : CmpFPredicate) (a b : FVec Ideal s .f32) (i : s.Idx) :
    cmpf (F := Ideal) p a b i = Ideal.cmp p (a i) (b i) := rfl

/-- The all-ones and the all-minus-one-half vectors over the nodes at an entry. -/
theorem onesV_apply (i : S60000.Idx) :
    broadcastInDim S60000 ![] bcast_S_S60000 (constant (F := Ideal) S_ .f32 0x3F800000#32) i = 1 :=
  (broadcastInDim_scalar_apply bcast_S_S60000 _ i).trans ((constant_apply _ _).trans Cert.LibCountInvSqrt.one_f32)
theorem mhalfV_apply (i : S60000.Idx) :
    broadcastInDim S60000 ![] bcast_S_S60000 (constant (F := Ideal) S_ .f32 0xBF000000#32) i = ((-(1 / 2) : ℝ) : EReal) :=
  (broadcastInDim_scalar_apply bcast_S_S60000 _ i).trans ((constant_apply _ _).trans Cert.LibCountInvSqrt.neg_half_f32)

/-- The inverse square root of the degree where it is positive: the reciprocal square root of the degree clamped
    below at one is the degree to the power minus one half there, a positive count being at least one. -/
theorem dinv_eq_rsqrt (a0 : IVec S2x1200000 32) :
    select (cmpf (F := Ideal) .ogt (deg a0) (broadcastInDim S60000 ![] bcast_S_S60000 (constant (F := Ideal) S_ .f32 0x00000000#32)))
      (Host.rsqrt (F := Ideal) (maximumf (F := Ideal) (deg a0) (broadcastInDim S60000 ![] bcast_S_S60000 (constant (F := Ideal) S_ .f32 0x3F800000#32))))
      (broadcastInDim S60000 ![] bcast_S_S60000 (constant (F := Ideal) S_ .f32 0x00000000#32))
    = dinv a0 := by
  funext i
  obtain ⟨k, hk⟩ := deg_nat a0 (i 0)
  have hd : deg a0 i = ((k : ℝ) : EReal) := (congrArg (deg a0) (eq_ix1 i)).trans hk
  unfold dinv
  rw [select_apply, select_apply, cmpfI_apply, hostRsqrt_apply, hostPowf_apply, maximumf_apply, onesV_apply, mhalfV_apply,
    zerosV_apply, hd]
  exact Cert.LibCountInvSqrt.guarded k 0
end Cert.ReferenceIdeal.RefRun

end
-- ==== Proof.KiValue.lean ====
/-
  The idealized kernel's result array is the reference's result function of the launch arguments.
  Layer by layer: the dense region leaves `x · W1ᵀ + b1` (the reference's first linear map); the edge region leaves
  the edge weight times ((xj · W1ᵀ + b1) + ((xj ∘ xi) · W2ᵀ + b2)), which is the reference's message because reading
  row `from(e)` of `x · W1ᵀ + b1` is `x[from(e)] · W1ᵀ + b1` and the three summands only regroup; the per-node factor
  1/√deg is the same number whether computed as a reciprocal square root of the degree clamped at one or as a power;
  everything between the regions is the same host operation applied to equal arrays.
-/
import proofs.«119603_j4896262717867_2_alg».proof.Proof.KiOuts
import proofs.«119603_j4896262717867_2_alg».proof.Proof.KiStages
import proofs.«119603_j4896262717867_2_alg».proof.Proof.KiDenseVal0
import proofs.«119603_j4896262717867_2_alg».proof.Proof.KiDenseVal2
import proofs.«119603_j4896262717867_2_alg».proof.Proof.KiDenseVal4
import proofs.«119603_j4896262717867_2_alg».proof.Proof.KiEdgeVal1
import proofs.«119603_j4896262717867_2_alg».proof.Proof.KiEdgeVal3
import proofs.«119603_j4896262717867_2_alg».proof.Proof.KiEdgeVal5
import proofs.«119603_j4896262717867_2_alg».proof.Proof.RefRead
import Idealize.ShloMosaic.Lib.ValueLayout

set_option maxRecDepth 16384

noncomputable section

namespace Cert.KernelIdeal.Hand

open Cert.KernelIdeal Cert.KernelIdeal.Gen Cert.KernelIdeal.Stages Cert.ReferenceIdeal.RefRun
open Idealize.ShloMosaic Idealize.ShloMosaic.TcCoe Idealize.ShloMosaic.ValueIdx
open Idealize.SL Idealize.SL.Sem

/-! ## The three bridges -/

/-- A vector as a one-row matrix, read at an entry. -/
theorem row2_apply (v : FVec Ideal S64 .f32) (d : Fin 64) : row2 v (ix2 (0 : Fin 1) d) = v (ix1 d) :=
  shapeCast_a_1a_apply v _ (0 : Fin 1) d

/-- The kernel's per-node factor is the reference's. -/
theorem dinvK_eq (a0 : IVec S2x1200000 32) : dinvK a0 = dinv a0 := dinv_eq_rsqrt a0

/-- Layer 0: the dense region's array function of `x`, the transposed weights and the bias as a one-row matrix is the
    reference's first linear map. -/
theorem dense_is_lin1_0 (x : FVec Ideal S60000x64 .f32) (a2 : FVec Ideal S3x64x64 .f32) (a3 : FVec Ideal S3x64 .f32) :
    denseG x (w1T_0 a2) (row2 (b1row_0 a3)) = lin1_0 x a2 a3 := by
  funext i
  refine (congrArg (denseG x (w1T_0 a2) (row2 (b1row_0 a3))) (eq_ix2 (n0 := 60000) (n1 := 64) i)).trans
    (Eq.trans ?_ (congrArg (lin1_0 x a2 a3) (eq_ix2 (n0 := 60000) (n1 := 64) i).symm))
  refine Eq.trans ?_ (lin1_0_apply x a2 a3 (i 0) (i 1)).symm
  show (∑ k : Fin 64, x (ix2 (i 0) k) * w1T_0 a2 (ix2 k (i 1))) + row2 (b1row_0 a3) (ix2 (0 : Fin 1) (i 1)) = _
  exact congrArg₂ (· + ·) rfl (shapeCast_a_1a_apply (b1row_0 a3) _ (0 : Fin 1) (i 1))

/-- Layer 0 at an entry: the edge region's array function of the gathered rows, the edge weights, the two weight
    matrices and the two biases is the reference's message: the linear map commutes with reading a row, and the two
    sums of three terms differ by the grouping of the additions. -/
theorem edge_pt_0 (x : FVec Ideal S60000x64 .f32) (nr : FVec Ideal S1200000x1 .f32) (a0 : IVec S2x1200000 32)
    (a2 : FVec Ideal S3x64x64 .f32) (a3 : FVec Ideal S3x64 .f32) (a4 : FVec Ideal S3x64x64 .f32) (a5 : FVec Ideal S3x64 .f32)
    (e : Fin 1200000) (d : Fin 64) :
    edgeG (gF x a0) (gT x a0) nr (w1T_0 a2) (row2 (b1row_0 a3)) (w2T_0 a4) (row2 (b2row_0 a5)) (ix2 e d)
      = msgOf_0 (lin1_0 x a2 a3) x nr a0 a4 a5 (ix2 e d) := by
  refine Eq.trans ?_ (msgOf_0_apply (lin1_0 x a2 a3) x nr a0 a4 a5 e d).symm
  rw [lin1_0_apply x a2 a3 (rowF a0 e) d]
  show nr (ix2 e (0 : Fin 1)) *
      (((∑ k : Fin 64, gF x a0 (ix2 e k) * w1T_0 a2 (ix2 k d)) + row2 (b1row_0 a3) (ix2 (0 : Fin 1) d))
        + ((∑ k : Fin 64, (gF x a0 (ix2 e k) * gT x a0 (ix2 e k)) * w2T_0 a4 (ix2 k d))
          + row2 (b2row_0 a5) (ix2 (0 : Fin 1) d))) = _
  rw [row2_apply, row2_apply,
    Finset.sum_congr rfl fun k _ => congrArg (· * w1T_0 a2 (ix2 k d)) (gF_apply x a0 e k)]
  exact congrArg (nr (ix2 e (0 : Fin 1)) * ·) (add_assoc _ _ _).symm

theorem edge_is_msg_0 (x : FVec Ideal S60000x64 .f32) (nr : FVec Ideal S1200000x1 .f32) (a0 : IVec S2x1200000 32)
    (a2 : FVec Ideal S3x64x64 .f32) (a3 : FVec Ideal S3x64 .f32) (a4 : FVec Ideal S3x64x64 .f32) (a5 : FVec Ideal S3x64 .f32) :
    edgeG (gF x a0) (gT x a0) nr (w1T_0 a2) (row2 (b1row_0 a3)) (w2T_0 a4) (row2 (b2row_0 a5))
      = msgOf_0 (lin1_0 x a2 a3) x nr a0 a4 a5 := by
  funext i
  exact ((congrArg (edgeG (gF x a0) (gT x a0) nr (w1T_0 a2) (row2 (b1row_0 a3)) (w2T_0 a4) (row2 (b2row_0 a5)))
      (eq_ix2 (n0 := 1200000) (n1 := 64) i)).trans (edge_pt_0 x nr a0 a2 a3 a4 a5 (i 0) (i 1))).trans
    (congrArg (msgOf_0 (lin1_0 x a2 a3) x nr a0 a4 a5) (eq_ix2 (n0 := 1200000) (n1 := 64) i).symm)

/-- Layer 1: the dense region's array function of `x`, the transposed weights and the bias as a one-row matrix is the
    reference's first linear map. -/
theorem dense_is_lin1_1 (x : FVec Ideal S60000x64 .f32) (a2 : FVec Ideal S3x64x64 .f32) (a3 : FVec Ideal S3x64 .f32) :
    denseG x (w1T_1 a2) (row2 (b1row_1 a3)) = lin1_1 x a2 a3 := by
  funext i
  refine (congrArg (denseG x (w1T_1 a2) (row2 (b1row_1 a3))) (eq_ix2 (n0 := 60000) (n1 := 64) i)).trans
    (Eq.trans ?_ (congrArg (lin1_1 x a2 a3) (eq_ix2 (n0 := 60000) (n1 := 64) i).symm))
  refine Eq.trans ?_ (lin1_1_apply x a2 a3 (i 0) (i 1)).symm
  show (∑ k : Fin 64, x (ix2 (i 0) k) * w1T_1 a2 (ix2 k (i 1))) + row2 (b1row_1 a3) (ix2 (0 : Fin 1) (i 1)) = _
  exact congrArg₂ (· + ·) rfl (shapeCast_a_1a_apply (b1row_1 a3) _ (0 : Fin 1) (i 1))

/-- Layer 1 at an entry: the edge region's array function of the gathered rows, the edge weights, the two weight
    matrices and the two biases is the reference's message: the linear map commutes with reading a row, and the two
    sums of three terms differ by the grouping of the additions. -/
theorem edge_pt_1 (x : FVec Ideal S60000x64 .f32) (nr : FVec Ideal S1200000x1 .f32) (a0 : IVec S2x1200000 32)
    (a2 : FVec Ideal S3x64x64 .f32) (a3 : FVec Ideal S3x64 .f32) (a4 : FVec Ideal S3x64x64 .f32) (a5 : FVec Ideal S3x64 .f32)
    (e : Fin 1200000) (d : Fin 64) :
    edgeG (gF x a0) (gT x a0) nr (w1T_1 a2) (row2 (b1row_1 a3)) (w2T_1 a4) (row2 (b2row_1 a5)) (ix2 e d)
      = msgOf_1 (lin1_1 x a2 a3) x nr a0 a4 a5 (ix2 e d) := by
  refine Eq.trans ?_ (msgOf_1_apply (lin1_1 x a2 a3) x nr a0 a4 a5 e d).symm
  rw [lin1_1_apply x a2 a3 (rowF a0 e) d]
  show nr (ix2 e (0 : Fin 1)) *
      (((∑ k : Fin 64, gF x a0 (ix2 e k) * w1T_1 a2 (ix2 k d)) + row2 (b1row_1 a3) (ix2 (0 : Fin 1) d))
        + ((∑ k : Fin 64, (gF x a0 (ix2 e k) * gT x a0 (ix2 e k)) * w2T_1 a4 (ix2 k d))
          + row2 (b2row_1 a5) (ix2 (0 : Fin 1) d))) = _
  rw [row2_apply, row2_apply,
    Finset.sum_congr rfl fun k _ => congrArg (· * w1T_1 a2 (ix2 k d)) (gF_apply x a0 e k)]
  exact congrArg (nr (ix2 e (0 : Fin 1)) * ·) (add_assoc _ _ _).symm

theorem edge_is_msg_1 (x : FVec Ideal S60000x64 .f32) (nr : FVec Ideal S1200000x1 .f32) (a0 : IVec S2x1200000 32)
    (a2 : FVec Ideal S3x64x64 .f32) (a3 : FVec Ideal S3x64 .f32) (a4 : FVec Ideal S3x64x64 .f32) (a5 : FVec Ideal S3x64 .f32) :
    edgeG (gF x a0) (gT x a0) nr (w1T_1 a2) (row2 (b1row_1 a3)) (w2T_1 a4) (row2 (b2row_1 a5))
      = msgOf_1 (lin1_1 x a2 a3) x nr a0 a4 a5 := by
  funext i
  exact ((congrArg (edgeG (gF x a0) (gT x a0) nr (w1T_1 a2) (row2 (b1row_1 a3)) (w2T_1 a4) (row2 (b2row_1 a5)))
      (eq_ix2 (n0 := 1200000) (n1 := 64) i)).trans (edge_pt_1 x nr a0 a2 a3 a4 a5 (i 0) (i 1))).trans
    (congrArg (msgOf_1 (lin1_1 x a2 a3) x nr a0 a4 a5) (eq_ix2 (n0 := 1200000) (n1 := 64) i).symm)

/-- Layer 2: the dense region's array function of `x`, the transposed weights and the bias as a one-row matrix is the
    reference's first linear map. -/
theorem dense_is_lin1_2 (x : FVec Ideal S60000x64 .f32) (a2 : FVec Ideal S3x64x64 .f32) (a3 : FVec Ideal S3x64 .f32) :
    denseG x (w1T_2 a2) (row2 (b1row_2 a3)) = lin1_2 x a2 a3 := by
  funext i
  refine (congrArg (denseG x (w1T_2 a2) (row2 (b1row_2 a3))) (eq_ix2 (n0 := 60000) (n1 := 64) i)).trans
    (Eq.trans ?_ (congrArg (lin1_2 x a2 a3) (eq_ix2 (n0 := 60000) (n1 := 64) i).symm))
  refine Eq.trans ?_ (lin1_2_apply x a2 a3 (i 0) (i 1)).symm
  show (∑ k : Fin 64, x (ix2 (i 0) k) * w1T_2 a2 (ix2 k (i 1))) + row2 (b1row_2 a3) (ix2 (0 : Fin 1) (i 1)) = _
  exact congrArg₂ (· + ·) rfl (shapeCast_a_1a_apply (b1row_2 a3) _ (0 : Fin 1) (i 1))

/-- Layer 2 at an entry: the edge region's array function of the gathered rows, the edge weights, the two weight
    matrices and the two biases is the reference's message: the linear map commutes with reading a row, and the two
    sums of three terms differ by the grouping of the additions. -/
theorem edge_pt_2 (x : FVec Ideal S60000x64 .f32) (nr : FVec Ideal S1200000x1 .f32) (a0 : IVec S2x1200000 32)
    (a2 : FVec Ideal S3x64x64 .f32) (a3 : FVec Ideal S3x64 .f32) (a4 : FVec Ideal S3x64x64 .f32) (a5 : FVec Ideal S3x64 .f32)
    (e : Fin 1200000) (d : Fin 64) :
    edgeG (gF x a0) (gT x a0) nr (w1T_2 a2) (row2 (b1row_2 a3)) (w2T_2 a4) (row2 (b2row_2 a5)) (ix2 e d)
      = msgOf_2 (lin1_2 x a2 a3) x nr a0 a4 a5 (ix2 e d) := by
  refine Eq.trans ?_ (msgOf_2_apply (lin1_2 x a2 a3) x nr a0 a4 a5 e d).symm
  rw [lin1_2_apply x a2 a3 (rowF a0 e) d]
  show nr (ix2 e (0 : Fin 1)) *
      (((∑ k : Fin 64, gF x a0 (ix2 e k) * w1T_2 a2 (ix2 k d)) + row2 (b1row_2 a3) (ix2 (0 : Fin 1) d))
        + ((∑ k : Fin 64, (gF x a0 (ix2 e k) * gT x a0 (ix2 e k)) * w2T_2 a4 (ix2 k d))
          + row2 (b2row_2 a5) (ix2 (0 : Fin 1) d))) = _
  rw [row2_apply, row2_apply,
    Finset.sum_congr rfl fun k _ => congrArg (· * w1T_2 a2 (ix2 k d)) (gF_apply x a0 e k)]
  exact congrArg (nr (ix2 e (0 : Fin 1)) * ·) (add_assoc _ _ _).symm

theorem edge_is_msg_2 (x : FVec Ideal S60000x64 .f32) (nr : FVec Ideal S1200000x1 .f32) (a0 : IVec S2x1200000 32)
    (a2 : FVec Ideal S3x64x64 .f32) (a3 : FVec Ideal S3x64 .f32) (a4 : FVec Ideal S3x64x64 .f32) (a5 : FVec Ideal S3x64 .f32) :
    edgeG (gF x a0) (gT x a0) nr (w1T_2 a2) (row2 (b1row_2 a3)) (w2T_2 a4) (row2 (b2row_2 a5))
      = msgOf_2 (lin1_2 x a2 a3) x nr a0 a4 a5 := by
  funext i
  exact ((congrArg (edgeG (gF x a0) (gT x a0) nr (w1T_2 a2) (row2 (b1row_2 a3)) (w2T_2 a4) (row2 (b2row_2 a5)))
      (eq_ix2 (n0 := 1200000) (n1 := 64) i)).trans (edge_pt_2 x nr a0 a2 a3 a4 a5 (i 0) (i 1))).trans
    (congrArg (msgOf_2 (lin1_2 x a2 a3) x nr a0 a4 a5) (eq_ix2 (n0 := 1200000) (n1 := 64) i).symm)

/-! ## The result -/

variable (m : (ℓ : Loc nD τ sig) → Buf (Elt Ideal) ℓ) (c : Dev nD)

set_option maxHeartbeats 2000000 in
set_option backward.isDefEq.respectTransparency.types false in
/-- What region 0 leaves: layer 0's first linear map of the input embeddings. -/
theorem left_v42 : o6 m 4 main_v42 c = lin1_0 (m ((c : Thread nD τ).loc main_arg1)) (m ((c : Thread nD τ).loc main_arg2)) (m ((c : Thread nD τ).loc main_arg3)) := by
  refine ((leaves m).l0 c).trans ((arr_dense0 (en0 m) c).trans ?_)
  have e0 : en0 m c (Pipeline.arrRef spec0 0) = (m ((c : Thread nD τ).loc main_arg1)) := V3_arg1 m c
  have e1 : en0 m c (Pipeline.arrRef spec0 1) = w1T_0 (m ((c : Thread nD τ).loc main_arg2)) := V3_v32 m c
  have e2 : en0 m c (Pipeline.arrRef spec0 2) = row2 (b1row_0 (m ((c : Thread nD τ).loc main_arg3))) := V3_v35 m c
  rw [e0, e1, e2]
  exact dense_is_lin1_0 _ _ _

set_option maxHeartbeats 2000000 in
set_option backward.isDefEq.respectTransparency.types false in
/-- What region 1 leaves: layer 0's messages. -/
theorem left_v57 : o6 m 6 main_v57 c
    = msgOf_0 (lin1_0 (m ((c : Thread nD τ).loc main_arg1)) (m ((c : Thread nD τ).loc main_arg2)) (m ((c : Thread nD τ).loc main_arg3))) (m ((c : Thread nD τ).loc main_arg1)) (nrm (m ((c : Thread nD τ).loc main_arg0))) (m ((c : Thread nD τ).loc main_arg0)) (m ((c : Thread nD τ).loc main_arg4)) (m ((c : Thread nD τ).loc main_arg5)) := by
  refine ((leaves m).l1 c).trans ((arr_edge1 (en1 m (o6 m)) c).trans ?_)
  have e0 : en1 m (o6 m) c (Pipeline.arrRef spec1 0) = gF (m ((c : Thread nD τ).loc main_arg1)) (m ((c : Thread nD τ).loc main_arg0)) := V5_v49 m (o6 m) c
  have e1 : en1 m (o6 m) c (Pipeline.arrRef spec1 1) = gT (m ((c : Thread nD τ).loc main_arg1)) (m ((c : Thread nD τ).loc main_arg0)) := V5_v56 m (o6 m) c
  have e2 : en1 m (o6 m) c (Pipeline.arrRef spec1 2) = nrmOf (dinvK (m ((c : Thread nD τ).loc main_arg0))) (m ((c : Thread nD τ).loc main_arg0)) := V5_v29 m (o6 m) c
  have e3 : en1 m (o6 m) c (Pipeline.arrRef spec1 3) = w1T_0 (m ((c : Thread nD τ).loc main_arg2)) := V5_v32 m (o6 m) c
  have e4 : en1 m (o6 m) c (Pipeline.arrRef spec1 4) = row2 (b1row_0 (m ((c : Thread nD τ).loc main_arg3))) := V5_v35 m (o6 m) c
  have e5 : en1 m (o6 m) c (Pipeline.arrRef spec1 5) = w2T_0 (m ((c : Thread nD τ).loc main_arg4)) := V5_v38 m (o6 m) c
  have e6 : en1 m (o6 m) c (Pipeline.arrRef spec1 6) = row2 (b2row_0 (m ((c : Thread nD τ).loc main_arg5))) := V5_v41 m (o6 m) c
  have e2' : en1 m (o6 m) c (Pipeline.arrRef spec1 2) = nrm (m ((c : Thread nD τ).loc main_arg0)) :=
    e2.trans (congrArg (fun dv => nrmOf dv (m ((c : Thread nD τ).loc main_arg0))) (dinvK_eq (m ((c : Thread nD τ).loc main_arg0))))
  exact (congr (congr (congr (congr (congr (congr (congrArg edgeG e0) e1) e2') e3) e4) e5) e6).trans
    (edge_is_msg_0 (m ((c : Thread nD τ).loc main_arg1)) (nrm (m ((c : Thread nD τ).loc main_arg0))) (m ((c : Thread nD τ).loc main_arg0)) (m ((c : Thread nD τ).loc main_arg2)) (m ((c : Thread nD τ).loc main_arg3)) (m ((c : Thread nD τ).loc main_arg4)) (m ((c : Thread nD τ).loc main_arg5)))

set_option maxHeartbeats 2000000 in
/-- The embeddings after layer 0 on the kernel side are the reference's. -/
theorem y1_eq : upd (o6 m 4 main_v42 c) (o6 m 6 main_v57 c) (m ((c : Thread nD τ).loc main_arg0)) = x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [left_v42, left_v57]; rfl

set_option maxHeartbeats 2000000 in
set_option backward.isDefEq.respectTransparency.types false in
/-- What region 2 leaves: layer 1's first linear map of the layer-0 embeddings. -/
theorem left_v75 : o6 m 10 main_v75 c = lin1_1 (x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg3)) := by
  refine ((leaves m).l2 c).trans ((arr_dense2 (en2 m (o6 m)) c).trans ?_)
  have e0 : en2 m (o6 m) c (Pipeline.arrRef spec2 0) = upd (o6 m 4 main_v42 c) (o6 m 6 main_v57 c) (m ((c : Thread nD τ).loc main_arg0)) := V9_v62 m (o6 m) c
  have e1 : en2 m (o6 m) c (Pipeline.arrRef spec2 1) = w1T_1 (m ((c : Thread nD τ).loc main_arg2)) := V9_v65 m (o6 m) c
  have e2 : en2 m (o6 m) c (Pipeline.arrRef spec2 2) = row2 (b1row_1 (m ((c : Thread nD τ).loc main_arg3))) := V9_v68 m (o6 m) c
  rw [e0, e1, e2, y1_eq]
  exact dense_is_lin1_1 _ _ _

set_option maxHeartbeats 2000000 in
set_option backward.isDefEq.respectTransparency.types false in
/-- What region 3 leaves: layer 1's messages. -/
theorem left_v90 : o6 m 12 main_v90 c
    = msgOf_1 (lin1_1 (x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg3))) (x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (nrm (m ((c : Thread nD τ).loc main_arg0))) (m ((c : Thread nD τ).loc main_arg0)) (m ((c : Thread nD τ).loc main_arg4)) (m ((c : Thread nD τ).loc main_arg5)) := by
  refine ((leaves m).l3 c).trans ((arr_edge3 (en3 m (o6 m)) c).trans ?_)
  have e0 : en3 m (o6 m) c (Pipeline.arrRef spec3 0) = gF (upd (o6 m 4 main_v42 c) (o6 m 6 main_v57 c) (m ((c : Thread nD τ).loc main_arg0))) (m ((c : Thread nD τ).loc main_arg0)) := V11_v82 m (o6 m) c
  have e1 : en3 m (o6 m) c (Pipeline.arrRef spec3 1) = gT (upd (o6 m 4 main_v42 c) (o6 m 6 main_v57 c) (m ((c : Thread nD τ).loc main_arg0))) (m ((c : Thread nD τ).loc main_arg0)) := V11_v89 m (o6 m) c
  have e2 : en3 m (o6 m) c (Pipeline.arrRef spec3 2) = nrmOf (dinvK (m ((c : Thread nD τ).loc main_arg0))) (m ((c : Thread nD τ).loc main_arg0)) := V11_v29 m (o6 m) c
  have e3 : en3 m (o6 m) c (Pipeline.arrRef spec3 3) = w1T_1 (m ((c : Thread nD τ).loc main_arg2)) := V11_v65 m (o6 m) c
  have e4 : en3 m (o6 m) c (Pipeline.arrRef spec3 4) = row2 (b1row_1 (m ((c : Thread nD τ).loc main_arg3))) := V11_v68 m (o6 m) c
  have e5 : en3 m (o6 m) c (Pipeline.arrRef spec3 5) = w2T_1 (m ((c : Thread nD τ).loc main_arg4)) := V11_v71 m (o6 m) c
  have e6 : en3 m (o6 m) c (Pipeline.arrRef spec3 6) = row2 (b2row_1 (m ((c : Thread nD τ).loc main_arg5))) := V11_v74 m (o6 m) c
  rw [y1_eq] at e0 e1
  have e2' : en3 m (o6 m) c (Pipeline.arrRef spec3 2) = nrm (m ((c : Thread nD τ).loc main_arg0)) :=
    e2.trans (congrArg (fun dv => nrmOf dv (m ((c : Thread nD τ).loc main_arg0))) (dinvK_eq (m ((c : Thread nD τ).loc main_arg0))))
  exact (congr (congr (congr (congr (congr (congr (congrArg edgeG e0) e1) e2') e3) e4) e5) e6).trans
    (edge_is_msg_1 (x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (nrm (m ((c : Thread nD τ).loc main_arg0))) (m ((c : Thread nD τ).loc main_arg0)) (m ((c : Thread nD τ).loc main_arg2)) (m ((c : Thread nD τ).loc main_arg3)) (m ((c : Thread nD τ).loc main_arg4)) (m ((c : Thread nD τ).loc main_arg5)))

set_option maxHeartbeats 2000000 in
/-- The embeddings after layer 1 on the kernel side are the reference's. -/
theorem y2_eq : upd (o6 m 10 main_v75 c) (o6 m 12 main_v90 c) (m ((c : Thread nD τ).loc main_arg0)) = x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [left_v75, left_v90]; rfl

set_option maxHeartbeats 2000000 in
set_option backward.isDefEq.respectTransparency.types false in
/-- What region 4 leaves: layer 2's first linear map of the layer-1 embeddings. -/
theorem left_v108 : o6 m 16 main_v108 c = lin1_2 (x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg3)) := by
  refine ((leaves m).l4 c).trans ((arr_dense4 (en4 m (o6 m)) c).trans ?_)
  have e0 : en4 m (o6 m) c (Pipeline.arrRef spec4 0) = upd (o6 m 10 main_v75 c) (o6 m 12 main_v90 c) (m ((c : Thread nD τ).loc main_arg0)) := V15_v95 m (o6 m) c
  have e1 : en4 m (o6 m) c (Pipeline.arrRef spec4 1) = w1T_2 (m ((c : Thread nD τ).loc main_arg2)) := V15_v98 m (o6 m) c
  have e2 : en4 m (o6 m) c (Pipeline.arrRef spec4 2) = row2 (b1row_2 (m ((c : Thread nD τ).loc main_arg3))) := V15_v101 m (o6 m) c
  rw [e0, e1, e2, y2_eq]
  exact dense_is_lin1_2 _ _ _

set_option maxHeartbeats 2000000 in
set_option backward.isDefEq.respectTransparency.types false in
/-- What region 5 leaves: layer 2's messages. -/
theorem left_v123 : o6 m 18 main_v123 c
    = msgOf_2 (lin1_2 (x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg3))) (x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (nrm (m ((c : Thread nD τ).loc main_arg0))) (m ((c : Thread nD τ).loc main_arg0)) (m ((c : Thread nD τ).loc main_arg4)) (m ((c : Thread nD τ).loc main_arg5)) := by
  refine ((leaves m).l5 c).trans ((arr_edge5 (en5 m (o6 m)) c).trans ?_)
  have e0 : en5 m (o6 m) c (Pipeline.arrRef spec5 0) = gF (upd (o6 m 10 main_v75 c) (o6 m 12 main_v90 c) (m ((c : Thread nD τ).loc main_arg0))) (m ((c : Thread nD τ).loc main_arg0)) := V17_v115 m (o6 m) c
  have e1 : en5 m (o6 m) c (Pipeline.arrRef spec5 1) = gT (upd (o6 m 10 main_v75 c) (o6 m 12 main_v90 c) (m ((c : Thread nD τ).loc main_arg0))) (m ((c : Thread nD τ).loc main_arg0)) := V17_v122 m (o6 m) c
  have e2 : en5 m (o6 m) c (Pipeline.arrRef spec5 2) = nrmOf (dinvK (m ((c : Thread nD τ).loc main_arg0))) (m ((c : Thread nD τ).loc main_arg0)) := V17_v29 m (o6 m) c
  have e3 : en5 m (o6 m) c (Pipeline.arrRef spec5 3) = w1T_2 (m ((c : Thread nD τ).loc main_arg2)) := V17_v98 m (o6 m) c
  have e4 : en5 m (o6 m) c (Pipeline.arrRef spec5 4) = row2 (b1row_2 (m ((c : Thread nD τ).loc main_arg3))) := V17_v101 m (o6 m) c
  have e5 : en5 m (o6 m) c (Pipeline.arrRef spec5 5) = w2T_2 (m ((c : Thread nD τ).loc main_arg4)) := V17_v104 m (o6 m) c
  have e6 : en5 m (o6 m) c (Pipeline.arrRef spec5 6) = row2 (b2row_2 (m ((c : Thread nD τ).loc main_arg5))) := V17_v107 m (o6 m) c
  rw [y2_eq] at e0 e1
  have e2' : en5 m (o6 m) c (Pipeline.arrRef spec5 2) = nrm (m ((c : Thread nD τ).loc main_arg0)) :=
    e2.trans (congrArg (fun dv => nrmOf dv (m ((c : Thread nD τ).loc main_arg0))) (dinvK_eq (m ((c : Thread nD τ).loc main_arg0))))
  exact (congr (congr (congr (congr (congr (congr (congrArg edgeG e0) e1) e2') e3) e4) e5) e6).trans
    (edge_is_msg_2 (x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (nrm (m ((c : Thread nD τ).loc main_arg0))) (m ((c : Thread nD τ).loc main_arg0)) (m ((c : Thread nD τ).loc main_arg2)) (m ((c : Thread nD τ).loc main_arg3)) (m ((c : Thread nD τ).loc main_arg4)) (m ((c : Thread nD τ).loc main_arg5)))

set_option maxHeartbeats 2000000 in
/-- The embeddings after layer 2 on the kernel side are the reference's. -/
theorem y3_eq : upd (o6 m 16 main_v108 c) (o6 m 18 main_v123 c) (m ((c : Thread nD τ).loc main_arg0)) = x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [left_v108, left_v123]; rfl

set_option maxHeartbeats 2000000 in
/-- THE RESULT ARRAY after the kernel program's run is the reference's result function of the launch arguments. -/
theorem result_eq : V21 m (o6 m) c main_v129 = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [V21_v129 m (o6 m) c, y1_eq, y2_eq, y3_eq]; rfl

end Cert.KernelIdeal.Hand

end
-- ==== Proof.RefOps.lean ====
/- The reference program's host operations as a list, the functions it calls written out at their call sites
   over each call's own buffers, cut into consecutive pieces; @main is the pieces run in order. -/
import proofs.«119603_j4896262717867_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations main_v0 … main_v28 (40). -/
abbrev pc0 : List (HloOp τ sig (Elt F)) :=
  [ StableHlo.unary main_arg0 main_v0 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v0 main_v1 rfl shapeCasts_S1x1200000_S1200000,
    StableHlo.unary main_arg0 main_v2 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v2 main_v3 rfl shapeCasts_S1x1200000_S1200000,
    StableHlo.nullary main_cst (constant S_ .f32 0x3F800000#32),
    StableHlo.unary main_cst main_v4 (broadcastInDim S1200000 ![] bcast_S_S1200000 : (⟨S_, .f32⟩ : BufTy).Contents (Elt F) → (⟨S1200000, .f32⟩ : BufTy).Contents (Elt F)),
    StableHlo.nullary main_cst_0 (constant S_ .f32 0x00000000#32),
    StableHlo.unary main_cst_0 main_v5 (broadcastInDim S60000 ![] bcast_S_S60000 : (⟨S_, .f32⟩ : BufTy).Contents (Elt F) → (⟨S60000, .f32⟩ : BufTy).Contents (Elt F)),
    StableHlo.unary main_v3 main_v6 (broadcastInDim S1200000x1 ![0] bcast_S1200000_S1200000x1_0 : (⟨S1200000, .i32⟩ : BufTy).Contents (Elt F) → (⟨S1200000x1, .i32⟩ : BufTy).Contents (Elt F)),
    StableHlo.ternary main_v5 main_v6 main_v4 main_v7 ((fun x i u => Host.scatterAdd scatter_S60000_S1200000x1_S1200000_n_0_0_1 x i u) : (⟨S60000, .f32⟩ : BufTy).Contents (Elt F) → (⟨S1200000x1, .i32⟩ : BufTy).Contents (Elt F) → (⟨S1200000, .f32⟩ : BufTy).Contents (Elt F) → (⟨S60000, .f32⟩ : BufTy).Contents (Elt F)),
    StableHlo.nullary main_cst_1 (constant S_ .f32 0x00000000#32),
    StableHlo.unary main_cst_1 main_v8 (broadcastInDim S60000 ![] bcast_S_S60000 : (⟨S_, .f32⟩ : BufTy).Contents (Elt F) → (⟨S60000, .f32⟩ : BufTy).Contents (Elt F)),
    StableHlo.binary main_v7 main_v8 main_v9 (cmpf .ogt : (⟨S60000, .f32⟩ : BufTy).Contents (Elt F) → (⟨S60000, .f32⟩ : BufTy).Contents (Elt F) → (⟨S60000, .i1⟩ : BufTy).Contents (Elt F)),
    StableHlo.nullary main_cst_2 (constant S_ .f32 0xBF000000#32),
    StableHlo.unary main_cst_2 main_v10 (broadcastInDim S60000 ![] bcast_S_S60000 : (⟨S_, .f32⟩ : BufTy).Contents (Elt F) → (⟨S60000, .f32⟩ : BufTy).Contents (Elt F)),
    StableHlo.binary main_v7 main_v10 main_v11 (Host.powf : (⟨S60000, .f32⟩ : BufTy).Contents (Elt F) → (⟨S60000, .f32⟩ : BufTy).Contents (Elt F) → (⟨S60000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S60000 ![] bcast_S_S60000 : (⟨S_, .f32⟩ : BufTy).Contents (Elt F) → (⟨S60000, .f32⟩ : BufTy).Contents (Elt F)),
    StableHlo.ternary main_v9 main_v11 main_call0_v1 main_v12 (select : (⟨S60000, .i1⟩ : BufTy).Contents (Elt F) → (⟨S60000, .f32⟩ : BufTy).Contents (Elt F) → (⟨S60000, .f32⟩ : BufTy).Contents (Elt F) → (⟨S60000, .f32⟩ : BufTy).Contents (Elt F)),
    StableHlo.nullary main_c (constantI S_ 32 0#32),
    StableHlo.unary main_c main_v13 (broadcastInDim S1200000 ![] bcast_S_S1200000 : (⟨S_, .i32⟩ : BufTy).Contents (Elt F) → (⟨S1200000, .i32⟩ : BufTy).Contents (Elt F)),
    StableHlo.binary main_v1 main_v13 main_v14 (cmpi .slt : (⟨S1200000, .i32⟩ : BufTy).Contents (Elt F) → (⟨S1200000, .i32⟩ : BufTy).Contents (Elt F) → (⟨S1200000, .i1⟩ : BufTy).Contents (Elt F)),
    StableHlo.nullary main_c_4 (constantI S_ 32 60000#32),
    StableHlo.unary main_c_4 main_v15 (broadcastInDim S1200000 ![] bcast_S_S1200000 : (⟨S_, .i32⟩ : BufTy).Contents (Elt F) → (⟨S1200000, .i32⟩ : BufTy).Contents (Elt F)),
    StableHlo.binary main_v1 main_v15 main_v16 (addi : (⟨S1200000, .i32⟩ : BufTy).Contents (Elt F) → (⟨S1200000, .i32⟩ : BufTy).Contents (Elt F) → (⟨S1200000, .i32⟩ : BufTy).Contents (Elt F)),
    StableHlo.ternary main_v14 main_v16 main_v1 main_v17 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v17 main_v18 (broadcastInDim S1200000x1 ![0] bcast_S1200000_S1200000x1_0 : (⟨S1200000, .i32⟩ : BufTy).Contents (Elt F) → (⟨S1200000x1, .i32⟩ : BufTy).Contents (Elt F)),
    StableHlo.binary main_v12 main_v18 main_v19 ((fun x i => Host.gather gather_S60000_S1200000x1_S1200000_n_0_n_n_0_1_1 x i) : (⟨S60000, .f32⟩ : BufTy).Contents (Elt F) → (⟨S1200000x1, .i32⟩ : BufTy).Contents (Elt F) → (⟨S1200000, .f32⟩ : BufTy).Contents (Elt F)),
    StableHlo.nullary main_c_5 (constantI S_ 32 0#32),
    StableHlo.unary main_c_5 main_v20 (broadcastInDim S1200000 ![] bcast_S_S1200000 : (⟨S_, .i32⟩ : BufTy).Contents (Elt F) → (⟨S1200000, .i32⟩ : BufTy).Contents (Elt F)),
    StableHlo.binary main_v3 main_v20 main_v21 (cmpi .slt : (⟨S1200000, .i32⟩ : BufTy).Contents (Elt F) → (⟨S1200000, .i32⟩ : BufTy).Contents (Elt F) → (⟨S1200000, .i1⟩ : BufTy).Contents (Elt F)),
    StableHlo.nullary main_c_6 (constantI S_ 32 60000#32),
    StableHlo.unary main_c_6 main_v22 (broadcastInDim S1200000 ![] bcast_S_S1200000 : (⟨S_, .i32⟩ : BufTy).Contents (Elt F) → (⟨S1200000, .i32⟩ : BufTy).Contents (Elt F)),
    StableHlo.binary main_v3 main_v22 main_v23 (addi : (⟨S1200000, .i32⟩ : BufTy).Contents (Elt F) → (⟨S1200000, .i32⟩ : BufTy).Contents (Elt F) → (⟨S1200000, .i32⟩ : BufTy).Contents (Elt F)),
    StableHlo.ternary main_v21 main_v23 main_v3 main_v24 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v24 main_v25 (broadcastInDim S1200000x1 ![0] bcast_S1200000_S1200000x1_0 : (⟨S1200000, .i32⟩ : BufTy).Contents (Elt F) → (⟨S1200000x1, .i32⟩ : BufTy).Contents (Elt F)),
    StableHlo.binary main_v12 main_v25 main_v26 ((fun x i => Host.gather gather_S60000_S1200000x1_S1200000_n_0_n_n_0_1_1 x i) : (⟨S60000, .f32⟩ : BufTy).Contents (Elt F) → (⟨S1200000x1, .i32⟩ : BufTy).Contents (Elt F) → (⟨S1200000, .f32⟩ : BufTy).Contents (Elt F)),
    StableHlo.binary main_v19 main_v26 main_v27 (mulf : (⟨S1200000, .f32⟩ : BufTy).Contents (Elt F) → (⟨S1200000, .f32⟩ : BufTy).Contents (Elt F) → (⟨S1200000, .f32⟩ : BufTy).Contents (Elt F)),
    StableHlo.unary main_v27 main_v28 (broadcastInDim S1200000x1 ![0] bcast_S1200000_S1200000x1_0 : (⟨S1200000, .f32⟩ : BufTy).Contents (Elt F) → (⟨S1200000x1, .f32⟩ : BufTy).Contents (Elt F)) ]

/-- Operations main_v29 … main_v37 (9). -/
abbrev pc1 : List (HloOp τ sig (Elt F)) :=
  [ StableHlo.unary main_arg2 main_v29 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v29 main_v30 rfl shapeCasts_S1x64x64_S64x64,
    StableHlo.unary main_v30 main_v31 ((transpose S64x64 [1, 0] · transposes_S64x64_S64x64_1_0) : (⟨S64x64, .f32⟩ : BufTy).Contents (Elt F) → (⟨S64x64, .f32⟩ : BufTy).Contents (Elt F)),
    StableHlo.binary main_arg1 main_v31 main_v32 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    StableHlo.unary main_arg3 main_v33 ((extractStridedSlice S1x64 ![0, 0] · slices_S3x64_S1x64_0_0) : (⟨S3x64, .f32⟩ : BufTy).Contents (Elt F) → (⟨S1x64, .f32⟩ : BufTy).Contents (Elt F)),
    StableHlo.reshape main_v33 main_v34 rfl shapeCasts_S1x64_S64,
    StableHlo.unary main_v34 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S60000x64 ![0, 1] bcast_S1x64_S60000x64_0_1 : (⟨S1x64, .f32⟩ : BufTy).Contents (Elt F) → (⟨S60000x64, .f32⟩ : BufTy).Contents (Elt F)),
    StableHlo.binary main_v32 main_v36 main_v37 (addf : (⟨S60000x64, .f32⟩ : BufTy).Contents (Elt F) → (⟨S60000x64, .f32⟩ : BufTy).Contents (Elt F) → (⟨S60000x64, .f32⟩ : BufTy).Contents (Elt F)) ]

/-- Operations main_c_7 … main_c_10 (13). -/
abbrev pc2 : List (HloOp τ sig (Elt F)) :=
  [ StableHlo.nullary main_c_7 (constantI S_ 32 0#32),
    StableHlo.unary main_c_7 main_v38 (broadcastInDim S1200000 ![] bcast_S_S1200000 : (⟨S_, .i32⟩ : BufTy).Contents (Elt F) → (⟨S1200000, .i32⟩ : BufTy).Contents (Elt F)),
    StableHlo.binary main_v1 main_v38 main_v39 (cmpi .slt : (⟨S1200000, .i32⟩ : BufTy).Contents (Elt F) → (⟨S1200000, .i32⟩ : BufTy).Contents (Elt F) → (⟨S1200000, .i1⟩ : BufTy).Contents (Elt F)),
    StableHlo.nullary main_c_8 (constantI S_ 32 60000#32),
    StableHlo.unary main_c_8 main_v40 (broadcastInDim S1200000 ![] bcast_S_S1200000 : (⟨S_, .i32⟩ : BufTy).Contents (Elt F) → (⟨S1200000, .i32⟩ : BufTy).Contents (Elt F)),
    StableHlo.binary main_v1 main_v40 main_v41 (addi : (⟨S1200000, .i32⟩ : BufTy).Contents (Elt F) → (⟨S1200000, .i32⟩ : BufTy).Contents (Elt F) → (⟨S1200000, .i32⟩ : BufTy).Contents (Elt F)),
    StableHlo.ternary main_v39 main_v41 main_v1 main_v42 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v42 main_v43 (broadcastInDim S1200000x1 ![0] bcast_S1200000_S1200000x1_0 : (⟨S1200000, .i32⟩ : BufTy).Contents (Elt F) → (⟨S1200000x1, .i32⟩ : BufTy).Contents (Elt F)),
    StableHlo.binary main_arg1 main_v43 main_v44 ((fun x i => Host.gather gather_S60000x64_S1200000x1_S1200000x64_1_0_n_n_0_1_164 x i) : (⟨S60000x64, .f32⟩ : BufTy).Contents (Elt F) → (⟨S1200000x1, .i32⟩ : BufTy).Contents (Elt F) → (⟨S1200000x64, .f32⟩ : BufTy).Contents (Elt F)),
    StableHlo.nullary main_c_9 (constantI S_ 32 0#32),
    StableHlo.unary main_c_9 main_v45 (broadcastInDim S1200000 ![] bcast_S_S1200000 : (⟨S_, .i32⟩ : BufTy).Contents (Elt F) → (⟨S1200000, .i32⟩ : BufTy).Contents (Elt F)),
    StableHlo.binary main_v3 main_v45 main_v46 (cmpi .slt : (⟨S1200000, .i32⟩ : BufTy).Contents (Elt F) → (⟨S1200000, .i32⟩ : BufTy).Contents (Elt F) → (⟨S1200000, .i1⟩ : BufTy).Contents (Elt F)),
    StableHlo.nullary main_c_10 (constantI S_ 32 60000#32) ]

/-- Operations main_v47 … main_v71 (27). -/
abbrev pc3 : List (HloOp τ sig (Elt F)) :=
  [ StableHlo.unary main_c_10 main_v47 (broadcastInDim S1200000 ![] bcast_S_S1200000 : (⟨S_, .i32⟩ : BufTy).Contents (Elt F) → (⟨S1200000, .i32⟩ : BufTy).Contents (Elt F)),
    StableHlo.binary main_v3 main_v47 main_v48 (addi : (⟨S1200000, .i32⟩ : BufTy).Contents (Elt F) → (⟨S1200000, .i32⟩ : BufTy).Contents (Elt F) → (⟨S1200000, .i32⟩ : BufTy).Contents (Elt F)),
    StableHlo.ternary main_v46 main_v48 main_v3 main_v49 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v49 main_v50 (broadcastInDim S1200000x1 ![0] bcast_S1200000_S1200000x1_0 : (⟨S1200000, .i32⟩ : BufTy).Contents (Elt F) → (⟨S1200000x1, .i32⟩ : BufTy).Contents (Elt F)),
    StableHlo.binary main_arg1 main_v50 main_v51 ((fun x i => Host.gather gather_S60000x64_S1200000x1_S1200000x64_1_0_n_n_0_1_164 x i) : (⟨S60000x64, .f32⟩ : BufTy).Contents (Elt F) → (⟨S1200000x1, .i32⟩ : BufTy).Contents (Elt F) → (⟨S1200000x64, .f32⟩ : BufTy).Contents (Elt F)),
    StableHlo.nullary main_c_11 (constantI S_ 32 0#32),
    StableHlo.unary main_c_11 main_v52 (broadcastInDim S1200000 ![] bcast_S_S1200000 : (⟨S_, .i32⟩ : BufTy).Contents (Elt F) → (⟨S1200000, .i32⟩ : BufTy).Contents (Elt F)),
    StableHlo.binary main_v1 main_v52 main_v53 (cmpi .slt : (⟨S1200000, .i32⟩ : BufTy).Contents (Elt F) → (⟨S1200000, .i32⟩ : BufTy).Contents (Elt F) → (⟨S1200000, .i1⟩ : BufTy).Contents (Elt F)),
    StableHlo.nullary main_c_12 (constantI S_ 32 60000#32),
    StableHlo.unary main_c_12 main_v54 (broadcastInDim S1200000 ![] bcast_S_S1200000 : (⟨S_, .i32⟩ : BufTy).Contents (Elt F) → (⟨S1200000, .i32⟩ : BufTy).Contents (Elt F)),
    StableHlo.binary main_v1 main_v54 main_v55 (addi : (⟨S1200000, .i32⟩ : BufTy).Contents (Elt F) → (⟨S1200000, .i32⟩ : BufTy).Contents (Elt F) → (⟨S1200000, .i32⟩ : BufTy).Contents (Elt F)),
    StableHlo.ternary main_v53 main_v55 main_v1 main_v56 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v56 main_v57 (broadcastInDim S1200000x1 ![0] bcast_S1200000_S1200000x1_0 : (⟨S1200000, .i32⟩ : BufTy).Contents (Elt F) → (⟨S1200000x1, .i32⟩ : BufTy).Contents (Elt F)),
    StableHlo.binary main_v37 main_v57 main_v58 ((fun x i => Host.gather gather_S60000x64_S1200000x1_S1200000x64_1_0_n_n_0_1_164 x i) : (⟨S60000x64, .f32⟩ : BufTy).Contents (Elt F) → (⟨S1200000x1, .i32⟩ : BufTy).Contents (Elt F) → (⟨S1200000x64, .f32⟩ : BufTy).Contents (Elt F)),
    StableHlo.binary main_v44 main_v51 main_v59 (mulf : (⟨S1200000x64, .f32⟩ : BufTy).Contents (Elt F) → (⟨S1200000x64, .f32⟩ : BufTy).Contents (Elt F) → (⟨S1200000x64, .f32⟩ : BufTy).Contents (Elt F)),
    StableHlo.unary main_arg4 main_v60 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v60 main_v61 rfl shapeCasts_S1x64x64_S64x64,
    StableHlo.unary main_v61 main_v62 ((transpose S64x64 [1, 0] · transposes_S64x64_S64x64_1_0) : (⟨S64x64, .f32⟩ : BufTy).Contents (Elt F) → (⟨S64x64, .f32⟩ : BufTy).Contents (Elt F)),
    StableHlo.binary main_v59 main_v62 main_v63 ((fun l r => Host.dotGeneral dot_S1200000x64_S64x64_S1200000x64_1_0_0_1_n_n none l r) : (⟨S1200000x64, .f32⟩ : BufTy).Contents (Elt F) → (⟨S64x64, .f32⟩ : BufTy).Contents (Elt F) → (⟨S1200000x64, .f32⟩ : BufTy).Contents (Elt F)),
    StableHlo.binary main_v58 main_v63 main_v64 (addf : (⟨S1200000x64, .f32⟩ : BufTy).Contents (Elt F) → (⟨S1200000x64, .f32⟩ : BufTy).Contents (Elt F) → (⟨S1200000x64, .f32⟩ : BufTy).Contents (Elt F)),
    StableHlo.unary main_arg5 main_v65 ((extractStridedSlice S1x64 ![0, 0] · slices_S3x64_S1x64_0_0) : (⟨S3x64, .f32⟩ : BufTy).Contents (Elt F) → (⟨S1x64, .f32⟩ : BufTy).Contents (Elt F)),
    StableHlo.reshape main_v65 main_v66 rfl shapeCasts_S1x64_S64,
    StableHlo.unary main_v66 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S1200000x64 ![0, 1] bcast_S1x64_S1200000x64_0_1 : (⟨S1x64, .f32⟩ : BufTy).Contents (Elt F) → (⟨S1200000x64, .f32⟩ : BufTy).Contents (Elt F)),
    StableHlo.binary main_v64 main_v68 main_v69 (addf : (⟨S1200000x64, .f32⟩ : BufTy).Contents (Elt F) → (⟨S1200000x64, .f32⟩ : BufTy).Contents (Elt F) → (⟨S1200000x64, .f32⟩ : BufTy).Contents (Elt F)),
    StableHlo.unary main_v28 main_v70 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v70 main_v69 main_v71 (mulf : (⟨S1200000x64, .f32⟩ : BufTy).Contents (Elt F) → (⟨S1200000x64, .f32⟩ : BufTy).Contents (Elt F) → (⟨S1200000x64, .f32⟩ : BufTy).Contents (Elt F)) ]

/-- Operations main_cst_13 … main_v76 (12). -/
abbrev pc4 : List (HloOp τ sig (Elt F)) :=
  [ StableHlo.nullary main_cst_13 (constant S_ .f32 0x00000000#32),
    StableHlo.unary main_cst_13 main_v72 (broadcastInDim S60000x64 ![] bcast_S_S60000x64 : (⟨S_, .f32⟩ : BufTy).Contents (Elt F) → (⟨S60000x64, .f32⟩ : BufTy).Contents (Elt F)),
    StableHlo.unary main_v3 main_v73 (broadcastInDim S1200000x1 ![0] bcast_S1200000_S1200000x1_0 : (⟨S1200000, .i32⟩ : BufTy).Contents (Elt F) → (⟨S1200000x1, .i32⟩ : BufTy).Contents (Elt F)),
    StableHlo.ternary main_v72 main_v73 main_v71 main_v74 ((fun x i u => Host.scatterAdd scatter_S60000x64_S1200000x1_S1200000x64_1_0_0_1 x i u) : (⟨S60000x64, .f32⟩ : BufTy).Contents (Elt F) → (⟨S1200000x1, .i32⟩ : BufTy).Contents (Elt F) → (⟨S1200000x64, .f32⟩ : BufTy).Contents (Elt F) → (⟨S60000x64, .f32⟩ : BufTy).Contents (Elt F)),
    StableHlo.binary main_v74 main_v37 main_v75 (addf : (⟨S60000x64, .f32⟩ : BufTy).Contents (Elt F) → (⟨S60000x64, .f32⟩ : BufTy).Contents (Elt F) → (⟨S60000x64, .f32⟩ : BufTy).Contents (Elt F)),
    StableHlo.nullary main_call1_cst (constant S_ .f32 0x00000000#32),
    StableHlo.unary main_call1_cst main_call1_v0 (broadcastInDim S60000x64 ![] bcast_S_S60000x64 : (⟨S_, .f32⟩ : BufTy).Contents (Elt F) → (⟨S60000x64, .f32⟩ : BufTy).Contents (Elt F)),
    StableHlo.binary main_v75 main_call1_v0 main_call1_v1 (cmpf .oge : (⟨S60000x64, .f32⟩ : BufTy).Contents (Elt F) → (⟨S60000x64, .f32⟩ : BufTy).Contents (Elt F) → (⟨S60000x64, .i1⟩ : BufTy).Contents (Elt F)),
    StableHlo.nullary main_call1_cst_0 (constant S_ .f32 0x3C23D70A#32),
    StableHlo.unary main_call1_cst_0 main_call1_v2 (broadcastInDim S60000x64 ![] bcast_S_S60000x64 : (⟨S_, .f32⟩ : BufTy).Contents (Elt F) → (⟨S60000x64, .f32⟩ : BufTy).Contents (Elt F)),
    StableHlo.binary main_call1_v2 main_v75 main_call1_v3 (mulf : (⟨S60000x64, .f32⟩ : BufTy).Contents (Elt F) → (⟨S60000x64, .f32⟩ : BufTy).Contents (Elt F) → (⟨S60000x64, .f32⟩ : BufTy).Contents (Elt F)),
    StableHlo.ternary main_call1_v1 main_v75 main_call1_v3 main_v76 (select : (⟨S60000x64, .i1⟩ : BufTy).Contents (Elt F) → (⟨S60000x64, .f32⟩ : BufTy).Contents (Elt F) → (⟨S60000x64, .f32⟩ : BufTy).Contents (Elt F) → (⟨S60000x64, .f32⟩ : BufTy).Contents (Elt F)) ]

/-- Operations main_v77 … main_v85 (9). -/
abbrev pc5 : List (HloOp τ sig (Elt F)) :=
  [ StableHlo.unary main_arg2 main_v77 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v77 main_v78 rfl shapeCasts_S1x64x64_S64x64,
    StableHlo.unary main_v78 main_v79 ((transpose S64x64 [1, 0] · transposes_S64x64_S64x64_1_0) : (⟨S64x64, .f32⟩ : BufTy).Contents (Elt F) → (⟨S64x64, .f32⟩ : BufTy).Contents (Elt F)),
    StableHlo.binary main_v76 main_v79 main_v80 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    StableHlo.unary main_arg3 main_v81 ((extractStridedSlice S1x64 ![1, 0] · slices_S3x64_S1x64_1_0) : (⟨S3x64, .f32⟩ : BufTy).Contents (Elt F) → (⟨S1x64, .f32⟩ : BufTy).Contents (Elt F)),
    StableHlo.reshape main_v81 main_v82 rfl shapeCasts_S1x64_S64,
    StableHlo.unary main_v82 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S60000x64 ![0, 1] bcast_S1x64_S60000x64_0_1 : (⟨S1x64, .f32⟩ : BufTy).Contents (Elt F) → (⟨S60000x64, .f32⟩ : BufTy).Contents (Elt F)),
    StableHlo.binary main_v80 main_v84 main_v85 (addf : (⟨S60000x64, .f32⟩ : BufTy).Contents (Elt F) → (⟨S60000x64, .f32⟩ : BufTy).Contents (Elt F) → (⟨S60000x64, .f32⟩ : BufTy).Contents (Elt F)) ]

/-- Operations main_c_14 … main_v99 (18). -/
abbrev pc6 : List (HloOp τ sig (Elt F)) :=
  [ StableHlo.nullary main_c_14 (constantI S_ 32 0#32),
    StableHlo.unary main_c_14 main_v86 (broadcastInDim S1200000 ![] bcast_S_S1200000 : (⟨S_, .i32⟩ : BufTy).Contents (Elt F) → (⟨S1200000, .i32⟩ : BufTy).Contents (Elt F)),
    StableHlo.binary main_v1 main_v86 main_v87 (cmpi .slt : (⟨S1200000, .i32⟩ : BufTy).Contents (Elt F) → (⟨S1200000, .i32⟩ : BufTy).Contents (Elt F) → (⟨S1200000, .i1⟩ : BufTy).Contents (Elt F)),
    StableHlo.nullary main_c_15 (constantI S_ 32 60000#32),
    StableHlo.unary main_c_15 main_v88 (broadcastInDim S1200000 ![] bcast_S_S1200000 : (⟨S_, .i32⟩ : BufTy).Contents (Elt F) → (⟨S1200000, .i32⟩ : BufTy).Contents (Elt F)),
    StableHlo.binary main_v1 main_v88 main_v89 (addi : (⟨S1200000, .i32⟩ : BufTy).Contents (Elt F) → (⟨S1200000, .i32⟩ : BufTy).Contents (Elt F) → (⟨S1200000, .i32⟩ : BufTy).Contents (Elt F)),
    StableHlo.ternary main_v87 main_v89 main_v1 main_v90 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v90 main_v91 (broadcastInDim S1200000x1 ![0] bcast_S1200000_S1200000x1_0 : (⟨S1200000, .i32⟩ : BufTy).Contents (Elt F) → (⟨S1200000x1, .i32⟩ : BufTy).Contents (Elt F)),
    StableHlo.binary main_v76 main_v91 main_v92 ((fun x i => Host.gather gather_S60000x64_S1200000x1_S1200000x64_1_0_n_n_0_1_164 x i) : (⟨S60000x64, .f32⟩ : BufTy).Contents (Elt F) → (⟨S1200000x1, .i32⟩ : BufTy).Contents (Elt F) → (⟨S1200000x64, .f32⟩ : BufTy).Contents (Elt F)),
    StableHlo.nullary main_c_16 (constantI S_ 32 0#32),
    StableHlo.unary main_c_16 main_v93 (broadcastInDim S1200000 ![] bcast_S_S1200000 : (⟨S_, .i32⟩ : BufTy).Contents (Elt F) → (⟨S1200000, .i32⟩ : BufTy).Contents (Elt F)),
    StableHlo.binary main_v3 main_v93 main_v94 (cmpi .slt : (⟨S1200000, .i32⟩ : BufTy).Contents (Elt F) → (⟨S1200000, .i32⟩ : BufTy).Contents (Elt F) → (⟨S1200000, .i1⟩ : BufTy).Contents (Elt F)),
    StableHlo.nullary main_c_17 (constantI S_ 32 60000#32),
    StableHlo.unary main_c_17 main_v95 (broadcastInDim S1200000 ![] bcast_S_S1200000 : (⟨S_, .i32⟩ : BufTy).Contents (Elt F) → (⟨S1200000, .i32⟩ : BufTy).Contents (Elt F)),
    StableHlo.binary main_v3 main_v95 main_v96 (addi : (⟨S1200000, .i32⟩ : BufTy).Contents (Elt F) → (⟨S1200000, .i32⟩ : BufTy).Contents (Elt F) → (⟨S1200000, .i32⟩ : BufTy).Contents (Elt F)),
    StableHlo.ternary main_v94 main_v96 main_v3 main_v97 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v97 main_v98 (broadcastInDim S1200000x1 ![0] bcast_S1200000_S1200000x1_0 : (⟨S1200000, .i32⟩ : BufTy).Contents (Elt F) → (⟨S1200000x1, .i32⟩ : BufTy).Contents (Elt F)),
    StableHlo.binary main_v76 main_v98 main_v99 ((fun x i => Host.gather gather_S60000x64_S1200000x1_S1200000x64_1_0_n_n_0_1_164 x i) : (⟨S60000x64, .f32⟩ : BufTy).Contents (Elt F) → (⟨S1200000x1, .i32⟩ : BufTy).Contents (Elt F) → (⟨S1200000x64, .f32⟩ : BufTy).Contents (Elt F)) ]

/-- Operations main_c_18 … main_v119 (22). -/
abbrev pc7 : List (HloOp τ sig (Elt F)) :=
  [ StableHlo.nullary main_c_18 (constantI S_ 32 0#32),
    StableHlo.unary main_c_18 main_v100 (broadcastInDim S1200000 ![] bcast_S_S1200000 : (⟨S_, .i32⟩ : BufTy).Contents (Elt F) → (⟨S1200000, .i32⟩ : BufTy).Contents (Elt F)),
    StableHlo.binary main_v1 main_v100 main_v101 (cmpi .slt : (⟨S1200000, .i32⟩ : BufTy).Contents (Elt F) → (⟨S1200000, .i32⟩ : BufTy).Contents (Elt F) → (⟨S1200000, .i1⟩ : BufTy).Contents (Elt F)),
    StableHlo.nullary main_c_19 (constantI S_ 32 60000#32),
    StableHlo.unary main_c_19 main_v102 (broadcastInDim S1200000 ![] bcast_S_S1200000 : (⟨S_, .i32⟩ : BufTy).Contents (Elt F) → (⟨S1200000, .i32⟩ : BufTy).Contents (Elt F)),
    StableHlo.binary main_v1 main_v102 main_v103 (addi : (⟨S1200000, .i32⟩ : BufTy).Contents (Elt F) → (⟨S1200000, .i32⟩ : BufTy).Contents (Elt F) → (⟨S1200000, .i32⟩ : BufTy).Contents (Elt F)),
    StableHlo.ternary main_v101 main_v103 main_v1 main_v104 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v104 main_v105 (broadcastInDim S1200000x1 ![0] bcast_S1200000_S1200000x1_0 : (⟨S1200000, .i32⟩ : BufTy).Contents (Elt F) → (⟨S1200000x1, .i32⟩ : BufTy).Contents (Elt F)),
    StableHlo.binary main_v85 main_v105 main_v106 ((fun x i => Host.gather gather_S60000x64_S1200000x1_S1200000x64_1_0_n_n_0_1_164 x i) : (⟨S60000x64, .f32⟩ : BufTy).Contents (Elt F) → (⟨S1200000x1, .i32⟩ : BufTy).Contents (Elt F) → (⟨S1200000x64, .f32⟩ : BufTy).Contents (Elt F)),
    StableHlo.binary main_v92 main_v99 main_v107 (mulf : (⟨S1200000x64, .f32⟩ : BufTy).Contents (Elt F) → (⟨S1200000x64, .f32⟩ : BufTy).Contents (Elt F) → (⟨S1200000x64, .f32⟩ : BufTy).Contents (Elt F)),
    StableHlo.unary main_arg4 main_v108 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v108 main_v109 rfl shapeCasts_S1x64x64_S64x64,
    StableHlo.unary main_v109 main_v110 ((transpose S64x64 [1, 0] · transposes_S64x64_S64x64_1_0) : (⟨S64x64, .f32⟩ : BufTy).Contents (Elt F) → (⟨S64x64, .f32⟩ : BufTy).Contents (Elt F)),
    StableHlo.binary main_v107 main_v110 main_v111 ((fun l r => Host.dotGeneral dot_S1200000x64_S64x64_S1200000x64_1_0_0_1_n_n none l r) : (⟨S1200000x64, .f32⟩ : BufTy).Contents (Elt F) → (⟨S64x64, .f32⟩ : BufTy).Contents (Elt F) → (⟨S1200000x64, .f32⟩ : BufTy).Contents (Elt F)),
    StableHlo.binary main_v106 main_v111 main_v112 (addf : (⟨S1200000x64, .f32⟩ : BufTy).Contents (Elt F) → (⟨S1200000x64, .f32⟩ : BufTy).Contents (Elt F) → (⟨S1200000x64, .f32⟩ : BufTy).Contents (Elt F)),
    StableHlo.unary main_arg5 main_v113 ((extractStridedSlice S1x64 ![1, 0] · slices_S3x64_S1x64_1_0) : (⟨S3x64, .f32⟩ : BufTy).Contents (Elt F) → (⟨S1x64, .f32⟩ : BufTy).Contents (Elt F)),
    StableHlo.reshape main_v113 main_v114 rfl shapeCasts_S1x64_S64,
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S1200000x64 ![0, 1] bcast_S1x64_S1200000x64_0_1 : (⟨S1x64, .f32⟩ : BufTy).Contents (Elt F) → (⟨S1200000x64, .f32⟩ : BufTy).Contents (Elt F)),
    StableHlo.binary main_v112 main_v116 main_v117 (addf : (⟨S1200000x64, .f32⟩ : BufTy).Contents (Elt F) → (⟨S1200000x64, .f32⟩ : BufTy).Contents (Elt F) → (⟨S1200000x64, .f32⟩ : BufTy).Contents (Elt F)),
    StableHlo.unary main_v28 main_v118 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v118 main_v117 main_v119 (mulf : (⟨S1200000x64, .f32⟩ : BufTy).Contents (Elt F) → (⟨S1200000x64, .f32⟩ : BufTy).Contents (Elt F) → (⟨S1200000x64, .f32⟩ : BufTy).Contents (Elt F)) ]

/-- Operations main_cst_20 … main_v124 (12). -/
abbrev pc8 : List (HloOp τ sig (Elt F)) :=
  [ StableHlo.nullary main_cst_20 (constant S_ .f32 0x00000000#32),
    StableHlo.unary main_cst_20 main_v120 (broadcastInDim S60000x64 ![] bcast_S_S60000x64 : (⟨S_, .f32⟩ : BufTy).Contents (Elt F) → (⟨S60000x64, .f32⟩ : BufTy).Contents (Elt F)),
    StableHlo.unary main_v3 main_v121 (broadcastInDim S1200000x1 ![0] bcast_S1200000_S1200000x1_0 : (⟨S1200000, .i32⟩ : BufTy).Contents (Elt F) → (⟨S1200000x1, .i32⟩ : BufTy).Contents (Elt F)),
    StableHlo.ternary main_v120 main_v121 main_v119 main_v122 ((fun x i u => Host.scatterAdd scatter_S60000x64_S1200000x1_S1200000x64_1_0_0_1 x i u) : (⟨S60000x64, .f32⟩ : BufTy).Contents (Elt F) → (⟨S1200000x1, .i32⟩ : BufTy).Contents (Elt F) → (⟨S1200000x64, .f32⟩ : BufTy).Contents (Elt F) → (⟨S60000x64, .f32⟩ : BufTy).Contents (Elt F)),
    StableHlo.binary main_v122 main_v85 main_v123 (addf : (⟨S60000x64, .f32⟩ : BufTy).Contents (Elt F) → (⟨S60000x64, .f32⟩ : BufTy).Contents (Elt F) → (⟨S60000x64, .f32⟩ : BufTy).Contents (Elt F)),
    StableHlo.nullary main_call2_cst (constant S_ .f32 0x00000000#32),
    StableHlo.unary main_call2_cst main_call2_v0 (broadcastInDim S60000x64 ![] bcast_S_S60000x64 : (⟨S_, .f32⟩ : BufTy).Contents (Elt F) → (⟨S60000x64, .f32⟩ : BufTy).Contents (Elt F)),
    StableHlo.binary main_v123 main_call2_v0 main_call2_v1 (cmpf .oge : (⟨S60000x64, .f32⟩ : BufTy).Contents (Elt F) → (⟨S60000x64, .f32⟩ : BufTy).Contents (Elt F) → (⟨S60000x64, .i1⟩ : BufTy).Contents (Elt F)),
    StableHlo.nullary main_call2_cst_0 (constant S_ .f32 0x3C23D70A#32),
    StableHlo.unary main_call2_cst_0 main_call2_v2 (broadcastInDim S60000x64 ![] bcast_S_S60000x64 : (⟨S_, .f32⟩ : BufTy).Contents (Elt F) → (⟨S60000x64, .f32⟩ : BufTy).Contents (Elt F)),
    StableHlo.binary main_call2_v2 main_v123 main_call2_v3 (mulf : (⟨S60000x64, .f32⟩ : BufTy).Contents (Elt F) → (⟨S60000x64, .f32⟩ : BufTy).Contents (Elt F) → (⟨S60000x64, .f32⟩ : BufTy).Contents (Elt F)),
    StableHlo.ternary main_call2_v1 main_v123 main_call2_v3 main_v124 (select : (⟨S60000x64, .i1⟩ : BufTy).Contents (Elt F) → (⟨S60000x64, .f32⟩ : BufTy).Contents (Elt F) → (⟨S60000x64, .f32⟩ : BufTy).Contents (Elt F) → (⟨S60000x64, .f32⟩ : BufTy).Contents (Elt F)) ]

/-- Operations main_v125 … main_v133 (9). -/
abbrev pc9 : List (HloOp τ sig (Elt F)) :=
  [ StableHlo.unary main_arg2 main_v125 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v125 main_v126 rfl shapeCasts_S1x64x64_S64x64,
    StableHlo.unary main_v126 main_v127 ((transpose S64x64 [1, 0] · transposes_S64x64_S64x64_1_0) : (⟨S64x64, .f32⟩ : BufTy).Contents (Elt F) → (⟨S64x64, .f32⟩ : BufTy).Contents (Elt F)),
    StableHlo.binary main_v124 main_v127 main_v128 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    StableHlo.unary main_arg3 main_v129 ((extractStridedSlice S1x64 ![2, 0] · slices_S3x64_S1x64_2_0) : (⟨S3x64, .f32⟩ : BufTy).Contents (Elt F) → (⟨S1x64, .f32⟩ : BufTy).Contents (Elt F)),
    StableHlo.reshape main_v129 main_v130 rfl shapeCasts_S1x64_S64,
    StableHlo.unary main_v130 main_v131 (broadcastInDim S1x64 ![1] bcast_S64_S1x64_1 : (⟨S64, .f32⟩ : BufTy).Contents (Elt F) → (⟨S1x64, .f32⟩ : BufTy).Contents (Elt F)),
    StableHlo.unary main_v131 main_v132 (broadcastInDim S60000x64 ![0, 1] bcast_S1x64_S60000x64_0_1 : (⟨S1x64, .f32⟩ : BufTy).Contents (Elt F) → (⟨S60000x64, .f32⟩ : BufTy).Contents (Elt F)),
    StableHlo.binary main_v128 main_v132 main_v133 (addf : (⟨S60000x64, .f32⟩ : BufTy).Contents (Elt F) → (⟨S60000x64, .f32⟩ : BufTy).Contents (Elt F) → (⟨S60000x64, .f32⟩ : BufTy).Contents (Elt F)) ]

/-- Operations main_c_21 … main_v150 (23). -/
abbrev pc10 : List (HloOp τ sig (Elt F)) :=
  [ StableHlo.nullary main_c_21 (constantI S_ 32 0#32),
    StableHlo.unary main_c_21 main_v134 (broadcastInDim S1200000 ![] bcast_S_S1200000 : (⟨S_, .i32⟩ : BufTy).Contents (Elt F) → (⟨S1200000, .i32⟩ : BufTy).Contents (Elt F)),
    StableHlo.binary main_v1 main_v134 main_v135 (cmpi .slt : (⟨S1200000, .i32⟩ : BufTy).Contents (Elt F) → (⟨S1200000, .i32⟩ : BufTy).Contents (Elt F) → (⟨S1200000, .i1⟩ : BufTy).Contents (Elt F)),
    StableHlo.nullary main_c_22 (constantI S_ 32 60000#32),
    StableHlo.unary main_c_22 main_v136 (broadcastInDim S1200000 ![] bcast_S_S1200000 : (⟨S_, .i32⟩ : BufTy).Contents (Elt F) → (⟨S1200000, .i32⟩ : BufTy).Contents (Elt F)),
    StableHlo.binary main_v1 main_v136 main_v137 (addi : (⟨S1200000, .i32⟩ : BufTy).Contents (Elt F) → (⟨S1200000, .i32⟩ : BufTy).Contents (Elt F) → (⟨S1200000, .i32⟩ : BufTy).Contents (Elt F)),
    StableHlo.ternary main_v135 main_v137 main_v1 main_v138 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v138 main_v139 (broadcastInDim S1200000x1 ![0] bcast_S1200000_S1200000x1_0 : (⟨S1200000, .i32⟩ : BufTy).Contents (Elt F) → (⟨S1200000x1, .i32⟩ : BufTy).Contents (Elt F)),
    StableHlo.binary main_v124 main_v139 main_v140 ((fun x i => Host.gather gather_S60000x64_S1200000x1_S1200000x64_1_0_n_n_0_1_164 x i) : (⟨S60000x64, .f32⟩ : BufTy).Contents (Elt F) → (⟨S1200000x1, .i32⟩ : BufTy).Contents (Elt F) → (⟨S1200000x64, .f32⟩ : BufTy).Contents (Elt F)),
    StableHlo.nullary main_c_23 (constantI S_ 32 0#32),
    StableHlo.unary main_c_23 main_v141 (broadcastInDim S1200000 ![] bcast_S_S1200000 : (⟨S_, .i32⟩ : BufTy).Contents (Elt F) → (⟨S1200000, .i32⟩ : BufTy).Contents (Elt F)),
    StableHlo.binary main_v3 main_v141 main_v142 (cmpi .slt : (⟨S1200000, .i32⟩ : BufTy).Contents (Elt F) → (⟨S1200000, .i32⟩ : BufTy).Contents (Elt F) → (⟨S1200000, .i1⟩ : BufTy).Contents (Elt F)),
    StableHlo.nullary main_c_24 (constantI S_ 32 60000#32),
    StableHlo.unary main_c_24 main_v143 (broadcastInDim S1200000 ![] bcast_S_S1200000 : (⟨S_, .i32⟩ : BufTy).Contents (Elt F) → (⟨S1200000, .i32⟩ : BufTy).Contents (Elt F)),
    StableHlo.binary main_v3 main_v143 main_v144 (addi : (⟨S1200000, .i32⟩ : BufTy).Contents (Elt F) → (⟨S1200000, .i32⟩ : BufTy).Contents (Elt F) → (⟨S1200000, .i32⟩ : BufTy).Contents (Elt F)),
    StableHlo.ternary main_v142 main_v144 main_v3 main_v145 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v145 main_v146 (broadcastInDim S1200000x1 ![0] bcast_S1200000_S1200000x1_0 : (⟨S1200000, .i32⟩ : BufTy).Contents (Elt F) → (⟨S1200000x1, .i32⟩ : BufTy).Contents (Elt F)),
    StableHlo.binary main_v124 main_v146 main_v147 ((fun x i => Host.gather gather_S60000x64_S1200000x1_S1200000x64_1_0_n_n_0_1_164 x i) : (⟨S60000x64, .f32⟩ : BufTy).Contents (Elt F) → (⟨S1200000x1, .i32⟩ : BufTy).Contents (Elt F) → (⟨S1200000x64, .f32⟩ : BufTy).Contents (Elt F)),
    StableHlo.nullary main_c_25 (constantI S_ 32 0#32),
    StableHlo.unary main_c_25 main_v148 (broadcastInDim S1200000 ![] bcast_S_S1200000 : (⟨S_, .i32⟩ : BufTy).Contents (Elt F) → (⟨S1200000, .i32⟩ : BufTy).Contents (Elt F)),
    StableHlo.binary main_v1 main_v148 main_v149 (cmpi .slt : (⟨S1200000, .i32⟩ : BufTy).Contents (Elt F) → (⟨S1200000, .i32⟩ : BufTy).Contents (Elt F) → (⟨S1200000, .i1⟩ : BufTy).Contents (Elt F)),
    StableHlo.nullary main_c_26 (constantI S_ 32 60000#32),
    StableHlo.unary main_c_26 main_v150 (broadcastInDim S1200000 ![] bcast_S_S1200000 : (⟨S_, .i32⟩ : BufTy).Contents (Elt F) → (⟨S1200000, .i32⟩ : BufTy).Contents (Elt F)) ]

/-- Operations main_v151 … main_v167 (17). -/
abbrev pc11 : List (HloOp τ sig (Elt F)) :=
  [ StableHlo.binary main_v1 main_v150 main_v151 (addi : (⟨S1200000, .i32⟩ : BufTy).Contents (Elt F) → (⟨S1200000, .i32⟩ : BufTy).Contents (Elt F) → (⟨S1200000, .i32⟩ : BufTy).Contents (Elt F)),
    StableHlo.ternary main_v149 main_v151 main_v1 main_v152 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v152 main_v153 (broadcastInDim S1200000x1 ![0] bcast_S1200000_S1200000x1_0 : (⟨S1200000, .i32⟩ : BufTy).Contents (Elt F) → (⟨S1200000x1, .i32⟩ : BufTy).Contents (Elt F)),
    StableHlo.binary main_v133 main_v153 main_v154 ((fun x i => Host.gather gather_S60000x64_S1200000x1_S1200000x64_1_0_n_n_0_1_164 x i) : (⟨S60000x64, .f32⟩ : BufTy).Contents (Elt F) → (⟨S1200000x1, .i32⟩ : BufTy).Contents (Elt F) → (⟨S1200000x64, .f32⟩ : BufTy).Contents (Elt F)),
    StableHlo.binary main_v140 main_v147 main_v155 (mulf : (⟨S1200000x64, .f32⟩ : BufTy).Contents (Elt F) → (⟨S1200000x64, .f32⟩ : BufTy).Contents (Elt F) → (⟨S1200000x64, .f32⟩ : BufTy).Contents (Elt F)),
    StableHlo.unary main_arg4 main_v156 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v156 main_v157 rfl shapeCasts_S1x64x64_S64x64,
    StableHlo.unary main_v157 main_v158 ((transpose S64x64 [1, 0] · transposes_S64x64_S64x64_1_0) : (⟨S64x64, .f32⟩ : BufTy).Contents (Elt F) → (⟨S64x64, .f32⟩ : BufTy).Contents (Elt F)),
    StableHlo.binary main_v155 main_v158 main_v159 ((fun l r => Host.dotGeneral dot_S1200000x64_S64x64_S1200000x64_1_0_0_1_n_n none l r) : (⟨S1200000x64, .f32⟩ : BufTy).Contents (Elt F) → (⟨S64x64, .f32⟩ : BufTy).Contents (Elt F) → (⟨S1200000x64, .f32⟩ : BufTy).Contents (Elt F)),
    StableHlo.binary main_v154 main_v159 main_v160 (addf : (⟨S1200000x64, .f32⟩ : BufTy).Contents (Elt F) → (⟨S1200000x64, .f32⟩ : BufTy).Contents (Elt F) → (⟨S1200000x64, .f32⟩ : BufTy).Contents (Elt F)),
    StableHlo.unary main_arg5 main_v161 ((extractStridedSlice S1x64 ![2, 0] · slices_S3x64_S1x64_2_0) : (⟨S3x64, .f32⟩ : BufTy).Contents (Elt F) → (⟨S1x64, .f32⟩ : BufTy).Contents (Elt F)),
    StableHlo.reshape main_v161 main_v162 rfl shapeCasts_S1x64_S64,
    StableHlo.unary main_v162 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S1200000x64 ![0, 1] bcast_S1x64_S1200000x64_0_1 : (⟨S1x64, .f32⟩ : BufTy).Contents (Elt F) → (⟨S1200000x64, .f32⟩ : BufTy).Contents (Elt F)),
    StableHlo.binary main_v160 main_v164 main_v165 (addf : (⟨S1200000x64, .f32⟩ : BufTy).Contents (Elt F) → (⟨S1200000x64, .f32⟩ : BufTy).Contents (Elt F) → (⟨S1200000x64, .f32⟩ : BufTy).Contents (Elt F)),
    StableHlo.unary main_v28 main_v166 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v166 main_v165 main_v167 (mulf : (⟨S1200000x64, .f32⟩ : BufTy).Contents (Elt F) → (⟨S1200000x64, .f32⟩ : BufTy).Contents (Elt F) → (⟨S1200000x64, .f32⟩ : BufTy).Contents (Elt F)) ]

/-- Operations main_cst_27 … main_v172 (12). -/
abbrev pc12 : List (HloOp τ sig (Elt F)) :=
  [ StableHlo.nullary main_cst_27 (constant S_ .f32 0x00000000#32),
    StableHlo.unary main_cst_27 main_v168 (broadcastInDim S60000x64 ![] bcast_S_S60000x64 : (⟨S_, .f32⟩ : BufTy).Contents (Elt F) → (⟨S60000x64, .f32⟩ : BufTy).Contents (Elt F)),
    StableHlo.unary main_v3 main_v169 (broadcastInDim S1200000x1 ![0] bcast_S1200000_S1200000x1_0 : (⟨S1200000, .i32⟩ : BufTy).Contents (Elt F) → (⟨S1200000x1, .i32⟩ : BufTy).Contents (Elt F)),
    StableHlo.ternary main_v168 main_v169 main_v167 main_v170 ((fun x i u => Host.scatterAdd scatter_S60000x64_S1200000x1_S1200000x64_1_0_0_1 x i u) : (⟨S60000x64, .f32⟩ : BufTy).Contents (Elt F) → (⟨S1200000x1, .i32⟩ : BufTy).Contents (Elt F) → (⟨S1200000x64, .f32⟩ : BufTy).Contents (Elt F) → (⟨S60000x64, .f32⟩ : BufTy).Contents (Elt F)),
    StableHlo.binary main_v170 main_v133 main_v171 (addf : (⟨S60000x64, .f32⟩ : BufTy).Contents (Elt F) → (⟨S60000x64, .f32⟩ : BufTy).Contents (Elt F) → (⟨S60000x64, .f32⟩ : BufTy).Contents (Elt F)),
    StableHlo.nullary main_call3_cst (constant S_ .f32 0x00000000#32),
    StableHlo.unary main_call3_cst main_call3_v0 (broadcastInDim S60000x64 ![] bcast_S_S60000x64 : (⟨S_, .f32⟩ : BufTy).Contents (Elt F) → (⟨S60000x64, .f32⟩ : BufTy).Contents (Elt F)),
    StableHlo.binary main_v171 main_call3_v0 main_call3_v1 (cmpf .oge : (⟨S60000x64, .f32⟩ : BufTy).Contents (Elt F) → (⟨S60000x64, .f32⟩ : BufTy).Contents (Elt F) → (⟨S60000x64, .i1⟩ : BufTy).Contents (Elt F)),
    StableHlo.nullary main_call3_cst_0 (constant S_ .f32 0x3C23D70A#32),
    StableHlo.unary main_call3_cst_0 main_call3_v2 (broadcastInDim S60000x64 ![] bcast_S_S60000x64 : (⟨S_, .f32⟩ : BufTy).Contents (Elt F) → (⟨S60000x64, .f32⟩ : BufTy).Contents (Elt F)),
    StableHlo.binary main_call3_v2 main_v171 main_call3_v3 (mulf : (⟨S60000x64, .f32⟩ : BufTy).Contents (Elt F) → (⟨S60000x64, .f32⟩ : BufTy).Contents (Elt F) → (⟨S60000x64, .f32⟩ : BufTy).Contents (Elt F)),
    StableHlo.ternary main_call3_v1 main_v171 main_call3_v3 main_v172 (select : (⟨S60000x64, .i1⟩ : BufTy).Contents (Elt F) → (⟨S60000x64, .f32⟩ : BufTy).Contents (Elt F) → (⟨S60000x64, .f32⟩ : BufTy).Contents (Elt F) → (⟨S60000x64, .f32⟩ : BufTy).Contents (Elt F)) ]

/-- Operations main_v173 … main_v173 (1). -/
abbrev pc13 : List (HloOp τ sig (Elt F)) :=
  [ StableHlo.nary ![main_arg1, main_v76, main_v124, main_v172] main_v173 (fun u => concatenate S60000x256 1 [⟨S60000x64, u 0⟩, ⟨S60000x64, u 1⟩, ⟨S60000x64, u 2⟩, ⟨S60000x64, u 3⟩] concatenates_S60000x64_S60000x64_S60000x64_S60000x64_S60000x256_d1) ]

set_option maxRecDepth 8192 in
set_option maxHeartbeats 4000000 in
theorem main_part0_eq (c : Dev nD) : main_part0 (F := F) c = seq (pc0 ++ pc1 ++ pc2) := rfl

set_option maxRecDepth 8192 in
set_option maxHeartbeats 4000000 in
theorem main_part1_eq (c : Dev nD) : main_part1 (F := F) c = seq (pc3 ++ pc4 ++ pc5 ++ pc6) := rfl

set_option maxRecDepth 8192 in
set_option maxHeartbeats 4000000 in
theorem main_part2_eq (c : Dev nD) : main_part2 (F := F) c = seq (pc7 ++ pc8 ++ pc9 ++ pc10) := rfl

set_option maxRecDepth 8192 in
set_option maxHeartbeats 4000000 in
theorem main_part3_eq (c : Dev nD) : main_part3 (F := F) c = seq (pc11 ++ pc12 ++ pc13) := rfl

/-- All the operations, in order. -/
abbrev ops : List (HloOp τ sig (Elt F)) := pc0 ++ pc1 ++ pc2 ++ pc3 ++ pc4 ++ pc5 ++ pc6 ++ pc7 ++ pc8 ++ pc9 ++ pc10 ++ pc11 ++ pc12 ++ pc13

set_option maxRecDepth 8192 in
/-- @main is the operations run in order. -/
theorem main_eq (c : Dev nD) : main (F := F) c = seq ops := by
  have e : (ops : List (HloOp τ sig (Elt F)))
      = (pc0 ++ pc1 ++ pc2) ++ ((pc3 ++ pc4 ++ pc5 ++ pc6) ++ ((pc7 ++ pc8 ++ pc9 ++ pc10) ++ (pc11 ++ pc12 ++ pc13))) := by
    simp only [ops, List.append_assoc]
  rw [e, seq_append (pc0 ++ pc1 ++ pc2), seq_append (pc3 ++ pc4 ++ pc5 ++ pc6), seq_append (pc7 ++ pc8 ++ pc9 ++ pc10),
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem pc0_sub : (pc0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩

theorem pc1_sub : (pc1 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩

theorem pc2_sub : (pc2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub ..⟩

theorem pc3_sub : (pc3 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., binary_bufs_sub ..⟩

theorem pc4_sub : (pc4 : List (HloOp τ sig (Elt F))).Forall fun op => op.bufs ⊆ tcRefs τ sig :=
  ⟨nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub ..⟩

theorem pc5_sub : (pc5 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩

theorem pc6_sub : (pc6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem pc7_sub : (pc7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., binary_bufs_sub ..⟩

theorem pc8_sub : (pc8 : List (HloOp τ sig (Elt F))).Forall fun op => op.bufs ⊆ tcRefs τ sig :=
  ⟨nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub ..⟩

theorem pc9_sub : (pc9 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩

theorem pc10_sub : (pc10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩

theorem pc11_sub : (pc11 : List (HloOp τ sig (Elt F))).Forall fun op => op.bufs ⊆ tcRefs τ sig :=
  ⟨binary_bufs_sub .., ternary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., binary_bufs_sub ..⟩

theorem pc12_sub : (pc12 : List (HloOp τ sig (Elt F))).Forall fun op => op.bufs ⊆ tcRefs τ sig :=
  ⟨nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub ..⟩

theorem pc13_sub : (pc13 : List (HloOp τ sig (Elt F))).Forall fun op => op.bufs ⊆ tcRefs τ sig :=
  nary_bufs_sub ..

theorem ops_sub : (ops : List (HloOp τ sig (Elt F))).Forall fun op => op.bufs ⊆ tcRefs τ sig :=
  List.forall_iff_forall_mem.mpr fun op h => by
    simp only [ops, List.mem_append] at h
    rcases h with ((((((((((((h | h) | h) | h) | h) | h) | h) | h) | h) | h) | h) | h) | h) | h
    exacts [List.forall_iff_forall_mem.mp pc0_sub op h, List.forall_iff_forall_mem.mp pc1_sub op h, List.forall_iff_forall_mem.mp pc2_sub op h, List.forall_iff_forall_mem.mp pc3_sub op h, List.forall_iff_forall_mem.mp pc4_sub op h, List.forall_iff_forall_mem.mp pc5_sub op h, List.forall_iff_forall_mem.mp pc6_sub op h, List.forall_iff_forall_mem.mp pc7_sub op h, List.forall_iff_forall_mem.mp pc8_sub op h, List.forall_iff_forall_mem.mp pc9_sub op h, List.forall_iff_forall_mem.mp pc10_sub op h, List.forall_iff_forall_mem.mp pc11_sub op h, List.forall_iff_forall_mem.mp pc12_sub op h, List.forall_iff_forall_mem.mp pc13_sub op h]

/-! ## The stages' operations, and the buffers each stage leaves alone -/

/-- An operation writing one buffer of a list writes inside the list. -/
theorem writes_sub_of {op : HloOp τ sig (Elt F)} {y : Ref sig .tc} {W : List (Ref sig .tc)}
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

/-- The contents after two lists run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The operations of stage Pre: main_v0 … main_v28. -/
abbrev cPre : List (HloOp τ sig (Elt F)) := pc0
/-- The buffers stage Pre writes. -/
abbrev cPre_W : List (Ref sig .tc) := [main_v0, main_v1, main_v2, main_v3, main_cst, main_v4, main_cst_0, main_v5, main_v6, main_v7, main_cst_1, main_v8, main_v9, main_cst_2, main_v10, main_v11, main_cst_3, main_call0_v0, main_call0_v1, main_v12, main_c, main_v13, main_v14, main_c_4, main_v15, main_v16, main_v17, main_v18, main_v19, main_c_5, main_v20, main_v21, main_c_6, main_v22, main_v23, main_v24, main_v25, main_v26, main_v27, main_v28]
theorem cPre_writes : (cPre : List (HloOp τ sig (Elt F))).Forall fun op => op.writes ⊆ (cPre_W.map (Proc.devRef (τ := τ) .tc)).toFinset := by
  simp only [List.cons_append, List.nil_append, List.Forall]
  exact ⟨writes_sub_of (y := main_v0) rfl (by decide),
    writes_sub_of (y := main_v1) rfl (by decide),
    writes_sub_of (y := main_v2) rfl (by decide),
    writes_sub_of (y := main_v3) rfl (by decide),
    writes_sub_of (y := main_cst) rfl (by decide),
    writes_sub_of (y := main_v4) rfl (by decide),
    writes_sub_of (y := main_cst_0) rfl (by decide),
    writes_sub_of (y := main_v5) rfl (by decide),
    writes_sub_of (y := main_v6) rfl (by decide),
    writes_sub_of (y := main_v7) rfl (by decide),
    writes_sub_of (y := main_cst_1) rfl (by decide),
    writes_sub_of (y := main_v8) rfl (by decide),
    writes_sub_of (y := main_v9) rfl (by decide),
    writes_sub_of (y := main_cst_2) rfl (by decide),
    writes_sub_of (y := main_v10) rfl (by decide),
    writes_sub_of (y := main_v11) rfl (by decide),
    writes_sub_of (y := main_cst_3) rfl (by decide),
    writes_sub_of (y := main_call0_v0) rfl (by decide),
    writes_sub_of (y := main_call0_v1) rfl (by decide),
    writes_sub_of (y := main_v12) rfl (by decide),
    writes_sub_of (y := main_c) rfl (by decide),
    writes_sub_of (y := main_v13) rfl (by decide),
    writes_sub_of (y := main_v14) rfl (by decide),
    writes_sub_of (y := main_c_4) rfl (by decide),
    writes_sub_of (y := main_v15) rfl (by decide),
    writes_sub_of (y := main_v16) rfl (by decide),
    writes_sub_of (y := main_v17) rfl (by decide),
    writes_sub_of (y := main_v18) rfl (by decide),
    writes_sub_of (y := main_v19) rfl (by decide),
    writes_sub_of (y := main_c_5) rfl (by decide),
    writes_sub_of (y := main_v20) rfl (by decide),
    writes_sub_of (y := main_v21) rfl (by decide),
    writes_sub_of (y := main_c_6) rfl (by decide),
    writes_sub_of (y := main_v22) rfl (by decide),
    writes_sub_of (y := main_v23) rfl (by decide),
    writes_sub_of (y := main_v24) rfl (by decide),
    writes_sub_of (y := main_v25) rfl (by decide),
    writes_sub_of (y := main_v26) rfl (by decide),
    writes_sub_of (y := main_v27) rfl (by decide),
    writes_sub_of (y := main_v28) rfl (by decide)⟩
/-- A buffer stage Pre does not write keeps its contents through it. -/
theorem cPre_keep (V : Valuation τ sig (Elt F)) (r : Ref sig .tc) (h : r ∉ cPre_W) :
    after cPre V (Proc.devRef .tc r) = V (Proc.devRef .tc r) :=
  after_of_writes_sub cPre V cPre_writes h

/-- The operations of stage Lin0: main_v29 … main_v37. -/
abbrev cLin0 : List (HloOp τ sig (Elt F)) := pc1
/-- The buffers stage Lin0 writes. -/
abbrev cLin0_W : List (Ref sig .tc) := [main_v29, main_v30, main_v31, main_v32, main_v33, main_v34, main_v35, main_v36, main_v37]
theorem cLin0_writes : (cLin0 : List (HloOp τ sig (Elt F))).Forall fun op => op.writes ⊆ (cLin0_W.map (Proc.devRef (τ := τ) .tc)).toFinset := by
  simp only [List.cons_append, List.nil_append, List.Forall]
  exact ⟨writes_sub_of (y := main_v29) rfl (by decide),
    writes_sub_of (y := main_v30) rfl (by decide),
    writes_sub_of (y := main_v31) rfl (by decide),
    writes_sub_of (y := main_v32) rfl (by decide),
    writes_sub_of (y := main_v33) rfl (by decide),
    writes_sub_of (y := main_v34) rfl (by decide),
    writes_sub_of (y := main_v35) rfl (by decide),
    writes_sub_of (y := main_v36) rfl (by decide),
    writes_sub_of (y := main_v37) rfl (by decide)⟩
/-- A buffer stage Lin0 does not write keeps its contents through it. -/
theorem cLin0_keep (V : Valuation τ sig (Elt F)) (r : Ref sig .tc) (h : r ∉ cLin0_W) :
    after cLin0 V (Proc.devRef .tc r) = V (Proc.devRef .tc r) :=
  after_of_writes_sub cLin0 V cLin0_writes h

/-- The operations of stage Msg0: main_c_7 … main_v71. -/
abbrev cMsg0 : List (HloOp τ sig (Elt F)) := pc2 ++ pc3
/-- The buffers stage Msg0 writes. -/
abbrev cMsg0_W : List (Ref sig .tc) := [main_c_7, main_v38, main_v39, main_c_8, main_v40, main_v41, main_v42, main_v43, main_v44, main_c_9, main_v45, main_v46, main_c_10, main_v47, main_v48, main_v49, main_v50, main_v51, main_c_11, main_v52, main_v53, main_c_12, main_v54, main_v55, main_v56, main_v57, main_v58, main_v59, main_v60, main_v61, main_v62, main_v63, main_v64, main_v65, main_v66, main_v67, main_v68, main_v69, main_v70, main_v71]
theorem cMsg0_writes : (cMsg0 : List (HloOp τ sig (Elt F))).Forall fun op => op.writes ⊆ (cMsg0_W.map (Proc.devRef (τ := τ) .tc)).toFinset := by
  simp only [List.cons_append, List.nil_append, List.Forall]
  exact ⟨writes_sub_of (y := main_c_7) rfl (by decide),
    writes_sub_of (y := main_v38) rfl (by decide),
    writes_sub_of (y := main_v39) rfl (by decide),
    writes_sub_of (y := main_c_8) rfl (by decide),
    writes_sub_of (y := main_v40) rfl (by decide),
    writes_sub_of (y := main_v41) rfl (by decide),
    writes_sub_of (y := main_v42) rfl (by decide),
    writes_sub_of (y := main_v43) rfl (by decide),
    writes_sub_of (y := main_v44) rfl (by decide),
    writes_sub_of (y := main_c_9) rfl (by decide),
    writes_sub_of (y := main_v45) rfl (by decide),
    writes_sub_of (y := main_v46) rfl (by decide),
    writes_sub_of (y := main_c_10) rfl (by decide),
    writes_sub_of (y := main_v47) rfl (by decide),
    writes_sub_of (y := main_v48) rfl (by decide),
    writes_sub_of (y := main_v49) rfl (by decide),
    writes_sub_of (y := main_v50) rfl (by decide),
    writes_sub_of (y := main_v51) rfl (by decide),
    writes_sub_of (y := main_c_11) rfl (by decide),
    writes_sub_of (y := main_v52) rfl (by decide),
    writes_sub_of (y := main_v53) rfl (by decide),
    writes_sub_of (y := main_c_12) rfl (by decide),
    writes_sub_of (y := main_v54) rfl (by decide),
    writes_sub_of (y := main_v55) rfl (by decide),
    writes_sub_of (y := main_v56) rfl (by decide),
    writes_sub_of (y := main_v57) rfl (by decide),
    writes_sub_of (y := main_v58) rfl (by decide),
    writes_sub_of (y := main_v59) rfl (by decide),
    writes_sub_of (y := main_v60) rfl (by decide),
    writes_sub_of (y := main_v61) rfl (by decide),
    writes_sub_of (y := main_v62) rfl (by decide),
    writes_sub_of (y := main_v63) rfl (by decide),
    writes_sub_of (y := main_v64) rfl (by decide),
    writes_sub_of (y := main_v65) rfl (by decide),
    writes_sub_of (y := main_v66) rfl (by decide),
    writes_sub_of (y := main_v67) rfl (by decide),
    writes_sub_of (y := main_v68) rfl (by decide),
    writes_sub_of (y := main_v69) rfl (by decide),
    writes_sub_of (y := main_v70) rfl (by decide),
    writes_sub_of (y := main_v71) rfl (by decide)⟩
/-- A buffer stage Msg0 does not write keeps its contents through it. -/
theorem cMsg0_keep (V : Valuation τ sig (Elt F)) (r : Ref sig .tc) (h : r ∉ cMsg0_W) :
    after cMsg0 V (Proc.devRef .tc r) = V (Proc.devRef .tc r) :=
  after_of_writes_sub cMsg0 V cMsg0_writes h

/-- The operations of stage Nxt0: main_cst_13 … main_v76. -/
abbrev cNxt0 : List (HloOp τ sig (Elt F)) := pc4
/-- The buffers stage Nxt0 writes. -/
abbrev cNxt0_W : List (Ref sig .tc) := [main_cst_13, main_v72, main_v73, main_v74, main_v75, main_call1_cst, main_call1_v0, main_call1_v1, main_call1_cst_0, main_call1_v2, main_call1_v3, main_v76]
theorem cNxt0_writes : (cNxt0 : List (HloOp τ sig (Elt F))).Forall fun op => op.writes ⊆ (cNxt0_W.map (Proc.devRef (τ := τ) .tc)).toFinset := by
  simp only [List.cons_append, List.nil_append, List.Forall]
  exact ⟨writes_sub_of (y := main_cst_13) rfl (by decide),
    writes_sub_of (y := main_v72) rfl (by decide),
    writes_sub_of (y := main_v73) rfl (by decide),
    writes_sub_of (y := main_v74) rfl (by decide),
    writes_sub_of (y := main_v75) rfl (by decide),
    writes_sub_of (y := main_call1_cst) rfl (by decide),
    writes_sub_of (y := main_call1_v0) rfl (by decide),
    writes_sub_of (y := main_call1_v1) rfl (by decide),
    writes_sub_of (y := main_call1_cst_0) rfl (by decide),
    writes_sub_of (y := main_call1_v2) rfl (by decide),
    writes_sub_of (y := main_call1_v3) rfl (by decide),
    writes_sub_of (y := main_v76) rfl (by decide)⟩
/-- A buffer stage Nxt0 does not write keeps its contents through it. -/
theorem cNxt0_keep (V : Valuation τ sig (Elt F)) (r : Ref sig .tc) (h : r ∉ cNxt0_W) :
    after cNxt0 V (Proc.devRef .tc r) = V (Proc.devRef .tc r) :=
  after_of_writes_sub cNxt0 V cNxt0_writes h

/-- The operations of stage Lin1: main_v77 … main_v85. -/
abbrev cLin1 : List (HloOp τ sig (Elt F)) := pc5
/-- The buffers stage Lin1 writes. -/
abbrev cLin1_W : List (Ref sig .tc) := [main_v77, main_v78, main_v79, main_v80, main_v81, main_v82, main_v83, main_v84, main_v85]
theorem cLin1_writes : (cLin1 : List (HloOp τ sig (Elt F))).Forall fun op => op.writes ⊆ (cLin1_W.map (Proc.devRef (τ := τ) .tc)).toFinset := by
  simp only [List.cons_append, List.nil_append, List.Forall]
  exact ⟨writes_sub_of (y := main_v77) rfl (by decide),
    writes_sub_of (y := main_v78) rfl (by decide),
    writes_sub_of (y := main_v79) rfl (by decide),
    writes_sub_of (y := main_v80) rfl (by decide),
    writes_sub_of (y := main_v81) rfl (by decide),
    writes_sub_of (y := main_v82) rfl (by decide),
    writes_sub_of (y := main_v83) rfl (by decide),
    writes_sub_of (y := main_v84) rfl (by decide),
    writes_sub_of (y := main_v85) rfl (by decide)⟩
/-- A buffer stage Lin1 does not write keeps its contents through it. -/
theorem cLin1_keep (V : Valuation τ sig (Elt F)) (r : Ref sig .tc) (h : r ∉ cLin1_W) :
    after cLin1 V (Proc.devRef .tc r) = V (Proc.devRef .tc r) :=
  after_of_writes_sub cLin1 V cLin1_writes h

/-- The operations of stage Msg1: main_c_14 … main_v119. -/
abbrev cMsg1 : List (HloOp τ sig (Elt F)) := pc6 ++ pc7
/-- The buffers stage Msg1 writes. -/
abbrev cMsg1_W : List (Ref sig .tc) := [main_c_14, main_v86, main_v87, main_c_15, main_v88, main_v89, main_v90, main_v91, main_v92, main_c_16, main_v93, main_v94, main_c_17, main_v95, main_v96, main_v97, main_v98, main_v99, main_c_18, main_v100, main_v101, main_c_19, main_v102, main_v103, main_v104, main_v105, main_v106, main_v107, main_v108, main_v109, main_v110, main_v111, main_v112, main_v113, main_v114, main_v115, main_v116, main_v117, main_v118, main_v119]
theorem cMsg1_writes : (cMsg1 : List (HloOp τ sig (Elt F))).Forall fun op => op.writes ⊆ (cMsg1_W.map (Proc.devRef (τ := τ) .tc)).toFinset := by
  simp only [List.cons_append, List.nil_append, List.Forall]
  exact ⟨writes_sub_of (y := main_c_14) rfl (by decide),
    writes_sub_of (y := main_v86) rfl (by decide),
    writes_sub_of (y := main_v87) rfl (by decide),
    writes_sub_of (y := main_c_15) rfl (by decide),
    writes_sub_of (y := main_v88) rfl (by decide),
    writes_sub_of (y := main_v89) rfl (by decide),
    writes_sub_of (y := main_v90) rfl (by decide),
    writes_sub_of (y := main_v91) rfl (by decide),
    writes_sub_of (y := main_v92) rfl (by decide),
    writes_sub_of (y := main_c_16) rfl (by decide),
    writes_sub_of (y := main_v93) rfl (by decide),
    writes_sub_of (y := main_v94) rfl (by decide),
    writes_sub_of (y := main_c_17) rfl (by decide),
    writes_sub_of (y := main_v95) rfl (by decide),
    writes_sub_of (y := main_v96) rfl (by decide),
    writes_sub_of (y := main_v97) rfl (by decide),
    writes_sub_of (y := main_v98) rfl (by decide),
    writes_sub_of (y := main_v99) rfl (by decide),
    writes_sub_of (y := main_c_18) rfl (by decide),
    writes_sub_of (y := main_v100) rfl (by decide),
    writes_sub_of (y := main_v101) rfl (by decide),
    writes_sub_of (y := main_c_19) rfl (by decide),
    writes_sub_of (y := main_v102) rfl (by decide),
    writes_sub_of (y := main_v103) rfl (by decide),
    writes_sub_of (y := main_v104) rfl (by decide),
    writes_sub_of (y := main_v105) rfl (by decide),
    writes_sub_of (y := main_v106) rfl (by decide),
    writes_sub_of (y := main_v107) rfl (by decide),
    writes_sub_of (y := main_v108) rfl (by decide),
    writes_sub_of (y := main_v109) rfl (by decide),
    writes_sub_of (y := main_v110) rfl (by decide),
    writes_sub_of (y := main_v111) rfl (by decide),
    writes_sub_of (y := main_v112) rfl (by decide),
    writes_sub_of (y := main_v113) rfl (by decide),
    writes_sub_of (y := main_v114) rfl (by decide),
    writes_sub_of (y := main_v115) rfl (by decide),
    writes_sub_of (y := main_v116) rfl (by decide),
    writes_sub_of (y := main_v117) rfl (by decide),
    writes_sub_of (y := main_v118) rfl (by decide),
    writes_sub_of (y := main_v119) rfl (by decide)⟩
/-- A buffer stage Msg1 does not write keeps its contents through it. -/
theorem cMsg1_keep (V : Valuation τ sig (Elt F)) (r : Ref sig .tc) (h : r ∉ cMsg1_W) :
    after cMsg1 V (Proc.devRef .tc r) = V (Proc.devRef .tc r) :=
  after_of_writes_sub cMsg1 V cMsg1_writes h

/-- The operations of stage Nxt1: main_cst_20 … main_v124. -/
abbrev cNxt1 : List (HloOp τ sig (Elt F)) := pc8
/-- The buffers stage Nxt1 writes. -/
abbrev cNxt1_W : List (Ref sig .tc) := [main_cst_20, main_v120, main_v121, main_v122, main_v123, main_call2_cst, main_call2_v0, main_call2_v1, main_call2_cst_0, main_call2_v2, main_call2_v3, main_v124]
theorem cNxt1_writes : (cNxt1 : List (HloOp τ sig (Elt F))).Forall fun op => op.writes ⊆ (cNxt1_W.map (Proc.devRef (τ := τ) .tc)).toFinset := by
  simp only [List.cons_append, List.nil_append, List.Forall]
  exact ⟨writes_sub_of (y := main_cst_20) rfl (by decide),
    writes_sub_of (y := main_v120) rfl (by decide),
    writes_sub_of (y := main_v121) rfl (by decide),
    writes_sub_of (y := main_v122) rfl (by decide),
    writes_sub_of (y := main_v123) rfl (by decide),
    writes_sub_of (y := main_call2_cst) rfl (by decide),
    writes_sub_of (y := main_call2_v0) rfl (by decide),
    writes_sub_of (y := main_call2_v1) rfl (by decide),
    writes_sub_of (y := main_call2_cst_0) rfl (by decide),
    writes_sub_of (y := main_call2_v2) rfl (by decide),
    writes_sub_of (y := main_call2_v3) rfl (by decide),
    writes_sub_of (y := main_v124) rfl (by decide)⟩
/-- A buffer stage Nxt1 does not write keeps its contents through it. -/
theorem cNxt1_keep (V : Valuation τ sig (Elt F)) (r : Ref sig .tc) (h : r ∉ cNxt1_W) :
    after cNxt1 V (Proc.devRef .tc r) = V (Proc.devRef .tc r) :=
  after_of_writes_sub cNxt1 V cNxt1_writes h

/-- The operations of stage Lin2: main_v125 … main_v133. -/
abbrev cLin2 : List (HloOp τ sig (Elt F)) := pc9
/-- The buffers stage Lin2 writes. -/
abbrev cLin2_W : List (Ref sig .tc) := [main_v125, main_v126, main_v127, main_v128, main_v129, main_v130, main_v131, main_v132, main_v133]
theorem cLin2_writes : (cLin2 : List (HloOp τ sig (Elt F))).Forall fun op => op.writes ⊆ (cLin2_W.map (Proc.devRef (τ := τ) .tc)).toFinset := by
  simp only [List.cons_append, List.nil_append, List.Forall]
  exact ⟨writes_sub_of (y := main_v125) rfl (by decide),
    writes_sub_of (y := main_v126) rfl (by decide),
    writes_sub_of (y := main_v127) rfl (by decide),
    writes_sub_of (y := main_v128) rfl (by decide),
    writes_sub_of (y := main_v129) rfl (by decide),
    writes_sub_of (y := main_v130) rfl (by decide),
    writes_sub_of (y := main_v131) rfl (by decide),
    writes_sub_of (y := main_v132) rfl (by decide),
    writes_sub_of (y := main_v133) rfl (by decide)⟩
/-- A buffer stage Lin2 does not write keeps its contents through it. -/
theorem cLin2_keep (V : Valuation τ sig (Elt F)) (r : Ref sig .tc) (h : r ∉ cLin2_W) :
    after cLin2 V (Proc.devRef .tc r) = V (Proc.devRef .tc r) :=
  after_of_writes_sub cLin2 V cLin2_writes h

/-- The operations of stage Msg2: main_c_21 … main_v167. -/
abbrev cMsg2 : List (HloOp τ sig (Elt F)) := pc10 ++ pc11
/-- The buffers stage Msg2 writes. -/
abbrev cMsg2_W : List (Ref sig .tc) := [main_c_21, main_v134, main_v135, main_c_22, main_v136, main_v137, main_v138, main_v139, main_v140, main_c_23, main_v141, main_v142, main_c_24, main_v143, main_v144, main_v145, main_v146, main_v147, main_c_25, main_v148, main_v149, main_c_26, main_v150, main_v151, main_v152, main_v153, main_v154, main_v155, main_v156, main_v157, main_v158, main_v159, main_v160, main_v161, main_v162, main_v163, main_v164, main_v165, main_v166, main_v167]
theorem cMsg2_writes : (cMsg2 : List (HloOp τ sig (Elt F))).Forall fun op => op.writes ⊆ (cMsg2_W.map (Proc.devRef (τ := τ) .tc)).toFinset := by
  simp only [List.cons_append, List.nil_append, List.Forall]
  exact ⟨writes_sub_of (y := main_c_21) rfl (by decide),
    writes_sub_of (y := main_v134) rfl (by decide),
    writes_sub_of (y := main_v135) rfl (by decide),
    writes_sub_of (y := main_c_22) rfl (by decide),
    writes_sub_of (y := main_v136) rfl (by decide),
    writes_sub_of (y := main_v137) rfl (by decide),
    writes_sub_of (y := main_v138) rfl (by decide),
    writes_sub_of (y := main_v139) rfl (by decide),
    writes_sub_of (y := main_v140) rfl (by decide),
    writes_sub_of (y := main_c_23) rfl (by decide),
    writes_sub_of (y := main_v141) rfl (by decide),
    writes_sub_of (y := main_v142) rfl (by decide),
    writes_sub_of (y := main_c_24) rfl (by decide),
    writes_sub_of (y := main_v143) rfl (by decide),
    writes_sub_of (y := main_v144) rfl (by decide),
    writes_sub_of (y := main_v145) rfl (by decide),
    writes_sub_of (y := main_v146) rfl (by decide),
    writes_sub_of (y := main_v147) rfl (by decide),
    writes_sub_of (y := main_c_25) rfl (by decide),
    writes_sub_of (y := main_v148) rfl (by decide),
    writes_sub_of (y := main_v149) rfl (by decide),
    writes_sub_of (y := main_c_26) rfl (by decide),
    writes_sub_of (y := main_v150) rfl (by decide),
    writes_sub_of (y := main_v151) rfl (by decide),
    writes_sub_of (y := main_v152) rfl (by decide),
    writes_sub_of (y := main_v153) rfl (by decide),
    writes_sub_of (y := main_v154) rfl (by decide),
    writes_sub_of (y := main_v155) rfl (by decide),
    writes_sub_of (y := main_v156) rfl (by decide),
    writes_sub_of (y := main_v157) rfl (by decide),
    writes_sub_of (y := main_v158) rfl (by decide),
    writes_sub_of (y := main_v159) rfl (by decide),
    writes_sub_of (y := main_v160) rfl (by decide),
    writes_sub_of (y := main_v161) rfl (by decide),
    writes_sub_of (y := main_v162) rfl (by decide),
    writes_sub_of (y := main_v163) rfl (by decide),
    writes_sub_of (y := main_v164) rfl (by decide),
    writes_sub_of (y := main_v165) rfl (by decide),
    writes_sub_of (y := main_v166) rfl (by decide),
    writes_sub_of (y := main_v167) rfl (by decide)⟩
/-- A buffer stage Msg2 does not write keeps its contents through it. -/
theorem cMsg2_keep (V : Valuation τ sig (Elt F)) (r : Ref sig .tc) (h : r ∉ cMsg2_W) :
    after cMsg2 V (Proc.devRef .tc r) = V (Proc.devRef .tc r) :=
  after_of_writes_sub cMsg2 V cMsg2_writes h

/-- The operations of stage Nxt2: main_cst_27 … main_v172. -/
abbrev cNxt2 : List (HloOp τ sig (Elt F)) := pc12
/-- The buffers stage Nxt2 writes. -/
abbrev cNxt2_W : List (Ref sig .tc) := [main_cst_27, main_v168, main_v169, main_v170, main_v171, main_call3_cst, main_call3_v0, main_call3_v1, main_call3_cst_0, main_call3_v2, main_call3_v3, main_v172]
theorem cNxt2_writes : (cNxt2 : List (HloOp τ sig (Elt F))).Forall fun op => op.writes ⊆ (cNxt2_W.map (Proc.devRef (τ := τ) .tc)).toFinset := by
  simp only [List.cons_append, List.nil_append, List.Forall]
  exact ⟨writes_sub_of (y := main_cst_27) rfl (by decide),
    writes_sub_of (y := main_v168) rfl (by decide),
    writes_sub_of (y := main_v169) rfl (by decide),
    writes_sub_of (y := main_v170) rfl (by decide),
    writes_sub_of (y := main_v171) rfl (by decide),
    writes_sub_of (y := main_call3_cst) rfl (by decide),
    writes_sub_of (y := main_call3_v0) rfl (by decide),
    writes_sub_of (y := main_call3_v1) rfl (by decide),
    writes_sub_of (y := main_call3_cst_0) rfl (by decide),
    writes_sub_of (y := main_call3_v2) rfl (by decide),
    writes_sub_of (y := main_call3_v3) rfl (by decide),
    writes_sub_of (y := main_v172) rfl (by decide)⟩
/-- A buffer stage Nxt2 does not write keeps its contents through it. -/
theorem cNxt2_keep (V : Valuation τ sig (Elt F)) (r : Ref sig .tc) (h : r ∉ cNxt2_W) :
    after cNxt2 V (Proc.devRef .tc r) = V (Proc.devRef .tc r) :=
  after_of_writes_sub cNxt2 V cNxt2_writes h

/-- The operations of stage Fin: main_v173 … main_v173. -/
abbrev cFin : List (HloOp τ sig (Elt F)) := pc13
/-- The buffers stage Fin writes. -/
abbrev cFin_W : List (Ref sig .tc) := [main_v173]
theorem cFin_writes : (cFin : List (HloOp τ sig (Elt F))).Forall fun op => op.writes ⊆ (cFin_W.map (Proc.devRef (τ := τ) .tc)).toFinset := by
  simp only [List.cons_append, List.nil_append, List.Forall]
  exact (writes_sub_of (y := main_v173) rfl (by decide))
/-- A buffer stage Fin does not write keeps its contents through it. -/
theorem cFin_keep (V : Valuation τ sig (Elt F)) (r : Ref sig .tc) (h : r ∉ cFin_W) :
    after cFin V (Proc.devRef .tc r) = V (Proc.devRef .tc r) :=
  after_of_writes_sub cFin V cFin_writes h

/-- All the operations are the stages in order. -/
theorem ops_stages : (ops : List (HloOp τ sig (Elt F))) = cPre ++ cLin0 ++ cMsg0 ++ cNxt0 ++ cLin1 ++ cMsg1 ++ cNxt1 ++ cLin2 ++ cMsg2 ++ cNxt2 ++ cFin := by
  simp only [List.append_assoc]

end Cert.ReferenceIdeal.RefRun

end
-- ==== Proof.RefRun.lean ====
/- The run of the reference program: every weakly fair execution of @main terminates with the second result at
   `res` of the arguments' launch contents and the arguments unchanged. The operations are read stage by stage:
   what each stage leaves in the buffer it computes, as the stage's function of the buffers it reads. -/
import proofs.«119603_j4896262717867_2_alg».proof.Proof.RefOps
import proofs.«119603_j4896262717867_2_alg».proof.Proof.RefStages

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## Each stage from any contents -/

section Stages
-- a gather, an accumulating scatter and a power are equal when their arguments are: they are never opened
attribute [local irreducible] Host.gather Host.scatterAdd Host.powf

set_option maxRecDepth 8192 in
set_option maxHeartbeats 4000000 in
theorem pre_v1 (V : Valuation τ sig (Elt Ideal)) : after (cPre (F := Ideal)) V (Proc.devRef .tc main_v1) = frm (V (Proc.devRef .tc main_arg0)) := by
  simp only [cPre, pc0]
  after_results_simp <;> rfl

set_option maxRecDepth 8192 in
set_option maxHeartbeats 4000000 in
theorem pre_v3 (V : Valuation τ sig (Elt Ideal)) : after (cPre (F := Ideal)) V (Proc.devRef .tc main_v3) = dst (V (Proc.devRef .tc main_arg0)) := by
  simp only [cPre, pc0]
  after_results_simp <;> rfl

set_option maxRecDepth 8192 in
set_option maxHeartbeats 4000000 in
theorem pre_v28 (V : Valuation τ sig (Elt Ideal)) : after (cPre (F := Ideal)) V (Proc.devRef .tc main_v28) = nrm (V (Proc.devRef .tc main_arg0)) := by
  simp only [cPre, pc0]
  after_results_simp <;> rfl

set_option maxRecDepth 8192 in
set_option maxHeartbeats 4000000 in
theorem lin0_out (V : Valuation τ sig (Elt Ideal)) : after (cLin0 (F := Ideal)) V (Proc.devRef .tc main_v37)
    = lin1_0 (V (Proc.devRef .tc main_arg1)) (V (Proc.devRef .tc main_arg2)) (V (Proc.devRef .tc main_arg3)) := by
  simp only [cLin0, pc1, List.cons_append, List.nil_append]
  after_results_simp <;> rfl

set_option maxRecDepth 8192 in
set_option maxHeartbeats 4000000 in
theorem msg0_out (V : Valuation τ sig (Elt Ideal)) (a0 : IVec S2x1200000 32) (h1 : V (Proc.devRef .tc main_v1) = frm a0) (h3 : V (Proc.devRef .tc main_v3) = dst a0) :
    after (cMsg0 (F := Ideal)) V (Proc.devRef .tc main_v71)
      = msgOf_0 (V (Proc.devRef .tc main_v37)) (V (Proc.devRef .tc main_arg1)) (V (Proc.devRef .tc main_v28)) a0 (V (Proc.devRef .tc main_arg4)) (V (Proc.devRef .tc main_arg5)) := by
  simp only [cMsg0, pc2, pc3, List.cons_append, List.nil_append]
  after_results_simp
  simp only [h1, h3] <;> rfl

set_option maxRecDepth 8192 in
set_option maxHeartbeats 4000000 in
theorem nxt0_out (V : Valuation τ sig (Elt Ideal)) (a0 : IVec S2x1200000 32) (h3 : V (Proc.devRef .tc main_v3) = dst a0) :
    after (cNxt0 (F := Ideal)) V (Proc.devRef .tc main_v76) = upd (V (Proc.devRef .tc main_v37)) (V (Proc.devRef .tc main_v71)) a0 := by
  simp only [cNxt0, pc4, List.cons_append, List.nil_append]
  after_results_simp
  simp only [h3] <;> rfl

set_option maxRecDepth 8192 in
set_option maxHeartbeats 4000000 in
theorem lin1_out (V : Valuation τ sig (Elt Ideal)) : after (cLin1 (F := Ideal)) V (Proc.devRef .tc main_v85)
    = lin1_1 (V (Proc.devRef .tc main_v76)) (V (Proc.devRef .tc main_arg2)) (V (Proc.devRef .tc main_arg3)) := by
  simp only [cLin1, pc5, List.cons_append, List.nil_append]
  after_results_simp <;> rfl

set_option maxRecDepth 8192 in
set_option maxHeartbeats 4000000 in
theorem msg1_out (V : Valuation τ sig (Elt Ideal)) (a0 : IVec S2x1200000 32) (h1 : V (Proc.devRef .tc main_v1) = frm a0) (h3 : V (Proc.devRef .tc main_v3) = dst a0) :
    after (cMsg1 (F := Ideal)) V (Proc.devRef .tc main_v119)
      = msgOf_1 (V (Proc.devRef .tc main_v85)) (V (Proc.devRef .tc main_v76)) (V (Proc.devRef .tc main_v28)) a0 (V (Proc.devRef .tc main_arg4)) (V (Proc.devRef .tc main_arg5)) := by
  simp only [cMsg1, pc6, pc7, List.cons_append, List.nil_append]
  after_results_simp
  simp only [h1, h3] <;> rfl

set_option maxRecDepth 8192 in
set_option maxHeartbeats 4000000 in
theorem nxt1_out (V : Valuation τ sig (Elt Ideal)) (a0 : IVec S2x1200000 32) (h3 : V (Proc.devRef .tc main_v3) = dst a0) :
    after (cNxt1 (F := Ideal)) V (Proc.devRef .tc main_v124) = upd (V (Proc.devRef .tc main_v85)) (V (Proc.devRef .tc main_v119)) a0 := by
  simp only [cNxt1, pc8, List.cons_append, List.nil_append]
  after_results_simp
  simp only [h3] <;> rfl

set_option maxRecDepth 8192 in
set_option maxHeartbeats 4000000 in
theorem lin2_out (V : Valuation τ sig (Elt Ideal)) : after (cLin2 (F := Ideal)) V (Proc.devRef .tc main_v133)
    = lin1_2 (V (Proc.devRef .tc main_v124)) (V (Proc.devRef .tc main_arg2)) (V (Proc.devRef .tc main_arg3)) := by
  simp only [cLin2, pc9, List.cons_append, List.nil_append]
  after_results_simp <;> rfl

set_option maxRecDepth 8192 in
set_option maxHeartbeats 4000000 in
theorem msg2_out (V : Valuation τ sig (Elt Ideal)) (a0 : IVec S2x1200000 32) (h1 : V (Proc.devRef .tc main_v1) = frm a0) (h3 : V (Proc.devRef .tc main_v3) = dst a0) :
    after (cMsg2 (F := Ideal)) V (Proc.devRef .tc main_v167)
      = msgOf_2 (V (Proc.devRef .tc main_v133)) (V (Proc.devRef .tc main_v124)) (V (Proc.devRef .tc main_v28)) a0 (V (Proc.devRef .tc main_arg4)) (V (Proc.devRef .tc main_arg5)) := by
  simp only [cMsg2, pc10, pc11, List.cons_append, List.nil_append]
  after_results_simp
  simp only [h1, h3] <;> rfl

set_option maxRecDepth 8192 in
set_option maxHeartbeats 4000000 in
theorem nxt2_out (V : Valuation τ sig (Elt Ideal)) (a0 : IVec S2x1200000 32) (h3 : V (Proc.devRef .tc main_v3) = dst a0) :
    after (cNxt2 (F := Ideal)) V (Proc.devRef .tc main_v172) = upd (V (Proc.devRef .tc main_v133)) (V (Proc.devRef .tc main_v167)) a0 := by
  simp only [cNxt2, pc12, List.cons_append, List.nil_append]
  after_results_simp
  simp only [h3] <;> rfl

set_option maxRecDepth 8192 in
theorem fin_out (V : Valuation τ sig (Elt Ideal)) : after (cFin (F := Ideal)) V (Proc.devRef .tc main_v173)
    = cat (V (Proc.devRef .tc main_arg1)) (V (Proc.devRef .tc main_v76)) (V (Proc.devRef .tc main_v124)) (V (Proc.devRef .tc main_v172)) := by
  simp only [cFin, pc13]
  after_results_simp <;> rfl

end Stages

/-! ## The stages in order -/

/-- The contents before the first stage. -/
def val0 (V : Valuation τ sig (Elt Ideal)) : Valuation τ sig (Elt Ideal) := V
theorem val0_arg0 (V : Valuation τ sig (Elt Ideal)) : val0 V (Proc.devRef .tc main_arg0) = V (Proc.devRef .tc main_arg0) := rfl
theorem val0_arg1 (V : Valuation τ sig (Elt Ideal)) : val0 V (Proc.devRef .tc main_arg1) = V (Proc.devRef .tc main_arg1) := rfl
theorem val0_arg2 (V : Valuation τ sig (Elt Ideal)) : val0 V (Proc.devRef .tc main_arg2) = V (Proc.devRef .tc main_arg2) := rfl
theorem val0_arg3 (V : Valuation τ sig (Elt Ideal)) : val0 V (Proc.devRef .tc main_arg3) = V (Proc.devRef .tc main_arg3) := rfl
theorem val0_arg4 (V : Valuation τ sig (Elt Ideal)) : val0 V (Proc.devRef .tc main_arg4) = V (Proc.devRef .tc main_arg4) := rfl
theorem val0_arg5 (V : Valuation τ sig (Elt Ideal)) : val0 V (Proc.devRef .tc main_arg5) = V (Proc.devRef .tc main_arg5) := rfl

/-- The contents after stage Pre. -/
def val1 (V : Valuation τ sig (Elt Ideal)) : Valuation τ sig (Elt Ideal) := after (cPre (F := Ideal)) (val0 V)
theorem val1_arg0 (V : Valuation τ sig (Elt Ideal)) : val1 V (Proc.devRef .tc main_arg0) = V (Proc.devRef .tc main_arg0) :=
  (cPre_keep (val0 V) main_arg0 (by decide)).trans (val0_arg0 V)
theorem val1_arg1 (V : Valuation τ sig (Elt Ideal)) : val1 V (Proc.devRef .tc main_arg1) = V (Proc.devRef .tc main_arg1) :=
  (cPre_keep (val0 V) main_arg1 (by decide)).trans (val0_arg1 V)
theorem val1_arg2 (V : Valuation τ sig (Elt Ideal)) : val1 V (Proc.devRef .tc main_arg2) = V (Proc.devRef .tc main_arg2) :=
  (cPre_keep (val0 V) main_arg2 (by decide)).trans (val0_arg2 V)
theorem val1_arg3 (V : Valuation τ sig (Elt Ideal)) : val1 V (Proc.devRef .tc main_arg3) = V (Proc.devRef .tc main_arg3) :=
  (cPre_keep (val0 V) main_arg3 (by decide)).trans (val0_arg3 V)
theorem val1_arg4 (V : Valuation τ sig (Elt Ideal)) : val1 V (Proc.devRef .tc main_arg4) = V (Proc.devRef .tc main_arg4) :=
  (cPre_keep (val0 V) main_arg4 (by decide)).trans (val0_arg4 V)
theorem val1_arg5 (V : Valuation τ sig (Elt Ideal)) : val1 V (Proc.devRef .tc main_arg5) = V (Proc.devRef .tc main_arg5) :=
  (cPre_keep (val0 V) main_arg5 (by decide)).trans (val0_arg5 V)
theorem val1_v1 (V : Valuation τ sig (Elt Ideal)) : val1 V (Proc.devRef .tc main_v1) = frm (V (Proc.devRef .tc main_arg0)) := by
  unfold val1
  rw [pre_v1 (val0 V), val0_arg0]
theorem val1_v3 (V : Valuation τ sig (Elt Ideal)) : val1 V (Proc.devRef .tc main_v3) = dst (V (Proc.devRef .tc main_arg0)) := by
  unfold val1
  rw [pre_v3 (val0 V), val0_arg0]
theorem val1_v28 (V : Valuation τ sig (Elt Ideal)) : val1 V (Proc.devRef .tc main_v28) = nrm (V (Proc.devRef .tc main_arg0)) := by
  unfold val1
  rw [pre_v28 (val0 V), val0_arg0]

/-- The contents after stage Lin0. -/
def val2 (V : Valuation τ sig (Elt Ideal)) : Valuation τ sig (Elt Ideal) := after (cLin0 (F := Ideal)) (val1 V)
theorem val2_arg0 (V : Valuation τ sig (Elt Ideal)) : val2 V (Proc.devRef .tc main_arg0) = V (Proc.devRef .tc main_arg0) :=
  (cLin0_keep (val1 V) main_arg0 (by decide)).trans (val1_arg0 V)
theorem val2_arg1 (V : Valuation τ sig (Elt Ideal)) : val2 V (Proc.devRef .tc main_arg1) = V (Proc.devRef .tc main_arg1) :=
  (cLin0_keep (val1 V) main_arg1 (by decide)).trans (val1_arg1 V)
theorem val2_arg2 (V : Valuation τ sig (Elt Ideal)) : val2 V (Proc.devRef .tc main_arg2) = V (Proc.devRef .tc main_arg2) :=
  (cLin0_keep (val1 V) main_arg2 (by decide)).trans (val1_arg2 V)
theorem val2_arg3 (V : Valuation τ sig (Elt Ideal)) : val2 V (Proc.devRef .tc main_arg3) = V (Proc.devRef .tc main_arg3) :=
  (cLin0_keep (val1 V) main_arg3 (by decide)).trans (val1_arg3 V)
theorem val2_arg4 (V : Valuation τ sig (Elt Ideal)) : val2 V (Proc.devRef .tc main_arg4) = V (Proc.devRef .tc main_arg4) :=
  (cLin0_keep (val1 V) main_arg4 (by decide)).trans (val1_arg4 V)
theorem val2_arg5 (V : Valuation τ sig (Elt Ideal)) : val2 V (Proc.devRef .tc main_arg5) = V (Proc.devRef .tc main_arg5) :=
  (cLin0_keep (val1 V) main_arg5 (by decide)).trans (val1_arg5 V)
theorem val2_v1 (V : Valuation τ sig (Elt Ideal)) : val2 V (Proc.devRef .tc main_v1) = frm (V (Proc.devRef .tc main_arg0)) :=
  (cLin0_keep (val1 V) main_v1 (by decide)).trans (val1_v1 V)
theorem val2_v3 (V : Valuation τ sig (Elt Ideal)) : val2 V (Proc.devRef .tc main_v3) = dst (V (Proc.devRef .tc main_arg0)) :=
  (cLin0_keep (val1 V) main_v3 (by decide)).trans (val1_v3 V)
theorem val2_v28 (V : Valuation τ sig (Elt Ideal)) : val2 V (Proc.devRef .tc main_v28) = nrm (V (Proc.devRef .tc main_arg0)) :=
  (cLin0_keep (val1 V) main_v28 (by decide)).trans (val1_v28 V)
theorem val2_v37 (V : Valuation τ sig (Elt Ideal)) : val2 V (Proc.devRef .tc main_v37) = lin1_0 (V (Proc.devRef .tc main_arg1)) (V (Proc.devRef .tc main_arg2)) (V (Proc.devRef .tc main_arg3)) := by
  unfold val2
  rw [lin0_out (val1 V), val1_arg1, val1_arg2, val1_arg3]

/-- The contents after stage Msg0. -/
def val3 (V : Valuation τ sig (Elt Ideal)) : Valuation τ sig (Elt Ideal) := after (cMsg0 (F := Ideal)) (val2 V)
theorem val3_arg0 (V : Valuation τ sig (Elt Ideal)) : val3 V (Proc.devRef .tc main_arg0) = V (Proc.devRef .tc main_arg0) :=
  (cMsg0_keep (val2 V) main_arg0 (by decide)).trans (val2_arg0 V)
theorem val3_arg1 (V : Valuation τ sig (Elt Ideal)) : val3 V (Proc.devRef .tc main_arg1) = V (Proc.devRef .tc main_arg1) :=
  (cMsg0_keep (val2 V) main_arg1 (by decide)).trans (val2_arg1 V)
theorem val3_arg2 (V : Valuation τ sig (Elt Ideal)) : val3 V (Proc.devRef .tc main_arg2) = V (Proc.devRef .tc main_arg2) :=
  (cMsg0_keep (val2 V) main_arg2 (by decide)).trans (val2_arg2 V)
theorem val3_arg3 (V : Valuation τ sig (Elt Ideal)) : val3 V (Proc.devRef .tc main_arg3) = V (Proc.devRef .tc main_arg3) :=
  (cMsg0_keep (val2 V) main_arg3 (by decide)).trans (val2_arg3 V)
theorem val3_arg4 (V : Valuation τ sig (Elt Ideal)) : val3 V (Proc.devRef .tc main_arg4) = V (Proc.devRef .tc main_arg4) :=
  (cMsg0_keep (val2 V) main_arg4 (by decide)).trans (val2_arg4 V)
theorem val3_arg5 (V : Valuation τ sig (Elt Ideal)) : val3 V (Proc.devRef .tc main_arg5) = V (Proc.devRef .tc main_arg5) :=
  (cMsg0_keep (val2 V) main_arg5 (by decide)).trans (val2_arg5 V)
theorem val3_v1 (V : Valuation τ sig (Elt Ideal)) : val3 V (Proc.devRef .tc main_v1) = frm (V (Proc.devRef .tc main_arg0)) :=
  (cMsg0_keep (val2 V) main_v1 (by decide)).trans (val2_v1 V)
theorem val3_v3 (V : Valuation τ sig (Elt Ideal)) : val3 V (Proc.devRef .tc main_v3) = dst (V (Proc.devRef .tc main_arg0)) :=
  (cMsg0_keep (val2 V) main_v3 (by decide)).trans (val2_v3 V)
theorem val3_v28 (V : Valuation τ sig (Elt Ideal)) : val3 V (Proc.devRef .tc main_v28) = nrm (V (Proc.devRef .tc main_arg0)) :=
  (cMsg0_keep (val2 V) main_v28 (by decide)).trans (val2_v28 V)
theorem val3_v37 (V : Valuation τ sig (Elt Ideal)) : val3 V (Proc.devRef .tc main_v37) = lin1_0 (V (Proc.devRef .tc main_arg1)) (V (Proc.devRef .tc main_arg2)) (V (Proc.devRef .tc main_arg3)) :=
  (cMsg0_keep (val2 V) main_v37 (by decide)).trans (val2_v37 V)
theorem val3_v71 (V : Valuation τ sig (Elt Ideal)) : val3 V (Proc.devRef .tc main_v71) = msgOf_0 (lin1_0 (V (Proc.devRef .tc main_arg1)) (V (Proc.devRef .tc main_arg2)) (V (Proc.devRef .tc main_arg3))) (V (Proc.devRef .tc main_arg1)) (nrm (V (Proc.devRef .tc main_arg0))) (V (Proc.devRef .tc main_arg0)) (V (Proc.devRef .tc main_arg4)) (V (Proc.devRef .tc main_arg5)) := by
  unfold val3
  rw [msg0_out (val2 V) (V (Proc.devRef .tc main_arg0)) (val2_v1 V) (val2_v3 V), val2_v37, val2_arg1, val2_v28, val2_arg4, val2_arg5]

/-- The contents after stage Nxt0. -/
def val4 (V : Valuation τ sig (Elt Ideal)) : Valuation τ sig (Elt Ideal) := after (cNxt0 (F := Ideal)) (val3 V)
theorem val4_arg0 (V : Valuation τ sig (Elt Ideal)) : val4 V (Proc.devRef .tc main_arg0) = V (Proc.devRef .tc main_arg0) :=
  (cNxt0_keep (val3 V) main_arg0 (by decide)).trans (val3_arg0 V)
theorem val4_arg1 (V : Valuation τ sig (Elt Ideal)) : val4 V (Proc.devRef .tc main_arg1) = V (Proc.devRef .tc main_arg1) :=
  (cNxt0_keep (val3 V) main_arg1 (by decide)).trans (val3_arg1 V)
theorem val4_arg2 (V : Valuation τ sig (Elt Ideal)) : val4 V (Proc.devRef .tc main_arg2) = V (Proc.devRef .tc main_arg2) :=
  (cNxt0_keep (val3 V) main_arg2 (by decide)).trans (val3_arg2 V)
theorem val4_arg3 (V : Valuation τ sig (Elt Ideal)) : val4 V (Proc.devRef .tc main_arg3) = V (Proc.devRef .tc main_arg3) :=
  (cNxt0_keep (val3 V) main_arg3 (by decide)).trans (val3_arg3 V)
theorem val4_arg4 (V : Valuation τ sig (Elt Ideal)) : val4 V (Proc.devRef .tc main_arg4) = V (Proc.devRef .tc main_arg4) :=
  (cNxt0_keep (val3 V) main_arg4 (by decide)).trans (val3_arg4 V)
theorem val4_arg5 (V : Valuation τ sig (Elt Ideal)) : val4 V (Proc.devRef .tc main_arg5) = V (Proc.devRef .tc main_arg5) :=
  (cNxt0_keep (val3 V) main_arg5 (by decide)).trans (val3_arg5 V)
theorem val4_v1 (V : Valuation τ sig (Elt Ideal)) : val4 V (Proc.devRef .tc main_v1) = frm (V (Proc.devRef .tc main_arg0)) :=
  (cNxt0_keep (val3 V) main_v1 (by decide)).trans (val3_v1 V)
theorem val4_v3 (V : Valuation τ sig (Elt Ideal)) : val4 V (Proc.devRef .tc main_v3) = dst (V (Proc.devRef .tc main_arg0)) :=
  (cNxt0_keep (val3 V) main_v3 (by decide)).trans (val3_v3 V)
theorem val4_v28 (V : Valuation τ sig (Elt Ideal)) : val4 V (Proc.devRef .tc main_v28) = nrm (V (Proc.devRef .tc main_arg0)) :=
  (cNxt0_keep (val3 V) main_v28 (by decide)).trans (val3_v28 V)
theorem val4_v76 (V : Valuation τ sig (Elt Ideal)) : val4 V (Proc.devRef .tc main_v76) = x1 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold val4
  rw [nxt0_out (val3 V) (V (Proc.devRef .tc main_arg0)) (val3_v3 V), val3_v37, val3_v71]
  rfl

/-- The contents after stage Lin1. -/
def val5 (V : Valuation τ sig (Elt Ideal)) : Valuation τ sig (Elt Ideal) := after (cLin1 (F := Ideal)) (val4 V)
theorem val5_arg0 (V : Valuation τ sig (Elt Ideal)) : val5 V (Proc.devRef .tc main_arg0) = V (Proc.devRef .tc main_arg0) :=
  (cLin1_keep (val4 V) main_arg0 (by decide)).trans (val4_arg0 V)
theorem val5_arg1 (V : Valuation τ sig (Elt Ideal)) : val5 V (Proc.devRef .tc main_arg1) = V (Proc.devRef .tc main_arg1) :=
  (cLin1_keep (val4 V) main_arg1 (by decide)).trans (val4_arg1 V)
theorem val5_arg2 (V : Valuation τ sig (Elt Ideal)) : val5 V (Proc.devRef .tc main_arg2) = V (Proc.devRef .tc main_arg2) :=
  (cLin1_keep (val4 V) main_arg2 (by decide)).trans (val4_arg2 V)
theorem val5_arg3 (V : Valuation τ sig (Elt Ideal)) : val5 V (Proc.devRef .tc main_arg3) = V (Proc.devRef .tc main_arg3) :=
  (cLin1_keep (val4 V) main_arg3 (by decide)).trans (val4_arg3 V)
theorem val5_arg4 (V : Valuation τ sig (Elt Ideal)) : val5 V (Proc.devRef .tc main_arg4) = V (Proc.devRef .tc main_arg4) :=
  (cLin1_keep (val4 V) main_arg4 (by decide)).trans (val4_arg4 V)
theorem val5_arg5 (V : Valuation τ sig (Elt Ideal)) : val5 V (Proc.devRef .tc main_arg5) = V (Proc.devRef .tc main_arg5) :=
  (cLin1_keep (val4 V) main_arg5 (by decide)).trans (val4_arg5 V)
theorem val5_v1 (V : Valuation τ sig (Elt Ideal)) : val5 V (Proc.devRef .tc main_v1) = frm (V (Proc.devRef .tc main_arg0)) :=
  (cLin1_keep (val4 V) main_v1 (by decide)).trans (val4_v1 V)
theorem val5_v3 (V : Valuation τ sig (Elt Ideal)) : val5 V (Proc.devRef .tc main_v3) = dst (V (Proc.devRef .tc main_arg0)) :=
  (cLin1_keep (val4 V) main_v3 (by decide)).trans (val4_v3 V)
theorem val5_v28 (V : Valuation τ sig (Elt Ideal)) : val5 V (Proc.devRef .tc main_v28) = nrm (V (Proc.devRef .tc main_arg0)) :=
  (cLin1_keep (val4 V) main_v28 (by decide)).trans (val4_v28 V)
theorem val5_v76 (V : Valuation τ sig (Elt Ideal)) : val5 V (Proc.devRef .tc main_v76) = x1 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (cLin1_keep (val4 V) main_v76 (by decide)).trans (val4_v76 V)
theorem val5_v85 (V : Valuation τ sig (Elt Ideal)) : val5 V (Proc.devRef .tc main_v85) = lin1_1 (x1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg2)) (V (Proc.devRef .tc main_arg3)) := by
  unfold val5
  rw [lin1_out (val4 V), val4_v76, val4_arg2, val4_arg3]

/-- The contents after stage Msg1. -/
def val6 (V : Valuation τ sig (Elt Ideal)) : Valuation τ sig (Elt Ideal) := after (cMsg1 (F := Ideal)) (val5 V)
theorem val6_arg0 (V : Valuation τ sig (Elt Ideal)) : val6 V (Proc.devRef .tc main_arg0) = V (Proc.devRef .tc main_arg0) :=
  (cMsg1_keep (val5 V) main_arg0 (by decide)).trans (val5_arg0 V)
theorem val6_arg1 (V : Valuation τ sig (Elt Ideal)) : val6 V (Proc.devRef .tc main_arg1) = V (Proc.devRef .tc main_arg1) :=
  (cMsg1_keep (val5 V) main_arg1 (by decide)).trans (val5_arg1 V)
theorem val6_arg2 (V : Valuation τ sig (Elt Ideal)) : val6 V (Proc.devRef .tc main_arg2) = V (Proc.devRef .tc main_arg2) :=
  (cMsg1_keep (val5 V) main_arg2 (by decide)).trans (val5_arg2 V)
theorem val6_arg3 (V : Valuation τ sig (Elt Ideal)) : val6 V (Proc.devRef .tc main_arg3) = V (Proc.devRef .tc main_arg3) :=
  (cMsg1_keep (val5 V) main_arg3 (by decide)).trans (val5_arg3 V)
theorem val6_arg4 (V : Valuation τ sig (Elt Ideal)) : val6 V (Proc.devRef .tc main_arg4) = V (Proc.devRef .tc main_arg4) :=
  (cMsg1_keep (val5 V) main_arg4 (by decide)).trans (val5_arg4 V)
theorem val6_arg5 (V : Valuation τ sig (Elt Ideal)) : val6 V (Proc.devRef .tc main_arg5) = V (Proc.devRef .tc main_arg5) :=
  (cMsg1_keep (val5 V) main_arg5 (by decide)).trans (val5_arg5 V)
theorem val6_v1 (V : Valuation τ sig (Elt Ideal)) : val6 V (Proc.devRef .tc main_v1) = frm (V (Proc.devRef .tc main_arg0)) :=
  (cMsg1_keep (val5 V) main_v1 (by decide)).trans (val5_v1 V)
theorem val6_v3 (V : Valuation τ sig (Elt Ideal)) : val6 V (Proc.devRef .tc main_v3) = dst (V (Proc.devRef .tc main_arg0)) :=
  (cMsg1_keep (val5 V) main_v3 (by decide)).trans (val5_v3 V)
theorem val6_v28 (V : Valuation τ sig (Elt Ideal)) : val6 V (Proc.devRef .tc main_v28) = nrm (V (Proc.devRef .tc main_arg0)) :=
  (cMsg1_keep (val5 V) main_v28 (by decide)).trans (val5_v28 V)
theorem val6_v76 (V : Valuation τ sig (Elt Ideal)) : val6 V (Proc.devRef .tc main_v76) = x1 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (cMsg1_keep (val5 V) main_v76 (by decide)).trans (val5_v76 V)
theorem val6_v85 (V : Valuation τ sig (Elt Ideal)) : val6 V (Proc.devRef .tc main_v85) = lin1_1 (x1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg2)) (V (Proc.devRef .tc main_arg3)) :=
  (cMsg1_keep (val5 V) main_v85 (by decide)).trans (val5_v85 V)
theorem val6_v119 (V : Valuation τ sig (Elt Ideal)) : val6 V (Proc.devRef .tc main_v119) = msgOf_1 (lin1_1 (x1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg2)) (V (Proc.devRef .tc main_arg3))) (x1 (V (Proc.devRef .tc main_arg0)) (V (Proc.devRef .tc main_arg1)) (V (Proc.devRef .tc main_arg2)) (V (Proc.devRef .tc main_arg3)) (V (Proc.devRef .tc main_arg4)) (V (Proc.devRef .tc main_arg5))) (nrm (V (Proc.devRef .tc main_arg0))) (V (Proc.devRef .tc main_arg0)) (V (Proc.devRef .tc main_arg4)) (V (Proc.devRef .tc main_arg5)) := by
  unfold val6
  rw [msg1_out (val5 V) (V (Proc.devRef .tc main_arg0)) (val5_v1 V) (val5_v3 V), val5_v85, val5_v76, val5_v28, val5_arg4, val5_arg5]

/-- The contents after stage Nxt1. -/
def val7 (V : Valuation τ sig (Elt Ideal)) : Valuation τ sig (Elt Ideal) := after (cNxt1 (F := Ideal)) (val6 V)
theorem val7_arg0 (V : Valuation τ sig (Elt Ideal)) : val7 V (Proc.devRef .tc main_arg0) = V (Proc.devRef .tc main_arg0) :=
  (cNxt1_keep (val6 V) main_arg0 (by decide)).trans (val6_arg0 V)
theorem val7_arg1 (V : Valuation τ sig (Elt Ideal)) : val7 V (Proc.devRef .tc main_arg1) = V (Proc.devRef .tc main_arg1) :=
  (cNxt1_keep (val6 V) main_arg1 (by decide)).trans (val6_arg1 V)
theorem val7_arg2 (V : Valuation τ sig (Elt Ideal)) : val7 V (Proc.devRef .tc main_arg2) = V (Proc.devRef .tc main_arg2) :=
  (cNxt1_keep (val6 V) main_arg2 (by decide)).trans (val6_arg2 V)
theorem val7_arg3 (V : Valuation τ sig (Elt Ideal)) : val7 V (Proc.devRef .tc main_arg3) = V (Proc.devRef .tc main_arg3) :=
  (cNxt1_keep (val6 V) main_arg3 (by decide)).trans (val6_arg3 V)
theorem val7_arg4 (V : Valuation τ sig (Elt Ideal)) : val7 V (Proc.devRef .tc main_arg4) = V (Proc.devRef .tc main_arg4) :=
  (cNxt1_keep (val6 V) main_arg4 (by decide)).trans (val6_arg4 V)
theorem val7_arg5 (V : Valuation τ sig (Elt Ideal)) : val7 V (Proc.devRef .tc main_arg5) = V (Proc.devRef .tc main_arg5) :=
  (cNxt1_keep (val6 V) main_arg5 (by decide)).trans (val6_arg5 V)
theorem val7_v1 (V : Valuation τ sig (Elt Ideal)) : val7 V (Proc.devRef .tc main_v1) = frm (V (Proc.devRef .tc main_arg0)) :=
  (cNxt1_keep (val6 V) main_v1 (by decide)).trans (val6_v1 V)
theorem val7_v3 (V : Valuation τ sig (Elt Ideal)) : val7 V (Proc.devRef .tc main_v3) = dst (V (Proc.devRef .tc main_arg0)) :=
  (cNxt1_keep (val6 V) main_v3 (by decide)).trans (val6_v3 V)
theorem val7_v28 (V : Valuation τ sig (Elt Ideal)) : val7 V (Proc.devRef .tc main_v28) = nrm (V (Proc.devRef .tc main_arg0)) :=
  (cNxt1_keep (val6 V) main_v28 (by decide)).trans (val6_v28 V)
theorem val7_v76 (V : Valuation τ sig (Elt Ideal)) : val7 V (Proc.devRef .tc main_v76) = x1 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (cNxt1_keep (val6 V) main_v76 (by decide)).trans (val6_v76 V)
theorem val7_v124 (V : Valuation τ sig (Elt Ideal)) : val7 V (Proc.devRef .tc main_v124) = x2 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold val7
  rw [nxt1_out (val6 V) (V (Proc.devRef .tc main_arg0)) (val6_v3 V), val6_v85, val6_v119]
  rfl

/-- The contents after stage Lin2. -/
def val8 (V : Valuation τ sig (Elt Ideal)) : Valuation τ sig (Elt Ideal) := after (cLin2 (F := Ideal)) (val7 V)
theorem val8_arg0 (V : Valuation τ sig (Elt Ideal)) : val8 V (Proc.devRef .tc main_arg0) = V (Proc.devRef .tc main_arg0) :=
  (cLin2_keep (val7 V) main_arg0 (by decide)).trans (val7_arg0 V)
theorem val8_arg1 (V : Valuation τ sig (Elt Ideal)) : val8 V (Proc.devRef .tc main_arg1) = V (Proc.devRef .tc main_arg1) :=
  (cLin2_keep (val7 V) main_arg1 (by decide)).trans (val7_arg1 V)
theorem val8_arg2 (V : Valuation τ sig (Elt Ideal)) : val8 V (Proc.devRef .tc main_arg2) = V (Proc.devRef .tc main_arg2) :=
  (cLin2_keep (val7 V) main_arg2 (by decide)).trans (val7_arg2 V)
theorem val8_arg3 (V : Valuation τ sig (Elt Ideal)) : val8 V (Proc.devRef .tc main_arg3) = V (Proc.devRef .tc main_arg3) :=
  (cLin2_keep (val7 V) main_arg3 (by decide)).trans (val7_arg3 V)
theorem val8_arg4 (V : Valuation τ sig (Elt Ideal)) : val8 V (Proc.devRef .tc main_arg4) = V (Proc.devRef .tc main_arg4) :=
  (cLin2_keep (val7 V) main_arg4 (by decide)).trans (val7_arg4 V)
theorem val8_arg5 (V : Valuation τ sig (Elt Ideal)) : val8 V (Proc.devRef .tc main_arg5) = V (Proc.devRef .tc main_arg5) :=
  (cLin2_keep (val7 V) main_arg5 (by decide)).trans (val7_arg5 V)
theorem val8_v1 (V : Valuation τ sig (Elt Ideal)) : val8 V (Proc.devRef .tc main_v1) = frm (V (Proc.devRef .tc main_arg0)) :=
  (cLin2_keep (val7 V) main_v1 (by decide)).trans (val7_v1 V)
theorem val8_v3 (V : Valuation τ sig (Elt Ideal)) : val8 V (Proc.devRef .tc main_v3) = dst (V (Proc.devRef .tc main_arg0)) :=
  (cLin2_keep (val7 V) main_v3 (by decide)).trans (val7_v3 V)
theorem val8_v28 (V : Valuation τ sig (Elt Ideal)) : val8 V (Proc.devRef .tc main_v28) = nrm (V (Proc.devRef .tc main_arg0)) :=
  (cLin2_keep (val7 V) main_v28 (by decide)).trans (val7_v28 V)
theorem val8_v76 (V : Valuation τ sig (Elt Ideal)) : val8 V (Proc.devRef .tc main_v76) = x1 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (cLin2_keep (val7 V) main_v76 (by decide)).trans (val7_v76 V)
theorem val8_v124 (V : Valuation τ sig (Elt Ideal)) : val8 V (Proc.devRef .tc main_v124) = x2 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (cLin2_keep (val7 V) main_v124 (by decide)).trans (val7_v124 V)
theorem val8_v133 (V : Valuation τ sig (Elt Ideal)) : val8 V (Proc.devRef .tc main_v133) = lin1_2 (x2 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg2)) (V (Proc.devRef .tc main_arg3)) := by
  unfold val8
  rw [lin2_out (val7 V), val7_v124, val7_arg2, val7_arg3]

/-- The contents after stage Msg2. -/
def val9 (V : Valuation τ sig (Elt Ideal)) : Valuation τ sig (Elt Ideal) := after (cMsg2 (F := Ideal)) (val8 V)
theorem val9_arg0 (V : Valuation τ sig (Elt Ideal)) : val9 V (Proc.devRef .tc main_arg0) = V (Proc.devRef .tc main_arg0) :=
  (cMsg2_keep (val8 V) main_arg0 (by decide)).trans (val8_arg0 V)
theorem val9_arg1 (V : Valuation τ sig (Elt Ideal)) : val9 V (Proc.devRef .tc main_arg1) = V (Proc.devRef .tc main_arg1) :=
  (cMsg2_keep (val8 V) main_arg1 (by decide)).trans (val8_arg1 V)
theorem val9_arg2 (V : Valuation τ sig (Elt Ideal)) : val9 V (Proc.devRef .tc main_arg2) = V (Proc.devRef .tc main_arg2) :=
  (cMsg2_keep (val8 V) main_arg2 (by decide)).trans (val8_arg2 V)
theorem val9_arg3 (V : Valuation τ sig (Elt Ideal)) : val9 V (Proc.devRef .tc main_arg3) = V (Proc.devRef .tc main_arg3) :=
  (cMsg2_keep (val8 V) main_arg3 (by decide)).trans (val8_arg3 V)
theorem val9_arg4 (V : Valuation τ sig (Elt Ideal)) : val9 V (Proc.devRef .tc main_arg4) = V (Proc.devRef .tc main_arg4) :=
  (cMsg2_keep (val8 V) main_arg4 (by decide)).trans (val8_arg4 V)
theorem val9_arg5 (V : Valuation τ sig (Elt Ideal)) : val9 V (Proc.devRef .tc main_arg5) = V (Proc.devRef .tc main_arg5) :=
  (cMsg2_keep (val8 V) main_arg5 (by decide)).trans (val8_arg5 V)
theorem val9_v1 (V : Valuation τ sig (Elt Ideal)) : val9 V (Proc.devRef .tc main_v1) = frm (V (Proc.devRef .tc main_arg0)) :=
  (cMsg2_keep (val8 V) main_v1 (by decide)).trans (val8_v1 V)
theorem val9_v3 (V : Valuation τ sig (Elt Ideal)) : val9 V (Proc.devRef .tc main_v3) = dst (V (Proc.devRef .tc main_arg0)) :=
  (cMsg2_keep (val8 V) main_v3 (by decide)).trans (val8_v3 V)
theorem val9_v28 (V : Valuation τ sig (Elt Ideal)) : val9 V (Proc.devRef .tc main_v28) = nrm (V (Proc.devRef .tc main_arg0)) :=
  (cMsg2_keep (val8 V) main_v28 (by decide)).trans (val8_v28 V)
theorem val9_v76 (V : Valuation τ sig (Elt Ideal)) : val9 V (Proc.devRef .tc main_v76) = x1 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (cMsg2_keep (val8 V) main_v76 (by decide)).trans (val8_v76 V)
theorem val9_v124 (V : Valuation τ sig (Elt Ideal)) : val9 V (Proc.devRef .tc main_v124) = x2 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (cMsg2_keep (val8 V) main_v124 (by decide)).trans (val8_v124 V)
theorem val9_v133 (V : Valuation τ sig (Elt Ideal)) : val9 V (Proc.devRef .tc main_v133) = lin1_2 (x2 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg2)) (V (Proc.devRef .tc main_arg3)) :=
  (cMsg2_keep (val8 V) main_v133 (by decide)).trans (val8_v133 V)
theorem val9_v167 (V : Valuation τ sig (Elt Ideal)) : val9 V (Proc.devRef .tc main_v167) = msgOf_2 (lin1_2 (x2 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg2)) (V (Proc.devRef .tc main_arg3))) (x2 (V (Proc.devRef .tc main_arg0)) (V (Proc.devRef .tc main_arg1)) (V (Proc.devRef .tc main_arg2)) (V (Proc.devRef .tc main_arg3)) (V (Proc.devRef .tc main_arg4)) (V (Proc.devRef .tc main_arg5))) (nrm (V (Proc.devRef .tc main_arg0))) (V (Proc.devRef .tc main_arg0)) (V (Proc.devRef .tc main_arg4)) (V (Proc.devRef .tc main_arg5)) := by
  unfold val9
  rw [msg2_out (val8 V) (V (Proc.devRef .tc main_arg0)) (val8_v1 V) (val8_v3 V), val8_v133, val8_v124, val8_v28, val8_arg4, val8_arg5]

/-- The contents after stage Nxt2. -/
def val10 (V : Valuation τ sig (Elt Ideal)) : Valuation τ sig (Elt Ideal) := after (cNxt2 (F := Ideal)) (val9 V)
theorem val10_arg0 (V : Valuation τ sig (Elt Ideal)) : val10 V (Proc.devRef .tc main_arg0) = V (Proc.devRef .tc main_arg0) :=
  (cNxt2_keep (val9 V) main_arg0 (by decide)).trans (val9_arg0 V)
theorem val10_arg1 (V : Valuation τ sig (Elt Ideal)) : val10 V (Proc.devRef .tc main_arg1) = V (Proc.devRef .tc main_arg1) :=
  (cNxt2_keep (val9 V) main_arg1 (by decide)).trans (val9_arg1 V)
theorem val10_arg2 (V : Valuation τ sig (Elt Ideal)) : val10 V (Proc.devRef .tc main_arg2) = V (Proc.devRef .tc main_arg2) :=
  (cNxt2_keep (val9 V) main_arg2 (by decide)).trans (val9_arg2 V)
theorem val10_arg3 (V : Valuation τ sig (Elt Ideal)) : val10 V (Proc.devRef .tc main_arg3) = V (Proc.devRef .tc main_arg3) :=
  (cNxt2_keep (val9 V) main_arg3 (by decide)).trans (val9_arg3 V)
theorem val10_arg4 (V : Valuation τ sig (Elt Ideal)) : val10 V (Proc.devRef .tc main_arg4) = V (Proc.devRef .tc main_arg4) :=
  (cNxt2_keep (val9 V) main_arg4 (by decide)).trans (val9_arg4 V)
theorem val10_arg5 (V : Valuation τ sig (Elt Ideal)) : val10 V (Proc.devRef .tc main_arg5) = V (Proc.devRef .tc main_arg5) :=
  (cNxt2_keep (val9 V) main_arg5 (by decide)).trans (val9_arg5 V)
theorem val10_v76 (V : Valuation τ sig (Elt Ideal)) : val10 V (Proc.devRef .tc main_v76) = x1 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (cNxt2_keep (val9 V) main_v76 (by decide)).trans (val9_v76 V)
theorem val10_v124 (V : Valuation τ sig (Elt Ideal)) : val10 V (Proc.devRef .tc main_v124) = x2 (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (cNxt2_keep (val9 V) main_v124 (by decide)).trans (val9_v124 V)
theorem val10_v172 (V : Valuation τ sig (Elt Ideal)) : val10 V (Proc.devRef .tc main_v172) = x3 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold val10
  rw [nxt2_out (val9 V) (V (Proc.devRef .tc main_arg0)) (val9_v3 V), val9_v133, val9_v167]
  rfl

/-- The contents after stage Fin. -/
def val11 (V : Valuation τ sig (Elt Ideal)) : Valuation τ sig (Elt Ideal) := after (cFin (F := Ideal)) (val10 V)
theorem val11_arg0 (V : Valuation τ sig (Elt Ideal)) : val11 V (Proc.devRef .tc main_arg0) = V (Proc.devRef .tc main_arg0) :=
  (cFin_keep (val10 V) main_arg0 (by decide)).trans (val10_arg0 V)
theorem val11_arg1 (V : Valuation τ sig (Elt Ideal)) : val11 V (Proc.devRef .tc main_arg1) = V (Proc.devRef .tc main_arg1) :=
  (cFin_keep (val10 V) main_arg1 (by decide)).trans (val10_arg1 V)
theorem val11_arg2 (V : Valuation τ sig (Elt Ideal)) : val11 V (Proc.devRef .tc main_arg2) = V (Proc.devRef .tc main_arg2) :=
  (cFin_keep (val10 V) main_arg2 (by decide)).trans (val10_arg2 V)
theorem val11_arg3 (V : Valuation τ sig (Elt Ideal)) : val11 V (Proc.devRef .tc main_arg3) = V (Proc.devRef .tc main_arg3) :=
  (cFin_keep (val10 V) main_arg3 (by decide)).trans (val10_arg3 V)
theorem val11_arg4 (V : Valuation τ sig (Elt Ideal)) : val11 V (Proc.devRef .tc main_arg4) = V (Proc.devRef .tc main_arg4) :=
  (cFin_keep (val10 V) main_arg4 (by decide)).trans (val10_arg4 V)
theorem val11_arg5 (V : Valuation τ sig (Elt Ideal)) : val11 V (Proc.devRef .tc main_arg5) = V (Proc.devRef .tc main_arg5) :=
  (cFin_keep (val10 V) main_arg5 (by decide)).trans (val10_arg5 V)
theorem val11_v173 (V : Valuation τ sig (Elt Ideal)) : val11 V (Proc.devRef .tc main_v173) = res (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold val11
  rw [fin_out (val10 V), val10_arg1, val10_v76, val10_v124, val10_v172]
  rfl

/-- The contents after all the operations are the contents after the last stage. -/
theorem after_ops (V : Valuation τ sig (Elt Ideal)) : after (ops (F := Ideal)) V = val11 V := by
  rw [ops_stages]
  simp only [after_app]
  rfl

/-! ## The run -/

/-- On every device, from any memory with zero counters: every weakly fair execution of @main terminates with the
    second result at `res` of the arguments' launch contents and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v173) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v173).trans (by rw [after_ops]; exact val11_v173 (launchContents m c)),
      (h c main_arg0).trans (by rw [after_ops]; exact val11_arg0 (launchContents m c)),
      (h c main_arg1).trans (by rw [after_ops]; exact val11_arg1 (launchContents m c)),
      (h c main_arg2).trans (by rw [after_ops]; exact val11_arg2 (launchContents m c)),
      (h c main_arg3).trans (by rw [after_ops]; exact val11_arg3 (launchContents m c)),
      (h c main_arg4).trans (by rw [after_ops]; exact val11_arg4 (launchContents m c)),
      (h c main_arg5).trans (by rw [after_ops]; exact val11_arg5 (launchContents m c))⟩)
    (run_seq scopedRefs_eq scopedSems_eq defs main (fun _ => ops) main_eq (fun _ => ops_sub) m ρ)

end Cert.ReferenceIdeal.RefRun

end
-- ==== Proof.lean ====
/-
  The certificate of a three-layer message-passing network (NGCF style) computed two ways.

  The kernel program runs, per layer, a pipelined dense kernel `x · W1ᵀ + b1` over blocks of 6000 nodes and a pipelined edge
  kernel `norm · ((xj · W1ᵀ + b1) + ((xj ∘ xi) · W2ᵀ + b2))` over blocks of 12000 edges, with the row gathers, the
  accumulating scatters, the leaky rectifier and the final concatenation on the host; its per-node factor is
  `rsqrt (max deg 1)` where the degree is positive. The reference computes everything on the host: `x · W1ᵀ + b1` once per
  layer, gathers its rows at the edges' sources, and takes the per-node factor as `deg ^ (-1/2)`.

  On the extended reals the two results are one function of the arguments:
    * a change of float format is the identity, and the kernel's matrix product into a zero accumulator and the host's
      contraction are the same sum;
    * reading row `from(e)` of `x · W1ᵀ + b1` is `x[from(e)] · W1ᵀ + b1`, so the edge kernel's first term is the
      reference's gathered linear map, and the three summands of a message differ only in grouping;
    * a degree is a count, so where it is positive it is at least one: the clamp does nothing there and both per-node
      factors are `(√deg)⁻¹`;
    * everything else is the same host operation applied to equal arrays.
  No step distributes a product over a sum or cancels, so finiteness of the inputs is never used.

  Frames: each kernel program's run is the conditional frame over its six region records (every region entered with its
  arrays split out of the held buffers and left with the output array at the fold of its blocks' write-backs); the
  reference's frame is its run with the result dropped. The idealization rewrote nothing, so `preserves` is trivial.
-/
import proofs.«119603_j4896262717867_2_alg».proof.Defs
import proofs.«119603_j4896262717867_2_alg».proof.Proof.Gen.Kernel
import proofs.«119603_j4896262717867_2_alg».proof.Proof.Gen.KernelIdeal
import proofs.«119603_j4896262717867_2_alg».proof.Proof.Gen.ReferenceIdeal
import proofs.«119603_j4896262717867_2_alg».proof.Proof.Gen.Pre_finite_inputs
import proofs.«119603_j4896262717867_2_alg».proof.Proof.Frames
import proofs.«119603_j4896262717867_2_alg».proof.Proof.KiValue
import proofs.«119603_j4896262717867_2_alg».proof.Proof.RefRun

noncomputable section

namespace Cert.Proof

open Idealize.ShloMosaic Idealize.ShloMosaic.TcCoe Idealize.SL.Sem

/-- The reference runs and leaves its arguments as launched: its run with the result dropped. -/
theorem frame_reference : Cert.frame_ReferenceIdeal := fun m ρ _ =>
  (θ_run (Cert.ReferenceIdeal.defs (F := Ideal)) _ _).mono (fun _ h c => (h c).2) (Cert.ReferenceIdeal.RefRun.run m ρ)

set_option backward.isDefEq.respectTransparency.types false in
/-- Both idealized programs run, from memories agreeing on the arguments, to the same two results: the embeddings
    as launched and the reference's result function of the arguments. -/
theorem algebraic : Cert.algebraic_KernelIdeal_ReferenceIdeal := by
  intro m ρ m' ρ' _ hagree
  refine ⟨fun c => (m ((c.tc : Thread Cert.KernelIdeal.nD Cert.KernelIdeal.τ).loc Cert.KernelIdeal.main_arg1)),
    fun c => Cert.ReferenceIdeal.RefRun.res (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run (Cert.KernelIdeal.defs (F := Ideal)) _ _).mono (fun r h c =>
      ⟨(h c _ (Parts.named Cert.KernelIdeal.main_arg1 (by decide))).trans (Cert.KernelIdeal.Gen.V21_main_arg1 m (Cert.KernelIdeal.Hand.o6 m) c),
       (h c _ (Parts.named Cert.KernelIdeal.main_v129 (by decide))).trans (Cert.KernelIdeal.Hand.result_eq m c),
       (h c _ (Parts.named Cert.KernelIdeal.main_arg0 (by decide))).trans (Cert.KernelIdeal.Gen.V21_main_arg0 m (Cert.KernelIdeal.Hand.o6 m) c),
       (h c _ (Parts.named Cert.KernelIdeal.main_arg1 (by decide))).trans (Cert.KernelIdeal.Gen.V21_main_arg1 m (Cert.KernelIdeal.Hand.o6 m) c),
       (h c _ (Parts.named Cert.KernelIdeal.main_arg2 (by decide))).trans (Cert.KernelIdeal.Gen.V21_main_arg2 m (Cert.KernelIdeal.Hand.o6 m) c),
       (h c _ (Parts.named Cert.KernelIdeal.main_arg3 (by decide))).trans (Cert.KernelIdeal.Gen.V21_main_arg3 m (Cert.KernelIdeal.Hand.o6 m) c),
       (h c _ (Parts.named Cert.KernelIdeal.main_arg4 (by decide))).trans (Cert.KernelIdeal.Gen.V21_main_arg4 m (Cert.KernelIdeal.Hand.o6 m) c),
       (h c _ (Parts.named Cert.KernelIdeal.main_arg5 (by decide))).trans (Cert.KernelIdeal.Gen.V21_main_arg5 m (Cert.KernelIdeal.Hand.o6 m) c)⟩)
      (Parts.ideal_run m ρ)
  · refine (θ_run (Cert.ReferenceIdeal.defs (F := Ideal)) _ _).mono (fun r h c => ?_) (Cert.ReferenceIdeal.RefRun.run m' ρ')
    obtain ⟨h0, h1, h2, h3, h4, h5⟩ := hagree c
    obtain ⟨hres, k0, k1, k2, k3, k4, k5⟩ := h c
    refine ⟨k1.trans h1, hres.trans ?_, k0, k1, k2, k3, k4, k5⟩
    rw [h0, h1, h2, h3, h4, h5]

theorem claim : Cert.Claim := ⟨Cert.Kernel.Gen.facts, Cert.KernelIdeal.Gen.facts, Cert.ReferenceIdeal.Gen.facts, Cert.Pre_finite_inputs.Gen.facts,
  Parts.frame_kernel, Parts.frame_ideal, frame_reference, trivial, algebraic⟩

end Cert.Proof

end
